-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4x3 : Shape := ⟨3, ![200000, 4, 3]⟩
abbrev S3 : Shape := ⟨1, ![3]⟩
abbrev S3x32x512x512 : Shape := ⟨4, ![3, 32, 512, 512]⟩
abbrev S_ : Shape := ⟨0, ![]⟩

class Facts : Prop where
  bcast_S_S200000x4x3 : S_.BroadcastsInDim S200000x4x3 (![] : Fin 0 → Fin S200000x4x3.rank)
  reducesTo_S200000x4x3_S_d0_1_2 : S200000x4x3.ReducesTo [0, 1, 2] S_
  h_S_ : 0 < S_.numel
  bcast_S_S3 : S_.BroadcastsInDim S3 (![] : Fin 0 → Fin S3.rank)
  reducesTo_S3_S_d0 : S3.ReducesTo [0] S_
  bcast_S_S3x32x512x512 : S_.BroadcastsInDim S3x32x512x512 (![] : Fin 0 → Fin S3x32x512x512.rank)
  reducesTo_S3x32x512x512_S_d0_1_2_3 : S3x32x512x512.ReducesTo [0, 1, 2, 3] S_

variable [Facts]

def fn_part1 {F : FTy → Type} [FloatOps F] (main_v13 : IVec S_ 1) (main_v16 : IVec S3x32x512x512 1) : IVec S_ 1 :=
  let main_c_5 : IVec S_ 1 := constantI S_ 1 1#1
  let main_v17 : IVec S_ 1 := (fun x v => Host.reduce IntOp.andi x v reducesTo_S3x32x512x512_S_d0_1_2_3 h_S_) main_v16 main_c_5
  let main_v18 : IVec S_ 1 := andi main_v13 main_v17
  main_v18

def fn {F : FTy → Type} [FloatOps F] (main_arg0 : FVec F S200000x4x3 .f32) (main_arg1 : FVec F S3 .f32) (main_arg2 : FVec F S3 .f32) (main_arg3 : FVec F S3x32x512x512 .f32) : IVec S_ 1 :=
  let main_v0 : FVec F S200000x4x3 .f32 := Host.absf main_arg0
  let main_cst : FVec F S_ .f32 := constant S_ .f32 0x7F800000#32
  let main_v1 : FVec F S200000x4x3 .f32 := broadcastInDim S200000x4x3 ![] bcast_S_S200000x4x3 main_cst
  let main_v2 : IVec S200000x4x3 1 := cmpf .olt main_v0 main_v1
  let main_c : IVec S_ 1 := constantI S_ 1 1#1
  let main_v3 : IVec S_ 1 := (fun x v => Host.reduce IntOp.andi x v reducesTo_S200000x4x3_S_d0_1_2 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x32x512x512 .f32 := Host.absf main_arg3
  let main_cst_4 : FVec F S_ .f32 := constant S_ .f32 0x7F800000#32
  let main_v15 : FVec F S3x32x512x512 .f32 := broadcastInDim S3x32x512x512 ![] bcast_S_S3x32x512x512 main_cst_4
  let main_v16 : IVec S3x32x512x512 1 := cmpf .olt main_v14 main_v15
  fn_part1 (F := F) main_v13 main_v16
-- ==== Kernel.lean ====
abbrev S200000x4x3 : Shape := ⟨3, ![200000, 4, 3]⟩
abbrev S3 : Shape := ⟨1, ![3]⟩
abbrev S3x32x512x512 : Shape := ⟨4, ![3, 32, 512, 512]⟩
abbrev S2 : Shape := ⟨1, ![2]⟩
abbrev S_ : Shape := ⟨0, ![]⟩
abbrev S2x1 : Shape := ⟨2, ![2, 1]⟩
abbrev S1x2 : Shape := ⟨2, ![1, 2]⟩
abbrev S3x2 : Shape := ⟨2, ![3, 2]⟩
abbrev S200000x4x2 : Shape := ⟨3, ![200000, 4, 2]⟩
abbrev S1x200000x4x2 : Shape := ⟨4, ![1, 200000, 4, 2]⟩
abbrev S3x200000x4x2 : Shape := ⟨4, ![3, 200000, 4, 2]⟩
abbrev S3x1x1x1 : Shape := ⟨4, ![3, 1, 1, 1]⟩
abbrev S3x200000x4 : Shape := ⟨3, ![3, 200000, 4]⟩
abbrev S3x200000x4x1 : Shape := ⟨4, ![3, 200000, 4, 1]⟩
abbrev S3x800000x2 : Shape := ⟨3, ![3, 800000, 2]⟩
abbrev S1x800000x2 : Shape := ⟨3, ![1, 800000, 2]⟩
abbrev S800000x2 : Shape := ⟨2, ![800000, 2]⟩
abbrev S1x32x512x512 : Shape := ⟨4, ![1, 32, 512, 512]⟩
abbrev S32x512x512 : Shape := ⟨3, ![32, 512, 512]⟩
abbrev S32x800000 : Shape := ⟨2, ![32, 800000]⟩
abbrev S1280x2 : Shape := ⟨2, ![1280, 2]⟩
abbrev S32x1280 : Shape := ⟨2, ![32, 1280]⟩
abbrev S1280x1 : Shape := ⟨2, ![1280, 1]⟩
abbrev S1x512 : Shape := ⟨2, ![1, 512]⟩
abbrev S1280x512 : Shape := ⟨2, ![1280, 512]⟩
abbrev S1x512x512 : Shape := ⟨3, ![1, 512, 512]⟩
abbrev S512x512 : Shape := ⟨2, ![512, 512]⟩
abbrev S1280 : Shape := ⟨1, ![1280]⟩
abbrev S1x1280 : Shape := ⟨2, ![1, 1280]⟩
abbrev S32x200000x4 : Shape := ⟨3, ![32, 200000, 4]⟩
abbrev S1x32x200000x4 : Shape := ⟨4, ![1, 32, 200000, 4]⟩
abbrev S3x32x200000x4 : Shape := ⟨4, ![3, 32, 200000, 4]⟩
abbrev S200000x4x3x32 : Shape := ⟨4, ![200000, 4, 3, 32]⟩
abbrev S200000x384 : Shape := ⟨2, ![200000, 384]⟩

abbrev nBuf : Space → Nat
  | .hbm => 183
  | .vmem => 15
  | .smem => 0
  | _ => 0

abbrev hbmTy0_0 (i : Nat) : BufTy := match i % 128 with
  | 0 => ⟨S200000x4x3, .f32⟩
  | 1 => ⟨S3, .f32⟩
  | 2 => ⟨S3, .f32⟩
  | 3 => ⟨S3x32x512x512, .f32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i1⟩
  | 16 => ⟨S_, .i32⟩
  | 17 => ⟨S2, .i32⟩
  | 18 => ⟨S2, .i32⟩
  | 19 => ⟨S2, .i32⟩
  | 20 => ⟨S2x1, .i32⟩
  | 21 => ⟨S2, .f32⟩
  | 22 => ⟨S_, .i32⟩
  | 23 => ⟨S2, .i32⟩
  | 24 => ⟨S2, .i1⟩
  | 25 => ⟨S_, .i32⟩
  | 26 => ⟨S2, .i32⟩
  | 27 => ⟨S2, .i32⟩
  | 28 => ⟨S2, .i32⟩
  | 29 => ⟨S2x1, .i32⟩
  | 30 => ⟨S2, .f32⟩
  | 31 => ⟨S_, .i32⟩
  | 32 => ⟨S2, .i32⟩
  | 33 => ⟨S2, .i1⟩
  | 34 => ⟨S_, .i32⟩
  | 35 => ⟨S2, .i32⟩
  | 36 => ⟨S2, .i32⟩
  | 37 => ⟨S2, .i32⟩
  | 38 => ⟨S2x1, .i32⟩
  | 39 => ⟨S2, .f32⟩
  | 40 => ⟨S1x2, .f32⟩
  | 41 => ⟨S1x2, .f32⟩
  | 42 => ⟨S1x2, .f32⟩
  | 43 => ⟨S3x2, .f32⟩
  | 44 => ⟨S_, .i32⟩
  | 45 => ⟨S2, .i32⟩
  | 46 => ⟨S2, .i1⟩
  | 47 => ⟨S_, .i32⟩
  | 48 => ⟨S2, .i32⟩
  | 49 => ⟨S2, .i32⟩
  | 50 => ⟨S2, .i32⟩
  | 51 => ⟨S2x1, .i32⟩
  | 52 => ⟨S2, .f32⟩
  | 53 => ⟨S_, .i32⟩
  | 54 => ⟨S2, .i32⟩
  | 55 => ⟨S2, .i1⟩
  | 56 => ⟨S_, .i32⟩
  | 57 => ⟨S2, .i32⟩
  | 58 => ⟨S2, .i32⟩
  | 59 => ⟨S2, .i32⟩
  | 60 => ⟨S2x1, .i32⟩
  | 61 => ⟨S2, .f32⟩
  | 62 => ⟨S_, .i32⟩
  | 63 => ⟨S2, .i32⟩
  | 64 => ⟨S2, .i1⟩
  | 65 => ⟨S_, .i32⟩
  | 66 => ⟨S2, .i32⟩
  | 67 => ⟨S2, .i32⟩
  | 68 => ⟨S2, .i32⟩
  | 69 => ⟨S2x1, .i32⟩
  | 70 => ⟨S2, .f32⟩
  | 71 => ⟨S1x2, .f32⟩
  | 72 => ⟨S1x2, .f32⟩
  | 73 => ⟨S1x2, .f32⟩
  | 74 => ⟨S3x2, .f32⟩
  | 75 => ⟨S3x2, .f32⟩
  | 76 => ⟨S_, .f32⟩
  | 77 => ⟨S3, .f32⟩
  | 78 => ⟨S3x2, .f32⟩
  | 79 => ⟨S_, .f32⟩
  | 80 => ⟨S3, .f32⟩
  | 81 => ⟨S3, .f32⟩
  | 82 => ⟨S_, .f32⟩
  | 83 => ⟨S3, .f32⟩
  | 84 => ⟨S3, .f32⟩
  | 85 => ⟨S_, .f32⟩
  | 86 => ⟨S200000x4x3, .f32⟩
  | 87 => ⟨S200000x4x3, .f32⟩
  | 88 => ⟨S_, .i32⟩
  | 89 => ⟨S2, .i32⟩
  | 90 => ⟨S2, .i1⟩
  | 91 => ⟨S_, .i32⟩
  | 92 => ⟨S2, .i32⟩
  | 93 => ⟨S2, .i32⟩
  | 94 => ⟨S2, .i32⟩
  | 95 => ⟨S2x1, .i32⟩
  | 96 => ⟨S200000x4x2, .f32⟩
  | 97 => ⟨S_, .i32⟩
  | 98 => ⟨S2, .i32⟩
  | 99 => ⟨S2, .i1⟩
  | 100 => ⟨S_, .i32⟩
  | 101 => ⟨S2, .i32⟩
  | 102 => ⟨S2, .i32⟩
  | 103 => ⟨S2, .i32⟩
  | 104 => ⟨S2x1, .i32⟩
  | 105 => ⟨S200000x4x2, .f32⟩
  | 106 => ⟨S_, .i32⟩
  | 107 => ⟨S2, .i32⟩
  | 108 => ⟨S2, .i1⟩
  | 109 => ⟨S_, .i32⟩
  | 110 => ⟨S2, .i32⟩
  | 111 => ⟨S2, .i32⟩
  | 112 => ⟨S2, .i32⟩
  | 113 => ⟨S2x1, .i32⟩
  | 114 => ⟨S200000x4x2, .f32⟩
  | 115 => ⟨S1x200000x4x2, .f32⟩
  | 116 => ⟨S1x200000x4x2, .f32⟩
  | 117 => ⟨S1x200000x4x2, .f32⟩
  | 118 => ⟨S3x200000x4x2, .f32⟩
  | 119 => ⟨S3, .f32⟩
  | 120 => ⟨S3x1x1x1, .f32⟩
  | 121 => ⟨S3x200000x4x2, .f32⟩
  | 122 => ⟨S3x200000x4x2, .f32⟩
  | 123 => ⟨S_, .f32⟩
  | 124 => ⟨S3x200000x4x2, .f32⟩
  | 125 => ⟨S3x200000x4x2, .f32⟩
  | 126 => ⟨S_, .f32⟩
  | 127 => ⟨S3x200000x4x2, .f32⟩
  | _ => ⟨S200000x4x3, .f32⟩

abbrev hbmTy0_1 (i : Nat) : BufTy := match i % 128 with
  | 0 => ⟨S3x200000x4x2, .f32⟩
  | 1 => ⟨S_, .f32⟩
  | 2 => ⟨S3x200000x4x2, .f32⟩
  | 3 => ⟨S3x200000x4x2, .f32⟩
  | 4 => ⟨S3x200000x4x2, .f32⟩
  | 5 => ⟨S_, .f32⟩
  | 6 => ⟨S3x200000x4, .f32⟩
  | 7 => ⟨S3x200000x4x1, .f32⟩
  | 8 => ⟨S_, .f32⟩
  | 9 => ⟨S3x200000x4x1, .f32⟩
  | 10 => ⟨S3x200000x4x1, .f32⟩
  | 11 => ⟨S_, .f32⟩
  | 12 => ⟨S3x200000x4x1, .f32⟩
  | 13 => ⟨S3x200000x4x1, .i1⟩
  | 14 => ⟨S3x200000x4x1, .f32⟩
  | 15 => ⟨S_, .f32⟩
  | 16 => ⟨S3x200000x4x1, .f32⟩
  | 17 => ⟨S3x200000x4x1, .f32⟩
  | 18 => ⟨S_, .f32⟩
  | 19 => ⟨S3x200000x4x1, .f32⟩
  | 20 => ⟨S3x200000x4x1, .f32⟩
  | 21 => ⟨S3x200000x4x1, .f32⟩
  | 22 => ⟨S3x200000x4x2, .f32⟩
  | 23 => ⟨S3x200000x4x2, .f32⟩
  | 24 => ⟨S3x200000x4x2, .i1⟩
  | 25 => ⟨S3x200000x4x2, .f32⟩
  | 26 => ⟨S_, .f32⟩
  | 27 => ⟨S3x200000x4x2, .f32⟩
  | 28 => ⟨S3x200000x4x2, .f32⟩
  | 29 => ⟨S3x800000x2, .f32⟩
  | 30 => ⟨S3x32x512x512, .bf16⟩
  | 31 => ⟨S1x800000x2, .f32⟩
  | 32 => ⟨S800000x2, .f32⟩
  | 33 => ⟨S1x32x512x512, .bf16⟩
  | 34 => ⟨S32x512x512, .bf16⟩
  | 35 => ⟨S32x800000, .f32⟩
  | 36 => ⟨S32x200000x4, .f32⟩
  | 37 => ⟨S1x800000x2, .f32⟩
  | 38 => ⟨S800000x2, .f32⟩
  | 39 => ⟨S1x32x512x512, .bf16⟩
  | 40 => ⟨S32x512x512, .bf16⟩
  | 41 => ⟨S32x800000, .f32⟩
  | 42 => ⟨S32x200000x4, .f32⟩
  | 43 => ⟨S1x800000x2, .f32⟩
  | 44 => ⟨S800000x2, .f32⟩
  | 45 => ⟨S1x32x512x512, .bf16⟩
  | 46 => ⟨S32x512x512, .bf16⟩
  | 47 => ⟨S32x800000, .f32⟩
  | 48 => ⟨S32x200000x4, .f32⟩
  | 49 => ⟨S1x32x200000x4, .f32⟩
  | 50 => ⟨S1x32x200000x4, .f32⟩
  | 51 => ⟨S1x32x200000x4, .f32⟩
  | 52 => ⟨S3x32x200000x4, .f32⟩
  | 53 => ⟨S200000x4x3x32, .f32⟩
  | 54 => ⟨S200000x384, .f32⟩
  | _ => ⟨S200000x4x3, .f32⟩

abbrev hbmTy (i : Nat) : BufTy := match i / 128 with
  | 0 => hbmTy0_0 i
  | 1 => hbmTy0_1 i
  | _ => ⟨S200000x4x3, .f32⟩

abbrev bufTy : (tb : Table) → Fin (tcTables nBuf tb) → BufTy
  | .hbm, ⟨i, _⟩ => hbmTy i
  | .local _ .vmem, ⟨0, _⟩ => ⟨S1280x2, .f32⟩
  | .local _ .vmem, ⟨1, _⟩ => ⟨S1280x2, .f32⟩
  | .local _ .vmem, ⟨2, _⟩ => ⟨S32x512x512, .bf16⟩
  | .local _ .vmem, ⟨3, _⟩ => ⟨S32x1280, .f32⟩
  | .local _ .vmem, ⟨4, _⟩ => ⟨S32x1280, .f32⟩
  | .local _ .vmem, ⟨5, _⟩ => ⟨S1280x2, .f32⟩
  | .local _ .vmem, ⟨6, _⟩ => ⟨S1280x2, .f32⟩
  | .local _ .vmem, ⟨7, _⟩ => ⟨S32x512x512, .bf16⟩
  | .local _ .vmem, ⟨8, _⟩ => ⟨S32x1280, .f32⟩
  | .local _ .vmem, ⟨9, _⟩ => ⟨S32x1280, .f32⟩
  | .local _ .vmem, ⟨10, _⟩ => ⟨S1280x2, .f32⟩
  | .local _ .vmem, ⟨11, _⟩ => ⟨S1280x2, .f32⟩
  | .local _ .vmem, ⟨12, _⟩ => ⟨S32x512x512, .bf16⟩
  | .local _ .vmem, ⟨13, _⟩ => ⟨S32x1280, .f32⟩
  | .local _ .vmem, ⟨14, _⟩ => ⟨S32x1280, .f32⟩
  | _, _ => ⟨S200000x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_v0 : Ref sig .tc := ⟨.hbm, 14, rfl⟩
abbrev main_v1 : Ref sig .tc := ⟨.hbm, 15, rfl⟩
abbrev main_c_9 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_10 : Ref sig .tc := ⟨.hbm, 22, rfl⟩
abbrev main_v7 : Ref sig .tc := ⟨.hbm, 23, rfl⟩
abbrev main_v8 : Ref sig .tc := ⟨.hbm, 24, rfl⟩
abbrev main_c_11 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_c_13 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_14 : Ref sig .tc := ⟨.hbm, 44, rfl⟩
abbrev main_v25 : Ref sig .tc := ⟨.hbm, 45, rfl⟩
abbrev main_v26 : Ref sig .tc := ⟨.hbm, 46, rfl⟩
abbrev main_c_15 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_16 : Ref sig .tc := ⟨.hbm, 53, rfl⟩
abbrev main_v32 : Ref sig .tc := ⟨.hbm, 54, rfl⟩
abbrev main_v33 : Ref sig .tc := ⟨.hbm, 55, rfl⟩
abbrev main_c_17 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_18 : Ref sig .tc := ⟨.hbm, 62, rfl⟩
abbrev main_v39 : Ref sig .tc := ⟨.hbm, 63, rfl⟩
abbrev main_v40 : Ref sig .tc := ⟨.hbm, 64, rfl⟩
abbrev main_c_19 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_cst_20 : Ref sig .tc := ⟨.hbm, 79, rfl⟩
abbrev main_v53 : Ref sig .tc := ⟨.hbm, 80, rfl⟩
abbrev main_v54 : Ref sig .tc := ⟨.hbm, 81, rfl⟩
abbrev main_cst_21 : Ref sig .tc := ⟨.hbm, 82, rfl⟩
abbrev main_v55 : Ref sig .tc := ⟨.hbm, 83, rfl⟩
abbrev main_v56 : Ref sig .tc := ⟨.hbm, 84, rfl⟩
abbrev main_cst_22 : Ref sig .tc := ⟨.hbm, 85, rfl⟩
abbrev main_v57 : Ref sig .tc := ⟨.hbm, 86, rfl⟩
abbrev main_v58 : Ref sig .tc := ⟨.hbm, 87, rfl⟩
abbrev main_c_23 : Ref sig .tc := ⟨.hbm, 88, rfl⟩
abbrev main_v59 : Ref sig .tc := ⟨.hbm, 89, rfl⟩
abbrev main_v60 : Ref sig .tc := ⟨.hbm, 90, rfl⟩
abbrev main_c_24 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_25 : Ref sig .tc := ⟨.hbm, 97, rfl⟩
abbrev main_v66 : Ref sig .tc := ⟨.hbm, 98, rfl⟩
abbrev main_v67 : Ref sig .tc := ⟨.hbm, 99, rfl⟩
abbrev main_c_26 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_27 : Ref sig .tc := ⟨.hbm, 106, rfl⟩
abbrev main_v73 : Ref sig .tc := ⟨.hbm, 107, rfl⟩
abbrev main_v74 : Ref sig .tc := ⟨.hbm, 108, rfl⟩
abbrev main_c_28 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_29 : Ref sig .tc := ⟨.hbm, 123, rfl⟩
abbrev main_v88 : Ref sig .tc := ⟨.hbm, 124, rfl⟩
abbrev main_v89 : Ref sig .tc := ⟨.hbm, 125, rfl⟩
abbrev main_cst_30 : Ref sig .tc := ⟨.hbm, 126, rfl⟩
abbrev main_v90 : Ref sig .tc := ⟨.hbm, 127, rfl⟩
abbrev main_v91 : Ref sig .tc := ⟨.hbm, 128, rfl⟩
abbrev main_cst_31 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_32 : Ref sig .tc := ⟨.hbm, 133, rfl⟩
abbrev main_v95 : Ref sig .tc := ⟨.hbm, 134, rfl⟩
abbrev main_v96 : Ref sig .tc := ⟨.hbm, 135, rfl⟩
abbrev main_cst_33 : Ref sig .tc := ⟨.hbm, 136, rfl⟩
abbrev main_call0_v0 : Ref sig .tc := ⟨.hbm, 137, rfl⟩
abbrev main_v97 : Ref sig .tc := ⟨.hbm, 138, rfl⟩
abbrev main_cst_34 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_35 : Ref sig .tc := ⟨.hbm, 143, rfl⟩
abbrev main_v101 : Ref sig .tc := ⟨.hbm, 144, rfl⟩
abbrev main_v102 : Ref sig .tc := ⟨.hbm, 145, rfl⟩
abbrev main_cst_36 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call1_v0 : Ref sig .tc := ⟨.hbm, 152, rfl⟩
abbrev main_v108 : Ref sig .tc := ⟨.hbm, 153, rfl⟩
abbrev main_cst_37 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1280x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![625], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1280x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S2_S1x2_1 : S2.BroadcastsInDim S1x2 (![1] : Fin 1 → Fin S1x2.rank)
  concatenates_S1x2_S1x2_S1x2_S3x2_d0 : Shape.Concatenates [S1x2, S1x2, S1x2] S3x2 0
  reducesTo_S3x2_S3_d1 : S3x2.ReducesTo [1] S3
  h_S_ : 0 < S_.numel
  bcast_S_S3 : S_.BroadcastsInDim S3 (![] : Fin 0 → Fin S3.rank)
  bcast_S_S200000x4x3 : S_.BroadcastsInDim S200000x4x3 (![] : Fin 0 → Fin S200000x4x3.rank)
  bcast_S200000x4x2_S1x200000x4x2_1_2_3 : S200000x4x2.BroadcastsInDim S1x200000x4x2 (![1, 2, 3] : Fin 3 → Fin S1x200000x4x2.rank)
  concatenates_S1x200000x4x2_S1x200000x4x2_S1x200000x4x2_S3x200000x4x2_d0 : Shape.Concatenates [S1x200000x4x2, S1x200000x4x2, S1x200000x4x2] S3x200000x4x2 0
  bcast_S3_S3x1x1x1_0 : S3.BroadcastsInDim S3x1x1x1 (![0] : Fin 1 → Fin S3x1x1x1.rank)
  bcast_S3x1x1x1_S3x200000x4x2_0_1_2_3 : S3x1x1x1.BroadcastsInDim S3x200000x4x2 (![0, 1, 2, 3] : Fin 4 → Fin S3x200000x4x2.rank)
  bcast_S_S3x200000x4x2 : S_.BroadcastsInDim S3x200000x4x2 (![] : Fin 0 → Fin S3x200000x4x2.rank)
  reducesTo_S3x200000x4x2_S3x200000x4_d3 : S3x200000x4x2.ReducesTo [3] S3x200000x4
  bcast_S3x200000x4_S3x200000x4x1_0_1_2 : S3x200000x4.BroadcastsInDim S3x200000x4x1 (![0, 1, 2] : Fin 3 → Fin S3x200000x4x1.rank)
  bcast_S_S3x200000x4x1 : S_.BroadcastsInDim S3x200000x4x1 (![] : Fin 0 → Fin S3x200000x4x1.rank)
  bcast_S3x200000x4x1_S3x200000x4x2_0_1_2_3 : S3x200000x4x1.BroadcastsInDim S3x200000x4x2 (![0, 1, 2, 3] : Fin 4 → Fin S3x200000x4x2.rank)
  shapeCasts_S3x200000x4x2_S3x800000x2 : S3x200000x4x2.ShapeCasts S3x800000x2
  bitsLt_bf16_f32 : FTy.bits .bf16 < FTy.bits .f32
  slices_S3x800000x2_S1x800000x2_0_0_0 : S3x800000x2.Slices ![0, 0, 0] S1x800000x2
  shapeCasts_S1x800000x2_S800000x2 : S1x800000x2.ShapeCasts S800000x2
  slices_S3x32x512x512_S1x32x512x512_0_0_0_0 : S3x32x512x512.Slices ![0, 0, 0, 0] S1x32x512x512
  shapeCasts_S1x32x512x512_S32x512x512 : S1x32x512x512.ShapeCasts S32x512x512
  inb_S1280x2_S1280x2_0_0 : ∀ a, (![0, 0] : Fin 2 → Nat) a + S1280x2.size a ≤ S1280x2.size a
  h_S1280x2 : 0 < S1280x2.numel
  shapeCasts_S1280x2_S1280x2 : S1280x2.ShapeCasts S1280x2
  slices_S1280x2_o0_0_S1280x1 : S1280x2.Slices ![0, 0] S1280x1
  slices_S1280x2_o0_1_S1280x1 : S1280x2.Slices ![0, 1] S1280x1
  iota_S1x512_d1_w32 : S1x512.Iotas .tc 32 [1]
  broadcasts_S1x512_S1280x512 : S1x512.Broadcasts S1280x512
  broadcasts_S1280x1_S1280x512 : S1280x1.Broadcasts S1280x512
  natLt_1_32 : 1 < 32
  inb_S32x512x512_S1x512x512_0_0_0 : ∀ a, (![0, 0, 0] : Fin 3 → Nat) a + S1x512x512.size a ≤ S32x512x512.size a
  h_S1x512x512 : 0 < S1x512x512.numel
  shapeCasts_S1x512x512_S512x512 : S1x512x512.ShapeCasts S512x512
  reduces_S1280x512_S1280 : S1280x512.Reduces [1] S1280
  inb_S32x1280_S1x1280_0_0 : ∀ a, (![0, 0] : Fin 2 → Nat) a + S1x1280.size a ≤ S32x1280.size a
  h_S1x1280 : 0 < S1x1280.numel
  shapeCasts_S1x1280_S1280 : S1x1280.ShapeCasts S1280
  shapeCasts_S1280_S1x1280 : S1280.ShapeCasts S1x1280
  inb_S32x512x512_S1x512x512_1_0_0 : ∀ a, (![1, 0, 0] : Fin 3 → Nat) a + S1x512x512.size a ≤ S32x512x512.size a
  inb_S32x1280_S1x1280_1_0 : ∀ a, (![1, 0] : Fin 2 → Nat) a + S1x1280.size a ≤ S32x1280.size a
  inb_S32x512x512_S1x512x512_2_0_0 : ∀ a, (![2, 0, 0] : Fin 3 → Nat) a + S1x512x512.size a ≤ S32x512x512.size a
  inb_S32x1280_S1x1280_2_0 : ∀ a, (![2, 0] : Fin 2 → Nat) a + S1x1280.size a ≤ S32x1280.size a
  inb_S32x512x512_S1x512x512_3_0_0 : ∀ a, (![3, 0, 0] : Fin 3 → Nat) a + S1x512x512.size a ≤ S32x512x512.size a
  inb_S32x1280_S1x1280_3_0 : ∀ a, (![3, 0] : Fin 2 → Nat) a + S1x1280.size a ≤ S32x1280.size a
  inb_S32x512x512_S1x512x512_4_0_0 : ∀ a, (![4, 0, 0] : Fin 3 → Nat) a + S1x512x512.size a ≤ S32x512x512.size a
  inb_S32x1280_S1x1280_4_0 : ∀ a, (![4, 0] : Fin 2 → Nat) a + S1x1280.size a ≤ S32x1280.size a
  inb_S32x512x512_S1x512x512_5_0_0 : ∀ a, (![5, 0, 0] : Fin 3 → Nat) a + S1x512x512.size a ≤ S32x512x512.size a
  inb_S32x1280_S1x1280_5_0 : ∀ a, (![5, 0] : Fin 2 → Nat) a + S1x1280.size a ≤ S32x1280.size a
  inb_S32x512x512_S1x512x512_6_0_0 : ∀ a, (![6, 0, 0] : Fin 3 → Nat) a + S1x512x512.size a ≤ S32x512x512.size a
  inb_S32x1280_S1x1280_6_0 : ∀ a, (![6, 0] : Fin 2 → Nat) a + S1x1280.size a ≤ S32x1280.size a
  inb_S32x512x512_S1x512x512_7_0_0 : ∀ a, (![7, 0, 0] : Fin 3 → Nat) a + S1x512x512.size a ≤ S32x512x512.size a
  inb_S32x1280_S1x1280_7_0 : ∀ a, (![7, 0] : Fin 2 → Nat) a + S1x1280.size a ≤ S32x1280.size a
  inb_S32x512x512_S1x512x512_8_0_0 : ∀ a, (![8, 0, 0] : Fin 3 → Nat) a + S1x512x512.size a ≤ S32x512x512.size a
  inb_S32x1280_S1x1280_8_0 : ∀ a, (![8, 0] : Fin 2 → Nat) a + S1x1280.size a ≤ S32x1280.size a
  inb_S32x512x512_S1x512x512_9_0_0 : ∀ a, (![9, 0, 0] : Fin 3 → Nat) a + S1x512x512.size a ≤ S32x512x512.size a
  inb_S32x1280_S1x1280_9_0 : ∀ a, (![9, 0] : Fin 2 → Nat) a + S1x1280.size a ≤ S32x1280.size a
  inb_S32x512x512_S1x512x512_10_0_0 : ∀ a, (![10, 0, 0] : Fin 3 → Nat) a + S1x512x512.size a ≤ S32x512x512.size a
  inb_S32x1280_S1x1280_10_0 : ∀ a, (![10, 0] : Fin 2 → Nat) a + S1x1280.size a ≤ S32x1280.size a
  inb_S32x512x512_S1x512x512_11_0_0 : ∀ a, (![11, 0, 0] : Fin 3 → Nat) a + S1x512x512.size a ≤ S32x512x512.size a
  inb_S32x1280_S1x1280_11_0 : ∀ a, (![11, 0] : Fin 2 → Nat) a + S1x1280.size a ≤ S32x1280.size a
  inb_S32x512x512_S1x512x512_12_0_0 : ∀ a, (![12, 0, 0] : Fin 3 → Nat) a + S1x512x512.size a ≤ S32x512x512.size a
  inb_S32x1280_S1x1280_12_0 : ∀ a, (![12, 0] : Fin 2 → Nat) a + S1x1280.size a ≤ S32x1280.size a
  inb_S32x512x512_S1x512x512_13_0_0 : ∀ a, (![13, 0, 0] : Fin 3 → Nat) a + S1x512x512.size a ≤ S32x512x512.size a
  inb_S32x1280_S1x1280_13_0 : ∀ a, (![13, 0] : Fin 2 → Nat) a + S1x1280.size a ≤ S32x1280.size a
  inb_S32x512x512_S1x512x512_14_0_0 : ∀ a, (![14, 0, 0] : Fin 3 → Nat) a + S1x512x512.size a ≤ S32x512x512.size a
  inb_S32x1280_S1x1280_14_0 : ∀ a, (![14, 0] : Fin 2 → Nat) a + S1x1280.size a ≤ S32x1280.size a
  inb_S32x512x512_S1x512x512_15_0_0 : ∀ a, (![15, 0, 0] : Fin 3 → Nat) a + S1x512x512.size a ≤ S32x512x512.size a
  inb_S32x1280_S1x1280_15_0 : ∀ a, (![15, 0] : Fin 2 → Nat) a + S1x1280.size a ≤ S32x1280.size a
  inb_S32x512x512_S1x512x512_16_0_0 : ∀ a, (![16, 0, 0] : Fin 3 → Nat) a + S1x512x512.size a ≤ S32x512x512.size a
  inb_S32x1280_S1x1280_16_0 : ∀ a, (![16, 0] : Fin 2 → Nat) a + S1x1280.size a ≤ S32x1280.size a
  inb_S32x512x512_S1x512x512_17_0_0 : ∀ a, (![17, 0, 0] : Fin 3 → Nat) a + S1x512x512.size a ≤ S32x512x512.size a
  inb_S32x1280_S1x1280_17_0 : ∀ a, (![17, 0] : Fin 2 → Nat) a + S1x1280.size a ≤ S32x1280.size a
  inb_S32x512x512_S1x512x512_18_0_0 : ∀ a, (![18, 0, 0] : Fin 3 → Nat) a + S1x512x512.size a ≤ S32x512x512.size a
  inb_S32x1280_S1x1280_18_0 : ∀ a, (![18, 0] : Fin 2 → Nat) a + S1x1280.size a ≤ S32x1280.size a
  inb_S32x512x512_S1x512x512_19_0_0 : ∀ a, (![19, 0, 0] : Fin 3 → Nat) a + S1x512x512.size a ≤ S32x512x512.size a
  inb_S32x1280_S1x1280_19_0 : ∀ a, (![19, 0] : Fin 2 → Nat) a + S1x1280.size a ≤ S32x1280.size a
  inb_S32x512x512_S1x512x512_20_0_0 : ∀ a, (![20, 0, 0] : Fin 3 → Nat) a + S1x512x512.size a ≤ S32x512x512.size a
  inb_S32x1280_S1x1280_20_0 : ∀ a, (![20, 0] : Fin 2 → Nat) a + S1x1280.size a ≤ S32x1280.size a
  inb_S32x512x512_S1x512x512_21_0_0 : ∀ a, (![21, 0, 0] : Fin 3 → Nat) a + S1x512x512.size a ≤ S32x512x512.size a
  inb_S32x1280_S1x1280_21_0 : ∀ a, (![21, 0] : Fin 2 → Nat) a + S1x1280.size a ≤ S32x1280.size a
  inb_S32x512x512_S1x512x512_22_0_0 : ∀ a, (![22, 0, 0] : Fin 3 → Nat) a + S1x512x512.size a ≤ S32x512x512.size a
  inb_S32x1280_S1x1280_22_0 : ∀ a, (![22, 0] : Fin 2 → Nat) a + S1x1280.size a ≤ S32x1280.size a
  inb_S32x512x512_S1x512x512_23_0_0 : ∀ a, (![23, 0, 0] : Fin 3 → Nat) a + S1x512x512.size a ≤ S32x512x512.size a
  inb_S32x1280_S1x1280_23_0 : ∀ a, (![23, 0] : Fin 2 → Nat) a + S1x1280.size a ≤ S32x1280.size a
  inb_S32x512x512_S1x512x512_24_0_0 : ∀ a, (![24, 0, 0] : Fin 3 → Nat) a + S1x512x512.size a ≤ S32x512x512.size a
  inb_S32x1280_S1x1280_24_0 : ∀ a, (![24, 0] : Fin 2 → Nat) a + S1x1280.size a ≤ S32x1280.size a
  inb_S32x512x512_S1x512x512_25_0_0 : ∀ a, (![25, 0, 0] : Fin 3 → Nat) a + S1x512x512.size a ≤ S32x512x512.size a
  inb_S32x1280_S1x1280_25_0 : ∀ a, (![25, 0] : Fin 2 → Nat) a + S1x1280.size a ≤ S32x1280.size a
  inb_S32x512x512_S1x512x512_26_0_0 : ∀ a, (![26, 0, 0] : Fin 3 → Nat) a + S1x512x512.size a ≤ S32x512x512.size a
  inb_S32x1280_S1x1280_26_0 : ∀ a, (![26, 0] : Fin 2 → Nat) a + S1x1280.size a ≤ S32x1280.size a
  inb_S32x512x512_S1x512x512_27_0_0 : ∀ a, (![27, 0, 0] : Fin 3 → Nat) a + S1x512x512.size a ≤ S32x512x512.size a
  inb_S32x1280_S1x1280_27_0 : ∀ a, (![27, 0] : Fin 2 → Nat) a + S1x1280.size a ≤ S32x1280.size a
  inb_S32x512x512_S1x512x512_28_0_0 : ∀ a, (![28, 0, 0] : Fin 3 → Nat) a + S1x512x512.size a ≤ S32x512x512.size a
  inb_S32x1280_S1x1280_28_0 : ∀ a, (![28, 0] : Fin 2 → Nat) a + S1x1280.size a ≤ S32x1280.size a
  inb_S32x512x512_S1x512x512_29_0_0 : ∀ a, (![29, 0, 0] : Fin 3 → Nat) a + S1x512x512.size a ≤ S32x512x512.size a
  inb_S32x1280_S1x1280_29_0 : ∀ a, (![29, 0] : Fin 2 → Nat) a + S1x1280.size a ≤ S32x1280.size a
  inb_S32x512x512_S1x512x512_30_0_0 : ∀ a, (![30, 0, 0] : Fin 3 → Nat) a + S1x512x512.size a ≤ S32x512x512.size a
  inb_S32x1280_S1x1280_30_0 : ∀ a, (![30, 0] : Fin 2 → Nat) a + S1x1280.size a ≤ S32x1280.size a
  inb_S32x512x512_S1x512x512_31_0_0 : ∀ a, (![31, 0, 0] : Fin 3 → Nat) a + S1x512x512.size a ≤ S32x512x512.size a
  inb_S32x1280_S1x1280_31_0 : ∀ a, (![31, 0] : Fin 2 → Nat) a + S1x1280.size a ≤ S32x1280.size a
  shapeCasts_S32x800000_S32x200000x4 : S32x800000.ShapeCasts S32x200000x4
  slices_S3x800000x2_S1x800000x2_1_0_0 : S3x800000x2.Slices ![1, 0, 0] S1x800000x2
  slices_S3x32x512x512_S1x32x512x512_1_0_0_0 : S3x32x512x512.Slices ![1, 0, 0, 0] S1x32x512x512
  slices_S3x800000x2_S1x800000x2_2_0_0 : S3x800000x2.Slices ![2, 0, 0] S1x800000x2
  slices_S3x32x512x512_S1x32x512x512_2_0_0_0 : S3x32x512x512.Slices ![2, 0, 0, 0] S1x32x512x512
  bcast_S32x200000x4_S1x32x200000x4_1_2_3 : S32x200000x4.BroadcastsInDim S1x32x200000x4 (![1, 2, 3] : Fin 3 → Fin S1x32x200000x4.rank)
  concatenates_S1x32x200000x4_S1x32x200000x4_S1x32x200000x4_S3x32x200000x4_d0 : Shape.Concatenates [S1x32x200000x4, S1x32x200000x4, S1x32x200000x4] S3x32x200000x4 0
  transposes_S3x32x200000x4_S200000x4x3x32_2_3_0_1 : S3x32x200000x4.Transposes [2, 3, 0, 1] S200000x4x3x32
  shapeCasts_S200000x4x3x32_S200000x384 : S200000x4x3x32.ShapeCasts S200000x384
  gather_S3_S2x1_S2_n_0_n_n_0_1_1_wf : GatherDims.WF S3 S2x1 S2 [] [0] [] [0] [] 1 ![1]
  gather_S200000x4x3_S2x1_S200000x4x2_01_2_n_n_2_1_20000041_wf : GatherDims.WF S200000x4x3 S2x1 S200000x4x2 [0, 1] [2] [] [2] [] 1 ![200000, 4, 1]
  dot_S1280x512_S512x512_S1280x512_1_0_0_1_n_n_wf : DotDims.WF S1280x512 S512x512 S1280x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x2.size a ≤ S800000x2.size a
  hwx0_0 : ∀ i : grid0.Coords, EltTy.bits .f32 = 32 ∨ (Rect.block (s := S800000x2) S1280x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512x512.size a ≤ S32x512x512.size a
  hwx0_1 : ∀ i : grid0.Coords, EltTy.bits .bf16 = 32 ∨ (Rect.block (s := S32x512x512) S32x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1280.size a ≤ S32x800000.size a
  hwx0_2 : ∀ i : grid0.Coords, EltTy.bits .f32 = 32 ∨ (Rect.block (s := S32x800000) S32x1280.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2.size a ≤ S800000x2.size a
  hwx1_0 : ∀ i : grid1.Coords, EltTy.bits .f32 = 32 ∨ (Rect.block (s := S800000x2) S1280x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x512x512.size a ≤ S32x512x512.size a
  hwx1_1 : ∀ i : grid1.Coords, EltTy.bits .bf16 = 32 ∨ (Rect.block (s := S32x512x512) S32x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1280.size a ≤ S32x800000.size a
  hwx1_2 : ∀ i : grid1.Coords, EltTy.bits .f32 = 32 ∨ (Rect.block (s := S32x800000) S32x1280.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x2.size a ≤ S800000x2.size a
  hwx2_0 : ∀ i : grid2.Coords, EltTy.bits .f32 = 32 ∨ (Rect.block (s := S800000x2) S1280x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x512x512.size a ≤ S32x512x512.size a
  hwx2_1 : ∀ i : grid2.Coords, EltTy.bits .bf16 = 32 ∨ (Rect.block (s := S32x512x512) S32x512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x1280.size a ≤ S32x800000.size a
  hwx2_2 : ∀ i : grid2.Coords, EltTy.bits .f32 = 32 ∨ (Rect.block (s := S32x800000) S32x1280.size (cc2_transform_2 i) (hinb2_2 i)).WholeWords (EltTy.packing .f32)

variable [Facts₀]

def gather_S3_S2x1_S2_n_0_n_n_0_1_1 : GatherDims S3 S2x1 S2 where
  offsetDims := []
  collapsedSliceDims := [0]
  operandBatchingDims := []
  startIndicesBatchingDims := []
  startIndexMap := [0]
  indexVectorDim := 1
  sliceSizes := ![1]
  wf := gather_S3_S2x1_S2_n_0_n_n_0_1_1_wf
def gather_S200000x4x3_S2x1_S200000x4x2_01_2_n_n_2_1_20000041 : GatherDims S200000x4x3 S2x1 S200000x4x2 where
  offsetDims := [0, 1]
  collapsedSliceDims := [2]
  operandBatchingDims := []
  startIndicesBatchingDims := []
  startIndexMap := [2]
  indexVectorDim := 1
  sliceSizes := ![200000, 4, 1]
  wf := gather_S200000x4x3_S2x1_S200000x4x2_01_2_n_n_2_1_20000041_wf
def dot_S1280x512_S512x512_S1280x512_1_0_0_1_n_n : DotDims S1280x512 S512x512 S1280x512 where
  lhsContracting := [1]
  rhsContracting := [0]
  lhsNonContracting := [0]
  rhsNonContracting := [1]
  lhsBatch := []
  rhsBatch := []
  wf := dot_S1280x512_S512x512_S1280x512_1_0_0_1_n_n_wf

abbrev win0_0 : Pipeline.Window sig grid0 :=
  Pipeline.Window.ofSpec (Memref.whole main_v114) S1280x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v116) S32x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v117) S32x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v120) S1280x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v122) S32x512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v123) S32x1280.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v126) S1280x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v128) S32x512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v129) S32x1280.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S200000x4x3 : Shape := ⟨3, ![200000, 4, 3]⟩
abbrev S3 : Shape := ⟨1, ![3]⟩
abbrev S3x32x512x512 : Shape := ⟨4, ![3, 32, 512, 512]⟩
abbrev S2 : Shape := ⟨1, ![2]⟩
abbrev S_ : Shape := ⟨0, ![]⟩
abbrev S2x1 : Shape := ⟨2, ![2, 1]⟩
abbrev S1x2 : Shape := ⟨2, ![1, 2]⟩
abbrev S3x2 : Shape := ⟨2, ![3, 2]⟩
abbrev S200000x4x2 : Shape := ⟨3, ![200000, 4, 2]⟩
abbrev S1x200000x4x2 : Shape := ⟨4, ![1, 200000, 4, 2]⟩
abbrev S3x200000x4x2 : Shape := ⟨4, ![3, 200000, 4, 2]⟩
abbrev S3x1x1x1 : Shape := ⟨4, ![3, 1, 1, 1]⟩
abbrev S3x200000x4 : Shape := ⟨3, ![3, 200000, 4]⟩
abbrev S3x200000x4x1 : Shape := ⟨4, ![3, 200000, 4, 1]⟩
abbrev S3x32x200000x4 : Shape := ⟨4, ![3, 32, 200000, 4]⟩
abbrev S3x1x200000x4 : Shape := ⟨4, ![3, 1, 200000, 4]⟩
abbrev S200000x4x3x32 : Shape := ⟨4, ![200000, 4, 3, 32]⟩
abbrev S200000x384 : Shape := ⟨2, ![200000, 384]⟩

abbrev nBuf : Space → Nat
  | .hbm => 442
  | .vmem => 0
  | .smem => 0
  | _ => 0

abbrev hbmTy0_0 (i : Nat) : BufTy := match i % 128 with
  | 0 => ⟨S200000x4x3, .f32⟩
  | 1 => ⟨S3, .f32⟩
  | 2 => ⟨S3, .f32⟩
  | 3 => ⟨S3x32x512x512, .f32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i1⟩
  | 16 => ⟨S_, .i32⟩
  | 17 => ⟨S2, .i32⟩
  | 18 => ⟨S2, .i32⟩
  | 19 => ⟨S2, .i32⟩
  | 20 => ⟨S2x1, .i32⟩
  | 21 => ⟨S2, .f32⟩
  | 22 => ⟨S_, .i32⟩
  | 23 => ⟨S2, .i32⟩
  | 24 => ⟨S2, .i1⟩
  | 25 => ⟨S_, .i32⟩
  | 26 => ⟨S2, .i32⟩
  | 27 => ⟨S2, .i32⟩
  | 28 => ⟨S2, .i32⟩
  | 29 => ⟨S2x1, .i32⟩
  | 30 => ⟨S2, .f32⟩
  | 31 => ⟨S_, .i32⟩
  | 32 => ⟨S2, .i32⟩
  | 33 => ⟨S2, .i1⟩
  | 34 => ⟨S_, .i32⟩
  | 35 => ⟨S2, .i32⟩
  | 36 => ⟨S2, .i32⟩
  | 37 => ⟨S2, .i32⟩
  | 38 => ⟨S2x1, .i32⟩
  | 39 => ⟨S2, .f32⟩
  | 40 => ⟨S1x2, .f32⟩
  | 41 => ⟨S1x2, .f32⟩
  | 42 => ⟨S1x2, .f32⟩
  | 43 => ⟨S3x2, .f32⟩
  | 44 => ⟨S_, .i32⟩
  | 45 => ⟨S2, .i32⟩
  | 46 => ⟨S2, .i1⟩
  | 47 => ⟨S_, .i32⟩
  | 48 => ⟨S2, .i32⟩
  | 49 => ⟨S2, .i32⟩
  | 50 => ⟨S2, .i32⟩
  | 51 => ⟨S2x1, .i32⟩
  | 52 => ⟨S2, .f32⟩
  | 53 => ⟨S_, .i32⟩
  | 54 => ⟨S2, .i32⟩
  | 55 => ⟨S2, .i1⟩
  | 56 => ⟨S_, .i32⟩
  | 57 => ⟨S2, .i32⟩
  | 58 => ⟨S2, .i32⟩
  | 59 => ⟨S2, .i32⟩
  | 60 => ⟨S2x1, .i32⟩
  | 61 => ⟨S2, .f32⟩
  | 62 => ⟨S_, .i32⟩
  | 63 => ⟨S2, .i32⟩
  | 64 => ⟨S2, .i1⟩
  | 65 => ⟨S_, .i32⟩
  | 66 => ⟨S2, .i32⟩
  | 67 => ⟨S2, .i32⟩
  | 68 => ⟨S2, .i32⟩
  | 69 => ⟨S2x1, .i32⟩
  | 70 => ⟨S2, .f32⟩
  | 71 => ⟨S1x2, .f32⟩
  | 72 => ⟨S1x2, .f32⟩
  | 73 => ⟨S1x2, .f32⟩
  | 74 => ⟨S3x2, .f32⟩
  | 75 => ⟨S3x2, .f32⟩
  | 76 => ⟨S_, .f32⟩
  | 77 => ⟨S3, .f32⟩
  | 78 => ⟨S3x2, .f32⟩
  | 79 => ⟨S_, .f32⟩
  | 80 => ⟨S3, .f32⟩
  | 81 => ⟨S3, .f32⟩
  | 82 => ⟨S_, .f32⟩
  | 83 => ⟨S3, .f32⟩
  | 84 => ⟨S3, .f32⟩
  | 85 => ⟨S_, .f32⟩
  | 86 => ⟨S200000x4x3, .f32⟩
  | 87 => ⟨S200000x4x3, .f32⟩
  | 88 => ⟨S_, .i32⟩
  | 89 => ⟨S2, .i32⟩
  | 90 => ⟨S2, .i1⟩
  | 91 => ⟨S_, .i32⟩
  | 92 => ⟨S2, .i32⟩
  | 93 => ⟨S2, .i32⟩
  | 94 => ⟨S2, .i32⟩
  | 95 => ⟨S2x1, .i32⟩
  | 96 => ⟨S200000x4x2, .f32⟩
  | 97 => ⟨S_, .i32⟩
  | 98 => ⟨S2, .i32⟩
  | 99 => ⟨S2, .i1⟩
  | 100 => ⟨S_, .i32⟩
  | 101 => ⟨S2, .i32⟩
  | 102 => ⟨S2, .i32⟩
  | 103 => ⟨S2, .i32⟩
  | 104 => ⟨S2x1, .i32⟩
  | 105 => ⟨S200000x4x2, .f32⟩
  | 106 => ⟨S_, .i32⟩
  | 107 => ⟨S2, .i32⟩
  | 108 => ⟨S2, .i1⟩
  | 109 => ⟨S_, .i32⟩
  | 110 => ⟨S2, .i32⟩
  | 111 => ⟨S2, .i32⟩
  | 112 => ⟨S2, .i32⟩
  | 113 => ⟨S2x1, .i32⟩
  | 114 => ⟨S200000x4x2, .f32⟩
  | 115 => ⟨S1x200000x4x2, .f32⟩
  | 116 => ⟨S1x200000x4x2, .f32⟩
  | 117 => ⟨S1x200000x4x2, .f32⟩
  | 118 => ⟨S3x200000x4x2, .f32⟩
  | 119 => ⟨S3, .f32⟩
  | 120 => ⟨S3x1x1x1, .f32⟩
  | 121 => ⟨S3x200000x4x2, .f32⟩
  | 122 => ⟨S3x200000x4x2, .f32⟩
  | 123 => ⟨S_, .f32⟩
  | 124 => ⟨S3x200000x4x2, .f32⟩
  | 125 => ⟨S3x200000x4x2, .f32⟩
  | 126 => ⟨S_, .f32⟩
  | 127 => ⟨S3x200000x4x2, .f32⟩
  | _ => ⟨S200000x4x3, .f32⟩

abbrev hbmTy0_1 (i : Nat) : BufTy := match i % 128 with
  | 0 => ⟨S3x200000x4x2, .f32⟩
  | 1 => ⟨S_, .f32⟩
  | 2 => ⟨S3x200000x4x2, .f32⟩
  | 3 => ⟨S3x200000x4x2, .f32⟩
  | 4 => ⟨S3x200000x4x2, .f32⟩
  | 5 => ⟨S_, .f32⟩
  | 6 => ⟨S3x200000x4, .f32⟩
  | 7 => ⟨S3x200000x4x1, .f32⟩
  | 8 => ⟨S_, .f32⟩
  | 9 => ⟨S3x200000x4x1, .f32⟩
  | 10 => ⟨S3x200000x4x1, .f32⟩
  | 11 => ⟨S_, .f32⟩
  | 12 => ⟨S3x200000x4x1, .f32⟩
  | 13 => ⟨S3x200000x4x1, .i1⟩
  | 14 => ⟨S3x200000x4x1, .f32⟩
  | 15 => ⟨S_, .f32⟩
  | 16 => ⟨S3x200000x4x1, .f32⟩
  | 17 => ⟨S3x200000x4x1, .f32⟩
  | 18 => ⟨S_, .f32⟩
  | 19 => ⟨S3x200000x4x1, .f32⟩
  | 20 => ⟨S3x200000x4x1, .f32⟩
  | 21 => ⟨S3x200000x4x1, .f32⟩
  | 22 => ⟨S3x200000x4x2, .f32⟩
  | 23 => ⟨S3x200000x4x2, .f32⟩
  | 24 => ⟨S3x200000x4x2, .i1⟩
  | 25 => ⟨S3x200000x4x2, .f32⟩
  | 26 => ⟨S_, .f32⟩
  | 27 => ⟨S3x200000x4x2, .f32⟩
  | 28 => ⟨S3x200000x4x2, .f32⟩
  | 29 => ⟨S3x200000x4x1, .f32⟩
  | 30 => ⟨S3x200000x4, .f32⟩
  | 31 => ⟨S3x200000x4x1, .f32⟩
  | 32 => ⟨S3x200000x4, .f32⟩
  | 33 => ⟨S_, .f32⟩
  | 34 => ⟨S3x200000x4, .f32⟩
  | 35 => ⟨S3x200000x4, .f32⟩
  | 36 => ⟨S_, .f32⟩
  | 37 => ⟨S3x200000x4, .f32⟩
  | 38 => ⟨S3x200000x4, .f32⟩
  | 39 => ⟨S_, .f32⟩
  | 40 => ⟨S3x200000x4, .f32⟩
  | 41 => ⟨S3x200000x4, .f32⟩
  | 42 => ⟨S_, .f32⟩
  | 43 => ⟨S3x200000x4, .f32⟩
  | 44 => ⟨S3x200000x4, .f32⟩
  | 45 => ⟨S_, .f32⟩
  | 46 => ⟨S3x200000x4, .f32⟩
  | 47 => ⟨S3x200000x4, .f32⟩
  | 48 => ⟨S_, .f32⟩
  | 49 => ⟨S3x200000x4, .f32⟩
  | 50 => ⟨S3x200000x4, .f32⟩
  | 51 => ⟨S_, .f32⟩
  | 52 => ⟨S3x200000x4, .f32⟩
  | 53 => ⟨S3x200000x4, .f32⟩
  | 54 => ⟨S_, .f32⟩
  | 55 => ⟨S3x200000x4, .f32⟩
  | 56 => ⟨S3x200000x4, .f32⟩
  | 57 => ⟨S3x200000x4, .f32⟩
  | 58 => ⟨S3x200000x4, .f32⟩
  | 59 => ⟨S_, .f32⟩
  | 60 => ⟨S3x200000x4, .f32⟩
  | 61 => ⟨S3x200000x4, .f32⟩
  | 62 => ⟨S_, .f32⟩
  | 63 => ⟨S3x200000x4, .f32⟩
  | 64 => ⟨S3x200000x4, .f32⟩
  | 65 => ⟨S3x200000x4, .f32⟩
  | 66 => ⟨S_, .f32⟩
  | 67 => ⟨S3x200000x4, .f32⟩
  | 68 => ⟨S3x200000x4, .f32⟩
  | 69 => ⟨S3x200000x4, .f32⟩
  | 70 => ⟨S_, .f32⟩
  | 71 => ⟨S3x200000x4, .f32⟩
  | 72 => ⟨S3x200000x4, .f32⟩
  | 73 => ⟨S_, .f32⟩
  | 74 => ⟨S3x200000x4, .f32⟩
  | 75 => ⟨S3x200000x4, .i1⟩
  | 76 => ⟨S_, .f32⟩
  | 77 => ⟨S3x200000x4, .f32⟩
  | 78 => ⟨S3x200000x4, .i1⟩
  | 79 => ⟨S3x200000x4, .i1⟩
  | 80 => ⟨S_, .f32⟩
  | 81 => ⟨S3x200000x4, .f32⟩
  | 82 => ⟨S3x200000x4, .i1⟩
  | 83 => ⟨S3x200000x4, .i1⟩
  | 84 => ⟨S_, .f32⟩
  | 85 => ⟨S3x200000x4, .f32⟩
  | 86 => ⟨S3x200000x4, .i1⟩
  | 87 => ⟨S3x200000x4, .i1⟩
  | 88 => ⟨S_, .i32⟩
  | 89 => ⟨S_, .i32⟩
  | 90 => ⟨S_, .f32⟩
  | 91 => ⟨S3x200000x4, .f32⟩
  | 92 => ⟨S3x200000x4, .f32⟩
  | 93 => ⟨S_, .f32⟩
  | 94 => ⟨S3x200000x4, .f32⟩
  | 95 => ⟨S3x200000x4, .f32⟩
  | 96 => ⟨S3x200000x4, .i32⟩
  | 97 => ⟨S_, .i32⟩
  | 98 => ⟨S_, .i32⟩
  | 99 => ⟨S_, .f32⟩
  | 100 => ⟨S3x200000x4, .f32⟩
  | 101 => ⟨S3x200000x4, .f32⟩
  | 102 => ⟨S_, .f32⟩
  | 103 => ⟨S3x200000x4, .f32⟩
  | 104 => ⟨S3x200000x4, .f32⟩
  | 105 => ⟨S3x200000x4, .i32⟩
  | 106 => ⟨S_, .i32⟩
  | 107 => ⟨S3x200000x4, .i32⟩
  | 108 => ⟨S3x200000x4, .i1⟩
  | 109 => ⟨S_, .i32⟩
  | 110 => ⟨S3x200000x4, .i32⟩
  | 111 => ⟨S3x200000x4, .i32⟩
  | 112 => ⟨S3x200000x4, .i32⟩
  | 113 => ⟨S_, .i32⟩
  | 114 => ⟨S3x200000x4, .i32⟩
  | 115 => ⟨S3x200000x4, .i1⟩
  | 116 => ⟨S_, .i32⟩
  | 117 => ⟨S3x200000x4, .i32⟩
  | 118 => ⟨S3x200000x4, .i32⟩
  | 119 => ⟨S3x200000x4, .i32⟩
  | 120 => ⟨S3x200000x4x1, .i32⟩
  | 121 => ⟨S3x200000x4x1, .i32⟩
  | 122 => ⟨S3x200000x4x2, .i32⟩
  | 123 => ⟨S3x32x200000x4, .f32⟩
  | 124 => ⟨S3x200000x4, .f32⟩
  | 125 => ⟨S3x1x200000x4, .f32⟩
  | 126 => ⟨S3x32x200000x4, .f32⟩
  | 127 => ⟨S3x32x200000x4, .f32⟩
  | _ => ⟨S200000x4x3, .f32⟩

abbrev hbmTy0_2 (i : Nat) : BufTy := match i % 128 with
  | 0 => ⟨S3x200000x4, .f32⟩
  | 1 => ⟨S3x1x200000x4, .f32⟩
  | 2 => ⟨S3x32x200000x4, .f32⟩
  | 3 => ⟨S3x32x200000x4, .f32⟩
  | 4 => ⟨S_, .f32⟩
  | 5 => ⟨S3x200000x4, .f32⟩
  | 6 => ⟨S3x200000x4, .i1⟩
  | 7 => ⟨S_, .f32⟩
  | 8 => ⟨S3x200000x4, .f32⟩
  | 9 => ⟨S3x200000x4, .i1⟩
  | 10 => ⟨S3x200000x4, .i1⟩
  | 11 => ⟨S_, .f32⟩
  | 12 => ⟨S3x200000x4, .f32⟩
  | 13 => ⟨S3x200000x4, .i1⟩
  | 14 => ⟨S3x200000x4, .i1⟩
  | 15 => ⟨S_, .f32⟩
  | 16 => ⟨S3x200000x4, .f32⟩
  | 17 => ⟨S3x200000x4, .i1⟩
  | 18 => ⟨S3x200000x4, .i1⟩
  | 19 => ⟨S_, .i32⟩
  | 20 => ⟨S_, .i32⟩
  | 21 => ⟨S_, .f32⟩
  | 22 => ⟨S3x200000x4, .f32⟩
  | 23 => ⟨S3x200000x4, .f32⟩
  | 24 => ⟨S_, .f32⟩
  | 25 => ⟨S3x200000x4, .f32⟩
  | 26 => ⟨S3x200000x4, .f32⟩
  | 27 => ⟨S3x200000x4, .i32⟩
  | 28 => ⟨S_, .i32⟩
  | 29 => ⟨S_, .i32⟩
  | 30 => ⟨S_, .f32⟩
  | 31 => ⟨S3x200000x4, .f32⟩
  | 32 => ⟨S3x200000x4, .f32⟩
  | 33 => ⟨S_, .f32⟩
  | 34 => ⟨S3x200000x4, .f32⟩
  | 35 => ⟨S3x200000x4, .f32⟩
  | 36 => ⟨S3x200000x4, .i32⟩
  | 37 => ⟨S_, .i32⟩
  | 38 => ⟨S3x200000x4, .i32⟩
  | 39 => ⟨S3x200000x4, .i1⟩
  | 40 => ⟨S_, .i32⟩
  | 41 => ⟨S3x200000x4, .i32⟩
  | 42 => ⟨S3x200000x4, .i32⟩
  | 43 => ⟨S3x200000x4, .i32⟩
  | 44 => ⟨S_, .i32⟩
  | 45 => ⟨S3x200000x4, .i32⟩
  | 46 => ⟨S3x200000x4, .i1⟩
  | 47 => ⟨S_, .i32⟩
  | 48 => ⟨S3x200000x4, .i32⟩
  | 49 => ⟨S3x200000x4, .i32⟩
  | 50 => ⟨S3x200000x4, .i32⟩
  | 51 => ⟨S3x200000x4x1, .i32⟩
  | 52 => ⟨S3x200000x4x1, .i32⟩
  | 53 => ⟨S3x200000x4x2, .i32⟩
  | 54 => ⟨S3x32x200000x4, .f32⟩
  | 55 => ⟨S3x200000x4, .f32⟩
  | 56 => ⟨S3x1x200000x4, .f32⟩
  | 57 => ⟨S3x32x200000x4, .f32⟩
  | 58 => ⟨S3x32x200000x4, .f32⟩
  | 59 => ⟨S3x200000x4, .f32⟩
  | 60 => ⟨S3x1x200000x4, .f32⟩
  | 61 => ⟨S3x32x200000x4, .f32⟩
  | 62 => ⟨S3x32x200000x4, .f32⟩
  | 63 => ⟨S3x32x200000x4, .f32⟩
  | 64 => ⟨S_, .f32⟩
  | 65 => ⟨S3x200000x4, .f32⟩
  | 66 => ⟨S3x200000x4, .i1⟩
  | 67 => ⟨S_, .f32⟩
  | 68 => ⟨S3x200000x4, .f32⟩
  | 69 => ⟨S3x200000x4, .i1⟩
  | 70 => ⟨S3x200000x4, .i1⟩
  | 71 => ⟨S_, .f32⟩
  | 72 => ⟨S3x200000x4, .f32⟩
  | 73 => ⟨S3x200000x4, .i1⟩
  | 74 => ⟨S3x200000x4, .i1⟩
  | 75 => ⟨S_, .f32⟩
  | 76 => ⟨S3x200000x4, .f32⟩
  | 77 => ⟨S3x200000x4, .i1⟩
  | 78 => ⟨S3x200000x4, .i1⟩
  | 79 => ⟨S_, .i32⟩
  | 80 => ⟨S_, .i32⟩
  | 81 => ⟨S_, .f32⟩
  | 82 => ⟨S3x200000x4, .f32⟩
  | 83 => ⟨S3x200000x4, .f32⟩
  | 84 => ⟨S_, .f32⟩
  | 85 => ⟨S3x200000x4, .f32⟩
  | 86 => ⟨S3x200000x4, .f32⟩
  | 87 => ⟨S3x200000x4, .i32⟩
  | 88 => ⟨S_, .i32⟩
  | 89 => ⟨S_, .i32⟩
  | 90 => ⟨S_, .f32⟩
  | 91 => ⟨S3x200000x4, .f32⟩
  | 92 => ⟨S3x200000x4, .f32⟩
  | 93 => ⟨S_, .f32⟩
  | 94 => ⟨S3x200000x4, .f32⟩
  | 95 => ⟨S3x200000x4, .f32⟩
  | 96 => ⟨S3x200000x4, .i32⟩
  | 97 => ⟨S_, .i32⟩
  | 98 => ⟨S3x200000x4, .i32⟩
  | 99 => ⟨S3x200000x4, .i1⟩
  | 100 => ⟨S_, .i32⟩
  | 101 => ⟨S3x200000x4, .i32⟩
  | 102 => ⟨S3x200000x4, .i32⟩
  | 103 => ⟨S3x200000x4, .i32⟩
  | 104 => ⟨S_, .i32⟩
  | 105 => ⟨S3x200000x4, .i32⟩
  | 106 => ⟨S3x200000x4, .i1⟩
  | 107 => ⟨S_, .i32⟩
  | 108 => ⟨S3x200000x4, .i32⟩
  | 109 => ⟨S3x200000x4, .i32⟩
  | 110 => ⟨S3x200000x4, .i32⟩
  | 111 => ⟨S3x200000x4x1, .i32⟩
  | 112 => ⟨S3x200000x4x1, .i32⟩
  | 113 => ⟨S3x200000x4x2, .i32⟩
  | 114 => ⟨S3x32x200000x4, .f32⟩
  | 115 => ⟨S3x200000x4, .f32⟩
  | 116 => ⟨S3x1x200000x4, .f32⟩
  | 117 => ⟨S3x32x200000x4, .f32⟩
  | 118 => ⟨S3x32x200000x4, .f32⟩
  | 119 => ⟨S3x200000x4, .f32⟩
  | 120 => ⟨S3x1x200000x4, .f32⟩
  | 121 => ⟨S3x32x200000x4, .f32⟩
  | 122 => ⟨S3x32x200000x4, .f32⟩
  | 123 => ⟨S3x32x200000x4, .f32⟩
  | 124 => ⟨S_, .f32⟩
  | 125 => ⟨S3x200000x4, .f32⟩
  | 126 => ⟨S3x200000x4, .i1⟩
  | 127 => ⟨S_, .f32⟩
  | _ => ⟨S200000x4x3, .f32⟩

abbrev hbmTy0_3 (i : Nat) : BufTy := match i % 128 with
  | 0 => ⟨S3x200000x4, .f32⟩
  | 1 => ⟨S3x200000x4, .i1⟩
  | 2 => ⟨S3x200000x4, .i1⟩
  | 3 => ⟨S_, .f32⟩
  | 4 => ⟨S3x200000x4, .f32⟩
  | 5 => ⟨S3x200000x4, .i1⟩
  | 6 => ⟨S3x200000x4, .i1⟩
  | 7 => ⟨S_, .f32⟩
  | 8 => ⟨S3x200000x4, .f32⟩
  | 9 => ⟨S3x200000x4, .i1⟩
  | 10 => ⟨S3x200000x4, .i1⟩
  | 11 => ⟨S_, .i32⟩
  | 12 => ⟨S_, .i32⟩
  | 13 => ⟨S_, .f32⟩
  | 14 => ⟨S3x200000x4, .f32⟩
  | 15 => ⟨S3x200000x4, .f32⟩
  | 16 => ⟨S_, .f32⟩
  | 17 => ⟨S3x200000x4, .f32⟩
  | 18 => ⟨S3x200000x4, .f32⟩
  | 19 => ⟨S3x200000x4, .i32⟩
  | 20 => ⟨S_, .i32⟩
  | 21 => ⟨S_, .i32⟩
  | 22 => ⟨S_, .f32⟩
  | 23 => ⟨S3x200000x4, .f32⟩
  | 24 => ⟨S3x200000x4, .f32⟩
  | 25 => ⟨S_, .f32⟩
  | 26 => ⟨S3x200000x4, .f32⟩
  | 27 => ⟨S3x200000x4, .f32⟩
  | 28 => ⟨S3x200000x4, .i32⟩
  | 29 => ⟨S_, .i32⟩
  | 30 => ⟨S3x200000x4, .i32⟩
  | 31 => ⟨S3x200000x4, .i1⟩
  | 32 => ⟨S_, .i32⟩
  | 33 => ⟨S3x200000x4, .i32⟩
  | 34 => ⟨S3x200000x4, .i32⟩
  | 35 => ⟨S3x200000x4, .i32⟩
  | 36 => ⟨S_, .i32⟩
  | 37 => ⟨S3x200000x4, .i32⟩
  | 38 => ⟨S3x200000x4, .i1⟩
  | 39 => ⟨S_, .i32⟩
  | 40 => ⟨S3x200000x4, .i32⟩
  | 41 => ⟨S3x200000x4, .i32⟩
  | 42 => ⟨S3x200000x4, .i32⟩
  | 43 => ⟨S3x200000x4x1, .i32⟩
  | 44 => ⟨S3x200000x4x1, .i32⟩
  | 45 => ⟨S3x200000x4x2, .i32⟩
  | 46 => ⟨S3x32x200000x4, .f32⟩
  | 47 => ⟨S3x200000x4, .f32⟩
  | 48 => ⟨S3x1x200000x4, .f32⟩
  | 49 => ⟨S3x32x200000x4, .f32⟩
  | 50 => ⟨S3x32x200000x4, .f32⟩
  | 51 => ⟨S3x200000x4, .f32⟩
  | 52 => ⟨S3x1x200000x4, .f32⟩
  | 53 => ⟨S3x32x200000x4, .f32⟩
  | 54 => ⟨S3x32x200000x4, .f32⟩
  | 55 => ⟨S3x32x200000x4, .f32⟩
  | 56 => ⟨S200000x4x3x32, .f32⟩
  | 57 => ⟨S200000x384, .f32⟩
  | _ => ⟨S200000x4x3, .f32⟩

abbrev hbmTy (i : Nat) : BufTy := match i / 128 with
  | 0 => hbmTy0_0 i
  | 1 => hbmTy0_1 i
  | 2 => hbmTy0_2 i
  | 3 => hbmTy0_3 i
  | _ => ⟨S200000x4x3, .f32⟩

abbrev bufTy : (tb : Table) → Fin (tcTables nBuf tb) → BufTy
  | .hbm, ⟨i, _⟩ => hbmTy i
  | _, _ => ⟨S200000x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_v0 : Ref sig .tc := ⟨.hbm, 14, rfl⟩
abbrev main_v1 : Ref sig .tc := ⟨.hbm, 15, rfl⟩
abbrev main_c_9 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_10 : Ref sig .tc := ⟨.hbm, 22, rfl⟩
abbrev main_v7 : Ref sig .tc := ⟨.hbm, 23, rfl⟩
abbrev main_v8 : Ref sig .tc := ⟨.hbm, 24, rfl⟩
abbrev main_c_11 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_c_13 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_14 : Ref sig .tc := ⟨.hbm, 44, rfl⟩
abbrev main_v25 : Ref sig .tc := ⟨.hbm, 45, rfl⟩
abbrev main_v26 : Ref sig .tc := ⟨.hbm, 46, rfl⟩
abbrev main_c_15 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_16 : Ref sig .tc := ⟨.hbm, 53, rfl⟩
abbrev main_v32 : Ref sig .tc := ⟨.hbm, 54, rfl⟩
abbrev main_v33 : Ref sig .tc := ⟨.hbm, 55, rfl⟩
abbrev main_c_17 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_18 : Ref sig .tc := ⟨.hbm, 62, rfl⟩
abbrev main_v39 : Ref sig .tc := ⟨.hbm, 63, rfl⟩
abbrev main_v40 : Ref sig .tc := ⟨.hbm, 64, rfl⟩
abbrev main_c_19 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_cst_20 : Ref sig .tc := ⟨.hbm, 79, rfl⟩
abbrev main_v53 : Ref sig .tc := ⟨.hbm, 80, rfl⟩
abbrev main_v54 : Ref sig .tc := ⟨.hbm, 81, rfl⟩
abbrev main_cst_21 : Ref sig .tc := ⟨.hbm, 82, rfl⟩
abbrev main_v55 : Ref sig .tc := ⟨.hbm, 83, rfl⟩
abbrev main_v56 : Ref sig .tc := ⟨.hbm, 84, rfl⟩
abbrev main_cst_22 : Ref sig .tc := ⟨.hbm, 85, rfl⟩
abbrev main_v57 : Ref sig .tc := ⟨.hbm, 86, rfl⟩
abbrev main_v58 : Ref sig .tc := ⟨.hbm, 87, rfl⟩
abbrev main_c_23 : Ref sig .tc := ⟨.hbm, 88, rfl⟩
abbrev main_v59 : Ref sig .tc := ⟨.hbm, 89, rfl⟩
abbrev main_v60 : Ref sig .tc := ⟨.hbm, 90, rfl⟩
abbrev main_c_24 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_25 : Ref sig .tc := ⟨.hbm, 97, rfl⟩
abbrev main_v66 : Ref sig .tc := ⟨.hbm, 98, rfl⟩
abbrev main_v67 : Ref sig .tc := ⟨.hbm, 99, rfl⟩
abbrev main_c_26 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_27 : Ref sig .tc := ⟨.hbm, 106, rfl⟩
abbrev main_v73 : Ref sig .tc := ⟨.hbm, 107, rfl⟩
abbrev main_v74 : Ref sig .tc := ⟨.hbm, 108, rfl⟩
abbrev main_c_28 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_29 : Ref sig .tc := ⟨.hbm, 123, rfl⟩
abbrev main_v88 : Ref sig .tc := ⟨.hbm, 124, rfl⟩
abbrev main_v89 : Ref sig .tc := ⟨.hbm, 125, rfl⟩
abbrev main_cst_30 : Ref sig .tc := ⟨.hbm, 126, rfl⟩
abbrev main_v90 : Ref sig .tc := ⟨.hbm, 127, rfl⟩
abbrev main_v91 : Ref sig .tc := ⟨.hbm, 128, rfl⟩
abbrev main_cst_31 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_32 : Ref sig .tc := ⟨.hbm, 133, rfl⟩
abbrev main_v95 : Ref sig .tc := ⟨.hbm, 134, rfl⟩
abbrev main_v96 : Ref sig .tc := ⟨.hbm, 135, rfl⟩
abbrev main_cst_33 : Ref sig .tc := ⟨.hbm, 136, rfl⟩
abbrev main_call0_v0 : Ref sig .tc := ⟨.hbm, 137, rfl⟩
abbrev main_v97 : Ref sig .tc := ⟨.hbm, 138, rfl⟩
abbrev main_cst_34 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_35 : Ref sig .tc := ⟨.hbm, 143, rfl⟩
abbrev main_v101 : Ref sig .tc := ⟨.hbm, 144, rfl⟩
abbrev main_v102 : Ref sig .tc := ⟨.hbm, 145, rfl⟩
abbrev main_cst_36 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_call1_v0 : Ref sig .tc := ⟨.hbm, 152, rfl⟩
abbrev main_v108 : Ref sig .tc := ⟨.hbm, 153, rfl⟩
abbrev main_cst_37 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_38 : Ref sig .tc := ⟨.hbm, 161, rfl⟩
abbrev main_v115 : Ref sig .tc := ⟨.hbm, 162, rfl⟩
abbrev main_v116 : Ref sig .tc := ⟨.hbm, 163, rfl⟩
abbrev main_cst_39 : Ref sig .tc := ⟨.hbm, 164, rfl⟩
abbrev main_v117 : Ref sig .tc := ⟨.hbm, 165, rfl⟩
abbrev main_v118 : Ref sig .tc := ⟨.hbm, 166, rfl⟩
abbrev main_cst_40 : Ref sig .tc := ⟨.hbm, 167, rfl⟩
abbrev main_v119 : Ref sig .tc := ⟨.hbm, 168, rfl⟩
abbrev main_v120 : Ref sig .tc := ⟨.hbm, 169, rfl⟩
abbrev main_cst_41 : Ref sig .tc := ⟨.hbm, 170, rfl⟩
abbrev main_v121 : Ref sig .tc := ⟨.hbm, 171, rfl⟩
abbrev main_v122 : Ref sig .tc := ⟨.hbm, 172, rfl⟩
abbrev main_cst_42 : Ref sig .tc := ⟨.hbm, 173, rfl⟩
abbrev main_v123 : Ref sig .tc := ⟨.hbm, 174, rfl⟩
abbrev main_v124 : Ref sig .tc := ⟨.hbm, 175, rfl⟩
abbrev main_cst_43 : Ref sig .tc := ⟨.hbm, 176, rfl⟩
abbrev main_v125 : Ref sig .tc := ⟨.hbm, 177, rfl⟩
abbrev main_v126 : Ref sig .tc := ⟨.hbm, 178, rfl⟩
abbrev main_cst_44 : Ref sig .tc := ⟨.hbm, 179, rfl⟩
abbrev main_v127 : Ref sig .tc := ⟨.hbm, 180, rfl⟩
abbrev main_v128 : Ref sig .tc := ⟨.hbm, 181, rfl⟩
abbrev main_cst_45 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_46 : Ref sig .tc := ⟨.hbm, 187, rfl⟩
abbrev main_v133 : Ref sig .tc := ⟨.hbm, 188, rfl⟩
abbrev main_v134 : Ref sig .tc := ⟨.hbm, 189, rfl⟩
abbrev main_cst_47 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_48 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_49 : Ref sig .tc := ⟨.hbm, 198, rfl⟩
abbrev main_v141 : Ref sig .tc := ⟨.hbm, 199, rfl⟩
abbrev main_v142 : Ref sig .tc := ⟨.hbm, 200, rfl⟩
abbrev main_cst_50 : Ref sig .tc := ⟨.hbm, 201, rfl⟩
abbrev main_v143 : Ref sig .tc := ⟨.hbm, 202, rfl⟩
abbrev main_v144 : Ref sig .tc := ⟨.hbm, 203, rfl⟩
abbrev main_cst_51 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_52 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_53 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_c_54 : Ref sig .tc := ⟨.hbm, 216, rfl⟩
abbrev main_c_55 : Ref sig .tc := ⟨.hbm, 217, rfl⟩
abbrev main_call2_v0 : Ref sig .tc := ⟨.hbm, 218, rfl⟩
abbrev main_call2_v1 : Ref sig .tc := ⟨.hbm, 219, rfl⟩
abbrev main_call2_v2 : Ref sig .tc := ⟨.hbm, 220, rfl⟩
abbrev main_call2_v3 : Ref sig .tc := ⟨.hbm, 221, rfl⟩
abbrev main_call2_v4 : Ref sig .tc := ⟨.hbm, 222, rfl⟩
abbrev main_v154 : Ref sig .tc := ⟨.hbm, 223, rfl⟩
abbrev main_v155 : Ref sig .tc := ⟨.hbm, 224, rfl⟩
abbrev main_c_56 : Ref sig .tc := ⟨.hbm, 225, rfl⟩
abbrev main_c_57 : Ref sig .tc := ⟨.hbm, 226, rfl⟩
abbrev main_call3_v0 : Ref sig .tc := ⟨.hbm, 227, rfl⟩
abbrev main_call3_v1 : Ref sig .tc := ⟨.hbm, 228, rfl⟩
abbrev main_call3_v2 : Ref sig .tc := ⟨.hbm, 229, rfl⟩
abbrev main_call3_v3 : Ref sig .tc := ⟨.hbm, 230, rfl⟩
abbrev main_call3_v4 : Ref sig .tc := ⟨.hbm, 231, rfl⟩
abbrev main_v156 : Ref sig .tc := ⟨.hbm, 232, rfl⟩
abbrev main_v157 : Ref sig .tc := ⟨.hbm, 233, rfl⟩
abbrev main_c_58 : Ref sig .tc := ⟨.hbm, 234, rfl⟩
abbrev main_v158 : Ref sig .tc := ⟨.hbm, 235, rfl⟩
abbrev main_v159 : Ref sig .tc := ⟨.hbm, 236, rfl⟩
abbrev main_c_59 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_c_60 : Ref sig .tc := ⟨.hbm, 241, rfl⟩
abbrev main_v163 : Ref sig .tc := ⟨.hbm, 242, rfl⟩
abbrev main_v164 : Ref sig .tc := ⟨.hbm, 243, rfl⟩
abbrev main_c_61 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_cst_62 : Ref sig .tc := ⟨.hbm, 260, rfl⟩
abbrev main_v180 : Ref sig .tc := ⟨.hbm, 261, rfl⟩
abbrev main_v181 : Ref sig .tc := ⟨.hbm, 262, rfl⟩
abbrev main_cst_63 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_cst_64 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_cst_65 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_c_66 : Ref sig .tc := ⟨.hbm, 275, rfl⟩
abbrev main_c_67 : Ref sig .tc := ⟨.hbm, 276, rfl⟩
abbrev main_call4_v0 : Ref sig .tc := ⟨.hbm, 277, rfl⟩
abbrev main_call4_v1 : Ref sig .tc := ⟨.hbm, 278, rfl⟩
abbrev main_call4_v2 : Ref sig .tc := ⟨.hbm, 279, rfl⟩
abbrev main_call4_v3 : Ref sig .tc := ⟨.hbm, 280, rfl⟩
abbrev main_call4_v4 : Ref sig .tc := ⟨.hbm, 281, rfl⟩
abbrev main_v191 : Ref sig .tc := ⟨.hbm, 282, rfl⟩
abbrev main_v192 : Ref sig .tc := ⟨.hbm, 283, rfl⟩
abbrev main_c_68 : Ref sig .tc := ⟨.hbm, 284, rfl⟩
abbrev main_c_69 : Ref sig .tc := ⟨.hbm, 285, rfl⟩
abbrev main_call5_v0 : Ref sig .tc := ⟨.hbm, 286, rfl⟩
abbrev main_call5_v1 : Ref sig .tc := ⟨.hbm, 287, rfl⟩
abbrev main_call5_v2 : Ref sig .tc := ⟨.hbm, 288, rfl⟩
abbrev main_call5_v3 : Ref sig .tc := ⟨.hbm, 289, rfl⟩
abbrev main_call5_v4 : Ref sig .tc := ⟨.hbm, 290, rfl⟩
abbrev main_v193 : Ref sig .tc := ⟨.hbm, 291, rfl⟩
abbrev main_v194 : Ref sig .tc := ⟨.hbm, 292, rfl⟩
abbrev main_c_70 : Ref sig .tc := ⟨.hbm, 293, rfl⟩
abbrev main_v195 : Ref sig .tc := ⟨.hbm, 294, rfl⟩
abbrev main_v196 : Ref sig .tc := ⟨.hbm, 295, rfl⟩
abbrev main_c_71 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_c_72 : Ref sig .tc := ⟨.hbm, 300, rfl⟩
abbrev main_v200 : Ref sig .tc := ⟨.hbm, 301, rfl⟩
abbrev main_v201 : Ref sig .tc := ⟨.hbm, 302, rfl⟩
abbrev main_c_73 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_cst_74 : Ref sig .tc := ⟨.hbm, 320, rfl⟩
abbrev main_v218 : Ref sig .tc := ⟨.hbm, 321, rfl⟩
abbrev main_v219 : Ref sig .tc := ⟨.hbm, 322, rfl⟩
abbrev main_cst_75 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_cst_76 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_cst_77 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_c_78 : Ref sig .tc := ⟨.hbm, 335, rfl⟩
abbrev main_c_79 : Ref sig .tc := ⟨.hbm, 336, rfl⟩
abbrev main_call6_v0 : Ref sig .tc := ⟨.hbm, 337, rfl⟩
abbrev main_call6_v1 : Ref sig .tc := ⟨.hbm, 338, rfl⟩
abbrev main_call6_v2 : Ref sig .tc := ⟨.hbm, 339, rfl⟩
abbrev main_call6_v3 : Ref sig .tc := ⟨.hbm, 340, rfl⟩
abbrev main_call6_v4 : Ref sig .tc := ⟨.hbm, 341, rfl⟩
abbrev main_v229 : Ref sig .tc := ⟨.hbm, 342, rfl⟩
abbrev main_v230 : Ref sig .tc := ⟨.hbm, 343, rfl⟩
abbrev main_c_80 : Ref sig .tc := ⟨.hbm, 344, rfl⟩
abbrev main_c_81 : Ref sig .tc := ⟨.hbm, 345, rfl⟩
abbrev main_call7_v0 : Ref sig .tc := ⟨.hbm, 346, rfl⟩
abbrev main_call7_v1 : Ref sig .tc := ⟨.hbm, 347, rfl⟩
abbrev main_call7_v2 : Ref sig .tc := ⟨.hbm, 348, rfl⟩
abbrev main_call7_v3 : Ref sig .tc := ⟨.hbm, 349, rfl⟩
abbrev main_call7_v4 : Ref sig .tc := ⟨.hbm, 350, rfl⟩
abbrev main_v231 : Ref sig .tc := ⟨.hbm, 351, rfl⟩
abbrev main_v232 : Ref sig .tc := ⟨.hbm, 352, rfl⟩
abbrev main_c_82 : Ref sig .tc := ⟨.hbm, 353, rfl⟩
abbrev main_v233 : Ref sig .tc := ⟨.hbm, 354, rfl⟩
abbrev main_v234 : Ref sig .tc := ⟨.hbm, 355, rfl⟩
abbrev main_c_83 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_c_84 : Ref sig .tc := ⟨.hbm, 360, rfl⟩
abbrev main_v238 : Ref sig .tc := ⟨.hbm, 361, rfl⟩
abbrev main_v239 : Ref sig .tc := ⟨.hbm, 362, rfl⟩
abbrev main_c_85 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_cst_86 : Ref sig .tc := ⟨.hbm, 380, rfl⟩
abbrev main_v256 : Ref sig .tc := ⟨.hbm, 381, rfl⟩
abbrev main_v257 : Ref sig .tc := ⟨.hbm, 382, rfl⟩
abbrev main_cst_87 : Ref sig .tc := ⟨.hbm, 383, rfl⟩
abbrev main_v258 : Ref sig .tc := ⟨.hbm, 384, rfl⟩
abbrev main_v259 : Ref sig .tc := ⟨.hbm, 385, rfl⟩
abbrev main_v260 : Ref sig .tc := ⟨.hbm, 386, rfl⟩
abbrev main_cst_88 : Ref sig .tc := ⟨.hbm, 387, rfl⟩
abbrev main_v261 : Ref sig .tc := ⟨.hbm, 388, rfl⟩
abbrev main_v262 : Ref sig .tc := ⟨.hbm, 389, rfl⟩
abbrev main_v263 : Ref sig .tc := ⟨.hbm, 390, rfl⟩
abbrev main_cst_89 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_c_90 : Ref sig .tc := ⟨.hbm, 395, rfl⟩
abbrev main_c_91 : Ref sig .tc := ⟨.hbm, 396, rfl⟩
abbrev main_call8_v0 : Ref sig .tc := ⟨.hbm, 397, rfl⟩
abbrev main_call8_v1 : Ref sig .tc := ⟨.hbm, 398, rfl⟩
abbrev main_call8_v2 : Ref sig .tc := ⟨.hbm, 399, rfl⟩
abbrev main_call8_v3 : Ref sig .tc := ⟨.hbm, 400, rfl⟩
abbrev main_call8_v4 : Ref sig .tc := ⟨.hbm, 401, rfl⟩
abbrev main_v267 : Ref sig .tc := ⟨.hbm, 402, rfl⟩
abbrev main_v268 : Ref sig .tc := ⟨.hbm, 403, rfl⟩
abbrev main_c_92 : Ref sig .tc := ⟨.hbm, 404, rfl⟩
abbrev main_c_93 : Ref sig .tc := ⟨.hbm, 405, rfl⟩
abbrev main_call9_v0 : Ref sig .tc := ⟨.hbm, 406, rfl⟩
abbrev main_call9_v1 : Ref sig .tc := ⟨.hbm, 407, rfl⟩
abbrev main_call9_v2 : Ref sig .tc := ⟨.hbm, 408, rfl⟩
abbrev main_call9_v3 : Ref sig .tc := ⟨.hbm, 409, rfl⟩
abbrev main_call9_v4 : Ref sig .tc := ⟨.hbm, 410, rfl⟩
abbrev main_v269 : Ref sig .tc := ⟨.hbm, 411, rfl⟩
abbrev main_v270 : Ref sig .tc := ⟨.hbm, 412, rfl⟩
abbrev main_c_94 : Ref sig .tc := ⟨.hbm, 413, rfl⟩
abbrev main_v271 : Ref sig .tc := ⟨.hbm, 414, rfl⟩
abbrev main_v272 : Ref sig .tc := ⟨.hbm, 415, rfl⟩
abbrev main_c_95 : Ref sig .tc := ⟨.hbm, 416, rfl⟩
abbrev main_v273 : Ref sig .tc := ⟨.hbm, 417, rfl⟩
abbrev main_v274 : Ref sig .tc := ⟨.hbm, 418, rfl⟩
abbrev main_v275 : Ref sig .tc := ⟨.hbm, 419, rfl⟩
abbrev main_c_96 : Ref sig .tc := ⟨.hbm, 420, rfl⟩
abbrev main_v276 : Ref sig .tc := ⟨.hbm, 421, rfl⟩
abbrev main_v277 : Ref sig .tc := ⟨.hbm, 422, rfl⟩
abbrev main_c_97 : Ref sig .tc := ⟨.hbm, 423, rfl⟩
abbrev main_v278 : Ref sig .tc := ⟨.hbm, 424, rfl⟩
abbrev main_v279 : Ref sig .tc := ⟨.hbm, 425, rfl⟩
abbrev main_v280 : Ref sig .tc := ⟨.hbm, 426, rfl⟩
abbrev main_v281 : Ref sig .tc := ⟨.hbm, 427, rfl⟩
abbrev main_v282 : Ref sig .tc := ⟨.hbm, 428, rfl⟩
abbrev main_v283 : Ref sig .tc := ⟨.hbm, 429, rfl⟩
abbrev main_v284 : Ref sig .tc := ⟨.hbm, 430, rfl⟩
abbrev main_v285 : Ref sig .tc := ⟨.hbm, 431, rfl⟩
abbrev main_v286 : Ref sig .tc := ⟨.hbm, 432, rfl⟩
abbrev main_v287 : Ref sig .tc := ⟨.hbm, 433, rfl⟩
abbrev main_v288 : Ref sig .tc := ⟨.hbm, 434, rfl⟩
abbrev main_v289 : Ref sig .tc := ⟨.hbm, 435, rfl⟩
abbrev main_v290 : Ref sig .tc := ⟨.hbm, 436, rfl⟩
abbrev main_v291 : Ref sig .tc := ⟨.hbm, 437, rfl⟩
abbrev main_v292 : Ref sig .tc := ⟨.hbm, 438, rfl⟩
abbrev main_v293 : Ref sig .tc := ⟨.hbm, 439, rfl⟩
abbrev main_v294 : Ref sig .tc := ⟨.hbm, 440, rfl⟩
abbrev main_v295 : Ref sig .tc := ⟨.hbm, 441, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S2_S1x2_1 : S2.BroadcastsInDim S1x2 (![1] : Fin 1 → Fin S1x2.rank)
  concatenates_S1x2_S1x2_S1x2_S3x2_d0 : Shape.Concatenates [S1x2, S1x2, S1x2] S3x2 0
  reducesTo_S3x2_S3_d1 : S3x2.ReducesTo [1] S3
  h_S_ : 0 < S_.numel
  bcast_S_S3 : S_.BroadcastsInDim S3 (![] : Fin 0 → Fin S3.rank)
  bcast_S_S200000x4x3 : S_.BroadcastsInDim S200000x4x3 (![] : Fin 0 → Fin S200000x4x3.rank)
  bcast_S200000x4x2_S1x200000x4x2_1_2_3 : S200000x4x2.BroadcastsInDim S1x200000x4x2 (![1, 2, 3] : Fin 3 → Fin S1x200000x4x2.rank)
  concatenates_S1x200000x4x2_S1x200000x4x2_S1x200000x4x2_S3x200000x4x2_d0 : Shape.Concatenates [S1x200000x4x2, S1x200000x4x2, S1x200000x4x2] S3x200000x4x2 0
  bcast_S3_S3x1x1x1_0 : S3.BroadcastsInDim S3x1x1x1 (![0] : Fin 1 → Fin S3x1x1x1.rank)
  bcast_S3x1x1x1_S3x200000x4x2_0_1_2_3 : S3x1x1x1.BroadcastsInDim S3x200000x4x2 (![0, 1, 2, 3] : Fin 4 → Fin S3x200000x4x2.rank)
  bcast_S_S3x200000x4x2 : S_.BroadcastsInDim S3x200000x4x2 (![] : Fin 0 → Fin S3x200000x4x2.rank)
  reducesTo_S3x200000x4x2_S3x200000x4_d3 : S3x200000x4x2.ReducesTo [3] S3x200000x4
  bcast_S3x200000x4_S3x200000x4x1_0_1_2 : S3x200000x4.BroadcastsInDim S3x200000x4x1 (![0, 1, 2] : Fin 3 → Fin S3x200000x4x1.rank)
  bcast_S_S3x200000x4x1 : S_.BroadcastsInDim S3x200000x4x1 (![] : Fin 0 → Fin S3x200000x4x1.rank)
  bcast_S3x200000x4x1_S3x200000x4x2_0_1_2_3 : S3x200000x4x1.BroadcastsInDim S3x200000x4x2 (![0, 1, 2, 3] : Fin 4 → Fin S3x200000x4x2.rank)
  slices_S3x200000x4x2_S3x200000x4x1_0_0_0_0 : S3x200000x4x2.Slices ![0, 0, 0, 0] S3x200000x4x1
  shapeCasts_S3x200000x4x1_S3x200000x4 : S3x200000x4x1.ShapeCasts S3x200000x4
  slices_S3x200000x4x2_S3x200000x4x1_0_0_0_1 : S3x200000x4x2.Slices ![0, 0, 0, 1] S3x200000x4x1
  bcast_S_S3x200000x4 : S_.BroadcastsInDim S3x200000x4 (![] : Fin 0 → Fin S3x200000x4.rank)
  concatenates_S3x200000x4x1_S3x200000x4x1_S3x200000x4x2_d3 : Shape.Concatenates [S3x200000x4x1, S3x200000x4x1] S3x200000x4x2 3
  bcast_S3x200000x4_S3x1x200000x4_0_2_3 : S3x200000x4.BroadcastsInDim S3x1x200000x4 (![0, 2, 3] : Fin 3 → Fin S3x1x200000x4.rank)
  bcast_S3x1x200000x4_S3x32x200000x4_0_1_2_3 : S3x1x200000x4.BroadcastsInDim S3x32x200000x4 (![0, 1, 2, 3] : Fin 4 → Fin S3x32x200000x4.rank)
  transposes_S3x32x200000x4_S200000x4x3x32_2_3_0_1 : S3x32x200000x4.Transposes [2, 3, 0, 1] S200000x4x3x32
  shapeCasts_S200000x4x3x32_S200000x384 : S200000x4x3x32.ShapeCasts S200000x384
  gather_S3_S2x1_S2_n_0_n_n_0_1_1_wf : GatherDims.WF S3 S2x1 S2 [] [0] [] [0] [] 1 ![1]
  gather_S200000x4x3_S2x1_S200000x4x2_01_2_n_n_2_1_20000041_wf : GatherDims.WF S200000x4x3 S2x1 S200000x4x2 [0, 1] [2] [] [2] [] 1 ![200000, 4, 1]
  gather_S3x32x512x512_S3x200000x4x2_S3x32x200000x4_1_23_0_0_23_3_13211_wf : GatherDims.WF S3x32x512x512 S3x200000x4x2 S3x32x200000x4 [1] [2, 3] [0] [2, 3] [0] 3 ![1, 32, 1, 1]

variable [Facts₀]

def gather_S3_S2x1_S2_n_0_n_n_0_1_1 : GatherDims S3 S2x1 S2 where
  offsetDims := []
  collapsedSliceDims := [0]
  operandBatchingDims := []
  startIndicesBatchingDims := []
  startIndexMap := [0]
  indexVectorDim := 1
  sliceSizes := ![1]
  wf := gather_S3_S2x1_S2_n_0_n_n_0_1_1_wf
def gather_S200000x4x3_S2x1_S200000x4x2_01_2_n_n_2_1_20000041 : GatherDims S200000x4x3 S2x1 S200000x4x2 where
  offsetDims := [0, 1]
  collapsedSliceDims := [2]
  operandBatchingDims := []
  startIndicesBatchingDims := []
  startIndexMap := [2]
  indexVectorDim := 1
  sliceSizes := ![200000, 4, 1]
  wf := gather_S200000x4x3_S2x1_S200000x4x2_01_2_n_n_2_1_20000041_wf
def gather_S3x32x512x512_S3x200000x4x2_S3x32x200000x4_1_23_0_0_23_3_13211 : GatherDims S3x32x512x512 S3x200000x4x2 S3x32x200000x4 where
  offsetDims := [1]
  collapsedSliceDims := [2, 3]
  operandBatchingDims := [0]
  startIndicesBatchingDims := [0]
  startIndexMap := [2, 3]
  indexVectorDim := 3
  sliceSizes := ![1, 32, 1, 1]
  wf := gather_S3x32x512x512_S3x200000x4x2_S3x32x200000x4_1_23_0_0_23_3_13211_wf

class Facts : Prop extends Facts₀ where

variable [Facts]
-- ==== Proof.KFrame.Host.lean ====
import proofs.«162729_j22162031247387_1_alg».proof.Proof.Gen.KernelIdeal.Launch
import Idealize.ShloMosaic.Lib.Pipeline.RegionsLoop
import Idealize.ShloMosaic.Lib.Pipeline.FrameSuffix

/-! # The host stretches of @main: what they leave alone

@main is eleven items: five stretches of host operations, then three kernel regions with a stretch between
consecutive ones, and a closing stretch. This module states, for each of the eight stretches, the two facts the run
needs of it that do not mention the regions: no operation of the stretch allocates a buffer, and no operation
writes any of the four argument buffers (an argument is only ever read), so that the contents of an argument
after the stretch are its contents before. -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## No stretch allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## No stretch writes an argument

Each operation writes exactly its result buffer, and every result buffer of @main is a reference other than the
four arguments: one pass over the stretch, each operation's written set a singleton, the two references told apart
by their indices. -/

/-- One pass over a literal stretch: every operation's written set is the singleton of its result, a reference
    distinct from the one asked about. -/
macro "keeps_pass" : tactic => `(tactic| (
  simp only [hostOps0, hostOps0_1, hostOps0_2, hostOps0_3, hostOps0_4, hostOps1, hostOps2, hostOps3,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (by decide)))

set_option maxHeartbeats 4000000 in
theorem hostOps0_keeps_arg0 : ∀ op ∈ (hostOps0 : List (HloOp τ sig (Elt F))), (Proc.devRef .tc main_arg0 : DevRef τ sig) ∉ op.writes :=
  List.forall_iff_forall_mem.mp (by keeps_pass)
set_option maxHeartbeats 4000000 in
theorem hostOps0_keeps_arg1 : ∀ op ∈ (hostOps0 : List (HloOp τ sig (Elt F))), (Proc.devRef .tc main_arg1 : DevRef τ sig) ∉ op.writes :=
  List.forall_iff_forall_mem.mp (by keeps_pass)
set_option maxHeartbeats 4000000 in
theorem hostOps0_keeps_arg2 : ∀ op ∈ (hostOps0 : List (HloOp τ sig (Elt F))), (Proc.devRef .tc main_arg2 : DevRef τ sig) ∉ op.writes :=
  List.forall_iff_forall_mem.mp (by keeps_pass)
set_option maxHeartbeats 4000000 in
theorem hostOps0_keeps_arg3 : ∀ op ∈ (hostOps0 : List (HloOp τ sig (Elt F))), (Proc.devRef .tc main_arg3 : DevRef τ sig) ∉ op.writes :=
  List.forall_iff_forall_mem.mp (by keeps_pass)
theorem hostOps0_1_keeps_arg0 : ∀ op ∈ (hostOps0_1 : List (HloOp τ sig (Elt F))), (Proc.devRef .tc main_arg0 : DevRef τ sig) ∉ op.writes :=
  List.forall_iff_forall_mem.mp (by keeps_pass)
theorem hostOps0_1_keeps_arg1 : ∀ op ∈ (hostOps0_1 : List (HloOp τ sig (Elt F))), (Proc.devRef .tc main_arg1 : DevRef τ sig) ∉ op.writes :=
  List.forall_iff_forall_mem.mp (by keeps_pass)
theorem hostOps0_1_keeps_arg2 : ∀ op ∈ (hostOps0_1 : List (HloOp τ sig (Elt F))), (Proc.devRef .tc main_arg2 : DevRef τ sig) ∉ op.writes :=
  List.forall_iff_forall_mem.mp (by keeps_pass)
theorem hostOps0_1_keeps_arg3 : ∀ op ∈ (hostOps0_1 : List (HloOp τ sig (Elt F))), (Proc.devRef .tc main_arg3 : DevRef τ sig) ∉ op.writes :=
  List.forall_iff_forall_mem.mp (by keeps_pass)
theorem hostOps0_2_keeps_arg0 : ∀ op ∈ (hostOps0_2 : List (HloOp τ sig (Elt F))), (Proc.devRef .tc main_arg0 : DevRef τ sig) ∉ op.writes :=
  List.forall_iff_forall_mem.mp (by keeps_pass)
theorem hostOps0_2_keeps_arg1 : ∀ op ∈ (hostOps0_2 : List (HloOp τ sig (Elt F))), (Proc.devRef .tc main_arg1 : DevRef τ sig) ∉ op.writes :=
  List.forall_iff_forall_mem.mp (by keeps_pass)
theorem hostOps0_2_keeps_arg2 : ∀ op ∈ (hostOps0_2 : List (HloOp τ sig (Elt F))), (Proc.devRef .tc main_arg2 : DevRef τ sig) ∉ op.writes :=
  List.forall_iff_forall_mem.mp (by keeps_pass)
theorem hostOps0_2_keeps_arg3 : ∀ op ∈ (hostOps0_2 : List (HloOp τ sig (Elt F))), (Proc.devRef .tc main_arg3 : DevRef τ sig) ∉ op.writes :=
  List.forall_iff_forall_mem.mp (by keeps_pass)
theorem hostOps0_3_keeps_arg0 : ∀ op ∈ (hostOps0_3 : List (HloOp τ sig (Elt F))), (Proc.devRef .tc main_arg0 : DevRef τ sig) ∉ op.writes :=
  List.forall_iff_forall_mem.mp (by keeps_pass)
theorem hostOps0_3_keeps_arg1 : ∀ op ∈ (hostOps0_3 : List (HloOp τ sig (Elt F))), (Proc.devRef .tc main_arg1 : DevRef τ sig) ∉ op.writes :=
  List.forall_iff_forall_mem.mp (by keeps_pass)
theorem hostOps0_3_keeps_arg2 : ∀ op ∈ (hostOps0_3 : List (HloOp τ sig (Elt F))), (Proc.devRef .tc main_arg2 : DevRef τ sig) ∉ op.writes :=
  List.forall_iff_forall_mem.mp (by keeps_pass)
theorem hostOps0_3_keeps_arg3 : ∀ op ∈ (hostOps0_3 : List (HloOp τ sig (Elt F))), (Proc.devRef .tc main_arg3 : DevRef τ sig) ∉ op.writes :=
  List.forall_iff_forall_mem.mp (by keeps_pass)
theorem hostOps0_4_keeps_arg0 : ∀ op ∈ (hostOps0_4 : List (HloOp τ sig (Elt F))), (Proc.devRef .tc main_arg0 : DevRef τ sig) ∉ op.writes :=
  List.forall_iff_forall_mem.mp (by keeps_pass)
theorem hostOps0_4_keeps_arg1 : ∀ op ∈ (hostOps0_4 : List (HloOp τ sig (Elt F))), (Proc.devRef .tc main_arg1 : DevRef τ sig) ∉ op.writes :=
  List.forall_iff_forall_mem.mp (by keeps_pass)
theorem hostOps0_4_keeps_arg2 : ∀ op ∈ (hostOps0_4 : List (HloOp τ sig (Elt F))), (Proc.devRef .tc main_arg2 : DevRef τ sig) ∉ op.writes :=
  List.forall_iff_forall_mem.mp (by keeps_pass)
theorem hostOps0_4_keeps_arg3 : ∀ op ∈ (hostOps0_4 : List (HloOp τ sig (Elt F))), (Proc.devRef .tc main_arg3 : DevRef τ sig) ∉ op.writes :=
  List.forall_iff_forall_mem.mp (by keeps_pass)
theorem hostOps1_keeps_arg0 : ∀ op ∈ (hostOps1 : List (HloOp τ sig (Elt F))), (Proc.devRef .tc main_arg0 : DevRef τ sig) ∉ op.writes :=
  List.forall_iff_forall_mem.mp (by keeps_pass)
theorem hostOps1_keeps_arg1 : ∀ op ∈ (hostOps1 : List (HloOp τ sig (Elt F))), (Proc.devRef .tc main_arg1 : DevRef τ sig) ∉ op.writes :=
  List.forall_iff_forall_mem.mp (by keeps_pass)
theorem hostOps1_keeps_arg2 : ∀ op ∈ (hostOps1 : List (HloOp τ sig (Elt F))), (Proc.devRef .tc main_arg2 : DevRef τ sig) ∉ op.writes :=
  List.forall_iff_forall_mem.mp (by keeps_pass)
theorem hostOps1_keeps_arg3 : ∀ op ∈ (hostOps1 : List (HloOp τ sig (Elt F))), (Proc.devRef .tc main_arg3 : DevRef τ sig) ∉ op.writes :=
  List.forall_iff_forall_mem.mp (by keeps_pass)
theorem hostOps2_keeps_arg0 : ∀ op ∈ (hostOps2 : List (HloOp τ sig (Elt F))), (Proc.devRef .tc main_arg0 : DevRef τ sig) ∉ op.writes :=
  List.forall_iff_forall_mem.mp (by keeps_pass)
theorem hostOps2_keeps_arg1 : ∀ op ∈ (hostOps2 : List (HloOp τ sig (Elt F))), (Proc.devRef .tc main_arg1 : DevRef τ sig) ∉ op.writes :=
  List.forall_iff_forall_mem.mp (by keeps_pass)
theorem hostOps2_keeps_arg2 : ∀ op ∈ (hostOps2 : List (HloOp τ sig (Elt F))), (Proc.devRef .tc main_arg2 : DevRef τ sig) ∉ op.writes :=
  List.forall_iff_forall_mem.mp (by keeps_pass)
theorem hostOps2_keeps_arg3 : ∀ op ∈ (hostOps2 : List (HloOp τ sig (Elt F))), (Proc.devRef .tc main_arg3 : DevRef τ sig) ∉ op.writes :=
  List.forall_iff_forall_mem.mp (by keeps_pass)
theorem hostOps3_keeps_arg0 : ∀ op ∈ (hostOps3 : List (HloOp τ sig (Elt F))), (Proc.devRef .tc main_arg0 : DevRef τ sig) ∉ op.writes :=
  List.forall_iff_forall_mem.mp (by keeps_pass)
theorem hostOps3_keeps_arg1 : ∀ op ∈ (hostOps3 : List (HloOp τ sig (Elt F))), (Proc.devRef .tc main_arg1 : DevRef τ sig) ∉ op.writes :=
  List.forall_iff_forall_mem.mp (by keeps_pass)
theorem hostOps3_keeps_arg2 : ∀ op ∈ (hostOps3 : List (HloOp τ sig (Elt F))), (Proc.devRef .tc main_arg2 : DevRef τ sig) ∉ op.writes :=
  List.forall_iff_forall_mem.mp (by keeps_pass)
theorem hostOps3_keeps_arg3 : ∀ op ∈ (hostOps3 : List (HloOp τ sig (Elt F))), (Proc.devRef .tc main_arg3 : DevRef τ sig) ∉ op.writes :=
  List.forall_iff_forall_mem.mp (by keeps_pass)

end Cert.KernelIdeal.Hand

end
-- ==== Proof.KFrame.R0.lean ====
import proofs.«162729_j22162031247387_1_alg».proof.Proof.Gen.KernelIdeal.Launch
import proofs.«162729_j22162031247387_1_alg».proof.Proof.Gen.KernelIdeal.Skeleton
import proofs.«162729_j22162031247387_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Sampling call 0 of @main (pipeline 0), at the buffer contents `V` it is entered with

One grid point of the call reads a block of 1280 coordinate pairs (window 0) and the whole feature plane of
32 channels (window 1), and writes a block of 32 rows of 1280 samples (window 2). Everything here is stated at a
parameter `V`, the TensorCore's buffer contents when the call is entered: the windows' blocks read off `V`,
what the body leaves in the output block as a function of the two input blocks, the body's triple, and the
pipeline's proof data with its body obligation. -/

-- membership in a rectangle of these extents is decided by structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the block already there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

The coordinate block is read whole; channel `c`'s slab of the plane and row `c` of the output block are the unit
rectangles at offset `c` along the leading axis. -/

abbrev r0_0 : Rect S1280x2 := Rect.unit (s := S1280x2) ![0, 0] S1280x2.size inb_S1280x2_S1280x2_0_0
abbrev r0_1 : Rect S32x512x512 := Rect.unit (s := S32x512x512) ![0, 0, 0] S1x512x512.size inb_S32x512x512_S1x512x512_0_0_0
abbrev r0_2 : Rect S32x1280 := Rect.unit (s := S32x1280) ![0, 0] S1x1280.size inb_S32x1280_S1x1280_0_0
abbrev r0_3 : Rect S32x512x512 := Rect.unit (s := S32x512x512) ![1, 0, 0] S1x512x512.size inb_S32x512x512_S1x512x512_1_0_0
abbrev r0_4 : Rect S32x1280 := Rect.unit (s := S32x1280) ![1, 0] S1x1280.size inb_S32x1280_S1x1280_1_0
abbrev r0_5 : Rect S32x512x512 := Rect.unit (s := S32x512x512) ![2, 0, 0] S1x512x512.size inb_S32x512x512_S1x512x512_2_0_0
abbrev r0_6 : Rect S32x1280 := Rect.unit (s := S32x1280) ![2, 0] S1x1280.size inb_S32x1280_S1x1280_2_0
abbrev r0_7 : Rect S32x512x512 := Rect.unit (s := S32x512x512) ![3, 0, 0] S1x512x512.size inb_S32x512x512_S1x512x512_3_0_0
abbrev r0_8 : Rect S32x1280 := Rect.unit (s := S32x1280) ![3, 0] S1x1280.size inb_S32x1280_S1x1280_3_0
abbrev r0_9 : Rect S32x512x512 := Rect.unit (s := S32x512x512) ![4, 0, 0] S1x512x512.size inb_S32x512x512_S1x512x512_4_0_0
abbrev r0_10 : Rect S32x1280 := Rect.unit (s := S32x1280) ![4, 0] S1x1280.size inb_S32x1280_S1x1280_4_0
abbrev r0_11 : Rect S32x512x512 := Rect.unit (s := S32x512x512) ![5, 0, 0] S1x512x512.size inb_S32x512x512_S1x512x512_5_0_0
abbrev r0_12 : Rect S32x1280 := Rect.unit (s := S32x1280) ![5, 0] S1x1280.size inb_S32x1280_S1x1280_5_0
abbrev r0_13 : Rect S32x512x512 := Rect.unit (s := S32x512x512) ![6, 0, 0] S1x512x512.size inb_S32x512x512_S1x512x512_6_0_0
abbrev r0_14 : Rect S32x1280 := Rect.unit (s := S32x1280) ![6, 0] S1x1280.size inb_S32x1280_S1x1280_6_0
abbrev r0_15 : Rect S32x512x512 := Rect.unit (s := S32x512x512) ![7, 0, 0] S1x512x512.size inb_S32x512x512_S1x512x512_7_0_0
abbrev r0_16 : Rect S32x1280 := Rect.unit (s := S32x1280) ![7, 0] S1x1280.size inb_S32x1280_S1x1280_7_0
abbrev r0_17 : Rect S32x512x512 := Rect.unit (s := S32x512x512) ![8, 0, 0] S1x512x512.size inb_S32x512x512_S1x512x512_8_0_0
abbrev r0_18 : Rect S32x1280 := Rect.unit (s := S32x1280) ![8, 0] S1x1280.size inb_S32x1280_S1x1280_8_0
abbrev r0_19 : Rect S32x512x512 := Rect.unit (s := S32x512x512) ![9, 0, 0] S1x512x512.size inb_S32x512x512_S1x512x512_9_0_0
abbrev r0_20 : Rect S32x1280 := Rect.unit (s := S32x1280) ![9, 0] S1x1280.size inb_S32x1280_S1x1280_9_0
abbrev r0_21 : Rect S32x512x512 := Rect.unit (s := S32x512x512) ![10, 0, 0] S1x512x512.size inb_S32x512x512_S1x512x512_10_0_0
abbrev r0_22 : Rect S32x1280 := Rect.unit (s := S32x1280) ![10, 0] S1x1280.size inb_S32x1280_S1x1280_10_0
abbrev r0_23 : Rect S32x512x512 := Rect.unit (s := S32x512x512) ![11, 0, 0] S1x512x512.size inb_S32x512x512_S1x512x512_11_0_0
abbrev r0_24 : Rect S32x1280 := Rect.unit (s := S32x1280) ![11, 0] S1x1280.size inb_S32x1280_S1x1280_11_0
abbrev r0_25 : Rect S32x512x512 := Rect.unit (s := S32x512x512) ![12, 0, 0] S1x512x512.size inb_S32x512x512_S1x512x512_12_0_0
abbrev r0_26 : Rect S32x1280 := Rect.unit (s := S32x1280) ![12, 0] S1x1280.size inb_S32x1280_S1x1280_12_0
abbrev r0_27 : Rect S32x512x512 := Rect.unit (s := S32x512x512) ![13, 0, 0] S1x512x512.size inb_S32x512x512_S1x512x512_13_0_0
abbrev r0_28 : Rect S32x1280 := Rect.unit (s := S32x1280) ![13, 0] S1x1280.size inb_S32x1280_S1x1280_13_0
abbrev r0_29 : Rect S32x512x512 := Rect.unit (s := S32x512x512) ![14, 0, 0] S1x512x512.size inb_S32x512x512_S1x512x512_14_0_0
abbrev r0_30 : Rect S32x1280 := Rect.unit (s := S32x1280) ![14, 0] S1x1280.size inb_S32x1280_S1x1280_14_0
abbrev r0_31 : Rect S32x512x512 := Rect.unit (s := S32x512x512) ![15, 0, 0] S1x512x512.size inb_S32x512x512_S1x512x512_15_0_0
abbrev r0_32 : Rect S32x1280 := Rect.unit (s := S32x1280) ![15, 0] S1x1280.size inb_S32x1280_S1x1280_15_0
abbrev r0_33 : Rect S32x512x512 := Rect.unit (s := S32x512x512) ![16, 0, 0] S1x512x512.size inb_S32x512x512_S1x512x512_16_0_0
abbrev r0_34 : Rect S32x1280 := Rect.unit (s := S32x1280) ![16, 0] S1x1280.size inb_S32x1280_S1x1280_16_0
abbrev r0_35 : Rect S32x512x512 := Rect.unit (s := S32x512x512) ![17, 0, 0] S1x512x512.size inb_S32x512x512_S1x512x512_17_0_0
abbrev r0_36 : Rect S32x1280 := Rect.unit (s := S32x1280) ![17, 0] S1x1280.size inb_S32x1280_S1x1280_17_0
abbrev r0_37 : Rect S32x512x512 := Rect.unit (s := S32x512x512) ![18, 0, 0] S1x512x512.size inb_S32x512x512_S1x512x512_18_0_0
abbrev r0_38 : Rect S32x1280 := Rect.unit (s := S32x1280) ![18, 0] S1x1280.size inb_S32x1280_S1x1280_18_0
abbrev r0_39 : Rect S32x512x512 := Rect.unit (s := S32x512x512) ![19, 0, 0] S1x512x512.size inb_S32x512x512_S1x512x512_19_0_0
abbrev r0_40 : Rect S32x1280 := Rect.unit (s := S32x1280) ![19, 0] S1x1280.size inb_S32x1280_S1x1280_19_0
abbrev r0_41 : Rect S32x512x512 := Rect.unit (s := S32x512x512) ![20, 0, 0] S1x512x512.size inb_S32x512x512_S1x512x512_20_0_0
abbrev r0_42 : Rect S32x1280 := Rect.unit (s := S32x1280) ![20, 0] S1x1280.size inb_S32x1280_S1x1280_20_0
abbrev r0_43 : Rect S32x512x512 := Rect.unit (s := S32x512x512) ![21, 0, 0] S1x512x512.size inb_S32x512x512_S1x512x512_21_0_0
abbrev r0_44 : Rect S32x1280 := Rect.unit (s := S32x1280) ![21, 0] S1x1280.size inb_S32x1280_S1x1280_21_0
abbrev r0_45 : Rect S32x512x512 := Rect.unit (s := S32x512x512) ![22, 0, 0] S1x512x512.size inb_S32x512x512_S1x512x512_22_0_0
abbrev r0_46 : Rect S32x1280 := Rect.unit (s := S32x1280) ![22, 0] S1x1280.size inb_S32x1280_S1x1280_22_0
abbrev r0_47 : Rect S32x512x512 := Rect.unit (s := S32x512x512) ![23, 0, 0] S1x512x512.size inb_S32x512x512_S1x512x512_23_0_0
abbrev r0_48 : Rect S32x1280 := Rect.unit (s := S32x1280) ![23, 0] S1x1280.size inb_S32x1280_S1x1280_23_0
abbrev r0_49 : Rect S32x512x512 := Rect.unit (s := S32x512x512) ![24, 0, 0] S1x512x512.size inb_S32x512x512_S1x512x512_24_0_0
abbrev r0_50 : Rect S32x1280 := Rect.unit (s := S32x1280) ![24, 0] S1x1280.size inb_S32x1280_S1x1280_24_0
abbrev r0_51 : Rect S32x512x512 := Rect.unit (s := S32x512x512) ![25, 0, 0] S1x512x512.size inb_S32x512x512_S1x512x512_25_0_0
abbrev r0_52 : Rect S32x1280 := Rect.unit (s := S32x1280) ![25, 0] S1x1280.size inb_S32x1280_S1x1280_25_0
abbrev r0_53 : Rect S32x512x512 := Rect.unit (s := S32x512x512) ![26, 0, 0] S1x512x512.size inb_S32x512x512_S1x512x512_26_0_0
abbrev r0_54 : Rect S32x1280 := Rect.unit (s := S32x1280) ![26, 0] S1x1280.size inb_S32x1280_S1x1280_26_0
abbrev r0_55 : Rect S32x512x512 := Rect.unit (s := S32x512x512) ![27, 0, 0] S1x512x512.size inb_S32x512x512_S1x512x512_27_0_0
abbrev r0_56 : Rect S32x1280 := Rect.unit (s := S32x1280) ![27, 0] S1x1280.size inb_S32x1280_S1x1280_27_0
abbrev r0_57 : Rect S32x512x512 := Rect.unit (s := S32x512x512) ![28, 0, 0] S1x512x512.size inb_S32x512x512_S1x512x512_28_0_0
abbrev r0_58 : Rect S32x1280 := Rect.unit (s := S32x1280) ![28, 0] S1x1280.size inb_S32x1280_S1x1280_28_0
abbrev r0_59 : Rect S32x512x512 := Rect.unit (s := S32x512x512) ![29, 0, 0] S1x512x512.size inb_S32x512x512_S1x512x512_29_0_0
abbrev r0_60 : Rect S32x1280 := Rect.unit (s := S32x1280) ![29, 0] S1x1280.size inb_S32x1280_S1x1280_29_0
abbrev r0_61 : Rect S32x512x512 := Rect.unit (s := S32x512x512) ![30, 0, 0] S1x512x512.size inb_S32x512x512_S1x512x512_30_0_0
abbrev r0_62 : Rect S32x1280 := Rect.unit (s := S32x1280) ![30, 0] S1x1280.size inb_S32x1280_S1x1280_30_0
abbrev r0_63 : Rect S32x512x512 := Rect.unit (s := S32x512x512) ![31, 0, 0] S1x512x512.size inb_S32x512x512_S1x512x512_31_0_0
abbrev r0_64 : Rect S32x1280 := Rect.unit (s := S32x1280) ![31, 0] S1x1280.size inb_S32x1280_S1x1280_31_0

/-! ## What the body leaves in the output window's buffer -/

/-- The two interpolation-weight matrices (1280 points by 512 lanes) the body builds once from the coordinate
    block and uses for every channel: the one that multiplies the matrix product elementwise, -/
abbrev v0_50 (x0 : Vec F S1280x2 .f32) : FVec F S1280x512 .f32 :=
  k0_pay16 (k0_pay7 (View.ld x0 r0_0)) (k0_pay13 (View.ld x0 r0_0)) k0_pay14 (k0_pay15 (View.ld x0 r0_0))
/-- and the one that is the left factor of the matrix product. -/
abbrev v0_66 (x0 : Vec F S1280x2 .f32) : FVec F S1280x512 .bf16 :=
  k0_pay17 (k0_pay8 (View.ld x0 r0_0)) (k0_pay9 (View.ld x0 r0_0)) (k0_pay11 (View.ld x0 r0_0)) (k0_pay12 (View.ld x0 r0_0)) (iota .tc S1x512 32 [1] iota_S1x512_d1_w32)

/-- Window 2's staging buffer after the body, from the input windows' blocks: its 32 stores (one row per
    channel) as pieces, last first; row `c`'s payload is a function of the coordinate block and of slab `c` alone. -/
def out0_2 (x0 : Vec F S1280x2 .f32) (x1 : Vec F S32x512x512 .bf16) : Vec F S32x1280 .f32 :=
  View.canon [⟨r0_64, k0_pay1 (k0_pay55 (v0_50 x0) (v0_66 x0) (View.ld x1 r0_63))⟩,
    ⟨r0_62, k0_pay54 (v0_50 x0) (v0_66 x0) (View.ld x1 r0_61)⟩,
    ⟨r0_60, k0_pay53 (v0_50 x0) (v0_66 x0) (View.ld x1 r0_59)⟩,
    ⟨r0_58, k0_pay52 (k0_pay51 (v0_50 x0) (v0_66 x0) (View.ld x1 r0_57))⟩,
    ⟨r0_56, k0_pay50 (v0_50 x0) (v0_66 x0) (View.ld x1 r0_55)⟩,
    ⟨r0_54, k0_pay49 (v0_50 x0) (v0_66 x0) (View.ld x1 r0_53)⟩,
    ⟨r0_52, k0_pay48 (v0_50 x0) (v0_66 x0) (View.ld x1 r0_51)⟩,
    ⟨r0_50, k0_pay47 (k0_pay46 (v0_50 x0) (v0_66 x0) (View.ld x1 r0_49))⟩,
    ⟨r0_48, k0_pay45 (v0_50 x0) (v0_66 x0) (View.ld x1 r0_47)⟩,
    ⟨r0_46, k0_pay44 (v0_50 x0) (v0_66 x0) (View.ld x1 r0_45)⟩,
    ⟨r0_44, k0_pay43 (v0_50 x0) (v0_66 x0) (View.ld x1 r0_43)⟩,
    ⟨r0_42, k0_pay42 (v0_50 x0) (v0_66 x0) (View.ld x1 r0_41)⟩,
    ⟨r0_40, k0_pay41 (v0_50 x0) (v0_66 x0) (View.ld x1 r0_39)⟩,
    ⟨r0_38, k0_pay40 (v0_50 x0) (v0_66 x0) (View.ld x1 r0_37)⟩,
    ⟨r0_36, k0_pay39 (v0_50 x0) (v0_66 x0) (k0_pay38 (View.ld x1 r0_35)) (constant S1280x512 .f32 0x00000000#32)⟩,
    ⟨r0_34, k0_pay37 (v0_50 x0) (v0_66 x0) (View.ld x1 r0_33)⟩,
    ⟨r0_32, k0_pay36 (v0_50 x0) (v0_66 x0) (View.ld x1 r0_31)⟩,
    ⟨r0_30, k0_pay35 (v0_50 x0) (v0_66 x0) (View.ld x1 r0_29)⟩,
    ⟨r0_28, k0_pay34 (k0_pay33 (v0_50 x0) (v0_66 x0) (View.ld x1 r0_27))⟩,
    ⟨r0_26, k0_pay32 (v0_50 x0) (v0_66 x0) (View.ld x1 r0_25)⟩,
    ⟨r0_24, k0_pay31 (v0_50 x0) (v0_66 x0) (View.ld x1 r0_23)⟩,
    ⟨r0_22, k0_pay30 (v0_50 x0) (v0_66 x0) (View.ld x1 r0_21)⟩,
    ⟨r0_20, k0_pay29 (k0_pay28 (v0_50 x0) (v0_66 x0) (View.ld x1 r0_19))⟩,
    ⟨r0_18, k0_pay27 (v0_50 x0) (v0_66 x0) (View.ld x1 r0_17)⟩,
    ⟨r0_16, k0_pay26 (v0_50 x0) (v0_66 x0) (View.ld x1 r0_15)⟩,
    ⟨r0_14, k0_pay25 (v0_50 x0) (v0_66 x0) (View.ld x1 r0_13)⟩,
    ⟨r0_12, k0_pay24 (v0_50 x0) (v0_66 x0) (View.ld x1 r0_11)⟩,
    ⟨r0_10, k0_pay23 (v0_50 x0) (v0_66 x0) (View.ld x1 r0_9)⟩,
    ⟨r0_8, k0_pay22 (v0_50 x0) (v0_66 x0) (View.ld x1 r0_7)⟩,
    ⟨r0_6, k0_pay21 (v0_50 x0) (v0_66 x0) (k0_pay20 (View.ld x1 r0_5)) (constant S1280x512 .f32 0x00000000#32)⟩,
    ⟨r0_4, k0_pay19 (k0_pay7 (View.ld x0 r0_0)) (k0_pay8 (View.ld x0 r0_0)) (k0_pay9 (View.ld x0 r0_0)) (k0_pay11 (View.ld x0 r0_0)) (k0_pay12 (View.ld x0 r0_0)) (iota .tc S1x512 32 [1] iota_S1x512_d1_w32) (k0_pay13 (View.ld x0 r0_0)) k0_pay14 (k0_pay15 (View.ld x0 r0_0)) (View.ld x1 r0_3)⟩,
    ⟨r0_2, k0_pay18 (k0_pay7 (View.ld x0 r0_0)) (k0_pay8 (View.ld x0 r0_0)) (k0_pay9 (View.ld x0 r0_0)) (k0_pay11 (View.ld x0 r0_0)) (k0_pay12 (View.ld x0 r0_0)) (iota .tc S1x512 32 [1] iota_S1x512_d1_w32) (k0_pay13 (View.ld x0 r0_0)) k0_pay14 (k0_pay15 (View.ld x0 r0_0)) (View.ld x1 r0_1)⟩]

/-- Its stores tile the buffer (one row each, checked by evaluation), so they cover it. -/
theorem cover0_2 (p0 : Vec F S1x1280 .f32) (p1 : Vec F S1x1280 .f32) (p2 : Vec F S1x1280 .f32) (p3 : Vec F S1x1280 .f32) (p4 : Vec F S1x1280 .f32) (p5 : Vec F S1x1280 .f32) (p6 : Vec F S1x1280 .f32) (p7 : Vec F S1x1280 .f32) (p8 : Vec F S1x1280 .f32) (p9 : Vec F S1x1280 .f32) (p10 : Vec F S1x1280 .f32) (p11 : Vec F S1x1280 .f32) (p12 : Vec F S1x1280 .f32) (p13 : Vec F S1x1280 .f32) (p14 : Vec F S1x1280 .f32) (p15 : Vec F S1x1280 .f32) (p16 : Vec F S1x1280 .f32) (p17 : Vec F S1x1280 .f32) (p18 : Vec F S1x1280 .f32) (p19 : Vec F S1x1280 .f32) (p20 : Vec F S1x1280 .f32) (p21 : Vec F S1x1280 .f32) (p22 : Vec F S1x1280 .f32) (p23 : Vec F S1x1280 .f32) (p24 : Vec F S1x1280 .f32) (p25 : Vec F S1x1280 .f32) (p26 : Vec F S1x1280 .f32) (p27 : Vec F S1x1280 .f32) (p28 : Vec F S1x1280 .f32) (p29 : Vec F S1x1280 .f32) (p30 : Vec F S1x1280 .f32) (p31 : Vec F S1x1280 .f32) (y : S32x1280.Idx) :
    ∃ pc ∈ ([⟨r0_64, p0⟩, ⟨r0_62, p1⟩, ⟨r0_60, p2⟩, ⟨r0_58, p3⟩, ⟨r0_56, p4⟩, ⟨r0_54, p5⟩, ⟨r0_52, p6⟩, ⟨r0_50, p7⟩, ⟨r0_48, p8⟩, ⟨r0_46, p9⟩, ⟨r0_44, p10⟩, ⟨r0_42, p11⟩, ⟨r0_40, p12⟩, ⟨r0_38, p13⟩, ⟨r0_36, p14⟩, ⟨r0_34, p15⟩, ⟨r0_32, p16⟩, ⟨r0_30, p17⟩, ⟨r0_28, p18⟩, ⟨r0_26, p19⟩, ⟨r0_24, p20⟩, ⟨r0_22, p21⟩, ⟨r0_20, p22⟩, ⟨r0_18, p23⟩, ⟨r0_16, p24⟩, ⟨r0_14, p25⟩, ⟨r0_12, p26⟩, ⟨r0_10, p27⟩, ⟨r0_8, p28⟩, ⟨r0_6, p29⟩, ⟨r0_4, p30⟩, ⟨r0_2, p31⟩] : List (View.Piece (Elt F) S32x1280 .f32)), y ∈ pc.1.set :=
  View.cover_of_tiled [⟨r0_64, p0⟩, ⟨r0_62, p1⟩, ⟨r0_60, p2⟩, ⟨r0_58, p3⟩, ⟨r0_56, p4⟩, ⟨r0_54, p5⟩, ⟨r0_52, p6⟩, ⟨r0_50, p7⟩, ⟨r0_48, p8⟩, ⟨r0_46, p9⟩, ⟨r0_44, p10⟩, ⟨r0_42, p11⟩, ⟨r0_40, p12⟩, ⟨r0_38, p13⟩, ⟨r0_36, p14⟩, ⟨r0_34, p15⟩, ⟨r0_32, p16⟩, ⟨r0_30, p17⟩, ⟨r0_28, p18⟩, ⟨r0_26, p19⟩, ⟨r0_24, p20⟩, ⟨r0_22, p21⟩, ⟨r0_20, p22⟩, ⟨r0_18, p23⟩, ⟨r0_16, p24⟩, ⟨r0_14, p25⟩, ⟨r0_12, p26⟩, ⟨r0_10, p27⟩, ⟨r0_8, p28⟩, ⟨r0_6, p29⟩, ⟨r0_4, p30⟩, ⟨r0_2, p31⟩] S1x1280.size (by rfl) y

/-! ## The body's triple -/

set_option maxHeartbeats 8000000 in
/-- The kernel body on whole staging memrefs, the inputs' at read contents `x0`, `x1` and the output's at anything,
    runs to the continuation holding the inputs' as they were and the output's at `out0_2` of the inputs: the printed
    function and its parts are sequences of loads and stores over named payloads, which are run in order; each
    load of an output row before its store reads a value the body never uses. -/
theorem sound_kernel0 (c : Dev nD) (E : Set ℕ) (i : grid0.Coords) (arg1 : Memref sig .tc .vmem S1280x2 .f32) (harg1 : arg1.IsWhole) (arg2 : Memref sig .tc .vmem S32x512x512 .bf16) (harg2 : arg2.IsWhole) (arg3 : Memref sig .tc .vmem S32x1280 .f32) (harg3 : arg3.IsWhole)
    (x0 : Vec F S1280x2 .f32) (x1 : Vec F S32x512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__sample_kernel i arg1 harg1 arg2 harg2 arg3 harg3) K := by
  simp only [cc0__sample_kernel_eq_skeleton]; unfold cc0__sample_kernel_skel
  simp only [k0_part10_eq_skeleton]; unfold k0_part10_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _ _ _ _ _ _ _ _ _ _ _ _ _ _ _ _ _ _ _ _ _ _ _ _ _ _ _ _ _ _ _ _)

/-! ## The pipeline's proof data -/

/-- The proof data of pipeline 0 on core `c`: the arrays as the call finds them (`V`); after the body at point
    `t` each input's buffer at its block and the output's at `out0_2` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KFrame.R1.lean ====
import proofs.«162729_j22162031247387_1_alg».proof.Proof.Gen.KernelIdeal.Launch
import proofs.«162729_j22162031247387_1_alg».proof.Proof.Gen.KernelIdeal.Skeleton
import proofs.«162729_j22162031247387_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Sampling call 1 of @main (pipeline 1), at the buffer contents `V` it is entered with

One grid point of the call reads a block of 1280 coordinate pairs (window 0) and the whole feature plane of
32 channels (window 1), and writes a block of 32 rows of 1280 samples (window 2). Everything here is stated at a
parameter `V`, the TensorCore's buffer contents when the call is entered: the windows' blocks read off `V`,
what the body leaves in the output block as a function of the two input blocks, the body's triple, and the
pipeline's proof data with its body obligation. -/

-- membership in a rectangle of these extents is decided by structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

The coordinate block is read whole; channel `c`'s slab of the plane and row `c` of the output block are the unit
rectangles at offset `c` along the leading axis. -/

abbrev r1_0 : Rect S1280x2 := Rect.unit (s := S1280x2) ![0, 0] S1280x2.size inb_S1280x2_S1280x2_0_0
abbrev r1_1 : Rect S32x512x512 := Rect.unit (s := S32x512x512) ![0, 0, 0] S1x512x512.size inb_S32x512x512_S1x512x512_0_0_0
abbrev r1_2 : Rect S32x1280 := Rect.unit (s := S32x1280) ![0, 0] S1x1280.size inb_S32x1280_S1x1280_0_0
abbrev r1_3 : Rect S32x512x512 := Rect.unit (s := S32x512x512) ![1, 0, 0] S1x512x512.size inb_S32x512x512_S1x512x512_1_0_0
abbrev r1_4 : Rect S32x1280 := Rect.unit (s := S32x1280) ![1, 0] S1x1280.size inb_S32x1280_S1x1280_1_0
abbrev r1_5 : Rect S32x512x512 := Rect.unit (s := S32x512x512) ![2, 0, 0] S1x512x512.size inb_S32x512x512_S1x512x512_2_0_0
abbrev r1_6 : Rect S32x1280 := Rect.unit (s := S32x1280) ![2, 0] S1x1280.size inb_S32x1280_S1x1280_2_0
abbrev r1_7 : Rect S32x512x512 := Rect.unit (s := S32x512x512) ![3, 0, 0] S1x512x512.size inb_S32x512x512_S1x512x512_3_0_0
abbrev r1_8 : Rect S32x1280 := Rect.unit (s := S32x1280) ![3, 0] S1x1280.size inb_S32x1280_S1x1280_3_0
abbrev r1_9 : Rect S32x512x512 := Rect.unit (s := S32x512x512) ![4, 0, 0] S1x512x512.size inb_S32x512x512_S1x512x512_4_0_0
abbrev r1_10 : Rect S32x1280 := Rect.unit (s := S32x1280) ![4, 0] S1x1280.size inb_S32x1280_S1x1280_4_0
abbrev r1_11 : Rect S32x512x512 := Rect.unit (s := S32x512x512) ![5, 0, 0] S1x512x512.size inb_S32x512x512_S1x512x512_5_0_0
abbrev r1_12 : Rect S32x1280 := Rect.unit (s := S32x1280) ![5, 0] S1x1280.size inb_S32x1280_S1x1280_5_0
abbrev r1_13 : Rect S32x512x512 := Rect.unit (s := S32x512x512) ![6, 0, 0] S1x512x512.size inb_S32x512x512_S1x512x512_6_0_0
abbrev r1_14 : Rect S32x1280 := Rect.unit (s := S32x1280) ![6, 0] S1x1280.size inb_S32x1280_S1x1280_6_0
abbrev r1_15 : Rect S32x512x512 := Rect.unit (s := S32x512x512) ![7, 0, 0] S1x512x512.size inb_S32x512x512_S1x512x512_7_0_0
abbrev r1_16 : Rect S32x1280 := Rect.unit (s := S32x1280) ![7, 0] S1x1280.size inb_S32x1280_S1x1280_7_0
abbrev r1_17 : Rect S32x512x512 := Rect.unit (s := S32x512x512) ![8, 0, 0] S1x512x512.size inb_S32x512x512_S1x512x512_8_0_0
abbrev r1_18 : Rect S32x1280 := Rect.unit (s := S32x1280) ![8, 0] S1x1280.size inb_S32x1280_S1x1280_8_0
abbrev r1_19 : Rect S32x512x512 := Rect.unit (s := S32x512x512) ![9, 0, 0] S1x512x512.size inb_S32x512x512_S1x512x512_9_0_0
abbrev r1_20 : Rect S32x1280 := Rect.unit (s := S32x1280) ![9, 0] S1x1280.size inb_S32x1280_S1x1280_9_0
abbrev r1_21 : Rect S32x512x512 := Rect.unit (s := S32x512x512) ![10, 0, 0] S1x512x512.size inb_S32x512x512_S1x512x512_10_0_0
abbrev r1_22 : Rect S32x1280 := Rect.unit (s := S32x1280) ![10, 0] S1x1280.size inb_S32x1280_S1x1280_10_0
abbrev r1_23 : Rect S32x512x512 := Rect.unit (s := S32x512x512) ![11, 0, 0] S1x512x512.size inb_S32x512x512_S1x512x512_11_0_0
abbrev r1_24 : Rect S32x1280 := Rect.unit (s := S32x1280) ![11, 0] S1x1280.size inb_S32x1280_S1x1280_11_0
abbrev r1_25 : Rect S32x512x512 := Rect.unit (s := S32x512x512) ![12, 0, 0] S1x512x512.size inb_S32x512x512_S1x512x512_12_0_0
abbrev r1_26 : Rect S32x1280 := Rect.unit (s := S32x1280) ![12, 0] S1x1280.size inb_S32x1280_S1x1280_12_0
abbrev r1_27 : Rect S32x512x512 := Rect.unit (s := S32x512x512) ![13, 0, 0] S1x512x512.size inb_S32x512x512_S1x512x512_13_0_0
abbrev r1_28 : Rect S32x1280 := Rect.unit (s := S32x1280) ![13, 0] S1x1280.size inb_S32x1280_S1x1280_13_0
abbrev r1_29 : Rect S32x512x512 := Rect.unit (s := S32x512x512) ![14, 0, 0] S1x512x512.size inb_S32x512x512_S1x512x512_14_0_0
abbrev r1_30 : Rect S32x1280 := Rect.unit (s := S32x1280) ![14, 0] S1x1280.size inb_S32x1280_S1x1280_14_0
abbrev r1_31 : Rect S32x512x512 := Rect.unit (s := S32x512x512) ![15, 0, 0] S1x512x512.size inb_S32x512x512_S1x512x512_15_0_0
abbrev r1_32 : Rect S32x1280 := Rect.unit (s := S32x1280) ![15, 0] S1x1280.size inb_S32x1280_S1x1280_15_0
abbrev r1_33 : Rect S32x512x512 := Rect.unit (s := S32x512x512) ![16, 0, 0] S1x512x512.size inb_S32x512x512_S1x512x512_16_0_0
abbrev r1_34 : Rect S32x1280 := Rect.unit (s := S32x1280) ![16, 0] S1x1280.size inb_S32x1280_S1x1280_16_0
abbrev r1_35 : Rect S32x512x512 := Rect.unit (s := S32x512x512) ![17, 0, 0] S1x512x512.size inb_S32x512x512_S1x512x512_17_0_0
abbrev r1_36 : Rect S32x1280 := Rect.unit (s := S32x1280) ![17, 0] S1x1280.size inb_S32x1280_S1x1280_17_0
abbrev r1_37 : Rect S32x512x512 := Rect.unit (s := S32x512x512) ![18, 0, 0] S1x512x512.size inb_S32x512x512_S1x512x512_18_0_0
abbrev r1_38 : Rect S32x1280 := Rect.unit (s := S32x1280) ![18, 0] S1x1280.size inb_S32x1280_S1x1280_18_0
abbrev r1_39 : Rect S32x512x512 := Rect.unit (s := S32x512x512) ![19, 0, 0] S1x512x512.size inb_S32x512x512_S1x512x512_19_0_0
abbrev r1_40 : Rect S32x1280 := Rect.unit (s := S32x1280) ![19, 0] S1x1280.size inb_S32x1280_S1x1280_19_0
abbrev r1_41 : Rect S32x512x512 := Rect.unit (s := S32x512x512) ![20, 0, 0] S1x512x512.size inb_S32x512x512_S1x512x512_20_0_0
abbrev r1_42 : Rect S32x1280 := Rect.unit (s := S32x1280) ![20, 0] S1x1280.size inb_S32x1280_S1x1280_20_0
abbrev r1_43 : Rect S32x512x512 := Rect.unit (s := S32x512x512) ![21, 0, 0] S1x512x512.size inb_S32x512x512_S1x512x512_21_0_0
abbrev r1_44 : Rect S32x1280 := Rect.unit (s := S32x1280) ![21, 0] S1x1280.size inb_S32x1280_S1x1280_21_0
abbrev r1_45 : Rect S32x512x512 := Rect.unit (s := S32x512x512) ![22, 0, 0] S1x512x512.size inb_S32x512x512_S1x512x512_22_0_0
abbrev r1_46 : Rect S32x1280 := Rect.unit (s := S32x1280) ![22, 0] S1x1280.size inb_S32x1280_S1x1280_22_0
abbrev r1_47 : Rect S32x512x512 := Rect.unit (s := S32x512x512) ![23, 0, 0] S1x512x512.size inb_S32x512x512_S1x512x512_23_0_0
abbrev r1_48 : Rect S32x1280 := Rect.unit (s := S32x1280) ![23, 0] S1x1280.size inb_S32x1280_S1x1280_23_0
abbrev r1_49 : Rect S32x512x512 := Rect.unit (s := S32x512x512) ![24, 0, 0] S1x512x512.size inb_S32x512x512_S1x512x512_24_0_0
abbrev r1_50 : Rect S32x1280 := Rect.unit (s := S32x1280) ![24, 0] S1x1280.size inb_S32x1280_S1x1280_24_0
abbrev r1_51 : Rect S32x512x512 := Rect.unit (s := S32x512x512) ![25, 0, 0] S1x512x512.size inb_S32x512x512_S1x512x512_25_0_0
abbrev r1_52 : Rect S32x1280 := Rect.unit (s := S32x1280) ![25, 0] S1x1280.size inb_S32x1280_S1x1280_25_0
abbrev r1_53 : Rect S32x512x512 := Rect.unit (s := S32x512x512) ![26, 0, 0] S1x512x512.size inb_S32x512x512_S1x512x512_26_0_0
abbrev r1_54 : Rect S32x1280 := Rect.unit (s := S32x1280) ![26, 0] S1x1280.size inb_S32x1280_S1x1280_26_0
abbrev r1_55 : Rect S32x512x512 := Rect.unit (s := S32x512x512) ![27, 0, 0] S1x512x512.size inb_S32x512x512_S1x512x512_27_0_0
abbrev r1_56 : Rect S32x1280 := Rect.unit (s := S32x1280) ![27, 0] S1x1280.size inb_S32x1280_S1x1280_27_0
abbrev r1_57 : Rect S32x512x512 := Rect.unit (s := S32x512x512) ![28, 0, 0] S1x512x512.size inb_S32x512x512_S1x512x512_28_0_0
abbrev r1_58 : Rect S32x1280 := Rect.unit (s := S32x1280) ![28, 0] S1x1280.size inb_S32x1280_S1x1280_28_0
abbrev r1_59 : Rect S32x512x512 := Rect.unit (s := S32x512x512) ![29, 0, 0] S1x512x512.size inb_S32x512x512_S1x512x512_29_0_0
abbrev r1_60 : Rect S32x1280 := Rect.unit (s := S32x1280) ![29, 0] S1x1280.size inb_S32x1280_S1x1280_29_0
abbrev r1_61 : Rect S32x512x512 := Rect.unit (s := S32x512x512) ![30, 0, 0] S1x512x512.size inb_S32x512x512_S1x512x512_30_0_0
abbrev r1_62 : Rect S32x1280 := Rect.unit (s := S32x1280) ![30, 0] S1x1280.size inb_S32x1280_S1x1280_30_0
abbrev r1_63 : Rect S32x512x512 := Rect.unit (s := S32x512x512) ![31, 0, 0] S1x512x512.size inb_S32x512x512_S1x512x512_31_0_0
abbrev r1_64 : Rect S32x1280 := Rect.unit (s := S32x1280) ![31, 0] S1x1280.size inb_S32x1280_S1x1280_31_0

/-! ## What the body leaves in the output window's buffer -/

/-- The two interpolation-weight matrices (1280 points by 512 lanes) the body builds once from the coordinate
    block and uses for every channel: the one that multiplies the matrix product elementwise, -/
abbrev v1_50 (x0 : Vec F S1280x2 .f32) : FVec F S1280x512 .f32 :=
  k1_pay16 (k1_pay7 (View.ld x0 r1_0)) (k1_pay13 (View.ld x0 r1_0)) k1_pay14 (k1_pay15 (View.ld x0 r1_0))
/-- and the one that is the left factor of the matrix product. -/
abbrev v1_66 (x0 : Vec F S1280x2 .f32) : FVec F S1280x512 .bf16 :=
  k1_pay17 (k1_pay8 (View.ld x0 r1_0)) (k1_pay9 (View.ld x0 r1_0)) (k1_pay11 (View.ld x0 r1_0)) (k1_pay12 (View.ld x0 r1_0)) (iota .tc S1x512 32 [1] iota_S1x512_d1_w32)

/-- Window 2's staging buffer after the body, from the input windows' blocks: its 32 stores (one row per
    channel) as pieces, last first; row `c`'s payload is a function of the coordinate block and of slab `c` alone. -/
def out1_2 (x0 : Vec F S1280x2 .f32) (x1 : Vec F S32x512x512 .bf16) : Vec F S32x1280 .f32 :=
  View.canon [⟨r1_64, k1_pay1 (k1_pay55 (v1_50 x0) (v1_66 x0) (View.ld x1 r1_63))⟩,
    ⟨r1_62, k1_pay54 (v1_50 x0) (v1_66 x0) (View.ld x1 r1_61)⟩,
    ⟨r1_60, k1_pay53 (v1_50 x0) (v1_66 x0) (View.ld x1 r1_59)⟩,
    ⟨r1_58, k1_pay52 (k1_pay51 (v1_50 x0) (v1_66 x0) (View.ld x1 r1_57))⟩,
    ⟨r1_56, k1_pay50 (v1_50 x0) (v1_66 x0) (View.ld x1 r1_55)⟩,
    ⟨r1_54, k1_pay49 (v1_50 x0) (v1_66 x0) (View.ld x1 r1_53)⟩,
    ⟨r1_52, k1_pay48 (v1_50 x0) (v1_66 x0) (View.ld x1 r1_51)⟩,
    ⟨r1_50, k1_pay47 (k1_pay46 (v1_50 x0) (v1_66 x0) (View.ld x1 r1_49))⟩,
    ⟨r1_48, k1_pay45 (v1_50 x0) (v1_66 x0) (View.ld x1 r1_47)⟩,
    ⟨r1_46, k1_pay44 (v1_50 x0) (v1_66 x0) (View.ld x1 r1_45)⟩,
    ⟨r1_44, k1_pay43 (v1_50 x0) (v1_66 x0) (View.ld x1 r1_43)⟩,
    ⟨r1_42, k1_pay42 (v1_50 x0) (v1_66 x0) (View.ld x1 r1_41)⟩,
    ⟨r1_40, k1_pay41 (v1_50 x0) (v1_66 x0) (View.ld x1 r1_39)⟩,
    ⟨r1_38, k1_pay40 (v1_50 x0) (v1_66 x0) (View.ld x1 r1_37)⟩,
    ⟨r1_36, k1_pay39 (v1_50 x0) (v1_66 x0) (k1_pay38 (View.ld x1 r1_35)) (constant S1280x512 .f32 0x00000000#32)⟩,
    ⟨r1_34, k1_pay37 (v1_50 x0) (v1_66 x0) (View.ld x1 r1_33)⟩,
    ⟨r1_32, k1_pay36 (v1_50 x0) (v1_66 x0) (View.ld x1 r1_31)⟩,
    ⟨r1_30, k1_pay35 (v1_50 x0) (v1_66 x0) (View.ld x1 r1_29)⟩,
    ⟨r1_28, k1_pay34 (k1_pay33 (v1_50 x0) (v1_66 x0) (View.ld x1 r1_27))⟩,
    ⟨r1_26, k1_pay32 (v1_50 x0) (v1_66 x0) (View.ld x1 r1_25)⟩,
    ⟨r1_24, k1_pay31 (v1_50 x0) (v1_66 x0) (View.ld x1 r1_23)⟩,
    ⟨r1_22, k1_pay30 (v1_50 x0) (v1_66 x0) (View.ld x1 r1_21)⟩,
    ⟨r1_20, k1_pay29 (k1_pay28 (v1_50 x0) (v1_66 x0) (View.ld x1 r1_19))⟩,
    ⟨r1_18, k1_pay27 (v1_50 x0) (v1_66 x0) (View.ld x1 r1_17)⟩,
    ⟨r1_16, k1_pay26 (v1_50 x0) (v1_66 x0) (View.ld x1 r1_15)⟩,
    ⟨r1_14, k1_pay25 (v1_50 x0) (v1_66 x0) (View.ld x1 r1_13)⟩,
    ⟨r1_12, k1_pay24 (v1_50 x0) (v1_66 x0) (View.ld x1 r1_11)⟩,
    ⟨r1_10, k1_pay23 (v1_50 x0) (v1_66 x0) (View.ld x1 r1_9)⟩,
    ⟨r1_8, k1_pay22 (v1_50 x0) (v1_66 x0) (View.ld x1 r1_7)⟩,
    ⟨r1_6, k1_pay21 (v1_50 x0) (v1_66 x0) (k1_pay20 (View.ld x1 r1_5)) (constant S1280x512 .f32 0x00000000#32)⟩,
    ⟨r1_4, k1_pay19 (k1_pay7 (View.ld x0 r1_0)) (k1_pay8 (View.ld x0 r1_0)) (k1_pay9 (View.ld x0 r1_0)) (k1_pay11 (View.ld x0 r1_0)) (k1_pay12 (View.ld x0 r1_0)) (iota .tc S1x512 32 [1] iota_S1x512_d1_w32) (k1_pay13 (View.ld x0 r1_0)) k1_pay14 (k1_pay15 (View.ld x0 r1_0)) (View.ld x1 r1_3)⟩,
    ⟨r1_2, k1_pay18 (k1_pay7 (View.ld x0 r1_0)) (k1_pay8 (View.ld x0 r1_0)) (k1_pay9 (View.ld x0 r1_0)) (k1_pay11 (View.ld x0 r1_0)) (k1_pay12 (View.ld x0 r1_0)) (iota .tc S1x512 32 [1] iota_S1x512_d1_w32) (k1_pay13 (View.ld x0 r1_0)) k1_pay14 (k1_pay15 (View.ld x0 r1_0)) (View.ld x1 r1_1)⟩]

/-- Its stores tile the buffer (one row each, checked by evaluation), so they cover it. -/
theorem cover1_2 (p0 : Vec F S1x1280 .f32) (p1 : Vec F S1x1280 .f32) (p2 : Vec F S1x1280 .f32) (p3 : Vec F S1x1280 .f32) (p4 : Vec F S1x1280 .f32) (p5 : Vec F S1x1280 .f32) (p6 : Vec F S1x1280 .f32) (p7 : Vec F S1x1280 .f32) (p8 : Vec F S1x1280 .f32) (p9 : Vec F S1x1280 .f32) (p10 : Vec F S1x1280 .f32) (p11 : Vec F S1x1280 .f32) (p12 : Vec F S1x1280 .f32) (p13 : Vec F S1x1280 .f32) (p14 : Vec F S1x1280 .f32) (p15 : Vec F S1x1280 .f32) (p16 : Vec F S1x1280 .f32) (p17 : Vec F S1x1280 .f32) (p18 : Vec F S1x1280 .f32) (p19 : Vec F S1x1280 .f32) (p20 : Vec F S1x1280 .f32) (p21 : Vec F S1x1280 .f32) (p22 : Vec F S1x1280 .f32) (p23 : Vec F S1x1280 .f32) (p24 : Vec F S1x1280 .f32) (p25 : Vec F S1x1280 .f32) (p26 : Vec F S1x1280 .f32) (p27 : Vec F S1x1280 .f32) (p28 : Vec F S1x1280 .f32) (p29 : Vec F S1x1280 .f32) (p30 : Vec F S1x1280 .f32) (p31 : Vec F S1x1280 .f32) (y : S32x1280.Idx) :
    ∃ pc ∈ ([⟨r1_64, p0⟩, ⟨r1_62, p1⟩, ⟨r1_60, p2⟩, ⟨r1_58, p3⟩, ⟨r1_56, p4⟩, ⟨r1_54, p5⟩, ⟨r1_52, p6⟩, ⟨r1_50, p7⟩, ⟨r1_48, p8⟩, ⟨r1_46, p9⟩, ⟨r1_44, p10⟩, ⟨r1_42, p11⟩, ⟨r1_40, p12⟩, ⟨r1_38, p13⟩, ⟨r1_36, p14⟩, ⟨r1_34, p15⟩, ⟨r1_32, p16⟩, ⟨r1_30, p17⟩, ⟨r1_28, p18⟩, ⟨r1_26, p19⟩, ⟨r1_24, p20⟩, ⟨r1_22, p21⟩, ⟨r1_20, p22⟩, ⟨r1_18, p23⟩, ⟨r1_16, p24⟩, ⟨r1_14, p25⟩, ⟨r1_12, p26⟩, ⟨r1_10, p27⟩, ⟨r1_8, p28⟩, ⟨r1_6, p29⟩, ⟨r1_4, p30⟩, ⟨r1_2, p31⟩] : List (View.Piece (Elt F) S32x1280 .f32)), y ∈ pc.1.set :=
  View.cover_of_tiled [⟨r1_64, p0⟩, ⟨r1_62, p1⟩, ⟨r1_60, p2⟩, ⟨r1_58, p3⟩, ⟨r1_56, p4⟩, ⟨r1_54, p5⟩, ⟨r1_52, p6⟩, ⟨r1_50, p7⟩, ⟨r1_48, p8⟩, ⟨r1_46, p9⟩, ⟨r1_44, p10⟩, ⟨r1_42, p11⟩, ⟨r1_40, p12⟩, ⟨r1_38, p13⟩, ⟨r1_36, p14⟩, ⟨r1_34, p15⟩, ⟨r1_32, p16⟩, ⟨r1_30, p17⟩, ⟨r1_28, p18⟩, ⟨r1_26, p19⟩, ⟨r1_24, p20⟩, ⟨r1_22, p21⟩, ⟨r1_20, p22⟩, ⟨r1_18, p23⟩, ⟨r1_16, p24⟩, ⟨r1_14, p25⟩, ⟨r1_12, p26⟩, ⟨r1_10, p27⟩, ⟨r1_8, p28⟩, ⟨r1_6, p29⟩, ⟨r1_4, p30⟩, ⟨r1_2, p31⟩] S1x1280.size (by rfl) y

/-! ## The body's triple -/

set_option maxHeartbeats 8000000 in
/-- The kernel body on whole staging memrefs, the inputs' at read contents `x0`, `x1` and the output's at anything,
    runs to the continuation holding the inputs' as they were and the output's at `out1_2` of the inputs: the printed
    function and its parts are sequences of loads and stores over named payloads, which are run in order; each
    load of an output row before its store reads a value the body never uses. -/
theorem sound_kernel1 (c : Dev nD) (E : Set ℕ) (i : grid1.Coords) (arg1 : Memref sig .tc .vmem S1280x2 .f32) (harg1 : arg1.IsWhole) (arg2 : Memref sig .tc .vmem S32x512x512 .bf16) (harg2 : arg2.IsWhole) (arg3 : Memref sig .tc .vmem S32x1280 .f32) (harg3 : arg3.IsWhole)
    (x0 : Vec F S1280x2 .f32) (x1 : Vec F S32x512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__sample_kernel i arg1 harg1 arg2 harg2 arg3 harg3) K := by
  simp only [cc1__sample_kernel_eq_skeleton]; unfold cc1__sample_kernel_skel
  simp only [k1_part10_eq_skeleton]; unfold k1_part10_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _ _ _ _ _ _ _ _ _ _ _ _ _ _ _ _ _ _ _ _ _ _ _ _ _ _ _ _ _)

/-! ## The pipeline's proof data -/

/-- The proof data of pipeline 1 on core `c`: the arrays as the call finds them (`V`); after the body at point
    `t` each input's buffer at its block and the output's at `out1_2` of the input blocks; the invariant leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so `sound_kernel1`
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KFrame.R2.lean ====
import proofs.«162729_j22162031247387_1_alg».proof.Proof.Gen.KernelIdeal.Launch
import proofs.«162729_j22162031247387_1_alg».proof.Proof.Gen.KernelIdeal.Skeleton
import proofs.«162729_j22162031247387_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Sampling call 2 of @main (pipeline 2), at the buffer contents `V` it is entered with

One grid point of the call reads a block of 1280 coordinate pairs (window 0) and the whole feature plane of
32 channels (window 1), and writes a block of 32 rows of 1280 samples (window 2). Everything here is stated at a
parameter `V`, the TensorCore's buffer contents when the call is entered: the windows' blocks read off `V`,
what the body leaves in the output block as a function of the two input blocks, the body's triple, and the
pipeline's proof data with its body obligation. -/

-- membership in a rectangle of these extents is decided by structural recursion, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block already there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block already there is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses

The coordinate block is read whole; channel `c`'s slab of the plane and row `c` of the output block are the unit
rectangles at offset `c` along the leading axis. -/

abbrev r2_0 : Rect S1280x2 := Rect.unit (s := S1280x2) ![0, 0] S1280x2.size inb_S1280x2_S1280x2_0_0
abbrev r2_1 : Rect S32x512x512 := Rect.unit (s := S32x512x512) ![0, 0, 0] S1x512x512.size inb_S32x512x512_S1x512x512_0_0_0
abbrev r2_2 : Rect S32x1280 := Rect.unit (s := S32x1280) ![0, 0] S1x1280.size inb_S32x1280_S1x1280_0_0
abbrev r2_3 : Rect S32x512x512 := Rect.unit (s := S32x512x512) ![1, 0, 0] S1x512x512.size inb_S32x512x512_S1x512x512_1_0_0
abbrev r2_4 : Rect S32x1280 := Rect.unit (s := S32x1280) ![1, 0] S1x1280.size inb_S32x1280_S1x1280_1_0
abbrev r2_5 : Rect S32x512x512 := Rect.unit (s := S32x512x512) ![2, 0, 0] S1x512x512.size inb_S32x512x512_S1x512x512_2_0_0
abbrev r2_6 : Rect S32x1280 := Rect.unit (s := S32x1280) ![2, 0] S1x1280.size inb_S32x1280_S1x1280_2_0
abbrev r2_7 : Rect S32x512x512 := Rect.unit (s := S32x512x512) ![3, 0, 0] S1x512x512.size inb_S32x512x512_S1x512x512_3_0_0
abbrev r2_8 : Rect S32x1280 := Rect.unit (s := S32x1280) ![3, 0] S1x1280.size inb_S32x1280_S1x1280_3_0
abbrev r2_9 : Rect S32x512x512 := Rect.unit (s := S32x512x512) ![4, 0, 0] S1x512x512.size inb_S32x512x512_S1x512x512_4_0_0
abbrev r2_10 : Rect S32x1280 := Rect.unit (s := S32x1280) ![4, 0] S1x1280.size inb_S32x1280_S1x1280_4_0
abbrev r2_11 : Rect S32x512x512 := Rect.unit (s := S32x512x512) ![5, 0, 0] S1x512x512.size inb_S32x512x512_S1x512x512_5_0_0
abbrev r2_12 : Rect S32x1280 := Rect.unit (s := S32x1280) ![5, 0] S1x1280.size inb_S32x1280_S1x1280_5_0
abbrev r2_13 : Rect S32x512x512 := Rect.unit (s := S32x512x512) ![6, 0, 0] S1x512x512.size inb_S32x512x512_S1x512x512_6_0_0
abbrev r2_14 : Rect S32x1280 := Rect.unit (s := S32x1280) ![6, 0] S1x1280.size inb_S32x1280_S1x1280_6_0
abbrev r2_15 : Rect S32x512x512 := Rect.unit (s := S32x512x512) ![7, 0, 0] S1x512x512.size inb_S32x512x512_S1x512x512_7_0_0
abbrev r2_16 : Rect S32x1280 := Rect.unit (s := S32x1280) ![7, 0] S1x1280.size inb_S32x1280_S1x1280_7_0
abbrev r2_17 : Rect S32x512x512 := Rect.unit (s := S32x512x512) ![8, 0, 0] S1x512x512.size inb_S32x512x512_S1x512x512_8_0_0
abbrev r2_18 : Rect S32x1280 := Rect.unit (s := S32x1280) ![8, 0] S1x1280.size inb_S32x1280_S1x1280_8_0
abbrev r2_19 : Rect S32x512x512 := Rect.unit (s := S32x512x512) ![9, 0, 0] S1x512x512.size inb_S32x512x512_S1x512x512_9_0_0
abbrev r2_20 : Rect S32x1280 := Rect.unit (s := S32x1280) ![9, 0] S1x1280.size inb_S32x1280_S1x1280_9_0
abbrev r2_21 : Rect S32x512x512 := Rect.unit (s := S32x512x512) ![10, 0, 0] S1x512x512.size inb_S32x512x512_S1x512x512_10_0_0
abbrev r2_22 : Rect S32x1280 := Rect.unit (s := S32x1280) ![10, 0] S1x1280.size inb_S32x1280_S1x1280_10_0
abbrev r2_23 : Rect S32x512x512 := Rect.unit (s := S32x512x512) ![11, 0, 0] S1x512x512.size inb_S32x512x512_S1x512x512_11_0_0
abbrev r2_24 : Rect S32x1280 := Rect.unit (s := S32x1280) ![11, 0] S1x1280.size inb_S32x1280_S1x1280_11_0
abbrev r2_25 : Rect S32x512x512 := Rect.unit (s := S32x512x512) ![12, 0, 0] S1x512x512.size inb_S32x512x512_S1x512x512_12_0_0
abbrev r2_26 : Rect S32x1280 := Rect.unit (s := S32x1280) ![12, 0] S1x1280.size inb_S32x1280_S1x1280_12_0
abbrev r2_27 : Rect S32x512x512 := Rect.unit (s := S32x512x512) ![13, 0, 0] S1x512x512.size inb_S32x512x512_S1x512x512_13_0_0
abbrev r2_28 : Rect S32x1280 := Rect.unit (s := S32x1280) ![13, 0] S1x1280.size inb_S32x1280_S1x1280_13_0
abbrev r2_29 : Rect S32x512x512 := Rect.unit (s := S32x512x512) ![14, 0, 0] S1x512x512.size inb_S32x512x512_S1x512x512_14_0_0
abbrev r2_30 : Rect S32x1280 := Rect.unit (s := S32x1280) ![14, 0] S1x1280.size inb_S32x1280_S1x1280_14_0
abbrev r2_31 : Rect S32x512x512 := Rect.unit (s := S32x512x512) ![15, 0, 0] S1x512x512.size inb_S32x512x512_S1x512x512_15_0_0
abbrev r2_32 : Rect S32x1280 := Rect.unit (s := S32x1280) ![15, 0] S1x1280.size inb_S32x1280_S1x1280_15_0
abbrev r2_33 : Rect S32x512x512 := Rect.unit (s := S32x512x512) ![16, 0, 0] S1x512x512.size inb_S32x512x512_S1x512x512_16_0_0
abbrev r2_34 : Rect S32x1280 := Rect.unit (s := S32x1280) ![16, 0] S1x1280.size inb_S32x1280_S1x1280_16_0
abbrev r2_35 : Rect S32x512x512 := Rect.unit (s := S32x512x512) ![17, 0, 0] S1x512x512.size inb_S32x512x512_S1x512x512_17_0_0
abbrev r2_36 : Rect S32x1280 := Rect.unit (s := S32x1280) ![17, 0] S1x1280.size inb_S32x1280_S1x1280_17_0
abbrev r2_37 : Rect S32x512x512 := Rect.unit (s := S32x512x512) ![18, 0, 0] S1x512x512.size inb_S32x512x512_S1x512x512_18_0_0
abbrev r2_38 : Rect S32x1280 := Rect.unit (s := S32x1280) ![18, 0] S1x1280.size inb_S32x1280_S1x1280_18_0
abbrev r2_39 : Rect S32x512x512 := Rect.unit (s := S32x512x512) ![19, 0, 0] S1x512x512.size inb_S32x512x512_S1x512x512_19_0_0
abbrev r2_40 : Rect S32x1280 := Rect.unit (s := S32x1280) ![19, 0] S1x1280.size inb_S32x1280_S1x1280_19_0
abbrev r2_41 : Rect S32x512x512 := Rect.unit (s := S32x512x512) ![20, 0, 0] S1x512x512.size inb_S32x512x512_S1x512x512_20_0_0
abbrev r2_42 : Rect S32x1280 := Rect.unit (s := S32x1280) ![20, 0] S1x1280.size inb_S32x1280_S1x1280_20_0
abbrev r2_43 : Rect S32x512x512 := Rect.unit (s := S32x512x512) ![21, 0, 0] S1x512x512.size inb_S32x512x512_S1x512x512_21_0_0
abbrev r2_44 : Rect S32x1280 := Rect.unit (s := S32x1280) ![21, 0] S1x1280.size inb_S32x1280_S1x1280_21_0
abbrev r2_45 : Rect S32x512x512 := Rect.unit (s := S32x512x512) ![22, 0, 0] S1x512x512.size inb_S32x512x512_S1x512x512_22_0_0
abbrev r2_46 : Rect S32x1280 := Rect.unit (s := S32x1280) ![22, 0] S1x1280.size inb_S32x1280_S1x1280_22_0
abbrev r2_47 : Rect S32x512x512 := Rect.unit (s := S32x512x512) ![23, 0, 0] S1x512x512.size inb_S32x512x512_S1x512x512_23_0_0
abbrev r2_48 : Rect S32x1280 := Rect.unit (s := S32x1280) ![23, 0] S1x1280.size inb_S32x1280_S1x1280_23_0
abbrev r2_49 : Rect S32x512x512 := Rect.unit (s := S32x512x512) ![24, 0, 0] S1x512x512.size inb_S32x512x512_S1x512x512_24_0_0
abbrev r2_50 : Rect S32x1280 := Rect.unit (s := S32x1280) ![24, 0] S1x1280.size inb_S32x1280_S1x1280_24_0
abbrev r2_51 : Rect S32x512x512 := Rect.unit (s := S32x512x512) ![25, 0, 0] S1x512x512.size inb_S32x512x512_S1x512x512_25_0_0
abbrev r2_52 : Rect S32x1280 := Rect.unit (s := S32x1280) ![25, 0] S1x1280.size inb_S32x1280_S1x1280_25_0
abbrev r2_53 : Rect S32x512x512 := Rect.unit (s := S32x512x512) ![26, 0, 0] S1x512x512.size inb_S32x512x512_S1x512x512_26_0_0
abbrev r2_54 : Rect S32x1280 := Rect.unit (s := S32x1280) ![26, 0] S1x1280.size inb_S32x1280_S1x1280_26_0
abbrev r2_55 : Rect S32x512x512 := Rect.unit (s := S32x512x512) ![27, 0, 0] S1x512x512.size inb_S32x512x512_S1x512x512_27_0_0
abbrev r2_56 : Rect S32x1280 := Rect.unit (s := S32x1280) ![27, 0] S1x1280.size inb_S32x1280_S1x1280_27_0
abbrev r2_57 : Rect S32x512x512 := Rect.unit (s := S32x512x512) ![28, 0, 0] S1x512x512.size inb_S32x512x512_S1x512x512_28_0_0
abbrev r2_58 : Rect S32x1280 := Rect.unit (s := S32x1280) ![28, 0] S1x1280.size inb_S32x1280_S1x1280_28_0
abbrev r2_59 : Rect S32x512x512 := Rect.unit (s := S32x512x512) ![29, 0, 0] S1x512x512.size inb_S32x512x512_S1x512x512_29_0_0
abbrev r2_60 : Rect S32x1280 := Rect.unit (s := S32x1280) ![29, 0] S1x1280.size inb_S32x1280_S1x1280_29_0
abbrev r2_61 : Rect S32x512x512 := Rect.unit (s := S32x512x512) ![30, 0, 0] S1x512x512.size inb_S32x512x512_S1x512x512_30_0_0
abbrev r2_62 : Rect S32x1280 := Rect.unit (s := S32x1280) ![30, 0] S1x1280.size inb_S32x1280_S1x1280_30_0
abbrev r2_63 : Rect S32x512x512 := Rect.unit (s := S32x512x512) ![31, 0, 0] S1x512x512.size inb_S32x512x512_S1x512x512_31_0_0
abbrev r2_64 : Rect S32x1280 := Rect.unit (s := S32x1280) ![31, 0] S1x1280.size inb_S32x1280_S1x1280_31_0

/-! ## What the body leaves in the output window's buffer -/

/-- The two interpolation-weight matrices (1280 points by 512 lanes) the body builds once from the coordinate
    block and uses for every channel: the one that multiplies the matrix product elementwise, -/
abbrev v2_50 (x0 : Vec F S1280x2 .f32) : FVec F S1280x512 .f32 :=
  k2_pay16 (k2_pay7 (View.ld x0 r2_0)) (k2_pay13 (View.ld x0 r2_0)) k2_pay14 (k2_pay15 (View.ld x0 r2_0))
/-- and the one that is the left factor of the matrix product. -/
abbrev v2_66 (x0 : Vec F S1280x2 .f32) : FVec F S1280x512 .bf16 :=
  k2_pay17 (k2_pay8 (View.ld x0 r2_0)) (k2_pay9 (View.ld x0 r2_0)) (k2_pay11 (View.ld x0 r2_0)) (k2_pay12 (View.ld x0 r2_0)) (iota .tc S1x512 32 [1] iota_S1x512_d1_w32)

/-- Window 2's staging buffer after the body, from the input windows' blocks: its 32 stores (one row per
    channel) as pieces, last first; row `c`'s payload is a function of the coordinate block and of slab `c` alone. -/
def out2_2 (x0 : Vec F S1280x2 .f32) (x1 : Vec F S32x512x512 .bf16) : Vec F S32x1280 .f32 :=
  View.canon [⟨r2_64, k2_pay1 (k2_pay55 (v2_50 x0) (v2_66 x0) (View.ld x1 r2_63))⟩,
    ⟨r2_62, k2_pay54 (v2_50 x0) (v2_66 x0) (View.ld x1 r2_61)⟩,
    ⟨r2_60, k2_pay53 (v2_50 x0) (v2_66 x0) (View.ld x1 r2_59)⟩,
    ⟨r2_58, k2_pay52 (k2_pay51 (v2_50 x0) (v2_66 x0) (View.ld x1 r2_57))⟩,
    ⟨r2_56, k2_pay50 (v2_50 x0) (v2_66 x0) (View.ld x1 r2_55)⟩,
    ⟨r2_54, k2_pay49 (v2_50 x0) (v2_66 x0) (View.ld x1 r2_53)⟩,
    ⟨r2_52, k2_pay48 (v2_50 x0) (v2_66 x0) (View.ld x1 r2_51)⟩,
    ⟨r2_50, k2_pay47 (k2_pay46 (v2_50 x0) (v2_66 x0) (View.ld x1 r2_49))⟩,
    ⟨r2_48, k2_pay45 (v2_50 x0) (v2_66 x0) (View.ld x1 r2_47)⟩,
    ⟨r2_46, k2_pay44 (v2_50 x0) (v2_66 x0) (View.ld x1 r2_45)⟩,
    ⟨r2_44, k2_pay43 (v2_50 x0) (v2_66 x0) (View.ld x1 r2_43)⟩,
    ⟨r2_42, k2_pay42 (v2_50 x0) (v2_66 x0) (View.ld x1 r2_41)⟩,
    ⟨r2_40, k2_pay41 (v2_50 x0) (v2_66 x0) (View.ld x1 r2_39)⟩,
    ⟨r2_38, k2_pay40 (v2_50 x0) (v2_66 x0) (View.ld x1 r2_37)⟩,
    ⟨r2_36, k2_pay39 (v2_50 x0) (v2_66 x0) (k2_pay38 (View.ld x1 r2_35)) (constant S1280x512 .f32 0x00000000#32)⟩,
    ⟨r2_34, k2_pay37 (v2_50 x0) (v2_66 x0) (View.ld x1 r2_33)⟩,
    ⟨r2_32, k2_pay36 (v2_50 x0) (v2_66 x0) (View.ld x1 r2_31)⟩,
    ⟨r2_30, k2_pay35 (v2_50 x0) (v2_66 x0) (View.ld x1 r2_29)⟩,
    ⟨r2_28, k2_pay34 (k2_pay33 (v2_50 x0) (v2_66 x0) (View.ld x1 r2_27))⟩,
    ⟨r2_26, k2_pay32 (v2_50 x0) (v2_66 x0) (View.ld x1 r2_25)⟩,
    ⟨r2_24, k2_pay31 (v2_50 x0) (v2_66 x0) (View.ld x1 r2_23)⟩,
    ⟨r2_22, k2_pay30 (v2_50 x0) (v2_66 x0) (View.ld x1 r2_21)⟩,
    ⟨r2_20, k2_pay29 (k2_pay28 (v2_50 x0) (v2_66 x0) (View.ld x1 r2_19))⟩,
    ⟨r2_18, k2_pay27 (v2_50 x0) (v2_66 x0) (View.ld x1 r2_17)⟩,
    ⟨r2_16, k2_pay26 (v2_50 x0) (v2_66 x0) (View.ld x1 r2_15)⟩,
    ⟨r2_14, k2_pay25 (v2_50 x0) (v2_66 x0) (View.ld x1 r2_13)⟩,
    ⟨r2_12, k2_pay24 (v2_50 x0) (v2_66 x0) (View.ld x1 r2_11)⟩,
    ⟨r2_10, k2_pay23 (v2_50 x0) (v2_66 x0) (View.ld x1 r2_9)⟩,
    ⟨r2_8, k2_pay22 (v2_50 x0) (v2_66 x0) (View.ld x1 r2_7)⟩,
    ⟨r2_6, k2_pay21 (v2_50 x0) (v2_66 x0) (k2_pay20 (View.ld x1 r2_5)) (constant S1280x512 .f32 0x00000000#32)⟩,
    ⟨r2_4, k2_pay19 (k2_pay7 (View.ld x0 r2_0)) (k2_pay8 (View.ld x0 r2_0)) (k2_pay9 (View.ld x0 r2_0)) (k2_pay11 (View.ld x0 r2_0)) (k2_pay12 (View.ld x0 r2_0)) (iota .tc S1x512 32 [1] iota_S1x512_d1_w32) (k2_pay13 (View.ld x0 r2_0)) k2_pay14 (k2_pay15 (View.ld x0 r2_0)) (View.ld x1 r2_3)⟩,
    ⟨r2_2, k2_pay18 (k2_pay7 (View.ld x0 r2_0)) (k2_pay8 (View.ld x0 r2_0)) (k2_pay9 (View.ld x0 r2_0)) (k2_pay11 (View.ld x0 r2_0)) (k2_pay12 (View.ld x0 r2_0)) (iota .tc S1x512 32 [1] iota_S1x512_d1_w32) (k2_pay13 (View.ld x0 r2_0)) k2_pay14 (k2_pay15 (View.ld x0 r2_0)) (View.ld x1 r2_1)⟩]

/-- Its stores tile the buffer (one row each, checked by evaluation), so they cover it. -/
theorem cover2_2 (p0 : Vec F S1x1280 .f32) (p1 : Vec F S1x1280 .f32) (p2 : Vec F S1x1280 .f32) (p3 : Vec F S1x1280 .f32) (p4 : Vec F S1x1280 .f32) (p5 : Vec F S1x1280 .f32) (p6 : Vec F S1x1280 .f32) (p7 : Vec F S1x1280 .f32) (p8 : Vec F S1x1280 .f32) (p9 : Vec F S1x1280 .f32) (p10 : Vec F S1x1280 .f32) (p11 : Vec F S1x1280 .f32) (p12 : Vec F S1x1280 .f32) (p13 : Vec F S1x1280 .f32) (p14 : Vec F S1x1280 .f32) (p15 : Vec F S1x1280 .f32) (p16 : Vec F S1x1280 .f32) (p17 : Vec F S1x1280 .f32) (p18 : Vec F S1x1280 .f32) (p19 : Vec F S1x1280 .f32) (p20 : Vec F S1x1280 .f32) (p21 : Vec F S1x1280 .f32) (p22 : Vec F S1x1280 .f32) (p23 : Vec F S1x1280 .f32) (p24 : Vec F S1x1280 .f32) (p25 : Vec F S1x1280 .f32) (p26 : Vec F S1x1280 .f32) (p27 : Vec F S1x1280 .f32) (p28 : Vec F S1x1280 .f32) (p29 : Vec F S1x1280 .f32) (p30 : Vec F S1x1280 .f32) (p31 : Vec F S1x1280 .f32) (y : S32x1280.Idx) :
    ∃ pc ∈ ([⟨r2_64, p0⟩, ⟨r2_62, p1⟩, ⟨r2_60, p2⟩, ⟨r2_58, p3⟩, ⟨r2_56, p4⟩, ⟨r2_54, p5⟩, ⟨r2_52, p6⟩, ⟨r2_50, p7⟩, ⟨r2_48, p8⟩, ⟨r2_46, p9⟩, ⟨r2_44, p10⟩, ⟨r2_42, p11⟩, ⟨r2_40, p12⟩, ⟨r2_38, p13⟩, ⟨r2_36, p14⟩, ⟨r2_34, p15⟩, ⟨r2_32, p16⟩, ⟨r2_30, p17⟩, ⟨r2_28, p18⟩, ⟨r2_26, p19⟩, ⟨r2_24, p20⟩, ⟨r2_22, p21⟩, ⟨r2_20, p22⟩, ⟨r2_18, p23⟩, ⟨r2_16, p24⟩, ⟨r2_14, p25⟩, ⟨r2_12, p26⟩, ⟨r2_10, p27⟩, ⟨r2_8, p28⟩, ⟨r2_6, p29⟩, ⟨r2_4, p30⟩, ⟨r2_2, p31⟩] : List (View.Piece (Elt F) S32x1280 .f32)), y ∈ pc.1.set :=
  View.cover_of_tiled [⟨r2_64, p0⟩, ⟨r2_62, p1⟩, ⟨r2_60, p2⟩, ⟨r2_58, p3⟩, ⟨r2_56, p4⟩, ⟨r2_54, p5⟩, ⟨r2_52, p6⟩, ⟨r2_50, p7⟩, ⟨r2_48, p8⟩, ⟨r2_46, p9⟩, ⟨r2_44, p10⟩, ⟨r2_42, p11⟩, ⟨r2_40, p12⟩, ⟨r2_38, p13⟩, ⟨r2_36, p14⟩, ⟨r2_34, p15⟩, ⟨r2_32, p16⟩, ⟨r2_30, p17⟩, ⟨r2_28, p18⟩, ⟨r2_26, p19⟩, ⟨r2_24, p20⟩, ⟨r2_22, p21⟩, ⟨r2_20, p22⟩, ⟨r2_18, p23⟩, ⟨r2_16, p24⟩, ⟨r2_14, p25⟩, ⟨r2_12, p26⟩, ⟨r2_10, p27⟩, ⟨r2_8, p28⟩, ⟨r2_6, p29⟩, ⟨r2_4, p30⟩, ⟨r2_2, p31⟩] S1x1280.size (by rfl) y

/-! ## The body's triple -/

set_option maxHeartbeats 8000000 in
/-- The kernel body on whole staging memrefs, the inputs' at read contents `x0`, `x1` and the output's at anything,
    runs to the continuation holding the inputs' as they were and the output's at `out2_2` of the inputs: the printed
    function and its parts are sequences of loads and stores over named payloads, which are run in order; each
    load of an output row before its store reads a value the body never uses. -/
theorem sound_kernel2 (c : Dev nD) (E : Set ℕ) (i : grid2.Coords) (arg1 : Memref sig .tc .vmem S1280x2 .f32) (harg1 : arg1.IsWhole) (arg2 : Memref sig .tc .vmem S32x512x512 .bf16) (harg2 : arg2.IsWhole) (arg3 : Memref sig .tc .vmem S32x1280 .f32) (harg3 : arg3.IsWhole)
    (x0 : Vec F S1280x2 .f32) (x1 : Vec F S32x512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__sample_kernel i arg1 harg1 arg2 harg2 arg3 harg3) K := by
  simp only [cc2__sample_kernel_eq_skeleton]; unfold cc2__sample_kernel_skel
  simp only [k2_part10_eq_skeleton]; unfold k2_part10_skel
  simp only [k2_part1_eq_skeleton]; unfold k2_part1_skel
  simp only [k2_part2_eq_skeleton]; unfold k2_part2_skel
  simp only [k2_part3_eq_skeleton]; unfold k2_part3_skel
  simp only [k2_part4_eq_skeleton]; unfold k2_part4_skel
  simp only [k2_part5_eq_skeleton]; unfold k2_part5_skel
  simp only [k2_part6_eq_skeleton]; unfold k2_part6_skel
  simp only [k2_part7_eq_skeleton]; unfold k2_part7_skel
  simp only [k2_part8_eq_skeleton]; unfold k2_part8_skel
  simp only [k2_part9_eq_skeleton]; unfold k2_part9_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _ _ _ _ _ _ _ _ _ _ _ _ _ _ _ _ _ _ _ _ _ _ _ _ _ _ _ _ _ _ _ _)

/-! ## The pipeline's proof data -/

/-- The proof data of pipeline 2 on core `c`: the arrays as the call finds them (`V`); after the body at point
    `t` each input's buffer at its block and the output's at `out2_2` of the input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KFrame.Run.lean ====
import proofs.«162729_j22162031247387_1_alg».proof.Proof.KFrame.Host
import proofs.«162729_j22162031247387_1_alg».proof.Proof.KFrame.R0
import proofs.«162729_j22162031247387_1_alg».proof.Proof.KFrame.R1
import proofs.«162729_j22162031247387_1_alg».proof.Proof.KFrame.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main and its frame

@main is eleven items: five stretches of host operations, kernel region 0, a stretch, region 1, a stretch, region 2,
and a closing stretch. The run is stated over the TensorCore's buffer contents at each of the twelve boundaries, a
fold from the launch memory: a stretch takes the contents to `StableHlo.after` of its operations, a region takes
its three arrays to what the pipeline's write-backs leave (`Dat.arrAt … N`) and leaves every other buffer alone.
Every segment holds the same thread state — every unscoped buffer whole at the boundary's contents, the generator
register at some state, nothing owed — so consecutive segments chain by reflexivity, and the final state is read
against the last boundary's contents at every unscoped buffer. -/

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first stretch (133 operations). -/
abbrev W1 : Dev nD → Valuation τ sig (Elt F) := fun c => StableHlo.after hostOps0 (W0 m c)
/-- After the inlined clip (2 operations). -/
abbrev W2 : Dev nD → Valuation τ sig (Elt F) := fun c => StableHlo.after hostOps0_1 (W1 m c)
/-- After the next 13 operations. -/
abbrev W3 : Dev nD → Valuation τ sig (Elt F) := fun c => StableHlo.after hostOps0_2 (W2 m c)
/-- After the inlined select (2 operations). -/
abbrev W4 : Dev nD → Valuation τ sig (Elt F) := fun c => StableHlo.after hostOps0_3 (W3 m c)
/-- After the last 9 operations of the prefix: region 0's entry contents. -/
abbrev W5 : Dev nD → Valuation τ sig (Elt F) := fun c => StableHlo.after hostOps0_4 (W4 m c)
/-- The same read at the TensorCore's references (what region 0's proof data take). -/
abbrev V5 : (c : Dev nD) → (b : Ref sig .tc) → Buf (Elt F) ((c : Thread nD τ).loc b) := fun c b => W5 m c b
/-- At region 0's exit: its arrays at what the pipeline leaves (the inputs as entered, the output's write-backs
    folded), every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- After the 5 operations behind region 0: region 1's entry contents. -/
abbrev W7 : Dev nD → Valuation τ sig (Elt F) := fun c => StableHlo.after hostOps1 (W6 m c)
/-- The same read at the TensorCore's references (what region 1's proof data take). -/
abbrev V7 : (c : Dev nD) → (b : Ref sig .tc) → Buf (Elt F) ((c : Thread nD τ).loc b) := fun c b => W7 m c b
/-- At region 1's exit: its arrays at what the pipeline leaves (the inputs as entered, the output's write-backs
    folded), every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
/-- After the 5 operations behind region 1: region 2's entry contents. -/
abbrev W9 : Dev nD → Valuation τ sig (Elt F) := fun c => StableHlo.after hostOps2 (W8 m c)
/-- The same read at the TensorCore's references (what region 2's proof data take). -/
abbrev V9 : (c : Dev nD) → (b : Ref sig .tc) → Buf (Elt F) ((c : Thread nD τ).loc b) := fun c b => W9 m c b
/-- At region 2's exit: its arrays at what the pipeline leaves (the inputs as entered, the output's write-backs
    folded), every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
/-- After the closing 7 operations behind region 2: the final contents. -/
abbrev W11 : Dev nD → Valuation τ sig (Elt F) := fun c => StableHlo.after hostOps3 (W10 m c)

/-! ### The boundaries, unfolded one step -/

theorem W1_eq (c : Dev nD) : W1 m c = StableHlo.after hostOps0 (W0 m c) := rfl
theorem W2_eq (c : Dev nD) : W2 m c = StableHlo.after hostOps0_1 (W1 m c) := rfl
theorem W3_eq (c : Dev nD) : W3 m c = StableHlo.after hostOps0_2 (W2 m c) := rfl
theorem W4_eq (c : Dev nD) : W4 m c = StableHlo.after hostOps0_3 (W3 m c) := rfl
theorem W5_eq (c : Dev nD) : W5 m c = StableHlo.after hostOps0_4 (W4 m c) := rfl
theorem W6_eq (c : Dev nD) : W6 m c = Pipeline.withArrays spec0 c (W5 m c) fun w => (dat0 (V5 m) c).arrAt w cfg0.N := rfl
theorem W7_eq (c : Dev nD) : W7 m c = StableHlo.after hostOps1 (W6 m c) := rfl
theorem W8_eq (c : Dev nD) : W8 m c = Pipeline.withArrays spec1 c (W7 m c) fun w => (dat1 (V7 m) c).arrAt w cfg1.N := rfl
theorem W9_eq (c : Dev nD) : W9 m c = StableHlo.after hostOps2 (W8 m c) := rfl
theorem W10_eq (c : Dev nD) : W10 m c = Pipeline.withArrays spec2 c (W9 m c) fun w => (dat2 (V9 m) c).arrAt w cfg2.N := rfl
theorem W11_eq (c : Dev nD) : W11 m c = StableHlo.after hostOps3 (W10 m c) := rfl
/-- The result buffer at the end: the closing stretch run from region 2's exit contents. -/
theorem W11_out (c : Dev nD) :
    W11 m c (Proc.devRef .tc main_v136) = StableHlo.after hostOps3 (W10 m c) (Proc.devRef .tc main_v136) := rfl
/-- The prefix as one composition: region 0's entry contents from the launch memory. -/
theorem W5_of_launch (c : Dev nD) : W5 m c = StableHlo.after hostOps0_4 (StableHlo.after hostOps0_3 (StableHlo.after hostOps0_2
    (StableHlo.after hostOps0_1 (StableHlo.after hostOps0 (W0 m c))))) := rfl

/-! ### The arguments end as launched: no stretch writes one, and no region's array is one -/

theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_forall_not_mem _ _ hostOps3_keeps_arg0
    _ = W9 m c (Proc.devRef .tc main_arg0) := W10_of_ne m c main_arg0 (by decide)
    _ = W8 m c (Proc.devRef .tc main_arg0) := StableHlo.after_of_forall_not_mem _ _ hostOps2_keeps_arg0
    _ = W7 m c (Proc.devRef .tc main_arg0) := W8_of_ne m c main_arg0 (by decide)
    _ = W6 m c (Proc.devRef .tc main_arg0) := StableHlo.after_of_forall_not_mem _ _ hostOps1_keeps_arg0
    _ = W5 m c (Proc.devRef .tc main_arg0) := W6_of_ne m c main_arg0 (by decide)
    _ = W4 m c (Proc.devRef .tc main_arg0) := StableHlo.after_of_forall_not_mem _ _ hostOps0_4_keeps_arg0
    _ = W3 m c (Proc.devRef .tc main_arg0) := StableHlo.after_of_forall_not_mem _ _ hostOps0_3_keeps_arg0
    _ = W2 m c (Proc.devRef .tc main_arg0) := StableHlo.after_of_forall_not_mem _ _ hostOps0_2_keeps_arg0
    _ = W1 m c (Proc.devRef .tc main_arg0) := StableHlo.after_of_forall_not_mem _ _ hostOps0_1_keeps_arg0
    _ = W0 m c (Proc.devRef .tc main_arg0) := StableHlo.after_of_forall_not_mem _ _ hostOps0_keeps_arg0
    _ = m ((c : Thread nD τ).loc main_arg0) := rfl

theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_forall_not_mem _ _ hostOps3_keeps_arg1
    _ = W9 m c (Proc.devRef .tc main_arg1) := W10_of_ne m c main_arg1 (by decide)
    _ = W8 m c (Proc.devRef .tc main_arg1) := StableHlo.after_of_forall_not_mem _ _ hostOps2_keeps_arg1
    _ = W7 m c (Proc.devRef .tc main_arg1) := W8_of_ne m c main_arg1 (by decide)
    _ = W6 m c (Proc.devRef .tc main_arg1) := StableHlo.after_of_forall_not_mem _ _ hostOps1_keeps_arg1
    _ = W5 m c (Proc.devRef .tc main_arg1) := W6_of_ne m c main_arg1 (by decide)
    _ = W4 m c (Proc.devRef .tc main_arg1) := StableHlo.after_of_forall_not_mem _ _ hostOps0_4_keeps_arg1
    _ = W3 m c (Proc.devRef .tc main_arg1) := StableHlo.after_of_forall_not_mem _ _ hostOps0_3_keeps_arg1
    _ = W2 m c (Proc.devRef .tc main_arg1) := StableHlo.after_of_forall_not_mem _ _ hostOps0_2_keeps_arg1
    _ = W1 m c (Proc.devRef .tc main_arg1) := StableHlo.after_of_forall_not_mem _ _ hostOps0_1_keeps_arg1
    _ = W0 m c (Proc.devRef .tc main_arg1) := StableHlo.after_of_forall_not_mem _ _ hostOps0_keeps_arg1
    _ = m ((c : Thread nD τ).loc main_arg1) := rfl

theorem W11_main_arg2 (c : Dev nD) : W11 m c (Proc.devRef .tc main_arg2) = m ((c : Thread nD τ).loc main_arg2) :=
  calc W11 m c (Proc.devRef .tc main_arg2)
    _ = W10 m c (Proc.devRef .tc main_arg2) := StableHlo.after_of_forall_not_mem _ _ hostOps3_keeps_arg2
    _ = W9 m c (Proc.devRef .tc main_arg2) := W10_of_ne m c main_arg2 (by decide)
    _ = W8 m c (Proc.devRef .tc main_arg2) := StableHlo.after_of_forall_not_mem _ _ hostOps2_keeps_arg2
    _ = W7 m c (Proc.devRef .tc main_arg2) := W8_of_ne m c main_arg2 (by decide)
    _ = W6 m c (Proc.devRef .tc main_arg2) := StableHlo.after_of_forall_not_mem _ _ hostOps1_keeps_arg2
    _ = W5 m c (Proc.devRef .tc main_arg2) := W6_of_ne m c main_arg2 (by decide)
    _ = W4 m c (Proc.devRef .tc main_arg2) := StableHlo.after_of_forall_not_mem _ _ hostOps0_4_keeps_arg2
    _ = W3 m c (Proc.devRef .tc main_arg2) := StableHlo.after_of_forall_not_mem _ _ hostOps0_3_keeps_arg2
    _ = W2 m c (Proc.devRef .tc main_arg2) := StableHlo.after_of_forall_not_mem _ _ hostOps0_2_keeps_arg2
    _ = W1 m c (Proc.devRef .tc main_arg2) := StableHlo.after_of_forall_not_mem _ _ hostOps0_1_keeps_arg2
    _ = W0 m c (Proc.devRef .tc main_arg2) := StableHlo.after_of_forall_not_mem _ _ hostOps0_keeps_arg2
    _ = m ((c : Thread nD τ).loc main_arg2) := rfl

theorem W11_main_arg3 (c : Dev nD) : W11 m c (Proc.devRef .tc main_arg3) = m ((c : Thread nD τ).loc main_arg3) :=
  calc W11 m c (Proc.devRef .tc main_arg3)
    _ = W10 m c (Proc.devRef .tc main_arg3) := StableHlo.after_of_forall_not_mem _ _ hostOps3_keeps_arg3
    _ = W9 m c (Proc.devRef .tc main_arg3) := W10_of_ne m c main_arg3 (by decide)
    _ = W8 m c (Proc.devRef .tc main_arg3) := StableHlo.after_of_forall_not_mem _ _ hostOps2_keeps_arg3
    _ = W7 m c (Proc.devRef .tc main_arg3) := W8_of_ne m c main_arg3 (by decide)
    _ = W6 m c (Proc.devRef .tc main_arg3) := StableHlo.after_of_forall_not_mem _ _ hostOps1_keeps_arg3
    _ = W5 m c (Proc.devRef .tc main_arg3) := W6_of_ne m c main_arg3 (by decide)
    _ = W4 m c (Proc.devRef .tc main_arg3) := StableHlo.after_of_forall_not_mem _ _ hostOps0_4_keeps_arg3
    _ = W3 m c (Proc.devRef .tc main_arg3) := StableHlo.after_of_forall_not_mem _ _ hostOps0_3_keeps_arg3
    _ = W2 m c (Proc.devRef .tc main_arg3) := StableHlo.after_of_forall_not_mem _ _ hostOps0_2_keeps_arg3
    _ = W1 m c (Proc.devRef .tc main_arg3) := StableHlo.after_of_forall_not_mem _ _ hostOps0_1_keeps_arg3
    _ = W0 m c (Proc.devRef .tc main_arg3) := StableHlo.after_of_forall_not_mem _ _ hostOps0_keeps_arg3
    _ = m ((c : Thread nD τ).loc main_arg3) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W11`, the generator
    register at some state. -/
abbrev Tₙ (c : Dev nD) : sProp 𝕄 := iprop(StableHlo.held (c : Thread nD τ) (Pipeline.ucRefs τ sig) (W11 m c) ∗ ∃ r, prngReg c r)

/-! ## The regions as segments -/

-- a library lemma stated over `pin pcs a p` meets the pinned configuration only when unification may unfold plain
-- definitions in a metavariable's type
set_option backward.isDefEq.respectTransparency.types false in
/-- REGION 0 over the thread state: entered from every unscoped buffer at `W5`, left at `W6`. Its arrays are
    split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 1 over the thread state: entered from every unscoped buffer at `W7`, left at `W8`. Its arrays are
    split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 2 over the thread state: entered from every unscoped buffer at `W9`, left at `W10`. Its arrays are
    split out of the unscoped buffers and put back at the exit contents; the generator register goes into the
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)) ]
/-- @main IS the run of the segments: the chain of its items, item by item the segments' programs. -/
theorem main_run (c : Dev nD) : main (F := F) c = Pipeline.Seg.run (segs m) := (main_chain c).trans (by chain_rfl)

variable (ρ : Dev nD → PrngReg)

-- the launch theorem's implicit arguments are found by unifying its conclusion with this one, which takes unfolding
-- plain definitions in a metavariable's type
set_option backward.isDefEq.respectTransparency.types false in
/-- THE RUN, at any postcondition that follows from the final contents of the unscoped buffers: at the compiled mesh,
    from any memory with zero counters, every weakly fair execution of @main on the TensorCores terminates, nothing
    faulting, and in every final state each unscoped buffer holds the last boundary's contents `W11`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W11 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := hQ)

/-- THE RUN of @main: it terminates without fault and every unscoped buffer ends at the last boundary's contents —
    the arguments and the result buffer alike are read off this one statement. -/
theorem run_main : θ_run defs (onTc (τ := τ) (main (F := F))) ⟨m, fun _ => 0, ρ⟩ (fun r => ∀ (c : Dev nD) (b : Ref sig .tc),
      ¬ (Proc.devRef .tc b : DevRef τ sig).isScoped → r.2.mem ((c : Thread nD τ).loc b) = W11 m c (Proc.devRef .tc b)) :=
  run_of m ρ fun s h c b hb => h c _ (mem_uc b hb)

/-- THE FRAME at any `F`: @main terminates, nothing faulting, and every final state has the four argument arrays as
    launched — each read off the run at its buffer and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ fun s h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩

end Cert.KernelIdeal.Hand

end
-- ==== Proof.KFrameBits.Host.lean ====
import proofs.«162729_j22162031247387_1_alg».proof.Proof.Gen.Kernel.Launch
import Idealize.ShloMosaic.Lib.Pipeline.RegionsLoop
import Idealize.ShloMosaic.Lib.Pipeline.FrameSuffix

/-! # The host stretches of @main: what they leave alone

@main is eleven items: five stretches of host operations, then three kernel regions with a stretch between
consecutive ones, and a closing stretch. This module states, for each of the eight stretches, the two facts the run
needs of it that do not mention the regions: no operation of the stretch allocates a buffer, and no operation
writes any of the four argument buffers (an argument is only ever read), so that the contents of an argument
after the stretch are its contents before. -/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## No stretch allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## No stretch writes an argument

Each operation writes exactly its result buffer, and every result buffer of @main is a reference other than the
four arguments: one pass over the stretch, each operation's written set a singleton, the two references told apart
by their indices. -/

/-- One pass over a literal stretch: every operation's written set is the singleton of its result, a reference
    distinct from the one asked about. -/
macro "keeps_pass" : tactic => `(tactic| (
  simp only [hostOps0, hostOps0_1, hostOps0_2, hostOps0_3, hostOps0_4, hostOps1, hostOps2, hostOps3,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (by decide)))

set_option maxHeartbeats 4000000 in
theorem hostOps0_keeps_arg0 : ∀ op ∈ (hostOps0 : List (HloOp τ sig (Elt F))), (Proc.devRef .tc main_arg0 : DevRef τ sig) ∉ op.writes :=
  List.forall_iff_forall_mem.mp (by keeps_pass)
set_option maxHeartbeats 4000000 in
theorem hostOps0_keeps_arg1 : ∀ op ∈ (hostOps0 : List (HloOp τ sig (Elt F))), (Proc.devRef .tc main_arg1 : DevRef τ sig) ∉ op.writes :=
  List.forall_iff_forall_mem.mp (by keeps_pass)
set_option maxHeartbeats 4000000 in
theorem hostOps0_keeps_arg2 : ∀ op ∈ (hostOps0 : List (HloOp τ sig (Elt F))), (Proc.devRef .tc main_arg2 : DevRef τ sig) ∉ op.writes :=
  List.forall_iff_forall_mem.mp (by keeps_pass)
set_option maxHeartbeats 4000000 in
theorem hostOps0_keeps_arg3 : ∀ op ∈ (hostOps0 : List (HloOp τ sig (Elt F))), (Proc.devRef .tc main_arg3 : DevRef τ sig) ∉ op.writes :=
  List.forall_iff_forall_mem.mp (by keeps_pass)
theorem hostOps0_1_keeps_arg0 : ∀ op ∈ (hostOps0_1 : List (HloOp τ sig (Elt F))), (Proc.devRef .tc main_arg0 : DevRef τ sig) ∉ op.writes :=
  List.forall_iff_forall_mem.mp (by keeps_pass)
theorem hostOps0_1_keeps_arg1 : ∀ op ∈ (hostOps0_1 : List (HloOp τ sig (Elt F))), (Proc.devRef .tc main_arg1 : DevRef τ sig) ∉ op.writes :=
  List.forall_iff_forall_mem.mp (by keeps_pass)
theorem hostOps0_1_keeps_arg2 : ∀ op ∈ (hostOps0_1 : List (HloOp τ sig (Elt F))), (Proc.devRef .tc main_arg2 : DevRef τ sig) ∉ op.writes :=
  List.forall_iff_forall_mem.mp (by keeps_pass)
theorem hostOps0_1_keeps_arg3 : ∀ op ∈ (hostOps0_1 : List (HloOp τ sig (Elt F))), (Proc.devRef .tc main_arg3 : DevRef τ sig) ∉ op.writes :=
  List.forall_iff_forall_mem.mp (by keeps_pass)
theorem hostOps0_2_keeps_arg0 : ∀ op ∈ (hostOps0_2 : List (HloOp τ sig (Elt F))), (Proc.devRef .tc main_arg0 : DevRef τ sig) ∉ op.writes :=
  List.forall_iff_forall_mem.mp (by keeps_pass)
theorem hostOps0_2_keeps_arg1 : ∀ op ∈ (hostOps0_2 : List (HloOp τ sig (Elt F))), (Proc.devRef .tc main_arg1 : DevRef τ sig) ∉ op.writes :=
  List.forall_iff_forall_mem.mp (by keeps_pass)
theorem hostOps0_2_keeps_arg2 : ∀ op ∈ (hostOps0_2 : List (HloOp τ sig (Elt F))), (Proc.devRef .tc main_arg2 : DevRef τ sig) ∉ op.writes :=
  List.forall_iff_forall_mem.mp (by keeps_pass)
theorem hostOps0_2_keeps_arg3 : ∀ op ∈ (hostOps0_2 : List (HloOp τ sig (Elt F))), (Proc.devRef .tc main_arg3 : DevRef τ sig) ∉ op.writes :=
  List.forall_iff_forall_mem.mp (by keeps_pass)
theorem hostOps0_3_keeps_arg0 : ∀ op ∈ (hostOps0_3 : List (HloOp τ sig (Elt F))), (Proc.devRef .tc main_arg0 : DevRef τ sig) ∉ op.writes :=
  List.forall_iff_forall_mem.mp (by keeps_pass)
theorem hostOps0_3_keeps_arg1 : ∀ op ∈ (hostOps0_3 : List (HloOp τ sig (Elt F))), (Proc.devRef .tc main_arg1 : DevRef τ sig) ∉ op.writes :=
  List.forall_iff_forall_mem.mp (by keeps_pass)
theorem hostOps0_3_keeps_arg2 : ∀ op ∈ (hostOps0_3 : List (HloOp τ sig (Elt F))), (Proc.devRef .tc main_arg2 : DevRef τ sig) ∉ op.writes :=
  List.forall_iff_forall_mem.mp (by keeps_pass)
theorem hostOps0_3_keeps_arg3 : ∀ op ∈ (hostOps0_3 : List (HloOp τ sig (Elt F))), (Proc.devRef .tc main_arg3 : DevRef τ sig) ∉ op.writes :=
  List.forall_iff_forall_mem.mp (by keeps_pass)
theorem hostOps0_4_keeps_arg0 : ∀ op ∈ (hostOps0_4 : List (HloOp τ sig (Elt F))), (Proc.devRef .tc main_arg0 : DevRef τ sig) ∉ op.writes :=
  List.forall_iff_forall_mem.mp (by keeps_pass)
theorem hostOps0_4_keeps_arg1 : ∀ op ∈ (hostOps0_4 : List (HloOp τ sig (Elt F))), (Proc.devRef .tc main_arg1 : DevRef τ sig) ∉ op.writes :=
  List.forall_iff_forall_mem.mp (by keeps_pass)
theorem hostOps0_4_keeps_arg2 : ∀ op ∈ (hostOps0_4 : List (HloOp τ sig (Elt F))), (Proc.devRef .tc main_arg2 : DevRef τ sig) ∉ op.writes :=
  List.forall_iff_forall_mem.mp (by keeps_pass)
theorem hostOps0_4_keeps_arg3 : ∀ op ∈ (hostOps0_4 : List (HloOp τ sig (Elt F))), (Proc.devRef .tc main_arg3 : DevRef τ sig) ∉ op.writes :=
  List.forall_iff_forall_mem.mp (by keeps_pass)
theorem hostOps1_keeps_arg0 : ∀ op ∈ (hostOps1 : List (HloOp τ sig (Elt F))), (Proc.devRef .tc main_arg0 : DevRef τ sig) ∉ op.writes :=
  List.forall_iff_forall_mem.mp (by keeps_pass)
theorem hostOps1_keeps_arg1 : ∀ op ∈ (hostOps1 : List (HloOp τ sig (Elt F))), (Proc.devRef .tc main_arg1 : DevRef τ sig) ∉ op.writes :=
  List.forall_iff_forall_mem.mp (by keeps_pass)
theorem hostOps1_keeps_arg2 : ∀ op ∈ (hostOps1 : List (HloOp τ sig (Elt F))), (Proc.devRef .tc main_arg2 : DevRef τ sig) ∉ op.writes :=
  List.forall_iff_forall_mem.mp (by keeps_pass)
theorem hostOps1_keeps_arg3 : ∀ op ∈ (hostOps1 : List (HloOp τ sig (Elt F))), (Proc.devRef .tc main_arg3 : DevRef τ sig) ∉ op.writes :=
  List.forall_iff_forall_mem.mp (by keeps_pass)
theorem hostOps2_keeps_arg0 : ∀ op ∈ (hostOps2 : List (HloOp τ sig (Elt F))), (Proc.devRef .tc main_arg0 : DevRef τ sig) ∉ op.writes :=
  List.forall_iff_forall_mem.mp (by keeps_pass)
theorem hostOps2_keeps_arg1 : ∀ op ∈ (hostOps2 : List (HloOp τ sig (Elt F))), (Proc.devRef .tc main_arg1 : DevRef τ sig) ∉ op.writes :=
  List.forall_iff_forall_mem.mp (by keeps_pass)
theorem hostOps2_keeps_arg2 : ∀ op ∈ (hostOps2 : List (HloOp τ sig (Elt F))), (Proc.devRef .tc main_arg2 : DevRef τ sig) ∉ op.writes :=
  List.forall_iff_forall_mem.mp (by keeps_pass)
theorem hostOps2_keeps_arg3 : ∀ op ∈ (hostOps2 : List (HloOp τ sig (Elt F))), (Proc.devRef .tc main_arg3 : DevRef τ sig) ∉ op.writes :=
  List.forall_iff_forall_mem.mp (by keeps_pass)
theorem hostOps3_keeps_arg0 : ∀ op ∈ (hostOps3 : List (HloOp τ sig (Elt F))), (Proc.devRef .tc main_arg0 : DevRef τ sig) ∉ op.writes :=
  List.forall_iff_forall_mem.mp (by keeps_pass)
theorem hostOps3_keeps_arg1 : ∀ op ∈ (hostOps3 : List (HloOp τ sig (Elt F))), (Proc.devRef .tc main_arg1 : DevRef τ sig) ∉ op.writes :=
  List.forall_iff_forall_mem.mp (by keeps_pass)
theorem hostOps3_keeps_arg2 : ∀ op ∈ (hostOps3 : List (HloOp τ sig (Elt F))), (Proc.devRef .tc main_arg2 : DevRef τ sig) ∉ op.writes :=
  List.forall_iff_forall_mem.mp (by keeps_pass)
theorem hostOps3_keeps_arg3 : ∀ op ∈ (hostOps3 : List (HloOp τ sig (Elt F))), (Proc.devRef .tc main_arg3 : DevRef τ sig) ∉ op.writes :=
  List.forall_iff_forall_mem.mp (by keeps_pass)

end Cert.Kernel.Hand

end
-- ==== Proof.KFrameBits.R0.lean ====
import proofs.«162729_j22162031247387_1_alg».proof.Proof.Gen.Kernel.Launch
import proofs.«162729_j22162031247387_1_alg».proof.Proof.Gen.Kernel.Skeleton
import proofs.«162729_j22162031247387_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Sampling call 0 of @main (pipeline 0), at the buffer contents `V` it is entered with

One grid point of the call reads a block of 1280 coordinate pairs (window 0) and the whole feature plane of
32 channels (window 1), and writes a block of 32 rows of 1280 samples (window 2). Everything here is stated at a
parameter `V`, the TensorCore's buffer contents when the call is entered: the windows' blocks read off `V`,
what the body leaves in the output block as a function of the two input blocks, the body's triple, and the
pipeline's proof data with its body obligation. -/

-- membership in a rectangle of these extents is decided by structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the block already there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

The coordinate block is read whole; channel `c`'s slab of the plane and row `c` of the output block are the unit
rectangles at offset `c` along the leading axis. -/

abbrev r0_0 : Rect S1280x2 := Rect.unit (s := S1280x2) ![0, 0] S1280x2.size inb_S1280x2_S1280x2_0_0
abbrev r0_1 : Rect S32x512x512 := Rect.unit (s := S32x512x512) ![0, 0, 0] S1x512x512.size inb_S32x512x512_S1x512x512_0_0_0
abbrev r0_2 : Rect S32x1280 := Rect.unit (s := S32x1280) ![0, 0] S1x1280.size inb_S32x1280_S1x1280_0_0
abbrev r0_3 : Rect S32x512x512 := Rect.unit (s := S32x512x512) ![1, 0, 0] S1x512x512.size inb_S32x512x512_S1x512x512_1_0_0
abbrev r0_4 : Rect S32x1280 := Rect.unit (s := S32x1280) ![1, 0] S1x1280.size inb_S32x1280_S1x1280_1_0
abbrev r0_5 : Rect S32x512x512 := Rect.unit (s := S32x512x512) ![2, 0, 0] S1x512x512.size inb_S32x512x512_S1x512x512_2_0_0
abbrev r0_6 : Rect S32x1280 := Rect.unit (s := S32x1280) ![2, 0] S1x1280.size inb_S32x1280_S1x1280_2_0
abbrev r0_7 : Rect S32x512x512 := Rect.unit (s := S32x512x512) ![3, 0, 0] S1x512x512.size inb_S32x512x512_S1x512x512_3_0_0
abbrev r0_8 : Rect S32x1280 := Rect.unit (s := S32x1280) ![3, 0] S1x1280.size inb_S32x1280_S1x1280_3_0
abbrev r0_9 : Rect S32x512x512 := Rect.unit (s := S32x512x512) ![4, 0, 0] S1x512x512.size inb_S32x512x512_S1x512x512_4_0_0
abbrev r0_10 : Rect S32x1280 := Rect.unit (s := S32x1280) ![4, 0] S1x1280.size inb_S32x1280_S1x1280_4_0
abbrev r0_11 : Rect S32x512x512 := Rect.unit (s := S32x512x512) ![5, 0, 0] S1x512x512.size inb_S32x512x512_S1x512x512_5_0_0
abbrev r0_12 : Rect S32x1280 := Rect.unit (s := S32x1280) ![5, 0] S1x1280.size inb_S32x1280_S1x1280_5_0
abbrev r0_13 : Rect S32x512x512 := Rect.unit (s := S32x512x512) ![6, 0, 0] S1x512x512.size inb_S32x512x512_S1x512x512_6_0_0
abbrev r0_14 : Rect S32x1280 := Rect.unit (s := S32x1280) ![6, 0] S1x1280.size inb_S32x1280_S1x1280_6_0
abbrev r0_15 : Rect S32x512x512 := Rect.unit (s := S32x512x512) ![7, 0, 0] S1x512x512.size inb_S32x512x512_S1x512x512_7_0_0
abbrev r0_16 : Rect S32x1280 := Rect.unit (s := S32x1280) ![7, 0] S1x1280.size inb_S32x1280_S1x1280_7_0
abbrev r0_17 : Rect S32x512x512 := Rect.unit (s := S32x512x512) ![8, 0, 0] S1x512x512.size inb_S32x512x512_S1x512x512_8_0_0
abbrev r0_18 : Rect S32x1280 := Rect.unit (s := S32x1280) ![8, 0] S1x1280.size inb_S32x1280_S1x1280_8_0
abbrev r0_19 : Rect S32x512x512 := Rect.unit (s := S32x512x512) ![9, 0, 0] S1x512x512.size inb_S32x512x512_S1x512x512_9_0_0
abbrev r0_20 : Rect S32x1280 := Rect.unit (s := S32x1280) ![9, 0] S1x1280.size inb_S32x1280_S1x1280_9_0
abbrev r0_21 : Rect S32x512x512 := Rect.unit (s := S32x512x512) ![10, 0, 0] S1x512x512.size inb_S32x512x512_S1x512x512_10_0_0
abbrev r0_22 : Rect S32x1280 := Rect.unit (s := S32x1280) ![10, 0] S1x1280.size inb_S32x1280_S1x1280_10_0
abbrev r0_23 : Rect S32x512x512 := Rect.unit (s := S32x512x512) ![11, 0, 0] S1x512x512.size inb_S32x512x512_S1x512x512_11_0_0
abbrev r0_24 : Rect S32x1280 := Rect.unit (s := S32x1280) ![11, 0] S1x1280.size inb_S32x1280_S1x1280_11_0
abbrev r0_25 : Rect S32x512x512 := Rect.unit (s := S32x512x512) ![12, 0, 0] S1x512x512.size inb_S32x512x512_S1x512x512_12_0_0
abbrev r0_26 : Rect S32x1280 := Rect.unit (s := S32x1280) ![12, 0] S1x1280.size inb_S32x1280_S1x1280_12_0
abbrev r0_27 : Rect S32x512x512 := Rect.unit (s := S32x512x512) ![13, 0, 0] S1x512x512.size inb_S32x512x512_S1x512x512_13_0_0
abbrev r0_28 : Rect S32x1280 := Rect.unit (s := S32x1280) ![13, 0] S1x1280.size inb_S32x1280_S1x1280_13_0
abbrev r0_29 : Rect S32x512x512 := Rect.unit (s := S32x512x512) ![14, 0, 0] S1x512x512.size inb_S32x512x512_S1x512x512_14_0_0
abbrev r0_30 : Rect S32x1280 := Rect.unit (s := S32x1280) ![14, 0] S1x1280.size inb_S32x1280_S1x1280_14_0
abbrev r0_31 : Rect S32x512x512 := Rect.unit (s := S32x512x512) ![15, 0, 0] S1x512x512.size inb_S32x512x512_S1x512x512_15_0_0
abbrev r0_32 : Rect S32x1280 := Rect.unit (s := S32x1280) ![15, 0] S1x1280.size inb_S32x1280_S1x1280_15_0
abbrev r0_33 : Rect S32x512x512 := Rect.unit (s := S32x512x512) ![16, 0, 0] S1x512x512.size inb_S32x512x512_S1x512x512_16_0_0
abbrev r0_34 : Rect S32x1280 := Rect.unit (s := S32x1280) ![16, 0] S1x1280.size inb_S32x1280_S1x1280_16_0
abbrev r0_35 : Rect S32x512x512 := Rect.unit (s := S32x512x512) ![17, 0, 0] S1x512x512.size inb_S32x512x512_S1x512x512_17_0_0
abbrev r0_36 : Rect S32x1280 := Rect.unit (s := S32x1280) ![17, 0] S1x1280.size inb_S32x1280_S1x1280_17_0
abbrev r0_37 : Rect S32x512x512 := Rect.unit (s := S32x512x512) ![18, 0, 0] S1x512x512.size inb_S32x512x512_S1x512x512_18_0_0
abbrev r0_38 : Rect S32x1280 := Rect.unit (s := S32x1280) ![18, 0] S1x1280.size inb_S32x1280_S1x1280_18_0
abbrev r0_39 : Rect S32x512x512 := Rect.unit (s := S32x512x512) ![19, 0, 0] S1x512x512.size inb_S32x512x512_S1x512x512_19_0_0
abbrev r0_40 : Rect S32x1280 := Rect.unit (s := S32x1280) ![19, 0] S1x1280.size inb_S32x1280_S1x1280_19_0
abbrev r0_41 : Rect S32x512x512 := Rect.unit (s := S32x512x512) ![20, 0, 0] S1x512x512.size inb_S32x512x512_S1x512x512_20_0_0
abbrev r0_42 : Rect S32x1280 := Rect.unit (s := S32x1280) ![20, 0] S1x1280.size inb_S32x1280_S1x1280_20_0
abbrev r0_43 : Rect S32x512x512 := Rect.unit (s := S32x512x512) ![21, 0, 0] S1x512x512.size inb_S32x512x512_S1x512x512_21_0_0
abbrev r0_44 : Rect S32x1280 := Rect.unit (s := S32x1280) ![21, 0] S1x1280.size inb_S32x1280_S1x1280_21_0
abbrev r0_45 : Rect S32x512x512 := Rect.unit (s := S32x512x512) ![22, 0, 0] S1x512x512.size inb_S32x512x512_S1x512x512_22_0_0
abbrev r0_46 : Rect S32x1280 := Rect.unit (s := S32x1280) ![22, 0] S1x1280.size inb_S32x1280_S1x1280_22_0
abbrev r0_47 : Rect S32x512x512 := Rect.unit (s := S32x512x512) ![23, 0, 0] S1x512x512.size inb_S32x512x512_S1x512x512_23_0_0
abbrev r0_48 : Rect S32x1280 := Rect.unit (s := S32x1280) ![23, 0] S1x1280.size inb_S32x1280_S1x1280_23_0
abbrev r0_49 : Rect S32x512x512 := Rect.unit (s := S32x512x512) ![24, 0, 0] S1x512x512.size inb_S32x512x512_S1x512x512_24_0_0
abbrev r0_50 : Rect S32x1280 := Rect.unit (s := S32x1280) ![24, 0] S1x1280.size inb_S32x1280_S1x1280_24_0
abbrev r0_51 : Rect S32x512x512 := Rect.unit (s := S32x512x512) ![25, 0, 0] S1x512x512.size inb_S32x512x512_S1x512x512_25_0_0
abbrev r0_52 : Rect S32x1280 := Rect.unit (s := S32x1280) ![25, 0] S1x1280.size inb_S32x1280_S1x1280_25_0
abbrev r0_53 : Rect S32x512x512 := Rect.unit (s := S32x512x512) ![26, 0, 0] S1x512x512.size inb_S32x512x512_S1x512x512_26_0_0
abbrev r0_54 : Rect S32x1280 := Rect.unit (s := S32x1280) ![26, 0] S1x1280.size inb_S32x1280_S1x1280_26_0
abbrev r0_55 : Rect S32x512x512 := Rect.unit (s := S32x512x512) ![27, 0, 0] S1x512x512.size inb_S32x512x512_S1x512x512_27_0_0
abbrev r0_56 : Rect S32x1280 := Rect.unit (s := S32x1280) ![27, 0] S1x1280.size inb_S32x1280_S1x1280_27_0
abbrev r0_57 : Rect S32x512x512 := Rect.unit (s := S32x512x512) ![28, 0, 0] S1x512x512.size inb_S32x512x512_S1x512x512_28_0_0
abbrev r0_58 : Rect S32x1280 := Rect.unit (s := S32x1280) ![28, 0] S1x1280.size inb_S32x1280_S1x1280_28_0
abbrev r0_59 : Rect S32x512x512 := Rect.unit (s := S32x512x512) ![29, 0, 0] S1x512x512.size inb_S32x512x512_S1x512x512_29_0_0
abbrev r0_60 : Rect S32x1280 := Rect.unit (s := S32x1280) ![29, 0] S1x1280.size inb_S32x1280_S1x1280_29_0
abbrev r0_61 : Rect S32x512x512 := Rect.unit (s := S32x512x512) ![30, 0, 0] S1x512x512.size inb_S32x512x512_S1x512x512_30_0_0
abbrev r0_62 : Rect S32x1280 := Rect.unit (s := S32x1280) ![30, 0] S1x1280.size inb_S32x1280_S1x1280_30_0
abbrev r0_63 : Rect S32x512x512 := Rect.unit (s := S32x512x512) ![31, 0, 0] S1x512x512.size inb_S32x512x512_S1x512x512_31_0_0
abbrev r0_64 : Rect S32x1280 := Rect.unit (s := S32x1280) ![31, 0] S1x1280.size inb_S32x1280_S1x1280_31_0

/-! ## What the body leaves in the output window's buffer -/

/-- The two interpolation-weight matrices (1280 points by 512 lanes) the body builds once from the coordinate
    block and uses for every channel: the one that multiplies the matrix product elementwise, -/
abbrev v0_50 (x0 : Vec F S1280x2 .f32) : FVec F S1280x512 .f32 :=
  k0_pay16 (k0_pay7 (View.ld x0 r0_0)) (k0_pay13 (View.ld x0 r0_0)) k0_pay14 (k0_pay15 (View.ld x0 r0_0))
/-- and the one that is the left factor of the matrix product. -/
abbrev v0_66 (x0 : Vec F S1280x2 .f32) : FVec F S1280x512 .bf16 :=
  k0_pay17 (k0_pay8 (View.ld x0 r0_0)) (k0_pay9 (View.ld x0 r0_0)) (k0_pay11 (View.ld x0 r0_0)) (k0_pay12 (View.ld x0 r0_0)) (iota .tc S1x512 32 [1] iota_S1x512_d1_w32)

/-- Window 2's staging buffer after the body, from the input windows' blocks: its 32 stores (one row per
    channel) as pieces, last first; row `c`'s payload is a function of the coordinate block and of slab `c` alone. -/
def out0_2 (x0 : Vec F S1280x2 .f32) (x1 : Vec F S32x512x512 .bf16) : Vec F S32x1280 .f32 :=
  View.canon [⟨r0_64, k0_pay1 (k0_pay55 (v0_50 x0) (v0_66 x0) (View.ld x1 r0_63))⟩,
    ⟨r0_62, k0_pay54 (v0_50 x0) (v0_66 x0) (View.ld x1 r0_61)⟩,
    ⟨r0_60, k0_pay53 (v0_50 x0) (v0_66 x0) (View.ld x1 r0_59)⟩,
    ⟨r0_58, k0_pay52 (k0_pay51 (v0_50 x0) (v0_66 x0) (View.ld x1 r0_57))⟩,
    ⟨r0_56, k0_pay50 (v0_50 x0) (v0_66 x0) (View.ld x1 r0_55)⟩,
    ⟨r0_54, k0_pay49 (v0_50 x0) (v0_66 x0) (View.ld x1 r0_53)⟩,
    ⟨r0_52, k0_pay48 (v0_50 x0) (v0_66 x0) (View.ld x1 r0_51)⟩,
    ⟨r0_50, k0_pay47 (k0_pay46 (v0_50 x0) (v0_66 x0) (View.ld x1 r0_49))⟩,
    ⟨r0_48, k0_pay45 (v0_50 x0) (v0_66 x0) (View.ld x1 r0_47)⟩,
    ⟨r0_46, k0_pay44 (v0_50 x0) (v0_66 x0) (View.ld x1 r0_45)⟩,
    ⟨r0_44, k0_pay43 (v0_50 x0) (v0_66 x0) (View.ld x1 r0_43)⟩,
    ⟨r0_42, k0_pay42 (v0_50 x0) (v0_66 x0) (View.ld x1 r0_41)⟩,
    ⟨r0_40, k0_pay41 (v0_50 x0) (v0_66 x0) (View.ld x1 r0_39)⟩,
    ⟨r0_38, k0_pay40 (v0_50 x0) (v0_66 x0) (View.ld x1 r0_37)⟩,
    ⟨r0_36, k0_pay39 (v0_50 x0) (v0_66 x0) (k0_pay38 (View.ld x1 r0_35)) (constant S1280x512 .f32 0x00000000#32)⟩,
    ⟨r0_34, k0_pay37 (v0_50 x0) (v0_66 x0) (View.ld x1 r0_33)⟩,
    ⟨r0_32, k0_pay36 (v0_50 x0) (v0_66 x0) (View.ld x1 r0_31)⟩,
    ⟨r0_30, k0_pay35 (v0_50 x0) (v0_66 x0) (View.ld x1 r0_29)⟩,
    ⟨r0_28, k0_pay34 (k0_pay33 (v0_50 x0) (v0_66 x0) (View.ld x1 r0_27))⟩,
    ⟨r0_26, k0_pay32 (v0_50 x0) (v0_66 x0) (View.ld x1 r0_25)⟩,
    ⟨r0_24, k0_pay31 (v0_50 x0) (v0_66 x0) (View.ld x1 r0_23)⟩,
    ⟨r0_22, k0_pay30 (v0_50 x0) (v0_66 x0) (View.ld x1 r0_21)⟩,
    ⟨r0_20, k0_pay29 (k0_pay28 (v0_50 x0) (v0_66 x0) (View.ld x1 r0_19))⟩,
    ⟨r0_18, k0_pay27 (v0_50 x0) (v0_66 x0) (View.ld x1 r0_17)⟩,
    ⟨r0_16, k0_pay26 (v0_50 x0) (v0_66 x0) (View.ld x1 r0_15)⟩,
    ⟨r0_14, k0_pay25 (v0_50 x0) (v0_66 x0) (View.ld x1 r0_13)⟩,
    ⟨r0_12, k0_pay24 (v0_50 x0) (v0_66 x0) (View.ld x1 r0_11)⟩,
    ⟨r0_10, k0_pay23 (v0_50 x0) (v0_66 x0) (View.ld x1 r0_9)⟩,
    ⟨r0_8, k0_pay22 (v0_50 x0) (v0_66 x0) (View.ld x1 r0_7)⟩,
    ⟨r0_6, k0_pay21 (v0_50 x0) (v0_66 x0) (k0_pay20 (View.ld x1 r0_5)) (constant S1280x512 .f32 0x00000000#32)⟩,
    ⟨r0_4, k0_pay19 (k0_pay7 (View.ld x0 r0_0)) (k0_pay8 (View.ld x0 r0_0)) (k0_pay9 (View.ld x0 r0_0)) (k0_pay11 (View.ld x0 r0_0)) (k0_pay12 (View.ld x0 r0_0)) (iota .tc S1x512 32 [1] iota_S1x512_d1_w32) (k0_pay13 (View.ld x0 r0_0)) k0_pay14 (k0_pay15 (View.ld x0 r0_0)) (View.ld x1 r0_3)⟩,
    ⟨r0_2, k0_pay18 (k0_pay7 (View.ld x0 r0_0)) (k0_pay8 (View.ld x0 r0_0)) (k0_pay9 (View.ld x0 r0_0)) (k0_pay11 (View.ld x0 r0_0)) (k0_pay12 (View.ld x0 r0_0)) (iota .tc S1x512 32 [1] iota_S1x512_d1_w32) (k0_pay13 (View.ld x0 r0_0)) k0_pay14 (k0_pay15 (View.ld x0 r0_0)) (View.ld x1 r0_1)⟩]

/-- Its stores tile the buffer (one row each, checked by evaluation), so they cover it. -/
theorem cover0_2 (p0 : Vec F S1x1280 .f32) (p1 : Vec F S1x1280 .f32) (p2 : Vec F S1x1280 .f32) (p3 : Vec F S1x1280 .f32) (p4 : Vec F S1x1280 .f32) (p5 : Vec F S1x1280 .f32) (p6 : Vec F S1x1280 .f32) (p7 : Vec F S1x1280 .f32) (p8 : Vec F S1x1280 .f32) (p9 : Vec F S1x1280 .f32) (p10 : Vec F S1x1280 .f32) (p11 : Vec F S1x1280 .f32) (p12 : Vec F S1x1280 .f32) (p13 : Vec F S1x1280 .f32) (p14 : Vec F S1x1280 .f32) (p15 : Vec F S1x1280 .f32) (p16 : Vec F S1x1280 .f32) (p17 : Vec F S1x1280 .f32) (p18 : Vec F S1x1280 .f32) (p19 : Vec F S1x1280 .f32) (p20 : Vec F S1x1280 .f32) (p21 : Vec F S1x1280 .f32) (p22 : Vec F S1x1280 .f32) (p23 : Vec F S1x1280 .f32) (p24 : Vec F S1x1280 .f32) (p25 : Vec F S1x1280 .f32) (p26 : Vec F S1x1280 .f32) (p27 : Vec F S1x1280 .f32) (p28 : Vec F S1x1280 .f32) (p29 : Vec F S1x1280 .f32) (p30 : Vec F S1x1280 .f32) (p31 : Vec F S1x1280 .f32) (y : S32x1280.Idx) :
    ∃ pc ∈ ([⟨r0_64, p0⟩, ⟨r0_62, p1⟩, ⟨r0_60, p2⟩, ⟨r0_58, p3⟩, ⟨r0_56, p4⟩, ⟨r0_54, p5⟩, ⟨r0_52, p6⟩, ⟨r0_50, p7⟩, ⟨r0_48, p8⟩, ⟨r0_46, p9⟩, ⟨r0_44, p10⟩, ⟨r0_42, p11⟩, ⟨r0_40, p12⟩, ⟨r0_38, p13⟩, ⟨r0_36, p14⟩, ⟨r0_34, p15⟩, ⟨r0_32, p16⟩, ⟨r0_30, p17⟩, ⟨r0_28, p18⟩, ⟨r0_26, p19⟩, ⟨r0_24, p20⟩, ⟨r0_22, p21⟩, ⟨r0_20, p22⟩, ⟨r0_18, p23⟩, ⟨r0_16, p24⟩, ⟨r0_14, p25⟩, ⟨r0_12, p26⟩, ⟨r0_10, p27⟩, ⟨r0_8, p28⟩, ⟨r0_6, p29⟩, ⟨r0_4, p30⟩, ⟨r0_2, p31⟩] : List (View.Piece (Elt F) S32x1280 .f32)), y ∈ pc.1.set :=
  View.cover_of_tiled [⟨r0_64, p0⟩, ⟨r0_62, p1⟩, ⟨r0_60, p2⟩, ⟨r0_58, p3⟩, ⟨r0_56, p4⟩, ⟨r0_54, p5⟩, ⟨r0_52, p6⟩, ⟨r0_50, p7⟩, ⟨r0_48, p8⟩, ⟨r0_46, p9⟩, ⟨r0_44, p10⟩, ⟨r0_42, p11⟩, ⟨r0_40, p12⟩, ⟨r0_38, p13⟩, ⟨r0_36, p14⟩, ⟨r0_34, p15⟩, ⟨r0_32, p16⟩, ⟨r0_30, p17⟩, ⟨r0_28, p18⟩, ⟨r0_26, p19⟩, ⟨r0_24, p20⟩, ⟨r0_22, p21⟩, ⟨r0_20, p22⟩, ⟨r0_18, p23⟩, ⟨r0_16, p24⟩, ⟨r0_14, p25⟩, ⟨r0_12, p26⟩, ⟨r0_10, p27⟩, ⟨r0_8, p28⟩, ⟨r0_6, p29⟩, ⟨r0_4, p30⟩, ⟨r0_2, p31⟩] S1x1280.size (by rfl) y

/-! ## The body's triple -/

set_option maxHeartbeats 8000000 in
/-- The kernel body on whole staging memrefs, the inputs' at read contents `x0`, `x1` and the output's at anything,
    runs to the continuation holding the inputs' as they were and the output's at `out0_2` of the inputs: the printed
    function and its parts are sequences of loads and stores over named payloads, which are run in order; each
    load of an output row before its store reads a value the body never uses. -/
theorem sound_kernel0 (c : Dev nD) (E : Set ℕ) (i : grid0.Coords) (arg1 : Memref sig .tc .vmem S1280x2 .f32) (harg1 : arg1.IsWhole) (arg2 : Memref sig .tc .vmem S32x512x512 .bf16) (harg2 : arg2.IsWhole) (arg3 : Memref sig .tc .vmem S32x1280 .f32) (harg3 : arg3.IsWhole)
    (x0 : Vec F S1280x2 .f32) (x1 : Vec F S32x512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__sample_kernel i arg1 harg1 arg2 harg2 arg3 harg3) K := by
  simp only [cc0__sample_kernel_eq_skeleton]; unfold cc0__sample_kernel_skel
  simp only [k0_part10_eq_skeleton]; unfold k0_part10_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _ _ _ _ _ _ _ _ _ _ _ _ _ _ _ _ _ _ _ _ _ _ _ _ _ _ _ _ _ _ _ _)

/-! ## The pipeline's proof data -/

/-- The proof data of pipeline 0 on core `c`: the arrays as the call finds them (`V`); after the body at point
    `t` each input's buffer at its block and the output's at `out0_2` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KFrameBits.R1.lean ====
import proofs.«162729_j22162031247387_1_alg».proof.Proof.Gen.Kernel.Launch
import proofs.«162729_j22162031247387_1_alg».proof.Proof.Gen.Kernel.Skeleton
import proofs.«162729_j22162031247387_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Sampling call 1 of @main (pipeline 1), at the buffer contents `V` it is entered with

One grid point of the call reads a block of 1280 coordinate pairs (window 0) and the whole feature plane of
32 channels (window 1), and writes a block of 32 rows of 1280 samples (window 2). Everything here is stated at a
parameter `V`, the TensorCore's buffer contents when the call is entered: the windows' blocks read off `V`,
what the body leaves in the output block as a function of the two input blocks, the body's triple, and the
pipeline's proof data with its body obligation. -/

-- membership in a rectangle of these extents is decided by structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses

The coordinate block is read whole; channel `c`'s slab of the plane and row `c` of the output block are the unit
rectangles at offset `c` along the leading axis. -/

abbrev r1_0 : Rect S1280x2 := Rect.unit (s := S1280x2) ![0, 0] S1280x2.size inb_S1280x2_S1280x2_0_0
abbrev r1_1 : Rect S32x512x512 := Rect.unit (s := S32x512x512) ![0, 0, 0] S1x512x512.size inb_S32x512x512_S1x512x512_0_0_0
abbrev r1_2 : Rect S32x1280 := Rect.unit (s := S32x1280) ![0, 0] S1x1280.size inb_S32x1280_S1x1280_0_0
abbrev r1_3 : Rect S32x512x512 := Rect.unit (s := S32x512x512) ![1, 0, 0] S1x512x512.size inb_S32x512x512_S1x512x512_1_0_0
abbrev r1_4 : Rect S32x1280 := Rect.unit (s := S32x1280) ![1, 0] S1x1280.size inb_S32x1280_S1x1280_1_0
abbrev r1_5 : Rect S32x512x512 := Rect.unit (s := S32x512x512) ![2, 0, 0] S1x512x512.size inb_S32x512x512_S1x512x512_2_0_0
abbrev r1_6 : Rect S32x1280 := Rect.unit (s := S32x1280) ![2, 0] S1x1280.size inb_S32x1280_S1x1280_2_0
abbrev r1_7 : Rect S32x512x512 := Rect.unit (s := S32x512x512) ![3, 0, 0] S1x512x512.size inb_S32x512x512_S1x512x512_3_0_0
abbrev r1_8 : Rect S32x1280 := Rect.unit (s := S32x1280) ![3, 0] S1x1280.size inb_S32x1280_S1x1280_3_0
abbrev r1_9 : Rect S32x512x512 := Rect.unit (s := S32x512x512) ![4, 0, 0] S1x512x512.size inb_S32x512x512_S1x512x512_4_0_0
abbrev r1_10 : Rect S32x1280 := Rect.unit (s := S32x1280) ![4, 0] S1x1280.size inb_S32x1280_S1x1280_4_0
abbrev r1_11 : Rect S32x512x512 := Rect.unit (s := S32x512x512) ![5, 0, 0] S1x512x512.size inb_S32x512x512_S1x512x512_5_0_0
abbrev r1_12 : Rect S32x1280 := Rect.unit (s := S32x1280) ![5, 0] S1x1280.size inb_S32x1280_S1x1280_5_0
abbrev r1_13 : Rect S32x512x512 := Rect.unit (s := S32x512x512) ![6, 0, 0] S1x512x512.size inb_S32x512x512_S1x512x512_6_0_0
abbrev r1_14 : Rect S32x1280 := Rect.unit (s := S32x1280) ![6, 0] S1x1280.size inb_S32x1280_S1x1280_6_0
abbrev r1_15 : Rect S32x512x512 := Rect.unit (s := S32x512x512) ![7, 0, 0] S1x512x512.size inb_S32x512x512_S1x512x512_7_0_0
abbrev r1_16 : Rect S32x1280 := Rect.unit (s := S32x1280) ![7, 0] S1x1280.size inb_S32x1280_S1x1280_7_0
abbrev r1_17 : Rect S32x512x512 := Rect.unit (s := S32x512x512) ![8, 0, 0] S1x512x512.size inb_S32x512x512_S1x512x512_8_0_0
abbrev r1_18 : Rect S32x1280 := Rect.unit (s := S32x1280) ![8, 0] S1x1280.size inb_S32x1280_S1x1280_8_0
abbrev r1_19 : Rect S32x512x512 := Rect.unit (s := S32x512x512) ![9, 0, 0] S1x512x512.size inb_S32x512x512_S1x512x512_9_0_0
abbrev r1_20 : Rect S32x1280 := Rect.unit (s := S32x1280) ![9, 0] S1x1280.size inb_S32x1280_S1x1280_9_0
abbrev r1_21 : Rect S32x512x512 := Rect.unit (s := S32x512x512) ![10, 0, 0] S1x512x512.size inb_S32x512x512_S1x512x512_10_0_0
abbrev r1_22 : Rect S32x1280 := Rect.unit (s := S32x1280) ![10, 0] S1x1280.size inb_S32x1280_S1x1280_10_0
abbrev r1_23 : Rect S32x512x512 := Rect.unit (s := S32x512x512) ![11, 0, 0] S1x512x512.size inb_S32x512x512_S1x512x512_11_0_0
abbrev r1_24 : Rect S32x1280 := Rect.unit (s := S32x1280) ![11, 0] S1x1280.size inb_S32x1280_S1x1280_11_0
abbrev r1_25 : Rect S32x512x512 := Rect.unit (s := S32x512x512) ![12, 0, 0] S1x512x512.size inb_S32x512x512_S1x512x512_12_0_0
abbrev r1_26 : Rect S32x1280 := Rect.unit (s := S32x1280) ![12, 0] S1x1280.size inb_S32x1280_S1x1280_12_0
abbrev r1_27 : Rect S32x512x512 := Rect.unit (s := S32x512x512) ![13, 0, 0] S1x512x512.size inb_S32x512x512_S1x512x512_13_0_0
abbrev r1_28 : Rect S32x1280 := Rect.unit (s := S32x1280) ![13, 0] S1x1280.size inb_S32x1280_S1x1280_13_0
abbrev r1_29 : Rect S32x512x512 := Rect.unit (s := S32x512x512) ![14, 0, 0] S1x512x512.size inb_S32x512x512_S1x512x512_14_0_0
abbrev r1_30 : Rect S32x1280 := Rect.unit (s := S32x1280) ![14, 0] S1x1280.size inb_S32x1280_S1x1280_14_0
abbrev r1_31 : Rect S32x512x512 := Rect.unit (s := S32x512x512) ![15, 0, 0] S1x512x512.size inb_S32x512x512_S1x512x512_15_0_0
abbrev r1_32 : Rect S32x1280 := Rect.unit (s := S32x1280) ![15, 0] S1x1280.size inb_S32x1280_S1x1280_15_0
abbrev r1_33 : Rect S32x512x512 := Rect.unit (s := S32x512x512) ![16, 0, 0] S1x512x512.size inb_S32x512x512_S1x512x512_16_0_0
abbrev r1_34 : Rect S32x1280 := Rect.unit (s := S32x1280) ![16, 0] S1x1280.size inb_S32x1280_S1x1280_16_0
abbrev r1_35 : Rect S32x512x512 := Rect.unit (s := S32x512x512) ![17, 0, 0] S1x512x512.size inb_S32x512x512_S1x512x512_17_0_0
abbrev r1_36 : Rect S32x1280 := Rect.unit (s := S32x1280) ![17, 0] S1x1280.size inb_S32x1280_S1x1280_17_0
abbrev r1_37 : Rect S32x512x512 := Rect.unit (s := S32x512x512) ![18, 0, 0] S1x512x512.size inb_S32x512x512_S1x512x512_18_0_0
abbrev r1_38 : Rect S32x1280 := Rect.unit (s := S32x1280) ![18, 0] S1x1280.size inb_S32x1280_S1x1280_18_0
abbrev r1_39 : Rect S32x512x512 := Rect.unit (s := S32x512x512) ![19, 0, 0] S1x512x512.size inb_S32x512x512_S1x512x512_19_0_0
abbrev r1_40 : Rect S32x1280 := Rect.unit (s := S32x1280) ![19, 0] S1x1280.size inb_S32x1280_S1x1280_19_0
abbrev r1_41 : Rect S32x512x512 := Rect.unit (s := S32x512x512) ![20, 0, 0] S1x512x512.size inb_S32x512x512_S1x512x512_20_0_0
abbrev r1_42 : Rect S32x1280 := Rect.unit (s := S32x1280) ![20, 0] S1x1280.size inb_S32x1280_S1x1280_20_0
abbrev r1_43 : Rect S32x512x512 := Rect.unit (s := S32x512x512) ![21, 0, 0] S1x512x512.size inb_S32x512x512_S1x512x512_21_0_0
abbrev r1_44 : Rect S32x1280 := Rect.unit (s := S32x1280) ![21, 0] S1x1280.size inb_S32x1280_S1x1280_21_0
abbrev r1_45 : Rect S32x512x512 := Rect.unit (s := S32x512x512) ![22, 0, 0] S1x512x512.size inb_S32x512x512_S1x512x512_22_0_0
abbrev r1_46 : Rect S32x1280 := Rect.unit (s := S32x1280) ![22, 0] S1x1280.size inb_S32x1280_S1x1280_22_0
abbrev r1_47 : Rect S32x512x512 := Rect.unit (s := S32x512x512) ![23, 0, 0] S1x512x512.size inb_S32x512x512_S1x512x512_23_0_0
abbrev r1_48 : Rect S32x1280 := Rect.unit (s := S32x1280) ![23, 0] S1x1280.size inb_S32x1280_S1x1280_23_0
abbrev r1_49 : Rect S32x512x512 := Rect.unit (s := S32x512x512) ![24, 0, 0] S1x512x512.size inb_S32x512x512_S1x512x512_24_0_0
abbrev r1_50 : Rect S32x1280 := Rect.unit (s := S32x1280) ![24, 0] S1x1280.size inb_S32x1280_S1x1280_24_0
abbrev r1_51 : Rect S32x512x512 := Rect.unit (s := S32x512x512) ![25, 0, 0] S1x512x512.size inb_S32x512x512_S1x512x512_25_0_0
abbrev r1_52 : Rect S32x1280 := Rect.unit (s := S32x1280) ![25, 0] S1x1280.size inb_S32x1280_S1x1280_25_0
abbrev r1_53 : Rect S32x512x512 := Rect.unit (s := S32x512x512) ![26, 0, 0] S1x512x512.size inb_S32x512x512_S1x512x512_26_0_0
abbrev r1_54 : Rect S32x1280 := Rect.unit (s := S32x1280) ![26, 0] S1x1280.size inb_S32x1280_S1x1280_26_0
abbrev r1_55 : Rect S32x512x512 := Rect.unit (s := S32x512x512) ![27, 0, 0] S1x512x512.size inb_S32x512x512_S1x512x512_27_0_0
abbrev r1_56 : Rect S32x1280 := Rect.unit (s := S32x1280) ![27, 0] S1x1280.size inb_S32x1280_S1x1280_27_0
abbrev r1_57 : Rect S32x512x512 := Rect.unit (s := S32x512x512) ![28, 0, 0] S1x512x512.size inb_S32x512x512_S1x512x512_28_0_0
abbrev r1_58 : Rect S32x1280 := Rect.unit (s := S32x1280) ![28, 0] S1x1280.size inb_S32x1280_S1x1280_28_0
abbrev r1_59 : Rect S32x512x512 := Rect.unit (s := S32x512x512) ![29, 0, 0] S1x512x512.size inb_S32x512x512_S1x512x512_29_0_0
abbrev r1_60 : Rect S32x1280 := Rect.unit (s := S32x1280) ![29, 0] S1x1280.size inb_S32x1280_S1x1280_29_0
abbrev r1_61 : Rect S32x512x512 := Rect.unit (s := S32x512x512) ![30, 0, 0] S1x512x512.size inb_S32x512x512_S1x512x512_30_0_0
abbrev r1_62 : Rect S32x1280 := Rect.unit (s := S32x1280) ![30, 0] S1x1280.size inb_S32x1280_S1x1280_30_0
abbrev r1_63 : Rect S32x512x512 := Rect.unit (s := S32x512x512) ![31, 0, 0] S1x512x512.size inb_S32x512x512_S1x512x512_31_0_0
abbrev r1_64 : Rect S32x1280 := Rect.unit (s := S32x1280) ![31, 0] S1x1280.size inb_S32x1280_S1x1280_31_0

/-! ## What the body leaves in the output window's buffer -/

/-- The two interpolation-weight matrices (1280 points by 512 lanes) the body builds once from the coordinate
    block and uses for every channel: the one that multiplies the matrix product elementwise, -/
abbrev v1_50 (x0 : Vec F S1280x2 .f32) : FVec F S1280x512 .f32 :=
  k1_pay16 (k1_pay7 (View.ld x0 r1_0)) (k1_pay13 (View.ld x0 r1_0)) k1_pay14 (k1_pay15 (View.ld x0 r1_0))
/-- and the one that is the left factor of the matrix product. -/
abbrev v1_66 (x0 : Vec F S1280x2 .f32) : FVec F S1280x512 .bf16 :=
  k1_pay17 (k1_pay8 (View.ld x0 r1_0)) (k1_pay9 (View.ld x0 r1_0)) (k1_pay11 (View.ld x0 r1_0)) (k1_pay12 (View.ld x0 r1_0)) (iota .tc S1x512 32 [1] iota_S1x512_d1_w32)

/-- Window 2's staging buffer after the body, from the input windows' blocks: its 32 stores (one row per
    channel) as pieces, last first; row `c`'s payload is a function of the coordinate block and of slab `c` alone. -/
def out1_2 (x0 : Vec F S1280x2 .f32) (x1 : Vec F S32x512x512 .bf16) : Vec F S32x1280 .f32 :=
  View.canon [⟨r1_64, k1_pay1 (k1_pay55 (v1_50 x0) (v1_66 x0) (View.ld x1 r1_63))⟩,
    ⟨r1_62, k1_pay54 (v1_50 x0) (v1_66 x0) (View.ld x1 r1_61)⟩,
    ⟨r1_60, k1_pay53 (v1_50 x0) (v1_66 x0) (View.ld x1 r1_59)⟩,
    ⟨r1_58, k1_pay52 (k1_pay51 (v1_50 x0) (v1_66 x0) (View.ld x1 r1_57))⟩,
    ⟨r1_56, k1_pay50 (v1_50 x0) (v1_66 x0) (View.ld x1 r1_55)⟩,
    ⟨r1_54, k1_pay49 (v1_50 x0) (v1_66 x0) (View.ld x1 r1_53)⟩,
    ⟨r1_52, k1_pay48 (v1_50 x0) (v1_66 x0) (View.ld x1 r1_51)⟩,
    ⟨r1_50, k1_pay47 (k1_pay46 (v1_50 x0) (v1_66 x0) (View.ld x1 r1_49))⟩,
    ⟨r1_48, k1_pay45 (v1_50 x0) (v1_66 x0) (View.ld x1 r1_47)⟩,
    ⟨r1_46, k1_pay44 (v1_50 x0) (v1_66 x0) (View.ld x1 r1_45)⟩,
    ⟨r1_44, k1_pay43 (v1_50 x0) (v1_66 x0) (View.ld x1 r1_43)⟩,
    ⟨r1_42, k1_pay42 (v1_50 x0) (v1_66 x0) (View.ld x1 r1_41)⟩,
    ⟨r1_40, k1_pay41 (v1_50 x0) (v1_66 x0) (View.ld x1 r1_39)⟩,
    ⟨r1_38, k1_pay40 (v1_50 x0) (v1_66 x0) (View.ld x1 r1_37)⟩,
    ⟨r1_36, k1_pay39 (v1_50 x0) (v1_66 x0) (k1_pay38 (View.ld x1 r1_35)) (constant S1280x512 .f32 0x00000000#32)⟩,
    ⟨r1_34, k1_pay37 (v1_50 x0) (v1_66 x0) (View.ld x1 r1_33)⟩,
    ⟨r1_32, k1_pay36 (v1_50 x0) (v1_66 x0) (View.ld x1 r1_31)⟩,
    ⟨r1_30, k1_pay35 (v1_50 x0) (v1_66 x0) (View.ld x1 r1_29)⟩,
    ⟨r1_28, k1_pay34 (k1_pay33 (v1_50 x0) (v1_66 x0) (View.ld x1 r1_27))⟩,
    ⟨r1_26, k1_pay32 (v1_50 x0) (v1_66 x0) (View.ld x1 r1_25)⟩,
    ⟨r1_24, k1_pay31 (v1_50 x0) (v1_66 x0) (View.ld x1 r1_23)⟩,
    ⟨r1_22, k1_pay30 (v1_50 x0) (v1_66 x0) (View.ld x1 r1_21)⟩,
    ⟨r1_20, k1_pay29 (k1_pay28 (v1_50 x0) (v1_66 x0) (View.ld x1 r1_19))⟩,
    ⟨r1_18, k1_pay27 (v1_50 x0) (v1_66 x0) (View.ld x1 r1_17)⟩,
    ⟨r1_16, k1_pay26 (v1_50 x0) (v1_66 x0) (View.ld x1 r1_15)⟩,
    ⟨r1_14, k1_pay25 (v1_50 x0) (v1_66 x0) (View.ld x1 r1_13)⟩,
    ⟨r1_12, k1_pay24 (v1_50 x0) (v1_66 x0) (View.ld x1 r1_11)⟩,
    ⟨r1_10, k1_pay23 (v1_50 x0) (v1_66 x0) (View.ld x1 r1_9)⟩,
    ⟨r1_8, k1_pay22 (v1_50 x0) (v1_66 x0) (View.ld x1 r1_7)⟩,
    ⟨r1_6, k1_pay21 (v1_50 x0) (v1_66 x0) (k1_pay20 (View.ld x1 r1_5)) (constant S1280x512 .f32 0x00000000#32)⟩,
    ⟨r1_4, k1_pay19 (k1_pay7 (View.ld x0 r1_0)) (k1_pay8 (View.ld x0 r1_0)) (k1_pay9 (View.ld x0 r1_0)) (k1_pay11 (View.ld x0 r1_0)) (k1_pay12 (View.ld x0 r1_0)) (iota .tc S1x512 32 [1] iota_S1x512_d1_w32) (k1_pay13 (View.ld x0 r1_0)) k1_pay14 (k1_pay15 (View.ld x0 r1_0)) (View.ld x1 r1_3)⟩,
    ⟨r1_2, k1_pay18 (k1_pay7 (View.ld x0 r1_0)) (k1_pay8 (View.ld x0 r1_0)) (k1_pay9 (View.ld x0 r1_0)) (k1_pay11 (View.ld x0 r1_0)) (k1_pay12 (View.ld x0 r1_0)) (iota .tc S1x512 32 [1] iota_S1x512_d1_w32) (k1_pay13 (View.ld x0 r1_0)) k1_pay14 (k1_pay15 (View.ld x0 r1_0)) (View.ld x1 r1_1)⟩]

/-- Its stores tile the buffer (one row each, checked by evaluation), so they cover it. -/
theorem cover1_2 (p0 : Vec F S1x1280 .f32) (p1 : Vec F S1x1280 .f32) (p2 : Vec F S1x1280 .f32) (p3 : Vec F S1x1280 .f32) (p4 : Vec F S1x1280 .f32) (p5 : Vec F S1x1280 .f32) (p6 : Vec F S1x1280 .f32) (p7 : Vec F S1x1280 .f32) (p8 : Vec F S1x1280 .f32) (p9 : Vec F S1x1280 .f32) (p10 : Vec F S1x1280 .f32) (p11 : Vec F S1x1280 .f32) (p12 : Vec F S1x1280 .f32) (p13 : Vec F S1x1280 .f32) (p14 : Vec F S1x1280 .f32) (p15 : Vec F S1x1280 .f32) (p16 : Vec F S1x1280 .f32) (p17 : Vec F S1x1280 .f32) (p18 : Vec F S1x1280 .f32) (p19 : Vec F S1x1280 .f32) (p20 : Vec F S1x1280 .f32) (p21 : Vec F S1x1280 .f32) (p22 : Vec F S1x1280 .f32) (p23 : Vec F S1x1280 .f32) (p24 : Vec F S1x1280 .f32) (p25 : Vec F S1x1280 .f32) (p26 : Vec F S1x1280 .f32) (p27 : Vec F S1x1280 .f32) (p28 : Vec F S1x1280 .f32) (p29 : Vec F S1x1280 .f32) (p30 : Vec F S1x1280 .f32) (p31 : Vec F S1x1280 .f32) (y : S32x1280.Idx) :
    ∃ pc ∈ ([⟨r1_64, p0⟩, ⟨r1_62, p1⟩, ⟨r1_60, p2⟩, ⟨r1_58, p3⟩, ⟨r1_56, p4⟩, ⟨r1_54, p5⟩, ⟨r1_52, p6⟩, ⟨r1_50, p7⟩, ⟨r1_48, p8⟩, ⟨r1_46, p9⟩, ⟨r1_44, p10⟩, ⟨r1_42, p11⟩, ⟨r1_40, p12⟩, ⟨r1_38, p13⟩, ⟨r1_36, p14⟩, ⟨r1_34, p15⟩, ⟨r1_32, p16⟩, ⟨r1_30, p17⟩, ⟨r1_28, p18⟩, ⟨r1_26, p19⟩, ⟨r1_24, p20⟩, ⟨r1_22, p21⟩, ⟨r1_20, p22⟩, ⟨r1_18, p23⟩, ⟨r1_16, p24⟩, ⟨r1_14, p25⟩, ⟨r1_12, p26⟩, ⟨r1_10, p27⟩, ⟨r1_8, p28⟩, ⟨r1_6, p29⟩, ⟨r1_4, p30⟩, ⟨r1_2, p31⟩] : List (View.Piece (Elt F) S32x1280 .f32)), y ∈ pc.1.set :=
  View.cover_of_tiled [⟨r1_64, p0⟩, ⟨r1_62, p1⟩, ⟨r1_60, p2⟩, ⟨r1_58, p3⟩, ⟨r1_56, p4⟩, ⟨r1_54, p5⟩, ⟨r1_52, p6⟩, ⟨r1_50, p7⟩, ⟨r1_48, p8⟩, ⟨r1_46, p9⟩, ⟨r1_44, p10⟩, ⟨r1_42, p11⟩, ⟨r1_40, p12⟩, ⟨r1_38, p13⟩, ⟨r1_36, p14⟩, ⟨r1_34, p15⟩, ⟨r1_32, p16⟩, ⟨r1_30, p17⟩, ⟨r1_28, p18⟩, ⟨r1_26, p19⟩, ⟨r1_24, p20⟩, ⟨r1_22, p21⟩, ⟨r1_20, p22⟩, ⟨r1_18, p23⟩, ⟨r1_16, p24⟩, ⟨r1_14, p25⟩, ⟨r1_12, p26⟩, ⟨r1_10, p27⟩, ⟨r1_8, p28⟩, ⟨r1_6, p29⟩, ⟨r1_4, p30⟩, ⟨r1_2, p31⟩] S1x1280.size (by rfl) y

/-! ## The body's triple -/

set_option maxHeartbeats 8000000 in
/-- The kernel body on whole staging memrefs, the inputs' at read contents `x0`, `x1` and the output's at anything,
    runs to the continuation holding the inputs' as they were and the output's at `out1_2` of the inputs: the printed
    function and its parts are sequences of loads and stores over named payloads, which are run in order; each
    load of an output row before its store reads a value the body never uses. -/
theorem sound_kernel1 (c : Dev nD) (E : Set ℕ) (i : grid1.Coords) (arg1 : Memref sig .tc .vmem S1280x2 .f32) (harg1 : arg1.IsWhole) (arg2 : Memref sig .tc .vmem S32x512x512 .bf16) (harg2 : arg2.IsWhole) (arg3 : Memref sig .tc .vmem S32x1280 .f32) (harg3 : arg3.IsWhole)
    (x0 : Vec F S1280x2 .f32) (x1 : Vec F S32x512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__sample_kernel i arg1 harg1 arg2 harg2 arg3 harg3) K := by
  simp only [cc1__sample_kernel_eq_skeleton]; unfold cc1__sample_kernel_skel
  simp only [k1_part10_eq_skeleton]; unfold k1_part10_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _ _ _ _ _ _ _ _ _ _ _ _ _ _ _ _ _ _ _ _ _ _ _ _ _ _ _ _ _)

/-! ## The pipeline's proof data -/

/-- The proof data of pipeline 1 on core `c`: the arrays as the call finds them (`V`); after the body at point
    `t` each input's buffer at its block and the output's at `out1_2` of the input blocks; the invariant leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so `sound_kernel1`
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KFrameBits.R2.lean ====
import proofs.«162729_j22162031247387_1_alg».proof.Proof.Gen.Kernel.Launch
import proofs.«162729_j22162031247387_1_alg».proof.Proof.Gen.Kernel.Skeleton
import proofs.«162729_j22162031247387_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Sampling call 2 of @main (pipeline 2), at the buffer contents `V` it is entered with

One grid point of the call reads a block of 1280 coordinate pairs (window 0) and the whole feature plane of
32 channels (window 1), and writes a block of 32 rows of 1280 samples (window 2). Everything here is stated at a
parameter `V`, the TensorCore's buffer contents when the call is entered: the windows' blocks read off `V`,
what the body leaves in the output block as a function of the two input blocks, the body's triple, and the
pipeline's proof data with its body obligation. -/

-- membership in a rectangle of these extents is decided by structural recursion, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block already there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the block already there is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses

The coordinate block is read whole; channel `c`'s slab of the plane and row `c` of the output block are the unit
rectangles at offset `c` along the leading axis. -/

abbrev r2_0 : Rect S1280x2 := Rect.unit (s := S1280x2) ![0, 0] S1280x2.size inb_S1280x2_S1280x2_0_0
abbrev r2_1 : Rect S32x512x512 := Rect.unit (s := S32x512x512) ![0, 0, 0] S1x512x512.size inb_S32x512x512_S1x512x512_0_0_0
abbrev r2_2 : Rect S32x1280 := Rect.unit (s := S32x1280) ![0, 0] S1x1280.size inb_S32x1280_S1x1280_0_0
abbrev r2_3 : Rect S32x512x512 := Rect.unit (s := S32x512x512) ![1, 0, 0] S1x512x512.size inb_S32x512x512_S1x512x512_1_0_0
abbrev r2_4 : Rect S32x1280 := Rect.unit (s := S32x1280) ![1, 0] S1x1280.size inb_S32x1280_S1x1280_1_0
abbrev r2_5 : Rect S32x512x512 := Rect.unit (s := S32x512x512) ![2, 0, 0] S1x512x512.size inb_S32x512x512_S1x512x512_2_0_0
abbrev r2_6 : Rect S32x1280 := Rect.unit (s := S32x1280) ![2, 0] S1x1280.size inb_S32x1280_S1x1280_2_0
abbrev r2_7 : Rect S32x512x512 := Rect.unit (s := S32x512x512) ![3, 0, 0] S1x512x512.size inb_S32x512x512_S1x512x512_3_0_0
abbrev r2_8 : Rect S32x1280 := Rect.unit (s := S32x1280) ![3, 0] S1x1280.size inb_S32x1280_S1x1280_3_0
abbrev r2_9 : Rect S32x512x512 := Rect.unit (s := S32x512x512) ![4, 0, 0] S1x512x512.size inb_S32x512x512_S1x512x512_4_0_0
abbrev r2_10 : Rect S32x1280 := Rect.unit (s := S32x1280) ![4, 0] S1x1280.size inb_S32x1280_S1x1280_4_0
abbrev r2_11 : Rect S32x512x512 := Rect.unit (s := S32x512x512) ![5, 0, 0] S1x512x512.size inb_S32x512x512_S1x512x512_5_0_0
abbrev r2_12 : Rect S32x1280 := Rect.unit (s := S32x1280) ![5, 0] S1x1280.size inb_S32x1280_S1x1280_5_0
abbrev r2_13 : Rect S32x512x512 := Rect.unit (s := S32x512x512) ![6, 0, 0] S1x512x512.size inb_S32x512x512_S1x512x512_6_0_0
abbrev r2_14 : Rect S32x1280 := Rect.unit (s := S32x1280) ![6, 0] S1x1280.size inb_S32x1280_S1x1280_6_0
abbrev r2_15 : Rect S32x512x512 := Rect.unit (s := S32x512x512) ![7, 0, 0] S1x512x512.size inb_S32x512x512_S1x512x512_7_0_0
abbrev r2_16 : Rect S32x1280 := Rect.unit (s := S32x1280) ![7, 0] S1x1280.size inb_S32x1280_S1x1280_7_0
abbrev r2_17 : Rect S32x512x512 := Rect.unit (s := S32x512x512) ![8, 0, 0] S1x512x512.size inb_S32x512x512_S1x512x512_8_0_0
abbrev r2_18 : Rect S32x1280 := Rect.unit (s := S32x1280) ![8, 0] S1x1280.size inb_S32x1280_S1x1280_8_0
abbrev r2_19 : Rect S32x512x512 := Rect.unit (s := S32x512x512) ![9, 0, 0] S1x512x512.size inb_S32x512x512_S1x512x512_9_0_0
abbrev r2_20 : Rect S32x1280 := Rect.unit (s := S32x1280) ![9, 0] S1x1280.size inb_S32x1280_S1x1280_9_0
abbrev r2_21 : Rect S32x512x512 := Rect.unit (s := S32x512x512) ![10, 0, 0] S1x512x512.size inb_S32x512x512_S1x512x512_10_0_0
abbrev r2_22 : Rect S32x1280 := Rect.unit (s := S32x1280) ![10, 0] S1x1280.size inb_S32x1280_S1x1280_10_0
abbrev r2_23 : Rect S32x512x512 := Rect.unit (s := S32x512x512) ![11, 0, 0] S1x512x512.size inb_S32x512x512_S1x512x512_11_0_0
abbrev r2_24 : Rect S32x1280 := Rect.unit (s := S32x1280) ![11, 0] S1x1280.size inb_S32x1280_S1x1280_11_0
abbrev r2_25 : Rect S32x512x512 := Rect.unit (s := S32x512x512) ![12, 0, 0] S1x512x512.size inb_S32x512x512_S1x512x512_12_0_0
abbrev r2_26 : Rect S32x1280 := Rect.unit (s := S32x1280) ![12, 0] S1x1280.size inb_S32x1280_S1x1280_12_0
abbrev r2_27 : Rect S32x512x512 := Rect.unit (s := S32x512x512) ![13, 0, 0] S1x512x512.size inb_S32x512x512_S1x512x512_13_0_0
abbrev r2_28 : Rect S32x1280 := Rect.unit (s := S32x1280) ![13, 0] S1x1280.size inb_S32x1280_S1x1280_13_0
abbrev r2_29 : Rect S32x512x512 := Rect.unit (s := S32x512x512) ![14, 0, 0] S1x512x512.size inb_S32x512x512_S1x512x512_14_0_0
abbrev r2_30 : Rect S32x1280 := Rect.unit (s := S32x1280) ![14, 0] S1x1280.size inb_S32x1280_S1x1280_14_0
abbrev r2_31 : Rect S32x512x512 := Rect.unit (s := S32x512x512) ![15, 0, 0] S1x512x512.size inb_S32x512x512_S1x512x512_15_0_0
abbrev r2_32 : Rect S32x1280 := Rect.unit (s := S32x1280) ![15, 0] S1x1280.size inb_S32x1280_S1x1280_15_0
abbrev r2_33 : Rect S32x512x512 := Rect.unit (s := S32x512x512) ![16, 0, 0] S1x512x512.size inb_S32x512x512_S1x512x512_16_0_0
abbrev r2_34 : Rect S32x1280 := Rect.unit (s := S32x1280) ![16, 0] S1x1280.size inb_S32x1280_S1x1280_16_0
abbrev r2_35 : Rect S32x512x512 := Rect.unit (s := S32x512x512) ![17, 0, 0] S1x512x512.size inb_S32x512x512_S1x512x512_17_0_0
abbrev r2_36 : Rect S32x1280 := Rect.unit (s := S32x1280) ![17, 0] S1x1280.size inb_S32x1280_S1x1280_17_0
abbrev r2_37 : Rect S32x512x512 := Rect.unit (s := S32x512x512) ![18, 0, 0] S1x512x512.size inb_S32x512x512_S1x512x512_18_0_0
abbrev r2_38 : Rect S32x1280 := Rect.unit (s := S32x1280) ![18, 0] S1x1280.size inb_S32x1280_S1x1280_18_0
abbrev r2_39 : Rect S32x512x512 := Rect.unit (s := S32x512x512) ![19, 0, 0] S1x512x512.size inb_S32x512x512_S1x512x512_19_0_0
abbrev r2_40 : Rect S32x1280 := Rect.unit (s := S32x1280) ![19, 0] S1x1280.size inb_S32x1280_S1x1280_19_0
abbrev r2_41 : Rect S32x512x512 := Rect.unit (s := S32x512x512) ![20, 0, 0] S1x512x512.size inb_S32x512x512_S1x512x512_20_0_0
abbrev r2_42 : Rect S32x1280 := Rect.unit (s := S32x1280) ![20, 0] S1x1280.size inb_S32x1280_S1x1280_20_0
abbrev r2_43 : Rect S32x512x512 := Rect.unit (s := S32x512x512) ![21, 0, 0] S1x512x512.size inb_S32x512x512_S1x512x512_21_0_0
abbrev r2_44 : Rect S32x1280 := Rect.unit (s := S32x1280) ![21, 0] S1x1280.size inb_S32x1280_S1x1280_21_0
abbrev r2_45 : Rect S32x512x512 := Rect.unit (s := S32x512x512) ![22, 0, 0] S1x512x512.size inb_S32x512x512_S1x512x512_22_0_0
abbrev r2_46 : Rect S32x1280 := Rect.unit (s := S32x1280) ![22, 0] S1x1280.size inb_S32x1280_S1x1280_22_0
abbrev r2_47 : Rect S32x512x512 := Rect.unit (s := S32x512x512) ![23, 0, 0] S1x512x512.size inb_S32x512x512_S1x512x512_23_0_0
abbrev r2_48 : Rect S32x1280 := Rect.unit (s := S32x1280) ![23, 0] S1x1280.size inb_S32x1280_S1x1280_23_0
abbrev r2_49 : Rect S32x512x512 := Rect.unit (s := S32x512x512) ![24, 0, 0] S1x512x512.size inb_S32x512x512_S1x512x512_24_0_0
abbrev r2_50 : Rect S32x1280 := Rect.unit (s := S32x1280) ![24, 0] S1x1280.size inb_S32x1280_S1x1280_24_0
abbrev r2_51 : Rect S32x512x512 := Rect.unit (s := S32x512x512) ![25, 0, 0] S1x512x512.size inb_S32x512x512_S1x512x512_25_0_0
abbrev r2_52 : Rect S32x1280 := Rect.unit (s := S32x1280) ![25, 0] S1x1280.size inb_S32x1280_S1x1280_25_0
abbrev r2_53 : Rect S32x512x512 := Rect.unit (s := S32x512x512) ![26, 0, 0] S1x512x512.size inb_S32x512x512_S1x512x512_26_0_0
abbrev r2_54 : Rect S32x1280 := Rect.unit (s := S32x1280) ![26, 0] S1x1280.size inb_S32x1280_S1x1280_26_0
abbrev r2_55 : Rect S32x512x512 := Rect.unit (s := S32x512x512) ![27, 0, 0] S1x512x512.size inb_S32x512x512_S1x512x512_27_0_0
abbrev r2_56 : Rect S32x1280 := Rect.unit (s := S32x1280) ![27, 0] S1x1280.size inb_S32x1280_S1x1280_27_0
abbrev r2_57 : Rect S32x512x512 := Rect.unit (s := S32x512x512) ![28, 0, 0] S1x512x512.size inb_S32x512x512_S1x512x512_28_0_0
abbrev r2_58 : Rect S32x1280 := Rect.unit (s := S32x1280) ![28, 0] S1x1280.size inb_S32x1280_S1x1280_28_0
abbrev r2_59 : Rect S32x512x512 := Rect.unit (s := S32x512x512) ![29, 0, 0] S1x512x512.size inb_S32x512x512_S1x512x512_29_0_0
abbrev r2_60 : Rect S32x1280 := Rect.unit (s := S32x1280) ![29, 0] S1x1280.size inb_S32x1280_S1x1280_29_0
abbrev r2_61 : Rect S32x512x512 := Rect.unit (s := S32x512x512) ![30, 0, 0] S1x512x512.size inb_S32x512x512_S1x512x512_30_0_0
abbrev r2_62 : Rect S32x1280 := Rect.unit (s := S32x1280) ![30, 0] S1x1280.size inb_S32x1280_S1x1280_30_0
abbrev r2_63 : Rect S32x512x512 := Rect.unit (s := S32x512x512) ![31, 0, 0] S1x512x512.size inb_S32x512x512_S1x512x512_31_0_0
abbrev r2_64 : Rect S32x1280 := Rect.unit (s := S32x1280) ![31, 0] S1x1280.size inb_S32x1280_S1x1280_31_0

/-! ## What the body leaves in the output window's buffer -/

/-- The two interpolation-weight matrices (1280 points by 512 lanes) the body builds once from the coordinate
    block and uses for every channel: the one that multiplies the matrix product elementwise, -/
abbrev v2_50 (x0 : Vec F S1280x2 .f32) : FVec F S1280x512 .f32 :=
  k2_pay16 (k2_pay7 (View.ld x0 r2_0)) (k2_pay13 (View.ld x0 r2_0)) k2_pay14 (k2_pay15 (View.ld x0 r2_0))
/-- and the one that is the left factor of the matrix product. -/
abbrev v2_66 (x0 : Vec F S1280x2 .f32) : FVec F S1280x512 .bf16 :=
  k2_pay17 (k2_pay8 (View.ld x0 r2_0)) (k2_pay9 (View.ld x0 r2_0)) (k2_pay11 (View.ld x0 r2_0)) (k2_pay12 (View.ld x0 r2_0)) (iota .tc S1x512 32 [1] iota_S1x512_d1_w32)

/-- Window 2's staging buffer after the body, from the input windows' blocks: its 32 stores (one row per
    channel) as pieces, last first; row `c`'s payload is a function of the coordinate block and of slab `c` alone. -/
def out2_2 (x0 : Vec F S1280x2 .f32) (x1 : Vec F S32x512x512 .bf16) : Vec F S32x1280 .f32 :=
  View.canon [⟨r2_64, k2_pay1 (k2_pay55 (v2_50 x0) (v2_66 x0) (View.ld x1 r2_63))⟩,
    ⟨r2_62, k2_pay54 (v2_50 x0) (v2_66 x0) (View.ld x1 r2_61)⟩,
    ⟨r2_60, k2_pay53 (v2_50 x0) (v2_66 x0) (View.ld x1 r2_59)⟩,
    ⟨r2_58, k2_pay52 (k2_pay51 (v2_50 x0) (v2_66 x0) (View.ld x1 r2_57))⟩,
    ⟨r2_56, k2_pay50 (v2_50 x0) (v2_66 x0) (View.ld x1 r2_55)⟩,
    ⟨r2_54, k2_pay49 (v2_50 x0) (v2_66 x0) (View.ld x1 r2_53)⟩,
    ⟨r2_52, k2_pay48 (v2_50 x0) (v2_66 x0) (View.ld x1 r2_51)⟩,
    ⟨r2_50, k2_pay47 (k2_pay46 (v2_50 x0) (v2_66 x0) (View.ld x1 r2_49))⟩,
    ⟨r2_48, k2_pay45 (v2_50 x0) (v2_66 x0) (View.ld x1 r2_47)⟩,
    ⟨r2_46, k2_pay44 (v2_50 x0) (v2_66 x0) (View.ld x1 r2_45)⟩,
    ⟨r2_44, k2_pay43 (v2_50 x0) (v2_66 x0) (View.ld x1 r2_43)⟩,
    ⟨r2_42, k2_pay42 (v2_50 x0) (v2_66 x0) (View.ld x1 r2_41)⟩,
    ⟨r2_40, k2_pay41 (v2_50 x0) (v2_66 x0) (View.ld x1 r2_39)⟩,
    ⟨r2_38, k2_pay40 (v2_50 x0) (v2_66 x0) (View.ld x1 r2_37)⟩,
    ⟨r2_36, k2_pay39 (v2_50 x0) (v2_66 x0) (k2_pay38 (View.ld x1 r2_35)) (constant S1280x512 .f32 0x00000000#32)⟩,
    ⟨r2_34, k2_pay37 (v2_50 x0) (v2_66 x0) (View.ld x1 r2_33)⟩,
    ⟨r2_32, k2_pay36 (v2_50 x0) (v2_66 x0) (View.ld x1 r2_31)⟩,
    ⟨r2_30, k2_pay35 (v2_50 x0) (v2_66 x0) (View.ld x1 r2_29)⟩,
    ⟨r2_28, k2_pay34 (k2_pay33 (v2_50 x0) (v2_66 x0) (View.ld x1 r2_27))⟩,
    ⟨r2_26, k2_pay32 (v2_50 x0) (v2_66 x0) (View.ld x1 r2_25)⟩,
    ⟨r2_24, k2_pay31 (v2_50 x0) (v2_66 x0) (View.ld x1 r2_23)⟩,
    ⟨r2_22, k2_pay30 (v2_50 x0) (v2_66 x0) (View.ld x1 r2_21)⟩,
    ⟨r2_20, k2_pay29 (k2_pay28 (v2_50 x0) (v2_66 x0) (View.ld x1 r2_19))⟩,
    ⟨r2_18, k2_pay27 (v2_50 x0) (v2_66 x0) (View.ld x1 r2_17)⟩,
    ⟨r2_16, k2_pay26 (v2_50 x0) (v2_66 x0) (View.ld x1 r2_15)⟩,
    ⟨r2_14, k2_pay25 (v2_50 x0) (v2_66 x0) (View.ld x1 r2_13)⟩,
    ⟨r2_12, k2_pay24 (v2_50 x0) (v2_66 x0) (View.ld x1 r2_11)⟩,
    ⟨r2_10, k2_pay23 (v2_50 x0) (v2_66 x0) (View.ld x1 r2_9)⟩,
    ⟨r2_8, k2_pay22 (v2_50 x0) (v2_66 x0) (View.ld x1 r2_7)⟩,
    ⟨r2_6, k2_pay21 (v2_50 x0) (v2_66 x0) (k2_pay20 (View.ld x1 r2_5)) (constant S1280x512 .f32 0x00000000#32)⟩,
    ⟨r2_4, k2_pay19 (k2_pay7 (View.ld x0 r2_0)) (k2_pay8 (View.ld x0 r2_0)) (k2_pay9 (View.ld x0 r2_0)) (k2_pay11 (View.ld x0 r2_0)) (k2_pay12 (View.ld x0 r2_0)) (iota .tc S1x512 32 [1] iota_S1x512_d1_w32) (k2_pay13 (View.ld x0 r2_0)) k2_pay14 (k2_pay15 (View.ld x0 r2_0)) (View.ld x1 r2_3)⟩,
    ⟨r2_2, k2_pay18 (k2_pay7 (View.ld x0 r2_0)) (k2_pay8 (View.ld x0 r2_0)) (k2_pay9 (View.ld x0 r2_0)) (k2_pay11 (View.ld x0 r2_0)) (k2_pay12 (View.ld x0 r2_0)) (iota .tc S1x512 32 [1] iota_S1x512_d1_w32) (k2_pay13 (View.ld x0 r2_0)) k2_pay14 (k2_pay15 (View.ld x0 r2_0)) (View.ld x1 r2_1)⟩]

/-- Its stores tile the buffer (one row each, checked by evaluation), so they cover it. -/
theorem cover2_2 (p0 : Vec F S1x1280 .f32) (p1 : Vec F S1x1280 .f32) (p2 : Vec F S1x1280 .f32) (p3 : Vec F S1x1280 .f32) (p4 : Vec F S1x1280 .f32) (p5 : Vec F S1x1280 .f32) (p6 : Vec F S1x1280 .f32) (p7 : Vec F S1x1280 .f32) (p8 : Vec F S1x1280 .f32) (p9 : Vec F S1x1280 .f32) (p10 : Vec F S1x1280 .f32) (p11 : Vec F S1x1280 .f32) (p12 : Vec F S1x1280 .f32) (p13 : Vec F S1x1280 .f32) (p14 : Vec F S1x1280 .f32) (p15 : Vec F S1x1280 .f32) (p16 : Vec F S1x1280 .f32) (p17 : Vec F S1x1280 .f32) (p18 : Vec F S1x1280 .f32) (p19 : Vec F S1x1280 .f32) (p20 : Vec F S1x1280 .f32) (p21 : Vec F S1x1280 .f32) (p22 : Vec F S1x1280 .f32) (p23 : Vec F S1x1280 .f32) (p24 : Vec F S1x1280 .f32) (p25 : Vec F S1x1280 .f32) (p26 : Vec F S1x1280 .f32) (p27 : Vec F S1x1280 .f32) (p28 : Vec F S1x1280 .f32) (p29 : Vec F S1x1280 .f32) (p30 : Vec F S1x1280 .f32) (p31 : Vec F S1x1280 .f32) (y : S32x1280.Idx) :
    ∃ pc ∈ ([⟨r2_64, p0⟩, ⟨r2_62, p1⟩, ⟨r2_60, p2⟩, ⟨r2_58, p3⟩, ⟨r2_56, p4⟩, ⟨r2_54, p5⟩, ⟨r2_52, p6⟩, ⟨r2_50, p7⟩, ⟨r2_48, p8⟩, ⟨r2_46, p9⟩, ⟨r2_44, p10⟩, ⟨r2_42, p11⟩, ⟨r2_40, p12⟩, ⟨r2_38, p13⟩, ⟨r2_36, p14⟩, ⟨r2_34, p15⟩, ⟨r2_32, p16⟩, ⟨r2_30, p17⟩, ⟨r2_28, p18⟩, ⟨r2_26, p19⟩, ⟨r2_24, p20⟩, ⟨r2_22, p21⟩, ⟨r2_20, p22⟩, ⟨r2_18, p23⟩, ⟨r2_16, p24⟩, ⟨r2_14, p25⟩, ⟨r2_12, p26⟩, ⟨r2_10, p27⟩, ⟨r2_8, p28⟩, ⟨r2_6, p29⟩, ⟨r2_4, p30⟩, ⟨r2_2, p31⟩] : List (View.Piece (Elt F) S32x1280 .f32)), y ∈ pc.1.set :=
  View.cover_of_tiled [⟨r2_64, p0⟩, ⟨r2_62, p1⟩, ⟨r2_60, p2⟩, ⟨r2_58, p3⟩, ⟨r2_56, p4⟩, ⟨r2_54, p5⟩, ⟨r2_52, p6⟩, ⟨r2_50, p7⟩, ⟨r2_48, p8⟩, ⟨r2_46, p9⟩, ⟨r2_44, p10⟩, ⟨r2_42, p11⟩, ⟨r2_40, p12⟩, ⟨r2_38, p13⟩, ⟨r2_36, p14⟩, ⟨r2_34, p15⟩, ⟨r2_32, p16⟩, ⟨r2_30, p17⟩, ⟨r2_28, p18⟩, ⟨r2_26, p19⟩, ⟨r2_24, p20⟩, ⟨r2_22, p21⟩, ⟨r2_20, p22⟩, ⟨r2_18, p23⟩, ⟨r2_16, p24⟩, ⟨r2_14, p25⟩, ⟨r2_12, p26⟩, ⟨r2_10, p27⟩, ⟨r2_8, p28⟩, ⟨r2_6, p29⟩, ⟨r2_4, p30⟩, ⟨r2_2, p31⟩] S1x1280.size (by rfl) y

/-! ## The body's triple -/

set_option maxHeartbeats 8000000 in
/-- The kernel body on whole staging memrefs, the inputs' at read contents `x0`, `x1` and the output's at anything,
    runs to the continuation holding the inputs' as they were and the output's at `out2_2` of the inputs: the printed
    function and its parts are sequences of loads and stores over named payloads, which are run in order; each
    load of an output row before its store reads a value the body never uses. -/
theorem sound_kernel2 (c : Dev nD) (E : Set ℕ) (i : grid2.Coords) (arg1 : Memref sig .tc .vmem S1280x2 .f32) (harg1 : arg1.IsWhole) (arg2 : Memref sig .tc .vmem S32x512x512 .bf16) (harg2 : arg2.IsWhole) (arg3 : Memref sig .tc .vmem S32x1280 .f32) (harg3 : arg3.IsWhole)
    (x0 : Vec F S1280x2 .f32) (x1 : Vec F S32x512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__sample_kernel i arg1 harg1 arg2 harg2 arg3 harg3) K := by
  simp only [cc2__sample_kernel_eq_skeleton]; unfold cc2__sample_kernel_skel
  simp only [k2_part10_eq_skeleton]; unfold k2_part10_skel
  simp only [k2_part1_eq_skeleton]; unfold k2_part1_skel
  simp only [k2_part2_eq_skeleton]; unfold k2_part2_skel
  simp only [k2_part3_eq_skeleton]; unfold k2_part3_skel
  simp only [k2_part4_eq_skeleton]; unfold k2_part4_skel
  simp only [k2_part5_eq_skeleton]; unfold k2_part5_skel
  simp only [k2_part6_eq_skeleton]; unfold k2_part6_skel
  simp only [k2_part7_eq_skeleton]; unfold k2_part7_skel
  simp only [k2_part8_eq_skeleton]; unfold k2_part8_skel
  simp only [k2_part9_eq_skeleton]; unfold k2_part9_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _ _ _ _ _ _ _ _ _ _ _ _ _ _ _ _ _ _ _ _ _ _ _ _ _ _ _ _ _ _ _ _)

/-! ## The pipeline's proof data -/

/-- The proof data of pipeline 2 on core `c`: the arrays as the call finds them (`V`); after the body at point
    `t` each input's buffer at its block and the output's at `out2_2` of the input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KFrameBits.Run.lean ====
import proofs.«162729_j22162031247387_1_alg».proof.Proof.KFrameBits.Host
import proofs.«162729_j22162031247387_1_alg».proof.Proof.KFrameBits.R0
import proofs.«162729_j22162031247387_1_alg».proof.Proof.KFrameBits.R1
import proofs.«162729_j22162031247387_1_alg».proof.Proof.KFrameBits.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main and its frame

@main is eleven items: five stretches of host operations, kernel region 0, a stretch, region 1, a stretch, region 2,
and a closing stretch. The run is stated over the TensorCore's buffer contents at each of the twelve boundaries, a
fold from the launch memory: a stretch takes the contents to `StableHlo.after` of its operations, a region takes
its three arrays to what the pipeline's write-backs leave (`Dat.arrAt … N`) and leaves every other buffer alone.
Every segment holds the same thread state — every unscoped buffer whole at the boundary's contents, the generator
register at some state, nothing owed — so consecutive segments chain by reflexivity, and the final state is read
against the last boundary's contents at every unscoped buffer. -/

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the first stretch (133 operations). -/
abbrev W1 : Dev nD → Valuation τ sig (Elt F) := fun c => StableHlo.after hostOps0 (W0 m c)
/-- After the inlined clip (2 operations). -/
abbrev W2 : Dev nD → Valuation τ sig (Elt F) := fun c => StableHlo.after hostOps0_1 (W1 m c)
/-- After the next 13 operations. -/
abbrev W3 : Dev nD → Valuation τ sig (Elt F) := fun c => StableHlo.after hostOps0_2 (W2 m c)
/-- After the inlined select (2 operations). -/
abbrev W4 : Dev nD → Valuation τ sig (Elt F) := fun c => StableHlo.after hostOps0_3 (W3 m c)
/-- After the last 9 operations of the prefix: region 0's entry contents. -/
abbrev W5 : Dev nD → Valuation τ sig (Elt F) := fun c => StableHlo.after hostOps0_4 (W4 m c)
/-- The same read at the TensorCore's references (what region 0's proof data take). -/
abbrev V5 : (c : Dev nD) → (b : Ref sig .tc) → Buf (Elt F) ((c : Thread nD τ).loc b) := fun c b => W5 m c b
/-- At region 0's exit: its arrays at what the pipeline leaves (the inputs as entered, the output's write-backs
    folded), every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- After the 5 operations behind region 0: region 1's entry contents. -/
abbrev W7 : Dev nD → Valuation τ sig (Elt F) := fun c => StableHlo.after hostOps1 (W6 m c)
/-- The same read at the TensorCore's references (what region 1's proof data take). -/
abbrev V7 : (c : Dev nD) → (b : Ref sig .tc) → Buf (Elt F) ((c : Thread nD τ).loc b) := fun c b => W7 m c b
/-- At region 1's exit: its arrays at what the pipeline leaves (the inputs as entered, the output's write-backs
    folded), every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
/-- After the 5 operations behind region 1: region 2's entry contents. -/
abbrev W9 : Dev nD → Valuation τ sig (Elt F) := fun c => StableHlo.after hostOps2 (W8 m c)
/-- The same read at the TensorCore's references (what region 2's proof data take). -/
abbrev V9 : (c : Dev nD) → (b : Ref sig .tc) → Buf (Elt F) ((c : Thread nD τ).loc b) := fun c b => W9 m c b
/-- At region 2's exit: its arrays at what the pipeline leaves (the inputs as entered, the output's write-backs
    folded), every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
/-- After the closing 7 operations behind region 2: the final contents. -/
abbrev W11 : Dev nD → Valuation τ sig (Elt F) := fun c => StableHlo.after hostOps3 (W10 m c)

/-! ### The boundaries, unfolded one step -/

theorem W1_eq (c : Dev nD) : W1 m c = StableHlo.after hostOps0 (W0 m c) := rfl
theorem W2_eq (c : Dev nD) : W2 m c = StableHlo.after hostOps0_1 (W1 m c) := rfl
theorem W3_eq (c : Dev nD) : W3 m c = StableHlo.after hostOps0_2 (W2 m c) := rfl
theorem W4_eq (c : Dev nD) : W4 m c = StableHlo.after hostOps0_3 (W3 m c) := rfl
theorem W5_eq (c : Dev nD) : W5 m c = StableHlo.after hostOps0_4 (W4 m c) := rfl
theorem W6_eq (c : Dev nD) : W6 m c = Pipeline.withArrays spec0 c (W5 m c) fun w => (dat0 (V5 m) c).arrAt w cfg0.N := rfl
theorem W7_eq (c : Dev nD) : W7 m c = StableHlo.after hostOps1 (W6 m c) := rfl
theorem W8_eq (c : Dev nD) : W8 m c = Pipeline.withArrays spec1 c (W7 m c) fun w => (dat1 (V7 m) c).arrAt w cfg1.N := rfl
theorem W9_eq (c : Dev nD) : W9 m c = StableHlo.after hostOps2 (W8 m c) := rfl
theorem W10_eq (c : Dev nD) : W10 m c = Pipeline.withArrays spec2 c (W9 m c) fun w => (dat2 (V9 m) c).arrAt w cfg2.N := rfl
theorem W11_eq (c : Dev nD) : W11 m c = StableHlo.after hostOps3 (W10 m c) := rfl
/-- The result buffer at the end: the closing stretch run from region 2's exit contents. -/
theorem W11_out (c : Dev nD) :
    W11 m c (Proc.devRef .tc main_v136) = StableHlo.after hostOps3 (W10 m c) (Proc.devRef .tc main_v136) := rfl
/-- The prefix as one composition: region 0's entry contents from the launch memory. -/
theorem W5_of_launch (c : Dev nD) : W5 m c = StableHlo.after hostOps0_4 (StableHlo.after hostOps0_3 (StableHlo.after hostOps0_2
    (StableHlo.after hostOps0_1 (StableHlo.after hostOps0 (W0 m c))))) := rfl

/-! ### The arguments end as launched: no stretch writes one, and no region's array is one -/

theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_forall_not_mem _ _ hostOps3_keeps_arg0
    _ = W9 m c (Proc.devRef .tc main_arg0) := W10_of_ne m c main_arg0 (by decide)
    _ = W8 m c (Proc.devRef .tc main_arg0) := StableHlo.after_of_forall_not_mem _ _ hostOps2_keeps_arg0
    _ = W7 m c (Proc.devRef .tc main_arg0) := W8_of_ne m c main_arg0 (by decide)
    _ = W6 m c (Proc.devRef .tc main_arg0) := StableHlo.after_of_forall_not_mem _ _ hostOps1_keeps_arg0
    _ = W5 m c (Proc.devRef .tc main_arg0) := W6_of_ne m c main_arg0 (by decide)
    _ = W4 m c (Proc.devRef .tc main_arg0) := StableHlo.after_of_forall_not_mem _ _ hostOps0_4_keeps_arg0
    _ = W3 m c (Proc.devRef .tc main_arg0) := StableHlo.after_of_forall_not_mem _ _ hostOps0_3_keeps_arg0
    _ = W2 m c (Proc.devRef .tc main_arg0) := StableHlo.after_of_forall_not_mem _ _ hostOps0_2_keeps_arg0
    _ = W1 m c (Proc.devRef .tc main_arg0) := StableHlo.after_of_forall_not_mem _ _ hostOps0_1_keeps_arg0
    _ = W0 m c (Proc.devRef .tc main_arg0) := StableHlo.after_of_forall_not_mem _ _ hostOps0_keeps_arg0
    _ = m ((c : Thread nD τ).loc main_arg0) := rfl

theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_forall_not_mem _ _ hostOps3_keeps_arg1
    _ = W9 m c (Proc.devRef .tc main_arg1) := W10_of_ne m c main_arg1 (by decide)
    _ = W8 m c (Proc.devRef .tc main_arg1) := StableHlo.after_of_forall_not_mem _ _ hostOps2_keeps_arg1
    _ = W7 m c (Proc.devRef .tc main_arg1) := W8_of_ne m c main_arg1 (by decide)
    _ = W6 m c (Proc.devRef .tc main_arg1) := StableHlo.after_of_forall_not_mem _ _ hostOps1_keeps_arg1
    _ = W5 m c (Proc.devRef .tc main_arg1) := W6_of_ne m c main_arg1 (by decide)
    _ = W4 m c (Proc.devRef .tc main_arg1) := StableHlo.after_of_forall_not_mem _ _ hostOps0_4_keeps_arg1
    _ = W3 m c (Proc.devRef .tc main_arg1) := StableHlo.after_of_forall_not_mem _ _ hostOps0_3_keeps_arg1
    _ = W2 m c (Proc.devRef .tc main_arg1) := StableHlo.after_of_forall_not_mem _ _ hostOps0_2_keeps_arg1
    _ = W1 m c (Proc.devRef .tc main_arg1) := StableHlo.after_of_forall_not_mem _ _ hostOps0_1_keeps_arg1
    _ = W0 m c (Proc.devRef .tc main_arg1) := StableHlo.after_of_forall_not_mem _ _ hostOps0_keeps_arg1
    _ = m ((c : Thread nD τ).loc main_arg1) := rfl

theorem W11_main_arg2 (c : Dev nD) : W11 m c (Proc.devRef .tc main_arg2) = m ((c : Thread nD τ).loc main_arg2) :=
  calc W11 m c (Proc.devRef .tc main_arg2)
    _ = W10 m c (Proc.devRef .tc main_arg2) := StableHlo.after_of_forall_not_mem _ _ hostOps3_keeps_arg2
    _ = W9 m c (Proc.devRef .tc main_arg2) := W10_of_ne m c main_arg2 (by decide)
    _ = W8 m c (Proc.devRef .tc main_arg2) := StableHlo.after_of_forall_not_mem _ _ hostOps2_keeps_arg2
    _ = W7 m c (Proc.devRef .tc main_arg2) := W8_of_ne m c main_arg2 (by decide)
    _ = W6 m c (Proc.devRef .tc main_arg2) := StableHlo.after_of_forall_not_mem _ _ hostOps1_keeps_arg2
    _ = W5 m c (Proc.devRef .tc main_arg2) := W6_of_ne m c main_arg2 (by decide)
    _ = W4 m c (Proc.devRef .tc main_arg2) := StableHlo.after_of_forall_not_mem _ _ hostOps0_4_keeps_arg2
    _ = W3 m c (Proc.devRef .tc main_arg2) := StableHlo.after_of_forall_not_mem _ _ hostOps0_3_keeps_arg2
    _ = W2 m c (Proc.devRef .tc main_arg2) := StableHlo.after_of_forall_not_mem _ _ hostOps0_2_keeps_arg2
    _ = W1 m c (Proc.devRef .tc main_arg2) := StableHlo.after_of_forall_not_mem _ _ hostOps0_1_keeps_arg2
    _ = W0 m c (Proc.devRef .tc main_arg2) := StableHlo.after_of_forall_not_mem _ _ hostOps0_keeps_arg2
    _ = m ((c : Thread nD τ).loc main_arg2) := rfl

theorem W11_main_arg3 (c : Dev nD) : W11 m c (Proc.devRef .tc main_arg3) = m ((c : Thread nD τ).loc main_arg3) :=
  calc W11 m c (Proc.devRef .tc main_arg3)
    _ = W10 m c (Proc.devRef .tc main_arg3) := StableHlo.after_of_forall_not_mem _ _ hostOps3_keeps_arg3
    _ = W9 m c (Proc.devRef .tc main_arg3) := W10_of_ne m c main_arg3 (by decide)
    _ = W8 m c (Proc.devRef .tc main_arg3) := StableHlo.after_of_forall_not_mem _ _ hostOps2_keeps_arg3
    _ = W7 m c (Proc.devRef .tc main_arg3) := W8_of_ne m c main_arg3 (by decide)
    _ = W6 m c (Proc.devRef .tc main_arg3) := StableHlo.after_of_forall_not_mem _ _ hostOps1_keeps_arg3
    _ = W5 m c (Proc.devRef .tc main_arg3) := W6_of_ne m c main_arg3 (by decide)
    _ = W4 m c (Proc.devRef .tc main_arg3) := StableHlo.after_of_forall_not_mem _ _ hostOps0_4_keeps_arg3
    _ = W3 m c (Proc.devRef .tc main_arg3) := StableHlo.after_of_forall_not_mem _ _ hostOps0_3_keeps_arg3
    _ = W2 m c (Proc.devRef .tc main_arg3) := StableHlo.after_of_forall_not_mem _ _ hostOps0_2_keeps_arg3
    _ = W1 m c (Proc.devRef .tc main_arg3) := StableHlo.after_of_forall_not_mem _ _ hostOps0_1_keeps_arg3
    _ = W0 m c (Proc.devRef .tc main_arg3) := StableHlo.after_of_forall_not_mem _ _ hostOps0_keeps_arg3
    _ = m ((c : Thread nD τ).loc main_arg3) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W11`, the generator
    register at some state. -/
abbrev Tₙ (c : Dev nD) : sProp 𝕄 := iprop(StableHlo.held (c : Thread nD τ) (Pipeline.ucRefs τ sig) (W11 m c) ∗ ∃ r, prngReg c r)

/-! ## The regions as segments -/

-- a library lemma stated over `pin pcs a p` meets the pinned configuration only when unification may unfold plain
-- definitions in a metavariable's type
set_option backward.isDefEq.respectTransparency.types false in
/-- REGION 0 over the thread state: entered from every unscoped buffer at `W5`, left at `W6`. Its arrays are
    split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 1 over the thread state: entered from every unscoped buffer at `W7`, left at `W8`. Its arrays are
    split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- REGION 2 over the thread state: entered from every unscoped buffer at `W9`, left at `W10`. Its arrays are
    split out of the unscoped buffers and put back at the exit contents; the generator register goes into the
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .host (hseg hostOps2 hostOps2_sub hostOps2_fresh (W8 m)),
    .region (reg2 m),
    .host (hseg hostOps3 hostOps3_sub hostOps3_fresh (W10 m)) ]
/-- @main IS the run of the segments: the chain of its items, item by item the segments' programs. -/
theorem main_run (c : Dev nD) : main (F := F) c = Pipeline.Seg.run (segs m) := (main_chain c).trans (by chain_rfl)

variable (ρ : Dev nD → PrngReg)

-- the launch theorem's implicit arguments are found by unifying its conclusion with this one, which takes unfolding
-- plain definitions in a metavariable's type
set_option backward.isDefEq.respectTransparency.types false in
/-- THE RUN, at any postcondition that follows from the final contents of the unscoped buffers: at the compiled mesh,
    from any memory with zero counters, every weakly fair execution of @main on the TensorCores terminates, nothing
    faulting, and in every final state each unscoped buffer holds the last boundary's contents `W11`. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W11 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := hQ)

/-- THE RUN of @main: it terminates without fault and every unscoped buffer ends at the last boundary's contents —
    the arguments and the result buffer alike are read off this one statement. -/
theorem run_main : θ_run defs (onTc (τ := τ) (main (F := F))) ⟨m, fun _ => 0, ρ⟩ (fun r => ∀ (c : Dev nD) (b : Ref sig .tc),
      ¬ (Proc.devRef .tc b : DevRef τ sig).isScoped → r.2.mem ((c : Thread nD τ).loc b) = W11 m c (Proc.devRef .tc b)) :=
  run_of m ρ fun s h c b hb => h c _ (mem_uc b hb)

/-- THE FRAME at any `F`: @main terminates, nothing faulting, and every final state has the four argument arrays as
    launched — each read off the run at its buffer and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ fun s h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩

end Cert.Kernel.Hand

end
-- ==== Proof.RefRun.Ops.lean ====
/-
  The reference program's @main as a list of host operations.

  @main is a straight line of 438 tensor operations: its own, and at each of its ten calls (one clip
  to a float lower bound, one select under a broadcast mask, eight clips of a coordinate to [0, 511]) the
  callee's operations on that call's buffers, which is what a call means. The list is cut into stretches
  `ops0 … ops15`: a cut wherever the printed program is cut into windows, a cut before each concatenation
  (so that a concatenation is always the first operation of its stretch), and no stretch longer than 60.
  Each concatenation's function is a named definition (`cat2_…` joins two index columns into coordinate
  pairs, `cat3_…` stacks three slabs along a new leading axis), so that a rewrite of the operands' contents
  never has to look inside the list of shaped pairs the concatenation takes.
-/
import proofs.«162729_j22162031247387_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.SL.Sem

variable {F : FTy → Type} [FloatOps F]

/-- The concatenation `concatenate S3x2 0 [⟨S1x2, u0⟩, ⟨S1x2, u1⟩, ⟨S1x2, u2⟩] concatenates_S1x2_S1x2_S1x2_S3x2_d0` as a function of its operands. -/
def cat3_S3x2 : (⟨S1x2, .f32⟩ : BufTy).Contents (Elt F) → (⟨S1x2, .f32⟩ : BufTy).Contents (Elt F) → (⟨S1x2, .f32⟩ : BufTy).Contents (Elt F) → (⟨S3x2, .f32⟩ : BufTy).Contents (Elt F) :=
  fun u0 u1 u2 => concatenate S3x2 0 [⟨S1x2, u0⟩, ⟨S1x2, u1⟩, ⟨S1x2, u2⟩] concatenates_S1x2_S1x2_S1x2_S3x2_d0
theorem cat3_S3x2_eq : (cat3_S3x2 : (⟨S1x2, .f32⟩ : BufTy).Contents (Elt F) → (⟨S1x2, .f32⟩ : BufTy).Contents (Elt F) → (⟨S1x2, .f32⟩ : BufTy).Contents (Elt F) → (⟨S3x2, .f32⟩ : BufTy).Contents (Elt F)) = (fun u0 u1 u2 => concatenate S3x2 0 [⟨S1x2, u0⟩, ⟨S1x2, u1⟩, ⟨S1x2, u2⟩] concatenates_S1x2_S1x2_S1x2_S3x2_d0) := rfl

/-- The concatenation `concatenate S3x200000x4x2 0 [⟨S1x200000x4x2, u0⟩, ⟨S1x200000x4x2, u1⟩, ⟨S1x200000x4x2, u2⟩] concatenates_S1x200000x4x2_S1x200000x4x2_S1x200000x4x2_S3x200000x4x2_d0` as a function of its operands. -/
def cat3_S3x200000x4x2 : (⟨S1x200000x4x2, .f32⟩ : BufTy).Contents (Elt F) → (⟨S1x200000x4x2, .f32⟩ : BufTy).Contents (Elt F) → (⟨S1x200000x4x2, .f32⟩ : BufTy).Contents (Elt F) → (⟨S3x200000x4x2, .f32⟩ : BufTy).Contents (Elt F) :=
  fun u0 u1 u2 => concatenate S3x200000x4x2 0 [⟨S1x200000x4x2, u0⟩, ⟨S1x200000x4x2, u1⟩, ⟨S1x200000x4x2, u2⟩] concatenates_S1x200000x4x2_S1x200000x4x2_S1x200000x4x2_S3x200000x4x2_d0
theorem cat3_S3x200000x4x2_eq : (cat3_S3x200000x4x2 : (⟨S1x200000x4x2, .f32⟩ : BufTy).Contents (Elt F) → (⟨S1x200000x4x2, .f32⟩ : BufTy).Contents (Elt F) → (⟨S1x200000x4x2, .f32⟩ : BufTy).Contents (Elt F) → (⟨S3x200000x4x2, .f32⟩ : BufTy).Contents (Elt F)) = (fun u0 u1 u2 => concatenate S3x200000x4x2 0 [⟨S1x200000x4x2, u0⟩, ⟨S1x200000x4x2, u1⟩, ⟨S1x200000x4x2, u2⟩] concatenates_S1x200000x4x2_S1x200000x4x2_S1x200000x4x2_S3x200000x4x2_d0) := rfl

/-- The concatenation `concatenate S3x200000x4x2 3 [⟨S3x200000x4x1, a⟩, ⟨S3x200000x4x1, b⟩] concatenates_S3x200000x4x1_S3x200000x4x1_S3x200000x4x2_d3` as a function of its operands. -/
def cat2_S3x200000x4x2 : (⟨S3x200000x4x1, .i32⟩ : BufTy).Contents (Elt F) → (⟨S3x200000x4x1, .i32⟩ : BufTy).Contents (Elt F) → (⟨S3x200000x4x2, .i32⟩ : BufTy).Contents (Elt F) :=
  fun a b => concatenate S3x200000x4x2 3 [⟨S3x200000x4x1, a⟩, ⟨S3x200000x4x1, b⟩] concatenates_S3x200000x4x1_S3x200000x4x1_S3x200000x4x2_d3
theorem cat2_S3x200000x4x2_eq : (cat2_S3x200000x4x2 : (⟨S3x200000x4x1, .i32⟩ : BufTy).Contents (Elt F) → (⟨S3x200000x4x1, .i32⟩ : BufTy).Contents (Elt F) → (⟨S3x200000x4x2, .i32⟩ : BufTy).Contents (Elt F)) = (fun a b => concatenate S3x200000x4x2 3 [⟨S3x200000x4x1, a⟩, ⟨S3x200000x4x1, b⟩] concatenates_S3x200000x4x1_S3x200000x4x1_S3x200000x4x2_d3) := rfl

set_option maxHeartbeats 40000000 in
/-- Stretch 0: 39 operations of window 0, from the one writing `main_c` to the one writing `main_v23`. -/
abbrev ops0 : List (HloOp τ sig (Elt F)) :=
  [ StableHlo.nullary main_c (fun i => lit0 (S2.rowMajor i)),
    StableHlo.nullary main_c_0 (fun i => lit1 (S2.rowMajor i)),
    StableHlo.nullary main_c_1 (fun i => lit2 (S2.rowMajor i)),
    StableHlo.nullary main_c_2 (fun i => lit3 (S2.rowMajor i)),
    StableHlo.nullary main_c_3 (fun i => lit4 (S2.rowMajor i)),
    StableHlo.nullary main_c_4 (fun i => lit5 (S2.rowMajor i)),
    StableHlo.nullary main_c_5 (fun i => lit6 (S2.rowMajor i)),
    StableHlo.nullary main_c_6 (fun i => lit7 (S2.rowMajor i)),
    StableHlo.nullary main_c_7 (fun i => lit8 (S2.rowMajor i)),
    StableHlo.nullary main_c_8 (constantI S_ 32 0#32),
    StableHlo.unary main_c_8 main_v0 (broadcastInDim S2 ![] bcast_S_S2 : (⟨S_, .i32⟩ : BufTy).Contents (Elt F) → (⟨S2, .i32⟩ : BufTy).Contents (Elt F)),
    StableHlo.binary main_c main_v0 main_v1 (cmpi .slt : (⟨S2, .i32⟩ : BufTy).Contents (Elt F) → (⟨S2, .i32⟩ : BufTy).Contents (Elt F) → (⟨S2, .i1⟩ : BufTy).Contents (Elt F)),
    StableHlo.nullary main_c_9 (constantI S_ 32 3#32),
    StableHlo.unary main_c_9 main_v2 (broadcastInDim S2 ![] bcast_S_S2 : (⟨S_, .i32⟩ : BufTy).Contents (Elt F) → (⟨S2, .i32⟩ : BufTy).Contents (Elt F)),
    StableHlo.binary main_c main_v2 main_v3 (addi : (⟨S2, .i32⟩ : BufTy).Contents (Elt F) → (⟨S2, .i32⟩ : BufTy).Contents (Elt F) → (⟨S2, .i32⟩ : BufTy).Contents (Elt F)),
    StableHlo.ternary main_v1 main_v3 main_c main_v4 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v4 main_v5 (broadcastInDim S2x1 ![0] bcast_S2_S2x1_0 : (⟨S2, .i32⟩ : BufTy).Contents (Elt F) → (⟨S2x1, .i32⟩ : BufTy).Contents (Elt F)),
    StableHlo.binary main_arg1 main_v5 main_v6 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)),
    StableHlo.nullary main_c_10 (constantI S_ 32 0#32),
    StableHlo.unary main_c_10 main_v7 (broadcastInDim S2 ![] bcast_S_S2 : (⟨S_, .i32⟩ : BufTy).Contents (Elt F) → (⟨S2, .i32⟩ : BufTy).Contents (Elt F)),
    StableHlo.binary main_c_0 main_v7 main_v8 (cmpi .slt : (⟨S2, .i32⟩ : BufTy).Contents (Elt F) → (⟨S2, .i32⟩ : BufTy).Contents (Elt F) → (⟨S2, .i1⟩ : BufTy).Contents (Elt F)),
    StableHlo.nullary main_c_11 (constantI S_ 32 3#32),
    StableHlo.unary main_c_11 main_v9 (broadcastInDim S2 ![] bcast_S_S2 : (⟨S_, .i32⟩ : BufTy).Contents (Elt F) → (⟨S2, .i32⟩ : BufTy).Contents (Elt F)),
    StableHlo.binary main_c_0 main_v9 main_v10 (addi : (⟨S2, .i32⟩ : BufTy).Contents (Elt F) → (⟨S2, .i32⟩ : BufTy).Contents (Elt F) → (⟨S2, .i32⟩ : BufTy).Contents (Elt F)),
    StableHlo.ternary main_v8 main_v10 main_c_0 main_v11 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v11 main_v12 (broadcastInDim S2x1 ![0] bcast_S2_S2x1_0 : (⟨S2, .i32⟩ : BufTy).Contents (Elt F) → (⟨S2x1, .i32⟩ : BufTy).Contents (Elt F)),
    StableHlo.binary main_arg1 main_v12 main_v13 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)),
    StableHlo.nullary main_c_12 (constantI S_ 32 0#32),
    StableHlo.unary main_c_12 main_v14 (broadcastInDim S2 ![] bcast_S_S2 : (⟨S_, .i32⟩ : BufTy).Contents (Elt F) → (⟨S2, .i32⟩ : BufTy).Contents (Elt F)),
    StableHlo.binary main_c_1 main_v14 main_v15 (cmpi .slt : (⟨S2, .i32⟩ : BufTy).Contents (Elt F) → (⟨S2, .i32⟩ : BufTy).Contents (Elt F) → (⟨S2, .i1⟩ : BufTy).Contents (Elt F)),
    StableHlo.nullary main_c_13 (constantI S_ 32 3#32),
    StableHlo.unary main_c_13 main_v16 (broadcastInDim S2 ![] bcast_S_S2 : (⟨S_, .i32⟩ : BufTy).Contents (Elt F) → (⟨S2, .i32⟩ : BufTy).Contents (Elt F)),
    StableHlo.binary main_c_1 main_v16 main_v17 (addi : (⟨S2, .i32⟩ : BufTy).Contents (Elt F) → (⟨S2, .i32⟩ : BufTy).Contents (Elt F) → (⟨S2, .i32⟩ : BufTy).Contents (Elt F)),
    StableHlo.ternary main_v15 main_v17 main_c_1 main_v18 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v18 main_v19 (broadcastInDim S2x1 ![0] bcast_S2_S2x1_0 : (⟨S2, .i32⟩ : BufTy).Contents (Elt F) → (⟨S2x1, .i32⟩ : BufTy).Contents (Elt F)),
    StableHlo.binary main_arg1 main_v19 main_v20 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)),
    StableHlo.unary main_v6 main_v21 (broadcastInDim S1x2 ![1] bcast_S2_S1x2_1 : (⟨S2, .f32⟩ : BufTy).Contents (Elt F) → (⟨S1x2, .f32⟩ : BufTy).Contents (Elt F)),
    StableHlo.unary main_v13 main_v22 (broadcastInDim S1x2 ![1] bcast_S2_S1x2_1 : (⟨S2, .f32⟩ : BufTy).Contents (Elt F) → (⟨S1x2, .f32⟩ : BufTy).Contents (Elt F)),
    StableHlo.unary main_v20 main_v23 (broadcastInDim S1x2 ![1] bcast_S2_S1x2_1 : (⟨S2, .f32⟩ : BufTy).Contents (Elt F) → (⟨S1x2, .f32⟩ : BufTy).Contents (Elt F)) ]

set_option maxHeartbeats 40000000 in
/-- Stretch 1: 21 operations of window 0, from the one writing `main_v24` to the one writing `main_v39`. -/
abbrev ops1 : List (HloOp τ sig (Elt F)) :=
  [ StableHlo.nary ![main_v21, main_v22, main_v23] main_v24 (fun u => cat3_S3x2 (F := F) (u 0) (u 1) (u 2)),
    StableHlo.nullary main_c_14 (constantI S_ 32 0#32),
    StableHlo.unary main_c_14 main_v25 (broadcastInDim S2 ![] bcast_S_S2 : (⟨S_, .i32⟩ : BufTy).Contents (Elt F) → (⟨S2, .i32⟩ : BufTy).Contents (Elt F)),
    StableHlo.binary main_c_2 main_v25 main_v26 (cmpi .slt : (⟨S2, .i32⟩ : BufTy).Contents (Elt F) → (⟨S2, .i32⟩ : BufTy).Contents (Elt F) → (⟨S2, .i1⟩ : BufTy).Contents (Elt F)),
    StableHlo.nullary main_c_15 (constantI S_ 32 3#32),
    StableHlo.unary main_c_15 main_v27 (broadcastInDim S2 ![] bcast_S_S2 : (⟨S_, .i32⟩ : BufTy).Contents (Elt F) → (⟨S2, .i32⟩ : BufTy).Contents (Elt F)),
    StableHlo.binary main_c_2 main_v27 main_v28 (addi : (⟨S2, .i32⟩ : BufTy).Contents (Elt F) → (⟨S2, .i32⟩ : BufTy).Contents (Elt F) → (⟨S2, .i32⟩ : BufTy).Contents (Elt F)),
    StableHlo.ternary main_v26 main_v28 main_c_2 main_v29 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v29 main_v30 (broadcastInDim S2x1 ![0] bcast_S2_S2x1_0 : (⟨S2, .i32⟩ : BufTy).Contents (Elt F) → (⟨S2x1, .i32⟩ : BufTy).Contents (Elt F)),
    StableHlo.binary main_arg2 main_v30 main_v31 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)),
    StableHlo.nullary main_c_16 (constantI S_ 32 0#32),
    StableHlo.unary main_c_16 main_v32 (broadcastInDim S2 ![] bcast_S_S2 : (⟨S_, .i32⟩ : BufTy).Contents (Elt F) → (⟨S2, .i32⟩ : BufTy).Contents (Elt F)),
    StableHlo.binary main_c_3 main_v32 main_v33 (cmpi .slt : (⟨S2, .i32⟩ : BufTy).Contents (Elt F) → (⟨S2, .i32⟩ : BufTy).Contents (Elt F) → (⟨S2, .i1⟩ : BufTy).Contents (Elt F)),
    StableHlo.nullary main_c_17 (constantI S_ 32 3#32),
    StableHlo.unary main_c_17 main_v34 (broadcastInDim S2 ![] bcast_S_S2 : (⟨S_, .i32⟩ : BufTy).Contents (Elt F) → (⟨S2, .i32⟩ : BufTy).Contents (Elt F)),
    StableHlo.binary main_c_3 main_v34 main_v35 (addi : (⟨S2, .i32⟩ : BufTy).Contents (Elt F) → (⟨S2, .i32⟩ : BufTy).Contents (Elt F) → (⟨S2, .i32⟩ : BufTy).Contents (Elt F)),
    StableHlo.ternary main_v33 main_v35 main_c_3 main_v36 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v36 main_v37 (broadcastInDim S2x1 ![0] bcast_S2_S2x1_0 : (⟨S2, .i32⟩ : BufTy).Contents (Elt F) → (⟨S2x1, .i32⟩ : BufTy).Contents (Elt F)),
    StableHlo.binary main_arg2 main_v37 main_v38 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)),
    StableHlo.nullary main_c_18 (constantI S_ 32 0#32),
    StableHlo.unary main_c_18 main_v39 (broadcastInDim S2 ![] bcast_S_S2 : (⟨S_, .i32⟩ : BufTy).Contents (Elt F) → (⟨S2, .i32⟩ : BufTy).Contents (Elt F)) ]

set_option maxHeartbeats 40000000 in
/-- Stretch 2: 10 operations of window 1, from the one writing `main_v40` to the one writing `main_v48`. -/
abbrev ops2 : List (HloOp τ sig (Elt F)) :=
  [ StableHlo.binary main_c_4 main_v39 main_v40 (cmpi .slt : (⟨S2, .i32⟩ : BufTy).Contents (Elt F) → (⟨S2, .i32⟩ : BufTy).Contents (Elt F) → (⟨S2, .i1⟩ : BufTy).Contents (Elt F)),
    StableHlo.nullary main_c_19 (constantI S_ 32 3#32),
    StableHlo.unary main_c_19 main_v41 (broadcastInDim S2 ![] bcast_S_S2 : (⟨S_, .i32⟩ : BufTy).Contents (Elt F) → (⟨S2, .i32⟩ : BufTy).Contents (Elt F)),
    StableHlo.binary main_c_4 main_v41 main_v42 (addi : (⟨S2, .i32⟩ : BufTy).Contents (Elt F) → (⟨S2, .i32⟩ : BufTy).Contents (Elt F) → (⟨S2, .i32⟩ : BufTy).Contents (Elt F)),
    StableHlo.ternary main_v40 main_v42 main_c_4 main_v43 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v43 main_v44 (broadcastInDim S2x1 ![0] bcast_S2_S2x1_0 : (⟨S2, .i32⟩ : BufTy).Contents (Elt F) → (⟨S2x1, .i32⟩ : BufTy).Contents (Elt F)),
    StableHlo.binary main_arg2 main_v44 main_v45 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)),
    StableHlo.unary main_v31 main_v46 (broadcastInDim S1x2 ![1] bcast_S2_S1x2_1 : (⟨S2, .f32⟩ : BufTy).Contents (Elt F) → (⟨S1x2, .f32⟩ : BufTy).Contents (Elt F)),
    StableHlo.unary main_v38 main_v47 (broadcastInDim S1x2 ![1] bcast_S2_S1x2_1 : (⟨S2, .f32⟩ : BufTy).Contents (Elt F) → (⟨S1x2, .f32⟩ : BufTy).Contents (Elt F)),
    StableHlo.unary main_v45 main_v48 (broadcastInDim S1x2 ![1] bcast_S2_S1x2_1 : (⟨S2, .f32⟩ : BufTy).Contents (Elt F) → (⟨S1x2, .f32⟩ : BufTy).Contents (Elt F)) ]

set_option maxHeartbeats 40000000 in
/-- Stretch 3: 44 operations of window 1, from the one writing `main_v49` to the one writing `main_v82`. -/
abbrev ops3 : List (HloOp τ sig (Elt F)) :=
  [ StableHlo.nary ![main_v46, main_v47, main_v48] main_v49 (fun u => cat3_S3x2 (F := F) (u 0) (u 1) (u 2)),
    StableHlo.binary main_v24 main_v24 main_v50 (mulf : (⟨S3x2, .f32⟩ : BufTy).Contents (Elt F) → (⟨S3x2, .f32⟩ : BufTy).Contents (Elt F) → (⟨S3x2, .f32⟩ : BufTy).Contents (Elt F)),
    StableHlo.nullary main_cst (constant S_ .f32 0x00000000#32),
    StableHlo.binary main_v50 main_cst main_v51 ((fun x v => Host.reduceAdd x v reducesTo_S3x2_S3_d1 h_S_) : (⟨S3x2, .f32⟩ : BufTy).Contents (Elt F) → (⟨S_, .f32⟩ : BufTy).Contents (Elt F) → (⟨S3, .f32⟩ : BufTy).Contents (Elt F)),
    StableHlo.binary main_v49 main_v49 main_v52 (mulf : (⟨S3x2, .f32⟩ : BufTy).Contents (Elt F) → (⟨S3x2, .f32⟩ : BufTy).Contents (Elt F) → (⟨S3x2, .f32⟩ : BufTy).Contents (Elt F)),
    StableHlo.nullary main_cst_20 (constant S_ .f32 0x00000000#32),
    StableHlo.binary main_v52 main_cst_20 main_v53 ((fun x v => Host.reduceAdd x v reducesTo_S3x2_S3_d1 h_S_) : (⟨S3x2, .f32⟩ : BufTy).Contents (Elt F) → (⟨S_, .f32⟩ : BufTy).Contents (Elt F) → (⟨S3, .f32⟩ : BufTy).Contents (Elt F)),
    StableHlo.binary main_v51 main_v53 main_v54 (minimumf : (⟨S3, .f32⟩ : BufTy).Contents (Elt F) → (⟨S3, .f32⟩ : BufTy).Contents (Elt F) → (⟨S3, .f32⟩ : BufTy).Contents (Elt F)),
    StableHlo.nullary main_cst_21 (constant S_ .f32 0x3E800000#32),
    StableHlo.unary main_cst_21 main_v55 (broadcastInDim S3 ![] bcast_S_S3 : (⟨S_, .f32⟩ : BufTy).Contents (Elt F) → (⟨S3, .f32⟩ : BufTy).Contents (Elt F)),
    StableHlo.binary main_v54 main_v55 main_v56 (minimumf : (⟨S3, .f32⟩ : BufTy).Contents (Elt F) → (⟨S3, .f32⟩ : BufTy).Contents (Elt F) → (⟨S3, .f32⟩ : BufTy).Contents (Elt F)),
    StableHlo.nullary main_cst_22 (constant S_ .f32 0x40000000#32),
    StableHlo.unary main_cst_22 main_v57 (broadcastInDim S200000x4x3 ![] bcast_S_S200000x4x3 : (⟨S_, .f32⟩ : BufTy).Contents (Elt F) → (⟨S200000x4x3, .f32⟩ : BufTy).Contents (Elt F)),
    StableHlo.binary main_v57 main_arg0 main_v58 (mulf : (⟨S200000x4x3, .f32⟩ : BufTy).Contents (Elt F) → (⟨S200000x4x3, .f32⟩ : BufTy).Contents (Elt F) → (⟨S200000x4x3, .f32⟩ : BufTy).Contents (Elt F)),
    StableHlo.nullary main_c_23 (constantI S_ 32 0#32),
    StableHlo.unary main_c_23 main_v59 (broadcastInDim S2 ![] bcast_S_S2 : (⟨S_, .i32⟩ : BufTy).Contents (Elt F) → (⟨S2, .i32⟩ : BufTy).Contents (Elt F)),
    StableHlo.binary main_c_5 main_v59 main_v60 (cmpi .slt : (⟨S2, .i32⟩ : BufTy).Contents (Elt F) → (⟨S2, .i32⟩ : BufTy).Contents (Elt F) → (⟨S2, .i1⟩ : BufTy).Contents (Elt F)),
    StableHlo.nullary main_c_24 (constantI S_ 32 3#32),
    StableHlo.unary main_c_24 main_v61 (broadcastInDim S2 ![] bcast_S_S2 : (⟨S_, .i32⟩ : BufTy).Contents (Elt F) → (⟨S2, .i32⟩ : BufTy).Contents (Elt F)),
    StableHlo.binary main_c_5 main_v61 main_v62 (addi : (⟨S2, .i32⟩ : BufTy).Contents (Elt F) → (⟨S2, .i32⟩ : BufTy).Contents (Elt F) → (⟨S2, .i32⟩ : BufTy).Contents (Elt F)),
    StableHlo.ternary main_v60 main_v62 main_c_5 main_v63 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v63 main_v64 (broadcastInDim S2x1 ![0] bcast_S2_S2x1_0 : (⟨S2, .i32⟩ : BufTy).Contents (Elt F) → (⟨S2x1, .i32⟩ : BufTy).Contents (Elt F)),
    StableHlo.binary main_v58 main_v64 main_v65 ((fun x i => Host.gather gather_S200000x4x3_S2x1_S200000x4x2_01_2_n_n_2_1_20000041 x i) : (⟨S200000x4x3, .f32⟩ : BufTy).Contents (Elt F) → (⟨S2x1, .i32⟩ : BufTy).Contents (Elt F) → (⟨S200000x4x2, .f32⟩ : BufTy).Contents (Elt F)),
    StableHlo.nullary main_c_25 (constantI S_ 32 0#32),
    StableHlo.unary main_c_25 main_v66 (broadcastInDim S2 ![] bcast_S_S2 : (⟨S_, .i32⟩ : BufTy).Contents (Elt F) → (⟨S2, .i32⟩ : BufTy).Contents (Elt F)),
    StableHlo.binary main_c_6 main_v66 main_v67 (cmpi .slt : (⟨S2, .i32⟩ : BufTy).Contents (Elt F) → (⟨S2, .i32⟩ : BufTy).Contents (Elt F) → (⟨S2, .i1⟩ : BufTy).Contents (Elt F)),
    StableHlo.nullary main_c_26 (constantI S_ 32 3#32),
    StableHlo.unary main_c_26 main_v68 (broadcastInDim S2 ![] bcast_S_S2 : (⟨S_, .i32⟩ : BufTy).Contents (Elt F) → (⟨S2, .i32⟩ : BufTy).Contents (Elt F)),
    StableHlo.binary main_c_6 main_v68 main_v69 (addi : (⟨S2, .i32⟩ : BufTy).Contents (Elt F) → (⟨S2, .i32⟩ : BufTy).Contents (Elt F) → (⟨S2, .i32⟩ : BufTy).Contents (Elt F)),
    StableHlo.ternary main_v67 main_v69 main_c_6 main_v70 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v70 main_v71 (broadcastInDim S2x1 ![0] bcast_S2_S2x1_0 : (⟨S2, .i32⟩ : BufTy).Contents (Elt F) → (⟨S2x1, .i32⟩ : BufTy).Contents (Elt F)),
    StableHlo.binary main_v58 main_v71 main_v72 ((fun x i => Host.gather gather_S200000x4x3_S2x1_S200000x4x2_01_2_n_n_2_1_20000041 x i) : (⟨S200000x4x3, .f32⟩ : BufTy).Contents (Elt F) → (⟨S2x1, .i32⟩ : BufTy).Contents (Elt F) → (⟨S200000x4x2, .f32⟩ : BufTy).Contents (Elt F)),
    StableHlo.nullary main_c_27 (constantI S_ 32 0#32),
    StableHlo.unary main_c_27 main_v73 (broadcastInDim S2 ![] bcast_S_S2 : (⟨S_, .i32⟩ : BufTy).Contents (Elt F) → (⟨S2, .i32⟩ : BufTy).Contents (Elt F)),
    StableHlo.binary main_c_7 main_v73 main_v74 (cmpi .slt : (⟨S2, .i32⟩ : BufTy).Contents (Elt F) → (⟨S2, .i32⟩ : BufTy).Contents (Elt F) → (⟨S2, .i1⟩ : BufTy).Contents (Elt F)),
    StableHlo.nullary main_c_28 (constantI S_ 32 3#32),
    StableHlo.unary main_c_28 main_v75 (broadcastInDim S2 ![] bcast_S_S2 : (⟨S_, .i32⟩ : BufTy).Contents (Elt F) → (⟨S2, .i32⟩ : BufTy).Contents (Elt F)),
    StableHlo.binary main_c_7 main_v75 main_v76 (addi : (⟨S2, .i32⟩ : BufTy).Contents (Elt F) → (⟨S2, .i32⟩ : BufTy).Contents (Elt F) → (⟨S2, .i32⟩ : BufTy).Contents (Elt F)),
    StableHlo.ternary main_v74 main_v76 main_c_7 main_v77 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v77 main_v78 (broadcastInDim S2x1 ![0] bcast_S2_S2x1_0 : (⟨S2, .i32⟩ : BufTy).Contents (Elt F) → (⟨S2x1, .i32⟩ : BufTy).Contents (Elt F)),
    StableHlo.binary main_v58 main_v78 main_v79 ((fun x i => Host.gather gather_S200000x4x3_S2x1_S200000x4x2_01_2_n_n_2_1_20000041 x i) : (⟨S200000x4x3, .f32⟩ : BufTy).Contents (Elt F) → (⟨S2x1, .i32⟩ : BufTy).Contents (Elt F) → (⟨S200000x4x2, .f32⟩ : BufTy).Contents (Elt F)),
    StableHlo.unary main_v65 main_v80 (broadcastInDim S1x200000x4x2 ![1, 2, 3] bcast_S200000x4x2_S1x200000x4x2_1_2_3 : (⟨S200000x4x2, .f32⟩ : BufTy).Contents (Elt F) → (⟨S1x200000x4x2, .f32⟩ : BufTy).Contents (Elt F)),
    StableHlo.unary main_v72 main_v81 (broadcastInDim S1x200000x4x2 ![1, 2, 3] bcast_S200000x4x2_S1x200000x4x2_1_2_3 : (⟨S200000x4x2, .f32⟩ : BufTy).Contents (Elt F) → (⟨S1x200000x4x2, .f32⟩ : BufTy).Contents (Elt F)),
    StableHlo.unary main_v79 main_v82 (broadcastInDim S1x200000x4x2 ![1, 2, 3] bcast_S200000x4x2_S1x200000x4x2_1_2_3 : (⟨S200000x4x2, .f32⟩ : BufTy).Contents (Elt F) → (⟨S1x200000x4x2, .f32⟩ : BufTy).Contents (Elt F)) ]

set_option maxHeartbeats 40000000 in
/-- Stretch 4: 6 operations of window 1, from the one writing `main_v83` to the one writing `main_cst_29`. -/
abbrev ops4 : List (HloOp τ sig (Elt F)) :=
  [ StableHlo.nary ![main_v80, main_v81, main_v82] main_v83 (fun u => cat3_S3x200000x4x2 (F := F) (u 0) (u 1) (u 2)),
    StableHlo.unary main_v56 main_v84 (Host.sqrt : (⟨S3, .f32⟩ : BufTy).Contents (Elt F) → (⟨S3, .f32⟩ : BufTy).Contents (Elt F)),
    StableHlo.unary main_v84 main_v85 (broadcastInDim S3x1x1x1 ![0] bcast_S3_S3x1x1x1_0 : (⟨S3, .f32⟩ : BufTy).Contents (Elt F) → (⟨S3x1x1x1, .f32⟩ : BufTy).Contents (Elt F)),
    StableHlo.unary main_v85 main_v86 (broadcastInDim S3x200000x4x2 ![0, 1, 2, 3] bcast_S3x1x1x1_S3x200000x4x2_0_1_2_3 : (⟨S3x1x1x1, .f32⟩ : BufTy).Contents (Elt F) → (⟨S3x200000x4x2, .f32⟩ : BufTy).Contents (Elt F)),
    StableHlo.binary main_v83 main_v86 main_v87 (Host.divf : (⟨S3x200000x4x2, .f32⟩ : BufTy).Contents (Elt F) → (⟨S3x200000x4x2, .f32⟩ : BufTy).Contents (Elt F) → (⟨S3x200000x4x2, .f32⟩ : BufTy).Contents (Elt F)),
    StableHlo.nullary main_cst_29 (constant S_ .f32 0x40000000#32) ]

set_option maxHeartbeats 40000000 in
/-- Stretch 5: 60 operations of window 2, from the one writing `main_v88` to the one writing `main_v129`. -/
abbrev ops5 : List (HloOp τ sig (Elt F)) :=
  [ StableHlo.unary main_cst_29 main_v88 (broadcastInDim S3x200000x4x2 ![] bcast_S_S3x200000x4x2 : (⟨S_, .f32⟩ : BufTy).Contents (Elt F) → (⟨S3x200000x4x2, .f32⟩ : BufTy).Contents (Elt F)),
    StableHlo.binary main_v87 main_v88 main_v89 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.nullary main_cst_30 (constant S_ .f32 0x3F800000#32),
    StableHlo.unary main_cst_30 main_v90 (broadcastInDim S3x200000x4x2 ![] bcast_S_S3x200000x4x2 : (⟨S_, .f32⟩ : BufTy).Contents (Elt F) → (⟨S3x200000x4x2, .f32⟩ : BufTy).Contents (Elt F)),
    StableHlo.binary main_v89 main_v90 main_v91 (subf : (⟨S3x200000x4x2, .f32⟩ : BufTy).Contents (Elt F) → (⟨S3x200000x4x2, .f32⟩ : BufTy).Contents (Elt F) → (⟨S3x200000x4x2, .f32⟩ : BufTy).Contents (Elt F)),
    StableHlo.nullary main_cst_31 (constant S_ .f32 0x40C00000#32),
    StableHlo.unary main_cst_31 main_v92 (broadcastInDim S3x200000x4x2 ![] bcast_S_S3x200000x4x2 : (⟨S_, .f32⟩ : BufTy).Contents (Elt F) → (⟨S3x200000x4x2, .f32⟩ : BufTy).Contents (Elt F)),
    StableHlo.binary main_v91 main_v92 main_v93 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.binary main_v93 main_v93 main_v94 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.nullary main_cst_32 (constant S_ .f32 0x00000000#32),
    StableHlo.binary main_v94 main_cst_32 main_v95 ((fun x v => Host.reduceAdd x v reducesTo_S3x200000x4x2_S3x200000x4_d3 h_S_) : (⟨S3x200000x4x2, .f32⟩ : BufTy).Contents (Elt F) → (⟨S_, .f32⟩ : BufTy).Contents (Elt F) → (⟨S3x200000x4, .f32⟩ : BufTy).Contents (Elt F)),
    StableHlo.unary main_v95 main_v96 (broadcastInDim S3x200000x4x1 ![0, 1, 2] bcast_S3x200000x4_S3x200000x4x1_0_1_2 : (⟨S3x200000x4, .f32⟩ : BufTy).Contents (Elt F) → (⟨S3x200000x4x1, .f32⟩ : BufTy).Contents (Elt F)),
    StableHlo.nullary main_cst_33 (constant S_ .f32 0x34000000#32),
    StableHlo.TRef.unary (.of main_cst_33 : StableHlo.TRef sig ⟨S_, .f32⟩) (.of main_call0_v0 : StableHlo.TRef sig ⟨S3x200000x4x1, .f32⟩) (broadcastInDim S3x200000x4x1 ![] bcast_S_S3x200000x4x1),
    StableHlo.TRef.binary (.of main_call0_v0 : StableHlo.TRef sig ⟨S3x200000x4x1, .f32⟩) (.of main_v96 : StableHlo.TRef sig ⟨S3x200000x4x1, .f32⟩) (.of main_v97 : StableHlo.TRef sig ⟨S3x200000x4x1, .f32⟩) maximumf,
    StableHlo.nullary main_cst_34 (constant S_ .f32 0x3F800000#32),
    StableHlo.unary main_cst_34 main_v98 (broadcastInDim S3x200000x4x1 ![] bcast_S_S3x200000x4x1 : (⟨S_, .f32⟩ : BufTy).Contents (Elt F) → (⟨S3x200000x4x1, .f32⟩ : BufTy).Contents (Elt F)),
    StableHlo.binary main_v97 main_v98 main_v99 (cmpf .ole : (⟨S3x200000x4x1, .f32⟩ : BufTy).Contents (Elt F) → (⟨S3x200000x4x1, .f32⟩ : BufTy).Contents (Elt F) → (⟨S3x200000x4x1, .i1⟩ : BufTy).Contents (Elt F)),
    StableHlo.unary main_v97 main_v100 (Host.sqrt : (⟨S3x200000x4x1, .f32⟩ : BufTy).Contents (Elt F) → (⟨S3x200000x4x1, .f32⟩ : BufTy).Contents (Elt F)),
    StableHlo.nullary main_cst_35 (constant S_ .f32 0x40000000#32),
    StableHlo.unary main_cst_35 main_v101 (broadcastInDim S3x200000x4x1 ![] bcast_S_S3x200000x4x1 : (⟨S_, .f32⟩ : BufTy).Contents (Elt F) → (⟨S3x200000x4x1, .f32⟩ : BufTy).Contents (Elt F)),
    StableHlo.binary main_v101 main_v100 main_v102 (mulf : (⟨S3x200000x4x1, .f32⟩ : BufTy).Contents (Elt F) → (⟨S3x200000x4x1, .f32⟩ : BufTy).Contents (Elt F) → (⟨S3x200000x4x1, .f32⟩ : BufTy).Contents (Elt F)),
    StableHlo.nullary main_cst_36 (constant S_ .f32 0x3F800000#32),
    StableHlo.unary main_cst_36 main_v103 (broadcastInDim S3x200000x4x1 ![] bcast_S_S3x200000x4x1 : (⟨S_, .f32⟩ : BufTy).Contents (Elt F) → (⟨S3x200000x4x1, .f32⟩ : BufTy).Contents (Elt F)),
    StableHlo.binary main_v102 main_v103 main_v104 (subf : (⟨S3x200000x4x1, .f32⟩ : BufTy).Contents (Elt F) → (⟨S3x200000x4x1, .f32⟩ : BufTy).Contents (Elt F) → (⟨S3x200000x4x1, .f32⟩ : BufTy).Contents (Elt F)),
    StableHlo.binary main_v104 main_v97 main_v105 (Host.divf : (⟨S3x200000x4x1, .f32⟩ : BufTy).Contents (Elt F) → (⟨S3x200000x4x1, .f32⟩ : BufTy).Contents (Elt F) → (⟨S3x200000x4x1, .f32⟩ : BufTy).Contents (Elt F)),
    StableHlo.unary main_v105 main_v106 (broadcastInDim S3x200000x4x2 ![0, 1, 2, 3] bcast_S3x200000x4x1_S3x200000x4x2_0_1_2_3 : (⟨S3x200000x4x1, .f32⟩ : BufTy).Contents (Elt F) → (⟨S3x200000x4x2, .f32⟩ : BufTy).Contents (Elt F)),
    StableHlo.binary main_v106 main_v93 main_v107 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.TRef.unary (.of main_v99 : StableHlo.TRef sig ⟨S3x200000x4x1, .i1⟩) (.of main_call1_v0 : StableHlo.TRef sig ⟨S3x200000x4x2, .i1⟩) (broadcastInDim S3x200000x4x2 ![0, 1, 2, 3] bcast_S3x200000x4x1_S3x200000x4x2_0_1_2_3),
    StableHlo.TRef.ternary (.of main_call1_v0 : StableHlo.TRef sig ⟨S3x200000x4x2, .i1⟩) (.of main_v93 : StableHlo.TRef sig ⟨S3x200000x4x2, .f32⟩) (.of main_v107 : StableHlo.TRef sig ⟨S3x200000x4x2, .f32⟩) (.of main_v108 : StableHlo.TRef sig ⟨S3x200000x4x2, .f32⟩) select,
    StableHlo.nullary main_cst_37 (constant S_ .f32 0x3F000000#32),
    StableHlo.unary main_cst_37 main_v109 (broadcastInDim S3x200000x4x2 ![] bcast_S_S3x200000x4x2 : (⟨S_, .f32⟩ : BufTy).Contents (Elt F) → (⟨S3x200000x4x2, .f32⟩ : BufTy).Contents (Elt F)),
    StableHlo.binary main_v108 main_v109 main_v110 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.unary main_v110 main_v111 ((extractStridedSlice S3x200000x4x1 ![0, 0, 0, 0] · slices_S3x200000x4x2_S3x200000x4x1_0_0_0_0) : (⟨S3x200000x4x2, .f32⟩ : BufTy).Contents (Elt F) → (⟨S3x200000x4x1, .f32⟩ : BufTy).Contents (Elt F)),
    StableHlo.reshape main_v111 main_v112 rfl shapeCasts_S3x200000x4x1_S3x200000x4,
    StableHlo.unary main_v110 main_v113 ((extractStridedSlice S3x200000x4x1 ![0, 0, 0, 1] · slices_S3x200000x4x2_S3x200000x4x1_0_0_0_1) : (⟨S3x200000x4x2, .f32⟩ : BufTy).Contents (Elt F) → (⟨S3x200000x4x1, .f32⟩ : BufTy).Contents (Elt F)),
    StableHlo.reshape main_v113 main_v114 rfl shapeCasts_S3x200000x4x1_S3x200000x4,
    StableHlo.nullary main_cst_38 (constant S_ .f32 0x3F800000#32),
    StableHlo.unary main_cst_38 main_v115 (broadcastInDim S3x200000x4 ![] bcast_S_S3x200000x4 : (⟨S_, .f32⟩ : BufTy).Contents (Elt F) → (⟨S3x200000x4, .f32⟩ : BufTy).Contents (Elt F)),
    StableHlo.binary main_v112 main_v115 main_v116 (addf : (⟨S3x200000x4, .f32⟩ : BufTy).Contents (Elt F) → (⟨S3x200000x4, .f32⟩ : BufTy).Contents (Elt F) → (⟨S3x200000x4, .f32⟩ : BufTy).Contents (Elt F)),
    StableHlo.nullary main_cst_39 (constant S_ .f32 0x44000000#32),
    StableHlo.unary main_cst_39 main_v117 (broadcastInDim S3x200000x4 ![] bcast_S_S3x200000x4 : (⟨S_, .f32⟩ : BufTy).Contents (Elt F) → (⟨S3x200000x4, .f32⟩ : BufTy).Contents (Elt F)),
    StableHlo.binary main_v116 main_v117 main_v118 (mulf : (⟨S3x200000x4, .f32⟩ : BufTy).Contents (Elt F) → (⟨S3x200000x4, .f32⟩ : BufTy).Contents (Elt F) → (⟨S3x200000x4, .f32⟩ : BufTy).Contents (Elt F)),
    StableHlo.nullary main_cst_40 (constant S_ .f32 0x3F800000#32),
    StableHlo.unary main_cst_40 main_v119 (broadcastInDim S3x200000x4 ![] bcast_S_S3x200000x4 : (⟨S_, .f32⟩ : BufTy).Contents (Elt F) → (⟨S3x200000x4, .f32⟩ : BufTy).Contents (Elt F)),
    StableHlo.binary main_v118 main_v119 main_v120 (subf : (⟨S3x200000x4, .f32⟩ : BufTy).Contents (Elt F) → (⟨S3x200000x4, .f32⟩ : BufTy).Contents (Elt F) → (⟨S3x200000x4, .f32⟩ : BufTy).Contents (Elt F)),
    StableHlo.nullary main_cst_41 (constant S_ .f32 0x3F000000#32),
    StableHlo.unary main_cst_41 main_v121 (broadcastInDim S3x200000x4 ![] bcast_S_S3x200000x4 : (⟨S_, .f32⟩ : BufTy).Contents (Elt F) → (⟨S3x200000x4, .f32⟩ : BufTy).Contents (Elt F)),
    StableHlo.binary main_v120 main_v121 main_v122 (mulf : (⟨S3x200000x4, .f32⟩ : BufTy).Contents (Elt F) → (⟨S3x200000x4, .f32⟩ : BufTy).Contents (Elt F) → (⟨S3x200000x4, .f32⟩ : BufTy).Contents (Elt F)),
    StableHlo.nullary main_cst_42 (constant S_ .f32 0x3F800000#32),
    StableHlo.unary main_cst_42 main_v123 (broadcastInDim S3x200000x4 ![] bcast_S_S3x200000x4 : (⟨S_, .f32⟩ : BufTy).Contents (Elt F) → (⟨S3x200000x4, .f32⟩ : BufTy).Contents (Elt F)),
    StableHlo.binary main_v114 main_v123 main_v124 (addf : (⟨S3x200000x4, .f32⟩ : BufTy).Contents (Elt F) → (⟨S3x200000x4, .f32⟩ : BufTy).Contents (Elt F) → (⟨S3x200000x4, .f32⟩ : BufTy).Contents (Elt F)),
    StableHlo.nullary main_cst_43 (constant S_ .f32 0x44000000#32),
    StableHlo.unary main_cst_43 main_v125 (broadcastInDim S3x200000x4 ![] bcast_S_S3x200000x4 : (⟨S_, .f32⟩ : BufTy).Contents (Elt F) → (⟨S3x200000x4, .f32⟩ : BufTy).Contents (Elt F)),
    StableHlo.binary main_v124 main_v125 main_v126 (mulf : (⟨S3x200000x4, .f32⟩ : BufTy).Contents (Elt F) → (⟨S3x200000x4, .f32⟩ : BufTy).Contents (Elt F) → (⟨S3x200000x4, .f32⟩ : BufTy).Contents (Elt F)),
    StableHlo.nullary main_cst_44 (constant S_ .f32 0x3F800000#32),
    StableHlo.unary main_cst_44 main_v127 (broadcastInDim S3x200000x4 ![] bcast_S_S3x200000x4 : (⟨S_, .f32⟩ : BufTy).Contents (Elt F) → (⟨S3x200000x4, .f32⟩ : BufTy).Contents (Elt F)),
    StableHlo.binary main_v126 main_v127 main_v128 (subf : (⟨S3x200000x4, .f32⟩ : BufTy).Contents (Elt F) → (⟨S3x200000x4, .f32⟩ : BufTy).Contents (Elt F) → (⟨S3x200000x4, .f32⟩ : BufTy).Contents (Elt F)),
    StableHlo.nullary main_cst_45 (constant S_ .f32 0x3F000000#32),
    StableHlo.unary main_cst_45 main_v129 (broadcastInDim S3x200000x4 ![] bcast_S_S3x200000x4 : (⟨S_, .f32⟩ : BufTy).Contents (Elt F) → (⟨S3x200000x4, .f32⟩ : BufTy).Contents (Elt F)) ]

set_option maxHeartbeats 40000000 in
/-- Stretch 6: 2 operations of window 2, from the one writing `main_v130` to the one writing `main_v131`. -/
abbrev ops6 : List (HloOp τ sig (Elt F)) :=
  [ StableHlo.binary main_v128 main_v129 main_v130 (mulf : (⟨S3x200000x4, .f32⟩ : BufTy).Contents (Elt F) → (⟨S3x200000x4, .f32⟩ : BufTy).Contents (Elt F) → (⟨S3x200000x4, .f32⟩ : BufTy).Contents (Elt F)),
    StableHlo.unary main_v122 main_v131 (Host.floor : (⟨S3x200000x4, .f32⟩ : BufTy).Contents (Elt F) → (⟨S3x200000x4, .f32⟩ : BufTy).Contents (Elt F)) ]

set_option maxHeartbeats 40000000 in
/-- Stretch 7: 60 operations of window 3, from the one writing `main_v132` to the one writing `main_v165`. -/
abbrev ops7 : List (HloOp τ sig (Elt F)) :=
  [ StableHlo.unary main_v130 main_v132 (Host.floor : (⟨S3x200000x4, .f32⟩ : BufTy).Contents (Elt F) → (⟨S3x200000x4, .f32⟩ : BufTy).Contents (Elt F)),
    StableHlo.nullary main_cst_46 (constant S_ .f32 0x3F800000#32),
    StableHlo.unary main_cst_46 main_v133 (broadcastInDim S3x200000x4 ![] bcast_S_S3x200000x4 : (⟨S_, .f32⟩ : BufTy).Contents (Elt F) → (⟨S3x200000x4, .f32⟩ : BufTy).Contents (Elt F)),
    StableHlo.binary main_v131 main_v133 main_v134 (addf : (⟨S3x200000x4, .f32⟩ : BufTy).Contents (Elt F) → (⟨S3x200000x4, .f32⟩ : BufTy).Contents (Elt F) → (⟨S3x200000x4, .f32⟩ : BufTy).Contents (Elt F)),
    StableHlo.nullary main_cst_47 (constant S_ .f32 0x3F800000#32),
    StableHlo.unary main_cst_47 main_v135 (broadcastInDim S3x200000x4 ![] bcast_S_S3x200000x4 : (⟨S_, .f32⟩ : BufTy).Contents (Elt F) → (⟨S3x200000x4, .f32⟩ : BufTy).Contents (Elt F)),
    StableHlo.binary main_v132 main_v135 main_v136 (addf : (⟨S3x200000x4, .f32⟩ : BufTy).Contents (Elt F) → (⟨S3x200000x4, .f32⟩ : BufTy).Contents (Elt F) → (⟨S3x200000x4, .f32⟩ : BufTy).Contents (Elt F)),
    StableHlo.binary main_v122 main_v131 main_v137 (subf : (⟨S3x200000x4, .f32⟩ : BufTy).Contents (Elt F) → (⟨S3x200000x4, .f32⟩ : BufTy).Contents (Elt F) → (⟨S3x200000x4, .f32⟩ : BufTy).Contents (Elt F)),
    StableHlo.nullary main_cst_48 (constant S_ .f32 0x3F800000#32),
    StableHlo.unary main_cst_48 main_v138 (broadcastInDim S3x200000x4 ![] bcast_S_S3x200000x4 : (⟨S_, .f32⟩ : BufTy).Contents (Elt F) → (⟨S3x200000x4, .f32⟩ : BufTy).Contents (Elt F)),
    StableHlo.binary main_v138 main_v137 main_v139 (subf : (⟨S3x200000x4, .f32⟩ : BufTy).Contents (Elt F) → (⟨S3x200000x4, .f32⟩ : BufTy).Contents (Elt F) → (⟨S3x200000x4, .f32⟩ : BufTy).Contents (Elt F)),
    StableHlo.binary main_v130 main_v132 main_v140 (subf : (⟨S3x200000x4, .f32⟩ : BufTy).Contents (Elt F) → (⟨S3x200000x4, .f32⟩ : BufTy).Contents (Elt F) → (⟨S3x200000x4, .f32⟩ : BufTy).Contents (Elt F)),
    StableHlo.nullary main_cst_49 (constant S_ .f32 0x3F800000#32),
    StableHlo.unary main_cst_49 main_v141 (broadcastInDim S3x200000x4 ![] bcast_S_S3x200000x4 : (⟨S_, .f32⟩ : BufTy).Contents (Elt F) → (⟨S3x200000x4, .f32⟩ : BufTy).Contents (Elt F)),
    StableHlo.binary main_v141 main_v140 main_v142 (subf : (⟨S3x200000x4, .f32⟩ : BufTy).Contents (Elt F) → (⟨S3x200000x4, .f32⟩ : BufTy).Contents (Elt F) → (⟨S3x200000x4, .f32⟩ : BufTy).Contents (Elt F)),
    StableHlo.nullary main_cst_50 (constant S_ .f32 0x00000000#32),
    StableHlo.unary main_cst_50 main_v143 (broadcastInDim S3x200000x4 ![] bcast_S_S3x200000x4 : (⟨S_, .f32⟩ : BufTy).Contents (Elt F) → (⟨S3x200000x4, .f32⟩ : BufTy).Contents (Elt F)),
    StableHlo.binary main_v131 main_v143 main_v144 (cmpf .oge : (⟨S3x200000x4, .f32⟩ : BufTy).Contents (Elt F) → (⟨S3x200000x4, .f32⟩ : BufTy).Contents (Elt F) → (⟨S3x200000x4, .i1⟩ : BufTy).Contents (Elt F)),
    StableHlo.nullary main_cst_51 (constant S_ .f32 0x43FF8000#32),
    StableHlo.unary main_cst_51 main_v145 (broadcastInDim S3x200000x4 ![] bcast_S_S3x200000x4 : (⟨S_, .f32⟩ : BufTy).Contents (Elt F) → (⟨S3x200000x4, .f32⟩ : BufTy).Contents (Elt F)),
    StableHlo.binary main_v131 main_v145 main_v146 (cmpf .ole : (⟨S3x200000x4, .f32⟩ : BufTy).Contents (Elt F) → (⟨S3x200000x4, .f32⟩ : BufTy).Contents (Elt F) → (⟨S3x200000x4, .i1⟩ : BufTy).Contents (Elt F)),
    StableHlo.binary main_v144 main_v146 main_v147 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_52 (constant S_ .f32 0x00000000#32),
    StableHlo.unary main_cst_52 main_v148 (broadcastInDim S3x200000x4 ![] bcast_S_S3x200000x4 : (⟨S_, .f32⟩ : BufTy).Contents (Elt F) → (⟨S3x200000x4, .f32⟩ : BufTy).Contents (Elt F)),
    StableHlo.binary main_v132 main_v148 main_v149 (cmpf .oge : (⟨S3x200000x4, .f32⟩ : BufTy).Contents (Elt F) → (⟨S3x200000x4, .f32⟩ : BufTy).Contents (Elt F) → (⟨S3x200000x4, .i1⟩ : BufTy).Contents (Elt F)),
    StableHlo.binary main_v147 main_v149 main_v150 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_53 (constant S_ .f32 0x43FF8000#32),
    StableHlo.unary main_cst_53 main_v151 (broadcastInDim S3x200000x4 ![] bcast_S_S3x200000x4 : (⟨S_, .f32⟩ : BufTy).Contents (Elt F) → (⟨S3x200000x4, .f32⟩ : BufTy).Contents (Elt F)),
    StableHlo.binary main_v132 main_v151 main_v152 (cmpf .ole : (⟨S3x200000x4, .f32⟩ : BufTy).Contents (Elt F) → (⟨S3x200000x4, .f32⟩ : BufTy).Contents (Elt F) → (⟨S3x200000x4, .i1⟩ : BufTy).Contents (Elt F)),
    StableHlo.binary main_v150 main_v152 main_v153 (andi : (⟨S3x200000x4, .i1⟩ : BufTy).Contents (Elt F) → (⟨S3x200000x4, .i1⟩ : BufTy).Contents (Elt F) → (⟨S3x200000x4, .i1⟩ : BufTy).Contents (Elt F)),
    StableHlo.nullary main_c_54 (constantI S_ 32 0#32),
    StableHlo.nullary main_c_55 (constantI S_ 32 511#32),
    StableHlo.TRef.unary (.of main_c_54 : StableHlo.TRef sig ⟨S_, .i32⟩) (.of main_call2_v0 : StableHlo.TRef sig ⟨S_, .f32⟩) (sitofp .f32),
    StableHlo.TRef.unary (.of main_call2_v0 : StableHlo.TRef sig ⟨S_, .f32⟩) (.of main_call2_v1 : StableHlo.TRef sig ⟨S3x200000x4, .f32⟩) (broadcastInDim S3x200000x4 ![] bcast_S_S3x200000x4),
    StableHlo.TRef.binary (.of main_call2_v1 : StableHlo.TRef sig ⟨S3x200000x4, .f32⟩) (.of main_v131 : StableHlo.TRef sig ⟨S3x200000x4, .f32⟩) (.of main_call2_v2 : StableHlo.TRef sig ⟨S3x200000x4, .f32⟩) maximumf,
    StableHlo.TRef.unary (.of main_c_55 : StableHlo.TRef sig ⟨S_, .i32⟩) (.of main_call2_v3 : StableHlo.TRef sig ⟨S_, .f32⟩) (sitofp .f32),
    StableHlo.TRef.unary (.of main_call2_v3 : StableHlo.TRef sig ⟨S_, .f32⟩) (.of main_call2_v4 : StableHlo.TRef sig ⟨S3x200000x4, .f32⟩) (broadcastInDim S3x200000x4 ![] bcast_S_S3x200000x4),
    StableHlo.TRef.binary (.of main_call2_v4 : StableHlo.TRef sig ⟨S3x200000x4, .f32⟩) (.of main_call2_v2 : StableHlo.TRef sig ⟨S3x200000x4, .f32⟩) (.of main_v154 : StableHlo.TRef sig ⟨S3x200000x4, .f32⟩) minimumf,
    StableHlo.unary main_v154 main_v155 (fptosi 32 : (⟨S3x200000x4, .f32⟩ : BufTy).Contents (Elt F) → (⟨S3x200000x4, .i32⟩ : BufTy).Contents (Elt F)),
    StableHlo.nullary main_c_56 (constantI S_ 32 0#32),
    StableHlo.nullary main_c_57 (constantI S_ 32 511#32),
    StableHlo.TRef.unary (.of main_c_56 : StableHlo.TRef sig ⟨S_, .i32⟩) (.of main_call3_v0 : StableHlo.TRef sig ⟨S_, .f32⟩) (sitofp .f32),
    StableHlo.TRef.unary (.of main_call3_v0 : StableHlo.TRef sig ⟨S_, .f32⟩) (.of main_call3_v1 : StableHlo.TRef sig ⟨S3x200000x4, .f32⟩) (broadcastInDim S3x200000x4 ![] bcast_S_S3x200000x4),
    StableHlo.TRef.binary (.of main_call3_v1 : StableHlo.TRef sig ⟨S3x200000x4, .f32⟩) (.of main_v132 : StableHlo.TRef sig ⟨S3x200000x4, .f32⟩) (.of main_call3_v2 : StableHlo.TRef sig ⟨S3x200000x4, .f32⟩) maximumf,
    StableHlo.TRef.unary (.of main_c_57 : StableHlo.TRef sig ⟨S_, .i32⟩) (.of main_call3_v3 : StableHlo.TRef sig ⟨S_, .f32⟩) (sitofp .f32),
    StableHlo.TRef.unary (.of main_call3_v3 : StableHlo.TRef sig ⟨S_, .f32⟩) (.of main_call3_v4 : StableHlo.TRef sig ⟨S3x200000x4, .f32⟩) (broadcastInDim S3x200000x4 ![] bcast_S_S3x200000x4),
    StableHlo.TRef.binary (.of main_call3_v4 : StableHlo.TRef sig ⟨S3x200000x4, .f32⟩) (.of main_call3_v2 : StableHlo.TRef sig ⟨S3x200000x4, .f32⟩) (.of main_v156 : StableHlo.TRef sig ⟨S3x200000x4, .f32⟩) minimumf,
    StableHlo.unary main_v156 main_v157 (fptosi 32 : (⟨S3x200000x4, .f32⟩ : BufTy).Contents (Elt F) → (⟨S3x200000x4, .i32⟩ : BufTy).Contents (Elt F)),
    StableHlo.nullary main_c_58 (constantI S_ 32 0#32),
    StableHlo.unary main_c_58 main_v158 (broadcastInDim S3x200000x4 ![] bcast_S_S3x200000x4 : (⟨S_, .i32⟩ : BufTy).Contents (Elt F) → (⟨S3x200000x4, .i32⟩ : BufTy).Contents (Elt F)),
    StableHlo.binary main_v157 main_v158 main_v159 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_59 (constantI S_ 32 512#32),
    StableHlo.unary main_c_59 main_v160 (broadcastInDim S3x200000x4 ![] bcast_S_S3x200000x4 : (⟨S_, .i32⟩ : BufTy).Contents (Elt F) → (⟨S3x200000x4, .i32⟩ : BufTy).Contents (Elt F)),
    StableHlo.binary main_v157 main_v160 main_v161 (addi : (⟨S3x200000x4, .i32⟩ : BufTy).Contents (Elt F) → (⟨S3x200000x4, .i32⟩ : BufTy).Contents (Elt F) → (⟨S3x200000x4, .i32⟩ : BufTy).Contents (Elt F)),
    StableHlo.ternary main_v159 main_v161 main_v157 main_v162 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.nullary main_c_60 (constantI S_ 32 0#32),
    StableHlo.unary main_c_60 main_v163 (broadcastInDim S3x200000x4 ![] bcast_S_S3x200000x4 : (⟨S_, .i32⟩ : BufTy).Contents (Elt F) → (⟨S3x200000x4, .i32⟩ : BufTy).Contents (Elt F)),
    StableHlo.binary main_v155 main_v163 main_v164 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_61 (constantI S_ 32 512#32),
    StableHlo.unary main_c_61 main_v165 (broadcastInDim S3x200000x4 ![] bcast_S_S3x200000x4 : (⟨S_, .i32⟩ : BufTy).Contents (Elt F) → (⟨S3x200000x4, .i32⟩ : BufTy).Contents (Elt F)) ]

set_option maxHeartbeats 40000000 in
/-- Stretch 8: 4 operations of window 3, from the one writing `main_v166` to the one writing `main_v169`. -/
abbrev ops8 : List (HloOp τ sig (Elt F)) :=
  [ StableHlo.binary main_v155 main_v165 main_v166 (addi : (⟨S3x200000x4, .i32⟩ : BufTy).Contents (Elt F) → (⟨S3x200000x4, .i32⟩ : BufTy).Contents (Elt F) → (⟨S3x200000x4, .i32⟩ : BufTy).Contents (Elt F)),
    StableHlo.ternary main_v164 main_v166 main_v155 main_v167 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.unary main_v162 main_v168 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)),
    StableHlo.unary main_v167 main_v169 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)) ]

set_option maxHeartbeats 40000000 in
/-- Stretch 9: 6 operations of window 3, from the one writing `main_v170` to the one writing `main_v175`. -/
abbrev ops9 : List (HloOp τ sig (Elt F)) :=
  [ StableHlo.binary main_v168 main_v169 main_v170 (cat2_S3x200000x4x2 : (⟨S3x200000x4x1, .i32⟩ : BufTy).Contents (Elt F) → (⟨S3x200000x4x1, .i32⟩ : BufTy).Contents (Elt F) → (⟨S3x200000x4x2, .i32⟩ : BufTy).Contents (Elt F)),
    StableHlo.binary main_arg3 main_v170 main_v171 ((fun x i => Host.gather gather_S3x32x512x512_S3x200000x4x2_S3x32x200000x4_1_23_0_0_23_3_13211 x i) : (⟨S3x32x512x512, .f32⟩ : BufTy).Contents (Elt F) → (⟨S3x200000x4x2, .i32⟩ : BufTy).Contents (Elt F) → (⟨S3x32x200000x4, .f32⟩ : BufTy).Contents (Elt F)),
    StableHlo.unary main_v153 main_v172 (uitofp .f32 : (⟨S3x200000x4, .i1⟩ : BufTy).Contents (Elt F) → (⟨S3x200000x4, .f32⟩ : BufTy).Contents (Elt F)),
    StableHlo.unary main_v172 main_v173 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v173 main_v174 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v171 main_v174 main_v175 (mulf : (⟨S3x32x200000x4, .f32⟩ : BufTy).Contents (Elt F) → (⟨S3x32x200000x4, .f32⟩ : BufTy).Contents (Elt F) → (⟨S3x32x200000x4, .f32⟩ : BufTy).Contents (Elt F)) ]

set_option maxHeartbeats 40000000 in
/-- Stretch 10: 53 operations of window 4, from the one writing `main_v176` to the one writing `main_v206`. -/
abbrev ops10 : List (HloOp τ sig (Elt F)) :=
  [ StableHlo.binary main_v139 main_v142 main_v176 (mulf : (⟨S3x200000x4, .f32⟩ : BufTy).Contents (Elt F) → (⟨S3x200000x4, .f32⟩ : BufTy).Contents (Elt F) → (⟨S3x200000x4, .f32⟩ : BufTy).Contents (Elt F)),
    StableHlo.unary main_v176 main_v177 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v177 main_v178 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v175 main_v178 main_v179 (mulf : (⟨S3x32x200000x4, .f32⟩ : BufTy).Contents (Elt F) → (⟨S3x32x200000x4, .f32⟩ : BufTy).Contents (Elt F) → (⟨S3x32x200000x4, .f32⟩ : BufTy).Contents (Elt F)),
    StableHlo.nullary main_cst_62 (constant S_ .f32 0x00000000#32),
    StableHlo.unary main_cst_62 main_v180 (broadcastInDim S3x200000x4 ![] bcast_S_S3x200000x4 : (⟨S_, .f32⟩ : BufTy).Contents (Elt F) → (⟨S3x200000x4, .f32⟩ : BufTy).Contents (Elt F)),
    StableHlo.binary main_v134 main_v180 main_v181 (cmpf .oge : (⟨S3x200000x4, .f32⟩ : BufTy).Contents (Elt F) → (⟨S3x200000x4, .f32⟩ : BufTy).Contents (Elt F) → (⟨S3x200000x4, .i1⟩ : BufTy).Contents (Elt F)),
    StableHlo.nullary main_cst_63 (constant S_ .f32 0x43FF8000#32),
    StableHlo.unary main_cst_63 main_v182 (broadcastInDim S3x200000x4 ![] bcast_S_S3x200000x4 : (⟨S_, .f32⟩ : BufTy).Contents (Elt F) → (⟨S3x200000x4, .f32⟩ : BufTy).Contents (Elt F)),
    StableHlo.binary main_v134 main_v182 main_v183 (cmpf .ole : (⟨S3x200000x4, .f32⟩ : BufTy).Contents (Elt F) → (⟨S3x200000x4, .f32⟩ : BufTy).Contents (Elt F) → (⟨S3x200000x4, .i1⟩ : BufTy).Contents (Elt F)),
    StableHlo.binary main_v181 main_v183 main_v184 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_64 (constant S_ .f32 0x00000000#32),
    StableHlo.unary main_cst_64 main_v185 (broadcastInDim S3x200000x4 ![] bcast_S_S3x200000x4 : (⟨S_, .f32⟩ : BufTy).Contents (Elt F) → (⟨S3x200000x4, .f32⟩ : BufTy).Contents (Elt F)),
    StableHlo.binary main_v132 main_v185 main_v186 (cmpf .oge : (⟨S3x200000x4, .f32⟩ : BufTy).Contents (Elt F) → (⟨S3x200000x4, .f32⟩ : BufTy).Contents (Elt F) → (⟨S3x200000x4, .i1⟩ : BufTy).Contents (Elt F)),
    StableHlo.binary main_v184 main_v186 main_v187 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_65 (constant S_ .f32 0x43FF8000#32),
    StableHlo.unary main_cst_65 main_v188 (broadcastInDim S3x200000x4 ![] bcast_S_S3x200000x4 : (⟨S_, .f32⟩ : BufTy).Contents (Elt F) → (⟨S3x200000x4, .f32⟩ : BufTy).Contents (Elt F)),
    StableHlo.binary main_v132 main_v188 main_v189 (cmpf .ole : (⟨S3x200000x4, .f32⟩ : BufTy).Contents (Elt F) → (⟨S3x200000x4, .f32⟩ : BufTy).Contents (Elt F) → (⟨S3x200000x4, .i1⟩ : BufTy).Contents (Elt F)),
    StableHlo.binary main_v187 main_v189 main_v190 (andi : (⟨S3x200000x4, .i1⟩ : BufTy).Contents (Elt F) → (⟨S3x200000x4, .i1⟩ : BufTy).Contents (Elt F) → (⟨S3x200000x4, .i1⟩ : BufTy).Contents (Elt F)),
    StableHlo.nullary main_c_66 (constantI S_ 32 0#32),
    StableHlo.nullary main_c_67 (constantI S_ 32 511#32),
    StableHlo.TRef.unary (.of main_c_66 : StableHlo.TRef sig ⟨S_, .i32⟩) (.of main_call4_v0 : StableHlo.TRef sig ⟨S_, .f32⟩) (sitofp .f32),
    StableHlo.TRef.unary (.of main_call4_v0 : StableHlo.TRef sig ⟨S_, .f32⟩) (.of main_call4_v1 : StableHlo.TRef sig ⟨S3x200000x4, .f32⟩) (broadcastInDim S3x200000x4 ![] bcast_S_S3x200000x4),
    StableHlo.TRef.binary (.of main_call4_v1 : StableHlo.TRef sig ⟨S3x200000x4, .f32⟩) (.of main_v134 : StableHlo.TRef sig ⟨S3x200000x4, .f32⟩) (.of main_call4_v2 : StableHlo.TRef sig ⟨S3x200000x4, .f32⟩) maximumf,
    StableHlo.TRef.unary (.of main_c_67 : StableHlo.TRef sig ⟨S_, .i32⟩) (.of main_call4_v3 : StableHlo.TRef sig ⟨S_, .f32⟩) (sitofp .f32),
    StableHlo.TRef.unary (.of main_call4_v3 : StableHlo.TRef sig ⟨S_, .f32⟩) (.of main_call4_v4 : StableHlo.TRef sig ⟨S3x200000x4, .f32⟩) (broadcastInDim S3x200000x4 ![] bcast_S_S3x200000x4),
    StableHlo.TRef.binary (.of main_call4_v4 : StableHlo.TRef sig ⟨S3x200000x4, .f32⟩) (.of main_call4_v2 : StableHlo.TRef sig ⟨S3x200000x4, .f32⟩) (.of main_v191 : StableHlo.TRef sig ⟨S3x200000x4, .f32⟩) minimumf,
    StableHlo.unary main_v191 main_v192 (fptosi 32 : (⟨S3x200000x4, .f32⟩ : BufTy).Contents (Elt F) → (⟨S3x200000x4, .i32⟩ : BufTy).Contents (Elt F)),
    StableHlo.nullary main_c_68 (constantI S_ 32 0#32),
    StableHlo.nullary main_c_69 (constantI S_ 32 511#32),
    StableHlo.TRef.unary (.of main_c_68 : StableHlo.TRef sig ⟨S_, .i32⟩) (.of main_call5_v0 : StableHlo.TRef sig ⟨S_, .f32⟩) (sitofp .f32),
    StableHlo.TRef.unary (.of main_call5_v0 : StableHlo.TRef sig ⟨S_, .f32⟩) (.of main_call5_v1 : StableHlo.TRef sig ⟨S3x200000x4, .f32⟩) (broadcastInDim S3x200000x4 ![] bcast_S_S3x200000x4),
    StableHlo.TRef.binary (.of main_call5_v1 : StableHlo.TRef sig ⟨S3x200000x4, .f32⟩) (.of main_v132 : StableHlo.TRef sig ⟨S3x200000x4, .f32⟩) (.of main_call5_v2 : StableHlo.TRef sig ⟨S3x200000x4, .f32⟩) maximumf,
    StableHlo.TRef.unary (.of main_c_69 : StableHlo.TRef sig ⟨S_, .i32⟩) (.of main_call5_v3 : StableHlo.TRef sig ⟨S_, .f32⟩) (sitofp .f32),
    StableHlo.TRef.unary (.of main_call5_v3 : StableHlo.TRef sig ⟨S_, .f32⟩) (.of main_call5_v4 : StableHlo.TRef sig ⟨S3x200000x4, .f32⟩) (broadcastInDim S3x200000x4 ![] bcast_S_S3x200000x4),
    StableHlo.TRef.binary (.of main_call5_v4 : StableHlo.TRef sig ⟨S3x200000x4, .f32⟩) (.of main_call5_v2 : StableHlo.TRef sig ⟨S3x200000x4, .f32⟩) (.of main_v193 : StableHlo.TRef sig ⟨S3x200000x4, .f32⟩) minimumf,
    StableHlo.unary main_v193 main_v194 (fptosi 32 : (⟨S3x200000x4, .f32⟩ : BufTy).Contents (Elt F) → (⟨S3x200000x4, .i32⟩ : BufTy).Contents (Elt F)),
    StableHlo.nullary main_c_70 (constantI S_ 32 0#32),
    StableHlo.unary main_c_70 main_v195 (broadcastInDim S3x200000x4 ![] bcast_S_S3x200000x4 : (⟨S_, .i32⟩ : BufTy).Contents (Elt F) → (⟨S3x200000x4, .i32⟩ : BufTy).Contents (Elt F)),
    StableHlo.binary main_v194 main_v195 main_v196 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_71 (constantI S_ 32 512#32),
    StableHlo.unary main_c_71 main_v197 (broadcastInDim S3x200000x4 ![] bcast_S_S3x200000x4 : (⟨S_, .i32⟩ : BufTy).Contents (Elt F) → (⟨S3x200000x4, .i32⟩ : BufTy).Contents (Elt F)),
    StableHlo.binary main_v194 main_v197 main_v198 (addi : (⟨S3x200000x4, .i32⟩ : BufTy).Contents (Elt F) → (⟨S3x200000x4, .i32⟩ : BufTy).Contents (Elt F) → (⟨S3x200000x4, .i32⟩ : BufTy).Contents (Elt F)),
    StableHlo.ternary main_v196 main_v198 main_v194 main_v199 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.nullary main_c_72 (constantI S_ 32 0#32),
    StableHlo.unary main_c_72 main_v200 (broadcastInDim S3x200000x4 ![] bcast_S_S3x200000x4 : (⟨S_, .i32⟩ : BufTy).Contents (Elt F) → (⟨S3x200000x4, .i32⟩ : BufTy).Contents (Elt F)),
    StableHlo.binary main_v192 main_v200 main_v201 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_73 (constantI S_ 32 512#32),
    StableHlo.unary main_c_73 main_v202 (broadcastInDim S3x200000x4 ![] bcast_S_S3x200000x4 : (⟨S_, .i32⟩ : BufTy).Contents (Elt F) → (⟨S3x200000x4, .i32⟩ : BufTy).Contents (Elt F)),
    StableHlo.binary main_v192 main_v202 main_v203 (addi : (⟨S3x200000x4, .i32⟩ : BufTy).Contents (Elt F) → (⟨S3x200000x4, .i32⟩ : BufTy).Contents (Elt F) → (⟨S3x200000x4, .i32⟩ : BufTy).Contents (Elt F)),
    StableHlo.ternary main_v201 main_v203 main_v192 main_v204 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.unary main_v199 main_v205 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)),
    StableHlo.unary main_v204 main_v206 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)) ]

set_option maxHeartbeats 40000000 in
/-- Stretch 11: 17 operations of window 4, from the one writing `main_v207` to the one writing `main_v221`. -/
abbrev ops11 : List (HloOp τ sig (Elt F)) :=
  [ StableHlo.binary main_v205 main_v206 main_v207 (cat2_S3x200000x4x2 : (⟨S3x200000x4x1, .i32⟩ : BufTy).Contents (Elt F) → (⟨S3x200000x4x1, .i32⟩ : BufTy).Contents (Elt F) → (⟨S3x200000x4x2, .i32⟩ : BufTy).Contents (Elt F)),
    StableHlo.binary main_arg3 main_v207 main_v208 ((fun x i => Host.gather gather_S3x32x512x512_S3x200000x4x2_S3x32x200000x4_1_23_0_0_23_3_13211 x i) : (⟨S3x32x512x512, .f32⟩ : BufTy).Contents (Elt F) → (⟨S3x200000x4x2, .i32⟩ : BufTy).Contents (Elt F) → (⟨S3x32x200000x4, .f32⟩ : BufTy).Contents (Elt F)),
    StableHlo.unary main_v190 main_v209 (uitofp .f32 : (⟨S3x200000x4, .i1⟩ : BufTy).Contents (Elt F) → (⟨S3x200000x4, .f32⟩ : BufTy).Contents (Elt F)),
    StableHlo.unary main_v209 main_v210 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v210 main_v211 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v208 main_v211 main_v212 (mulf : (⟨S3x32x200000x4, .f32⟩ : BufTy).Contents (Elt F) → (⟨S3x32x200000x4, .f32⟩ : BufTy).Contents (Elt F) → (⟨S3x32x200000x4, .f32⟩ : BufTy).Contents (Elt F)),
    StableHlo.binary main_v137 main_v142 main_v213 (mulf : (⟨S3x200000x4, .f32⟩ : BufTy).Contents (Elt F) → (⟨S3x200000x4, .f32⟩ : BufTy).Contents (Elt F) → (⟨S3x200000x4, .f32⟩ : BufTy).Contents (Elt F)),
    StableHlo.unary main_v213 main_v214 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v214 main_v215 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v212 main_v215 main_v216 (mulf : (⟨S3x32x200000x4, .f32⟩ : BufTy).Contents (Elt F) → (⟨S3x32x200000x4, .f32⟩ : BufTy).Contents (Elt F) → (⟨S3x32x200000x4, .f32⟩ : BufTy).Contents (Elt F)),
    StableHlo.binary main_v179 main_v216 main_v217 (addf : (⟨S3x32x200000x4, .f32⟩ : BufTy).Contents (Elt F) → (⟨S3x32x200000x4, .f32⟩ : BufTy).Contents (Elt F) → (⟨S3x32x200000x4, .f32⟩ : BufTy).Contents (Elt F)),
    StableHlo.nullary main_cst_74 (constant S_ .f32 0x00000000#32),
    StableHlo.unary main_cst_74 main_v218 (broadcastInDim S3x200000x4 ![] bcast_S_S3x200000x4 : (⟨S_, .f32⟩ : BufTy).Contents (Elt F) → (⟨S3x200000x4, .f32⟩ : BufTy).Contents (Elt F)),
    StableHlo.binary main_v131 main_v218 main_v219 (cmpf .oge : (⟨S3x200000x4, .f32⟩ : BufTy).Contents (Elt F) → (⟨S3x200000x4, .f32⟩ : BufTy).Contents (Elt F) → (⟨S3x200000x4, .i1⟩ : BufTy).Contents (Elt F)),
    StableHlo.nullary main_cst_75 (constant S_ .f32 0x43FF8000#32),
    StableHlo.unary main_cst_75 main_v220 (broadcastInDim S3x200000x4 ![] bcast_S_S3x200000x4 : (⟨S_, .f32⟩ : BufTy).Contents (Elt F) → (⟨S3x200000x4, .f32⟩ : BufTy).Contents (Elt F)),
    StableHlo.binary main_v131 main_v220 main_v221 (cmpf .ole : (⟨S3x200000x4, .f32⟩ : BufTy).Contents (Elt F) → (⟨S3x200000x4, .f32⟩ : BufTy).Contents (Elt F) → (⟨S3x200000x4, .i1⟩ : BufTy).Contents (Elt F)) ]

set_option maxHeartbeats 40000000 in
/-- Stretch 12: 43 operations of window 5, from the one writing `main_v222` to the one writing `main_v244`. -/
abbrev ops12 : List (HloOp τ sig (Elt F)) :=
  [ StableHlo.binary main_v219 main_v221 main_v222 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_76 (constant S_ .f32 0x00000000#32),
    StableHlo.unary main_cst_76 main_v223 (broadcastInDim S3x200000x4 ![] bcast_S_S3x200000x4 : (⟨S_, .f32⟩ : BufTy).Contents (Elt F) → (⟨S3x200000x4, .f32⟩ : BufTy).Contents (Elt F)),
    StableHlo.binary main_v136 main_v223 main_v224 (cmpf .oge : (⟨S3x200000x4, .f32⟩ : BufTy).Contents (Elt F) → (⟨S3x200000x4, .f32⟩ : BufTy).Contents (Elt F) → (⟨S3x200000x4, .i1⟩ : BufTy).Contents (Elt F)),
    StableHlo.binary main_v222 main_v224 main_v225 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_77 (constant S_ .f32 0x43FF8000#32),
    StableHlo.unary main_cst_77 main_v226 (broadcastInDim S3x200000x4 ![] bcast_S_S3x200000x4 : (⟨S_, .f32⟩ : BufTy).Contents (Elt F) → (⟨S3x200000x4, .f32⟩ : BufTy).Contents (Elt F)),
    StableHlo.binary main_v136 main_v226 main_v227 (cmpf .ole : (⟨S3x200000x4, .f32⟩ : BufTy).Contents (Elt F) → (⟨S3x200000x4, .f32⟩ : BufTy).Contents (Elt F) → (⟨S3x200000x4, .i1⟩ : BufTy).Contents (Elt F)),
    StableHlo.binary main_v225 main_v227 main_v228 (andi : (⟨S3x200000x4, .i1⟩ : BufTy).Contents (Elt F) → (⟨S3x200000x4, .i1⟩ : BufTy).Contents (Elt F) → (⟨S3x200000x4, .i1⟩ : BufTy).Contents (Elt F)),
    StableHlo.nullary main_c_78 (constantI S_ 32 0#32),
    StableHlo.nullary main_c_79 (constantI S_ 32 511#32),
    StableHlo.TRef.unary (.of main_c_78 : StableHlo.TRef sig ⟨S_, .i32⟩) (.of main_call6_v0 : StableHlo.TRef sig ⟨S_, .f32⟩) (sitofp .f32),
    StableHlo.TRef.unary (.of main_call6_v0 : StableHlo.TRef sig ⟨S_, .f32⟩) (.of main_call6_v1 : StableHlo.TRef sig ⟨S3x200000x4, .f32⟩) (broadcastInDim S3x200000x4 ![] bcast_S_S3x200000x4),
    StableHlo.TRef.binary (.of main_call6_v1 : StableHlo.TRef sig ⟨S3x200000x4, .f32⟩) (.of main_v131 : StableHlo.TRef sig ⟨S3x200000x4, .f32⟩) (.of main_call6_v2 : StableHlo.TRef sig ⟨S3x200000x4, .f32⟩) maximumf,
    StableHlo.TRef.unary (.of main_c_79 : StableHlo.TRef sig ⟨S_, .i32⟩) (.of main_call6_v3 : StableHlo.TRef sig ⟨S_, .f32⟩) (sitofp .f32),
    StableHlo.TRef.unary (.of main_call6_v3 : StableHlo.TRef sig ⟨S_, .f32⟩) (.of main_call6_v4 : StableHlo.TRef sig ⟨S3x200000x4, .f32⟩) (broadcastInDim S3x200000x4 ![] bcast_S_S3x200000x4),
    StableHlo.TRef.binary (.of main_call6_v4 : StableHlo.TRef sig ⟨S3x200000x4, .f32⟩) (.of main_call6_v2 : StableHlo.TRef sig ⟨S3x200000x4, .f32⟩) (.of main_v229 : StableHlo.TRef sig ⟨S3x200000x4, .f32⟩) minimumf,
    StableHlo.unary main_v229 main_v230 (fptosi 32 : (⟨S3x200000x4, .f32⟩ : BufTy).Contents (Elt F) → (⟨S3x200000x4, .i32⟩ : BufTy).Contents (Elt F)),
    StableHlo.nullary main_c_80 (constantI S_ 32 0#32),
    StableHlo.nullary main_c_81 (constantI S_ 32 511#32),
    StableHlo.TRef.unary (.of main_c_80 : StableHlo.TRef sig ⟨S_, .i32⟩) (.of main_call7_v0 : StableHlo.TRef sig ⟨S_, .f32⟩) (sitofp .f32),
    StableHlo.TRef.unary (.of main_call7_v0 : StableHlo.TRef sig ⟨S_, .f32⟩) (.of main_call7_v1 : StableHlo.TRef sig ⟨S3x200000x4, .f32⟩) (broadcastInDim S3x200000x4 ![] bcast_S_S3x200000x4),
    StableHlo.TRef.binary (.of main_call7_v1 : StableHlo.TRef sig ⟨S3x200000x4, .f32⟩) (.of main_v136 : StableHlo.TRef sig ⟨S3x200000x4, .f32⟩) (.of main_call7_v2 : StableHlo.TRef sig ⟨S3x200000x4, .f32⟩) maximumf,
    StableHlo.TRef.unary (.of main_c_81 : StableHlo.TRef sig ⟨S_, .i32⟩) (.of main_call7_v3 : StableHlo.TRef sig ⟨S_, .f32⟩) (sitofp .f32),
    StableHlo.TRef.unary (.of main_call7_v3 : StableHlo.TRef sig ⟨S_, .f32⟩) (.of main_call7_v4 : StableHlo.TRef sig ⟨S3x200000x4, .f32⟩) (broadcastInDim S3x200000x4 ![] bcast_S_S3x200000x4),
    StableHlo.TRef.binary (.of main_call7_v4 : StableHlo.TRef sig ⟨S3x200000x4, .f32⟩) (.of main_call7_v2 : StableHlo.TRef sig ⟨S3x200000x4, .f32⟩) (.of main_v231 : StableHlo.TRef sig ⟨S3x200000x4, .f32⟩) minimumf,
    StableHlo.unary main_v231 main_v232 (fptosi 32 : (⟨S3x200000x4, .f32⟩ : BufTy).Contents (Elt F) → (⟨S3x200000x4, .i32⟩ : BufTy).Contents (Elt F)),
    StableHlo.nullary main_c_82 (constantI S_ 32 0#32),
    StableHlo.unary main_c_82 main_v233 (broadcastInDim S3x200000x4 ![] bcast_S_S3x200000x4 : (⟨S_, .i32⟩ : BufTy).Contents (Elt F) → (⟨S3x200000x4, .i32⟩ : BufTy).Contents (Elt F)),
    StableHlo.binary main_v232 main_v233 main_v234 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_83 (constantI S_ 32 512#32),
    StableHlo.unary main_c_83 main_v235 (broadcastInDim S3x200000x4 ![] bcast_S_S3x200000x4 : (⟨S_, .i32⟩ : BufTy).Contents (Elt F) → (⟨S3x200000x4, .i32⟩ : BufTy).Contents (Elt F)),
    StableHlo.binary main_v232 main_v235 main_v236 (addi : (⟨S3x200000x4, .i32⟩ : BufTy).Contents (Elt F) → (⟨S3x200000x4, .i32⟩ : BufTy).Contents (Elt F) → (⟨S3x200000x4, .i32⟩ : BufTy).Contents (Elt F)),
    StableHlo.ternary main_v234 main_v236 main_v232 main_v237 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.nullary main_c_84 (constantI S_ 32 0#32),
    StableHlo.unary main_c_84 main_v238 (broadcastInDim S3x200000x4 ![] bcast_S_S3x200000x4 : (⟨S_, .i32⟩ : BufTy).Contents (Elt F) → (⟨S3x200000x4, .i32⟩ : BufTy).Contents (Elt F)),
    StableHlo.binary main_v230 main_v238 main_v239 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_85 (constantI S_ 32 512#32),
    StableHlo.unary main_c_85 main_v240 (broadcastInDim S3x200000x4 ![] bcast_S_S3x200000x4 : (⟨S_, .i32⟩ : BufTy).Contents (Elt F) → (⟨S3x200000x4, .i32⟩ : BufTy).Contents (Elt F)),
    StableHlo.binary main_v230 main_v240 main_v241 (addi : (⟨S3x200000x4, .i32⟩ : BufTy).Contents (Elt F) → (⟨S3x200000x4, .i32⟩ : BufTy).Contents (Elt F) → (⟨S3x200000x4, .i32⟩ : BufTy).Contents (Elt F)),
    StableHlo.ternary main_v239 main_v241 main_v230 main_v242 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.unary main_v237 main_v243 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)),
    StableHlo.unary main_v242 main_v244 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)) ]

set_option maxHeartbeats 40000000 in
/-- Stretch 13: 27 operations of window 5, from the one writing `main_v245` to the one writing `main_c_90`. -/
abbrev ops13 : List (HloOp τ sig (Elt F)) :=
  [ StableHlo.binary main_v243 main_v244 main_v245 (cat2_S3x200000x4x2 : (⟨S3x200000x4x1, .i32⟩ : BufTy).Contents (Elt F) → (⟨S3x200000x4x1, .i32⟩ : BufTy).Contents (Elt F) → (⟨S3x200000x4x2, .i32⟩ : BufTy).Contents (Elt F)),
    StableHlo.binary main_arg3 main_v245 main_v246 ((fun x i => Host.gather gather_S3x32x512x512_S3x200000x4x2_S3x32x200000x4_1_23_0_0_23_3_13211 x i) : (⟨S3x32x512x512, .f32⟩ : BufTy).Contents (Elt F) → (⟨S3x200000x4x2, .i32⟩ : BufTy).Contents (Elt F) → (⟨S3x32x200000x4, .f32⟩ : BufTy).Contents (Elt F)),
    StableHlo.unary main_v228 main_v247 (uitofp .f32 : (⟨S3x200000x4, .i1⟩ : BufTy).Contents (Elt F) → (⟨S3x200000x4, .f32⟩ : BufTy).Contents (Elt F)),
    StableHlo.unary main_v247 main_v248 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v248 main_v249 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v246 main_v249 main_v250 (mulf : (⟨S3x32x200000x4, .f32⟩ : BufTy).Contents (Elt F) → (⟨S3x32x200000x4, .f32⟩ : BufTy).Contents (Elt F) → (⟨S3x32x200000x4, .f32⟩ : BufTy).Contents (Elt F)),
    StableHlo.binary main_v139 main_v140 main_v251 (mulf : (⟨S3x200000x4, .f32⟩ : BufTy).Contents (Elt F) → (⟨S3x200000x4, .f32⟩ : BufTy).Contents (Elt F) → (⟨S3x200000x4, .f32⟩ : BufTy).Contents (Elt F)),
    StableHlo.unary main_v251 main_v252 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v252 main_v253 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v250 main_v253 main_v254 (mulf : (⟨S3x32x200000x4, .f32⟩ : BufTy).Contents (Elt F) → (⟨S3x32x200000x4, .f32⟩ : BufTy).Contents (Elt F) → (⟨S3x32x200000x4, .f32⟩ : BufTy).Contents (Elt F)),
    StableHlo.binary main_v217 main_v254 main_v255 (addf : (⟨S3x32x200000x4, .f32⟩ : BufTy).Contents (Elt F) → (⟨S3x32x200000x4, .f32⟩ : BufTy).Contents (Elt F) → (⟨S3x32x200000x4, .f32⟩ : BufTy).Contents (Elt F)),
    StableHlo.nullary main_cst_86 (constant S_ .f32 0x00000000#32),
    StableHlo.unary main_cst_86 main_v256 (broadcastInDim S3x200000x4 ![] bcast_S_S3x200000x4 : (⟨S_, .f32⟩ : BufTy).Contents (Elt F) → (⟨S3x200000x4, .f32⟩ : BufTy).Contents (Elt F)),
    StableHlo.binary main_v134 main_v256 main_v257 (cmpf .oge : (⟨S3x200000x4, .f32⟩ : BufTy).Contents (Elt F) → (⟨S3x200000x4, .f32⟩ : BufTy).Contents (Elt F) → (⟨S3x200000x4, .i1⟩ : BufTy).Contents (Elt F)),
    StableHlo.nullary main_cst_87 (constant S_ .f32 0x43FF8000#32),
    StableHlo.unary main_cst_87 main_v258 (broadcastInDim S3x200000x4 ![] bcast_S_S3x200000x4 : (⟨S_, .f32⟩ : BufTy).Contents (Elt F) → (⟨S3x200000x4, .f32⟩ : BufTy).Contents (Elt F)),
    StableHlo.binary main_v134 main_v258 main_v259 (cmpf .ole : (⟨S3x200000x4, .f32⟩ : BufTy).Contents (Elt F) → (⟨S3x200000x4, .f32⟩ : BufTy).Contents (Elt F) → (⟨S3x200000x4, .i1⟩ : BufTy).Contents (Elt F)),
    StableHlo.binary main_v257 main_v259 main_v260 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_88 (constant S_ .f32 0x00000000#32),
    StableHlo.unary main_cst_88 main_v261 (broadcastInDim S3x200000x4 ![] bcast_S_S3x200000x4 : (⟨S_, .f32⟩ : BufTy).Contents (Elt F) → (⟨S3x200000x4, .f32⟩ : BufTy).Contents (Elt F)),
    StableHlo.binary main_v136 main_v261 main_v262 (cmpf .oge : (⟨S3x200000x4, .f32⟩ : BufTy).Contents (Elt F) → (⟨S3x200000x4, .f32⟩ : BufTy).Contents (Elt F) → (⟨S3x200000x4, .i1⟩ : BufTy).Contents (Elt F)),
    StableHlo.binary main_v260 main_v262 main_v263 (andi : (⟨S3x200000x4, .i1⟩ : BufTy).Contents (Elt F) → (⟨S3x200000x4, .i1⟩ : BufTy).Contents (Elt F) → (⟨S3x200000x4, .i1⟩ : BufTy).Contents (Elt F)),
    StableHlo.nullary main_cst_89 (constant S_ .f32 0x43FF8000#32),
    StableHlo.unary main_cst_89 main_v264 (broadcastInDim S3x200000x4 ![] bcast_S_S3x200000x4 : (⟨S_, .f32⟩ : BufTy).Contents (Elt F) → (⟨S3x200000x4, .f32⟩ : BufTy).Contents (Elt F)),
    StableHlo.binary main_v136 main_v264 main_v265 (cmpf .ole : (⟨S3x200000x4, .f32⟩ : BufTy).Contents (Elt F) → (⟨S3x200000x4, .f32⟩ : BufTy).Contents (Elt F) → (⟨S3x200000x4, .i1⟩ : BufTy).Contents (Elt F)),
    StableHlo.binary main_v263 main_v265 main_v266 (andi : (⟨S3x200000x4, .i1⟩ : BufTy).Contents (Elt F) → (⟨S3x200000x4, .i1⟩ : BufTy).Contents (Elt F) → (⟨S3x200000x4, .i1⟩ : BufTy).Contents (Elt F)),
    StableHlo.nullary main_c_90 (constantI S_ 32 0#32) ]

set_option maxHeartbeats 40000000 in
/-- Stretch 14: 33 operations of window 6, from the one writing `main_c_91` to the one writing `main_v282`. -/
abbrev ops14 : List (HloOp τ sig (Elt F)) :=
  [ StableHlo.nullary main_c_91 (constantI S_ 32 511#32),
    StableHlo.TRef.unary (.of main_c_90 : StableHlo.TRef sig ⟨S_, .i32⟩) (.of main_call8_v0 : StableHlo.TRef sig ⟨S_, .f32⟩) (sitofp .f32),
    StableHlo.TRef.unary (.of main_call8_v0 : StableHlo.TRef sig ⟨S_, .f32⟩) (.of main_call8_v1 : StableHlo.TRef sig ⟨S3x200000x4, .f32⟩) (broadcastInDim S3x200000x4 ![] bcast_S_S3x200000x4),
    StableHlo.TRef.binary (.of main_call8_v1 : StableHlo.TRef sig ⟨S3x200000x4, .f32⟩) (.of main_v134 : StableHlo.TRef sig ⟨S3x200000x4, .f32⟩) (.of main_call8_v2 : StableHlo.TRef sig ⟨S3x200000x4, .f32⟩) maximumf,
    StableHlo.TRef.unary (.of main_c_91 : StableHlo.TRef sig ⟨S_, .i32⟩) (.of main_call8_v3 : StableHlo.TRef sig ⟨S_, .f32⟩) (sitofp .f32),
    StableHlo.TRef.unary (.of main_call8_v3 : StableHlo.TRef sig ⟨S_, .f32⟩) (.of main_call8_v4 : StableHlo.TRef sig ⟨S3x200000x4, .f32⟩) (broadcastInDim S3x200000x4 ![] bcast_S_S3x200000x4),
    StableHlo.TRef.binary (.of main_call8_v4 : StableHlo.TRef sig ⟨S3x200000x4, .f32⟩) (.of main_call8_v2 : StableHlo.TRef sig ⟨S3x200000x4, .f32⟩) (.of main_v267 : StableHlo.TRef sig ⟨S3x200000x4, .f32⟩) minimumf,
    StableHlo.unary main_v267 main_v268 (fptosi 32 : (⟨S3x200000x4, .f32⟩ : BufTy).Contents (Elt F) → (⟨S3x200000x4, .i32⟩ : BufTy).Contents (Elt F)),
    StableHlo.nullary main_c_92 (constantI S_ 32 0#32),
    StableHlo.nullary main_c_93 (constantI S_ 32 511#32),
    StableHlo.TRef.unary (.of main_c_92 : StableHlo.TRef sig ⟨S_, .i32⟩) (.of main_call9_v0 : StableHlo.TRef sig ⟨S_, .f32⟩) (sitofp .f32),
    StableHlo.TRef.unary (.of main_call9_v0 : StableHlo.TRef sig ⟨S_, .f32⟩) (.of main_call9_v1 : StableHlo.TRef sig ⟨S3x200000x4, .f32⟩) (broadcastInDim S3x200000x4 ![] bcast_S_S3x200000x4),
    StableHlo.TRef.binary (.of main_call9_v1 : StableHlo.TRef sig ⟨S3x200000x4, .f32⟩) (.of main_v136 : StableHlo.TRef sig ⟨S3x200000x4, .f32⟩) (.of main_call9_v2 : StableHlo.TRef sig ⟨S3x200000x4, .f32⟩) maximumf,
    StableHlo.TRef.unary (.of main_c_93 : StableHlo.TRef sig ⟨S_, .i32⟩) (.of main_call9_v3 : StableHlo.TRef sig ⟨S_, .f32⟩) (sitofp .f32),
    StableHlo.TRef.unary (.of main_call9_v3 : StableHlo.TRef sig ⟨S_, .f32⟩) (.of main_call9_v4 : StableHlo.TRef sig ⟨S3x200000x4, .f32⟩) (broadcastInDim S3x200000x4 ![] bcast_S_S3x200000x4),
    StableHlo.TRef.binary (.of main_call9_v4 : StableHlo.TRef sig ⟨S3x200000x4, .f32⟩) (.of main_call9_v2 : StableHlo.TRef sig ⟨S3x200000x4, .f32⟩) (.of main_v269 : StableHlo.TRef sig ⟨S3x200000x4, .f32⟩) minimumf,
    StableHlo.unary main_v269 main_v270 (fptosi 32 : (⟨S3x200000x4, .f32⟩ : BufTy).Contents (Elt F) → (⟨S3x200000x4, .i32⟩ : BufTy).Contents (Elt F)),
    StableHlo.nullary main_c_94 (constantI S_ 32 0#32),
    StableHlo.unary main_c_94 main_v271 (broadcastInDim S3x200000x4 ![] bcast_S_S3x200000x4 : (⟨S_, .i32⟩ : BufTy).Contents (Elt F) → (⟨S3x200000x4, .i32⟩ : BufTy).Contents (Elt F)),
    StableHlo.binary main_v270 main_v271 main_v272 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_95 (constantI S_ 32 512#32),
    StableHlo.unary main_c_95 main_v273 (broadcastInDim S3x200000x4 ![] bcast_S_S3x200000x4 : (⟨S_, .i32⟩ : BufTy).Contents (Elt F) → (⟨S3x200000x4, .i32⟩ : BufTy).Contents (Elt F)),
    StableHlo.binary main_v270 main_v273 main_v274 (addi : (⟨S3x200000x4, .i32⟩ : BufTy).Contents (Elt F) → (⟨S3x200000x4, .i32⟩ : BufTy).Contents (Elt F) → (⟨S3x200000x4, .i32⟩ : BufTy).Contents (Elt F)),
    StableHlo.ternary main_v272 main_v274 main_v270 main_v275 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.nullary main_c_96 (constantI S_ 32 0#32),
    StableHlo.unary main_c_96 main_v276 (broadcastInDim S3x200000x4 ![] bcast_S_S3x200000x4 : (⟨S_, .i32⟩ : BufTy).Contents (Elt F) → (⟨S3x200000x4, .i32⟩ : BufTy).Contents (Elt F)),
    StableHlo.binary main_v268 main_v276 main_v277 (cmpi .slt : (⟨S3x200000x4, .i32⟩ : BufTy).Contents (Elt F) → (⟨S3x200000x4, .i32⟩ : BufTy).Contents (Elt F) → (⟨S3x200000x4, .i1⟩ : BufTy).Contents (Elt F)),
    StableHlo.nullary main_c_97 (constantI S_ 32 512#32),
    StableHlo.unary main_c_97 main_v278 (broadcastInDim S3x200000x4 ![] bcast_S_S3x200000x4 : (⟨S_, .i32⟩ : BufTy).Contents (Elt F) → (⟨S3x200000x4, .i32⟩ : BufTy).Contents (Elt F)),
    StableHlo.binary main_v268 main_v278 main_v279 (addi : (⟨S3x200000x4, .i32⟩ : BufTy).Contents (Elt F) → (⟨S3x200000x4, .i32⟩ : BufTy).Contents (Elt F) → (⟨S3x200000x4, .i32⟩ : BufTy).Contents (Elt F)),
    StableHlo.ternary main_v277 main_v279 main_v268 main_v280 (select : (⟨S3x200000x4, .i1⟩ : BufTy).Contents (Elt F) → (⟨S3x200000x4, .i32⟩ : BufTy).Contents (Elt F) → (⟨S3x200000x4, .i32⟩ : BufTy).Contents (Elt F) → (⟨S3x200000x4, .i32⟩ : BufTy).Contents (Elt F)),
    StableHlo.unary main_v275 main_v281 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)),
    StableHlo.unary main_v280 main_v282 (broadcastInDim S3x200000x4x1 ![0, 1, 2] bcast_S3x200000x4_S3x200000x4x1_0_1_2 : (⟨S3x200000x4, .i32⟩ : BufTy).Contents (Elt F) → (⟨S3x200000x4x1, .i32⟩ : BufTy).Contents (Elt F)) ]

set_option maxHeartbeats 40000000 in
/-- Stretch 15: 13 operations of window 6, from the one writing `main_v283` to the one writing `main_v295`. -/
abbrev ops15 : List (HloOp τ sig (Elt F)) :=
  [ StableHlo.binary main_v281 main_v282 main_v283 (cat2_S3x200000x4x2 : (⟨S3x200000x4x1, .i32⟩ : BufTy).Contents (Elt F) → (⟨S3x200000x4x1, .i32⟩ : BufTy).Contents (Elt F) → (⟨S3x200000x4x2, .i32⟩ : BufTy).Contents (Elt F)),
    StableHlo.binary main_arg3 main_v283 main_v284 ((fun x i => Host.gather gather_S3x32x512x512_S3x200000x4x2_S3x32x200000x4_1_23_0_0_23_3_13211 x i) : (⟨S3x32x512x512, .f32⟩ : BufTy).Contents (Elt F) → (⟨S3x200000x4x2, .i32⟩ : BufTy).Contents (Elt F) → (⟨S3x32x200000x4, .f32⟩ : BufTy).Contents (Elt F)),
    StableHlo.unary main_v266 main_v285 (uitofp .f32 : (⟨S3x200000x4, .i1⟩ : BufTy).Contents (Elt F) → (⟨S3x200000x4, .f32⟩ : BufTy).Contents (Elt F)),
    StableHlo.unary main_v285 main_v286 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v286 main_v287 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v284 main_v287 main_v288 (mulf : (⟨S3x32x200000x4, .f32⟩ : BufTy).Contents (Elt F) → (⟨S3x32x200000x4, .f32⟩ : BufTy).Contents (Elt F) → (⟨S3x32x200000x4, .f32⟩ : BufTy).Contents (Elt F)),
    StableHlo.binary main_v137 main_v140 main_v289 (mulf : (⟨S3x200000x4, .f32⟩ : BufTy).Contents (Elt F) → (⟨S3x200000x4, .f32⟩ : BufTy).Contents (Elt F) → (⟨S3x200000x4, .f32⟩ : BufTy).Contents (Elt F)),
    StableHlo.unary main_v289 main_v290 (broadcastInDim S3x1x200000x4 ![0, 2, 3] bcast_S3x200000x4_S3x1x200000x4_0_2_3 : (⟨S3x200000x4, .f32⟩ : BufTy).Contents (Elt F) → (⟨S3x1x200000x4, .f32⟩ : BufTy).Contents (Elt F)),
    StableHlo.unary main_v290 main_v291 (broadcastInDim S3x32x200000x4 ![0, 1, 2, 3] bcast_S3x1x200000x4_S3x32x200000x4_0_1_2_3 : (⟨S3x1x200000x4, .f32⟩ : BufTy).Contents (Elt F) → (⟨S3x32x200000x4, .f32⟩ : BufTy).Contents (Elt F)),
    StableHlo.binary main_v288 main_v291 main_v292 (mulf : (⟨S3x32x200000x4, .f32⟩ : BufTy).Contents (Elt F) → (⟨S3x32x200000x4, .f32⟩ : BufTy).Contents (Elt F) → (⟨S3x32x200000x4, .f32⟩ : BufTy).Contents (Elt F)),
    StableHlo.binary main_v255 main_v292 main_v293 (addf : (⟨S3x32x200000x4, .f32⟩ : BufTy).Contents (Elt F) → (⟨S3x32x200000x4, .f32⟩ : BufTy).Contents (Elt F) → (⟨S3x32x200000x4, .f32⟩ : BufTy).Contents (Elt F)),
    StableHlo.unary main_v293 main_v294 ((transpose S200000x4x3x32 [2, 3, 0, 1] · transposes_S3x32x200000x4_S200000x4x3x32_2_3_0_1) : (⟨S3x32x200000x4, .f32⟩ : BufTy).Contents (Elt F) → (⟨S200000x4x3x32, .f32⟩ : BufTy).Contents (Elt F)),
    StableHlo.reshape main_v294 main_v295 rfl shapeCasts_S200000x4x3x32_S200000x384 ]

/-- @main's 438 operations, in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15)))))))))))))))

/-- The operations of window 0 of the printed program. -/
abbrev opsWin0 : List (HloOp τ sig (Elt F)) :=
  ops0 ++ (ops1)

/-- The operations of window 1 of the printed program. -/
abbrev opsWin1 : List (HloOp τ sig (Elt F)) :=
  ops2 ++ (ops3 ++ (ops4))

/-- The operations of window 2 of the printed program. -/
abbrev opsWin2 : List (HloOp τ sig (Elt F)) :=
  ops5 ++ (ops6)

/-- The operations of window 3 of the printed program. -/
abbrev opsWin3 : List (HloOp τ sig (Elt F)) :=
  ops7 ++ (ops8 ++ (ops9))

/-- The operations of window 4 of the printed program. -/
abbrev opsWin4 : List (HloOp τ sig (Elt F)) :=
  ops10 ++ (ops11)

/-- The operations of window 5 of the printed program. -/
abbrev opsWin5 : List (HloOp τ sig (Elt F)) :=
  ops12 ++ (ops13)

/-- The operations of window 6 of the printed program. -/
abbrev opsWin6 : List (HloOp τ sig (Elt F)) :=
  ops14 ++ (ops15)

end Cert.ReferenceIdeal.Hand

end
-- ==== Proof.RefRun.Facts.lean ====
/-
  Three facts about each stretch of the reference's operation list, each read off the list operation by
  operation: every operation touches buffers of the TensorCore only; every operation determines what it
  writes (none allocates); and the buffers a stretch writes are the listed ones `opsK_W`, so that a buffer
  outside that list has the same contents after the stretch as before (`opsK_keep`). The four argument
  arrays are in no stretch's list: the whole program leaves them as they were (`after_ops_arg0 … 3`).
-/
import proofs.«162729_j22162031247387_1_alg».proof.Proof.RefRun.Ops
import Idealize.ShloMosaic.Lib.Pipeline.Frame

set_option maxRecDepth 8192

noncomputable section

namespace Cert.ReferenceIdeal.Hand

open Cert.ReferenceIdeal Cert.ReferenceIdeal.Gen Idealize.ShloMosaic Idealize.SL.Sem

variable {F : FTy → Type} [FloatOps F]

/-- An operation writing exactly the buffer of `y`, a member of `W`, writes inside `W`. -/
theorem wsub {W : List (Ref sig .tc)} {op : HloOp τ sig (Elt F)} (y : Ref sig .tc) (h : op.writes = {Proc.devRef .tc y}) (hy : y ∈ W) :
    op.writes ⊆ (W.map (Proc.devRef (τ := τ) .tc)).toFinset := by
  rw [h, Finset.singleton_subset_iff, List.mem_toFinset]; exact List.mem_map_of_mem hy

theorem ops0_sub : (ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch 0 writes, in order. -/
abbrev ops0_W : List (Ref sig .tc) := [main_c, main_c_0, main_c_1, main_c_2, main_c_3, main_c_4, main_c_5, main_c_6, main_c_7, main_c_8, main_v0, main_v1, main_c_9, main_v2, main_v3, main_v4, main_v5, main_v6, main_c_10, main_v7, main_v8, main_c_11, main_v9, main_v10, main_v11, main_v12, main_v13, main_c_12, main_v14, main_v15, main_c_13, main_v16, main_v17, main_v18, main_v19, main_v20, main_v21, main_v22, main_v23]
theorem ops0_writes : (ops0 : List (HloOp τ sig (Elt F))).Forall fun op => op.writes ⊆ (ops0_W.map (Proc.devRef (τ := τ) .tc)).toFinset :=
  ⟨wsub main_c rfl (by decide), wsub main_c_0 rfl (by decide), wsub main_c_1 rfl (by decide), wsub main_c_2 rfl (by decide), wsub main_c_3 rfl (by decide), wsub main_c_4 rfl (by decide), wsub main_c_5 rfl (by decide), wsub main_c_6 rfl (by decide), wsub main_c_7 rfl (by decide), wsub main_c_8 rfl (by decide), wsub main_v0 rfl (by decide), wsub main_v1 rfl (by decide), wsub main_c_9 rfl (by decide), wsub main_v2 rfl (by decide), wsub main_v3 rfl (by decide), wsub main_v4 rfl (by decide), wsub main_v5 rfl (by decide), wsub main_v6 rfl (by decide), wsub main_c_10 rfl (by decide), wsub main_v7 rfl (by decide), wsub main_v8 rfl (by decide), wsub main_c_11 rfl (by decide), wsub main_v9 rfl (by decide), wsub main_v10 rfl (by decide), wsub main_v11 rfl (by decide), wsub main_v12 rfl (by decide), wsub main_v13 rfl (by decide), wsub main_c_12 rfl (by decide), wsub main_v14 rfl (by decide), wsub main_v15 rfl (by decide), wsub main_c_13 rfl (by decide), wsub main_v16 rfl (by decide), wsub main_v17 rfl (by decide), wsub main_v18 rfl (by decide), wsub main_v19 rfl (by decide), wsub main_v20 rfl (by decide), wsub main_v21 rfl (by decide), wsub main_v22 rfl (by decide), wsub main_v23 rfl (by decide)⟩
/-- A buffer stretch 0 does not write keeps its contents through it. -/
theorem ops0_keep (V : Valuation τ sig (Elt F)) (r : Ref sig .tc) (h : r ∉ ops0_W) :
    StableHlo.after ops0 V (Proc.devRef .tc r) = V (Proc.devRef .tc r) :=
  StableHlo.after_of_writes_sub ops0 V ops0_writes h

theorem ops1_sub : (ops1 : List (HloOp τ sig (Elt F))).Forall fun op => op.bufs ⊆ StableHlo.tcRefs τ sig :=
  ⟨StableHlo.nary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The buffers stretch 1 writes, in order. -/
abbrev ops1_W : List (Ref sig .tc) := [main_v24, main_c_14, main_v25, main_v26, main_c_15, main_v27, main_v28, main_v29, main_v30, main_v31, main_c_16, main_v32, main_v33, main_c_17, main_v34, main_v35, main_v36, main_v37, main_v38, main_c_18, main_v39]
theorem ops1_writes : (ops1 : List (HloOp τ sig (Elt F))).Forall fun op => op.writes ⊆ (ops1_W.map (Proc.devRef (τ := τ) .tc)).toFinset :=
  ⟨wsub main_v24 rfl (by decide), wsub main_c_14 rfl (by decide), wsub main_v25 rfl (by decide), wsub main_v26 rfl (by decide), wsub main_c_15 rfl (by decide), wsub main_v27 rfl (by decide), wsub main_v28 rfl (by decide), wsub main_v29 rfl (by decide), wsub main_v30 rfl (by decide), wsub main_v31 rfl (by decide), wsub main_c_16 rfl (by decide), wsub main_v32 rfl (by decide), wsub main_v33 rfl (by decide), wsub main_c_17 rfl (by decide), wsub main_v34 rfl (by decide), wsub main_v35 rfl (by decide), wsub main_v36 rfl (by decide), wsub main_v37 rfl (by decide), wsub main_v38 rfl (by decide), wsub main_c_18 rfl (by decide), wsub main_v39 rfl (by decide)⟩
/-- A buffer stretch 1 does not write keeps its contents through it. -/
theorem ops1_keep (V : Valuation τ sig (Elt F)) (r : Ref sig .tc) (h : r ∉ ops1_W) :
    StableHlo.after ops1 V (Proc.devRef .tc r) = V (Proc.devRef .tc r) :=
  StableHlo.after_of_writes_sub ops1 V ops1_writes h

theorem ops2_sub : (ops2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub ..⟩
theorem ops2_fresh : (ops2 : List (HloOp τ sig (Elt F))).Forall fun op => op.fresh = ∅ :=
  ⟨rfl, rfl, rfl, rfl, rfl, rfl, rfl, rfl, rfl, rfl⟩
/-- The buffers stretch 2 writes, in order. -/
abbrev ops2_W : List (Ref sig .tc) := [main_v40, main_c_19, main_v41, main_v42, main_v43, main_v44, main_v45, main_v46, main_v47, main_v48]
theorem ops2_writes : (ops2 : List (HloOp τ sig (Elt F))).Forall fun op => op.writes ⊆ (ops2_W.map (Proc.devRef (τ := τ) .tc)).toFinset :=
  ⟨wsub main_v40 rfl (by decide), wsub main_c_19 rfl (by decide), wsub main_v41 rfl (by decide), wsub main_v42 rfl (by decide), wsub main_v43 rfl (by decide), wsub main_v44 rfl (by decide), wsub main_v45 rfl (by decide), wsub main_v46 rfl (by decide), wsub main_v47 rfl (by decide), wsub main_v48 rfl (by decide)⟩
/-- A buffer stretch 2 does not write keeps its contents through it. -/
theorem ops2_keep (V : Valuation τ sig (Elt F)) (r : Ref sig .tc) (h : r ∉ ops2_W) :
    StableHlo.after ops2 V (Proc.devRef .tc r) = V (Proc.devRef .tc r) :=
  StableHlo.after_of_writes_sub ops2 V ops2_writes h

theorem ops3_sub : (ops3 : List (HloOp τ sig (Elt F))).Forall fun op => op.bufs ⊆ StableHlo.tcRefs τ sig :=
  ⟨StableHlo.nary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.unary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch 3 writes, in order. -/
abbrev ops3_W : List (Ref sig .tc) := [main_v49, main_v50, main_cst, main_v51, main_v52, main_cst_20, main_v53, main_v54, main_cst_21, main_v55, main_v56, main_cst_22, main_v57, main_v58, main_c_23, main_v59, main_v60, main_c_24, main_v61, main_v62, main_v63, main_v64, main_v65, main_c_25, main_v66, main_v67, main_c_26, main_v68, main_v69, main_v70, main_v71, main_v72, main_c_27, main_v73, main_v74, main_c_28, main_v75, main_v76, main_v77, main_v78, main_v79, main_v80, main_v81, main_v82]
theorem ops3_writes : (ops3 : List (HloOp τ sig (Elt F))).Forall fun op => op.writes ⊆ (ops3_W.map (Proc.devRef (τ := τ) .tc)).toFinset :=
  ⟨wsub main_v49 rfl (by decide), wsub main_v50 rfl (by decide), wsub main_cst rfl (by decide), wsub main_v51 rfl (by decide), wsub main_v52 rfl (by decide), wsub main_cst_20 rfl (by decide), wsub main_v53 rfl (by decide), wsub main_v54 rfl (by decide), wsub main_cst_21 rfl (by decide), wsub main_v55 rfl (by decide), wsub main_v56 rfl (by decide), wsub main_cst_22 rfl (by decide), wsub main_v57 rfl (by decide), wsub main_v58 rfl (by decide), wsub main_c_23 rfl (by decide), wsub main_v59 rfl (by decide), wsub main_v60 rfl (by decide), wsub main_c_24 rfl (by decide), wsub main_v61 rfl (by decide), wsub main_v62 rfl (by decide), wsub main_v63 rfl (by decide), wsub main_v64 rfl (by decide), wsub main_v65 rfl (by decide), wsub main_c_25 rfl (by decide), wsub main_v66 rfl (by decide), wsub main_v67 rfl (by decide), wsub main_c_26 rfl (by decide), wsub main_v68 rfl (by decide), wsub main_v69 rfl (by decide), wsub main_v70 rfl (by decide), wsub main_v71 rfl (by decide), wsub main_v72 rfl (by decide), wsub main_c_27 rfl (by decide), wsub main_v73 rfl (by decide), wsub main_v74 rfl (by decide), wsub main_c_28 rfl (by decide), wsub main_v75 rfl (by decide), wsub main_v76 rfl (by decide), wsub main_v77 rfl (by decide), wsub main_v78 rfl (by decide), wsub main_v79 rfl (by decide), wsub main_v80 rfl (by decide), wsub main_v81 rfl (by decide), wsub main_v82 rfl (by decide)⟩
/-- A buffer stretch 3 does not write keeps its contents through it. -/
theorem ops3_keep (V : Valuation τ sig (Elt F)) (r : Ref sig .tc) (h : r ∉ ops3_W) :
    StableHlo.after ops3 V (Proc.devRef .tc r) = V (Proc.devRef .tc r) :=
  StableHlo.after_of_writes_sub ops3 V ops3_writes h

theorem ops4_sub : (ops4 : List (HloOp τ sig (Elt F))).Forall fun op => op.bufs ⊆ StableHlo.tcRefs τ sig :=
  ⟨StableHlo.nary_bufs_sub .., StableHlo.unary_bufs_sub .., StableHlo.unary_bufs_sub .., StableHlo.unary_bufs_sub .., StableHlo.binary_bufs_sub .., StableHlo.nullary_bufs_sub ..⟩
theorem ops4_fresh : (ops4 : List (HloOp τ sig (Elt F))).Forall fun op => op.fresh = ∅ :=
  ⟨rfl, rfl, rfl, rfl, rfl, rfl⟩
/-- The buffers stretch 4 writes, in order. -/
abbrev ops4_W : List (Ref sig .tc) := [main_v83, main_v84, main_v85, main_v86, main_v87, main_cst_29]
theorem ops4_writes : (ops4 : List (HloOp τ sig (Elt F))).Forall fun op => op.writes ⊆ (ops4_W.map (Proc.devRef (τ := τ) .tc)).toFinset :=
  ⟨wsub main_v83 rfl (by decide), wsub main_v84 rfl (by decide), wsub main_v85 rfl (by decide), wsub main_v86 rfl (by decide), wsub main_v87 rfl (by decide), wsub main_cst_29 rfl (by decide)⟩
/-- A buffer stretch 4 does not write keeps its contents through it. -/
theorem ops4_keep (V : Valuation τ sig (Elt F)) (r : Ref sig .tc) (h : r ∉ ops4_W) :
    StableHlo.after ops4 V (Proc.devRef .tc r) = V (Proc.devRef .tc r) :=
  StableHlo.after_of_writes_sub ops4 V ops4_writes h

theorem ops5_sub : (ops5 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.ternary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch 5 writes, in order. -/
abbrev ops5_W : List (Ref sig .tc) := [main_v88, main_v89, main_cst_30, main_v90, main_v91, main_cst_31, main_v92, main_v93, main_v94, main_cst_32, main_v95, main_v96, main_cst_33, main_call0_v0, main_v97, main_cst_34, main_v98, main_v99, main_v100, main_cst_35, main_v101, main_v102, main_cst_36, main_v103, main_v104, main_v105, main_v106, main_v107, main_call1_v0, main_v108, main_cst_37, main_v109, main_v110, main_v111, main_v112, main_v113, main_v114, main_cst_38, main_v115, main_v116, main_cst_39, main_v117, main_v118, main_cst_40, main_v119, main_v120, main_cst_41, main_v121, main_v122, main_cst_42, main_v123, main_v124, main_cst_43, main_v125, main_v126, main_cst_44, main_v127, main_v128, main_cst_45, main_v129]
theorem ops5_writes : (ops5 : List (HloOp τ sig (Elt F))).Forall fun op => op.writes ⊆ (ops5_W.map (Proc.devRef (τ := τ) .tc)).toFinset :=
  ⟨wsub main_v88 rfl (by decide), wsub main_v89 rfl (by decide), wsub main_cst_30 rfl (by decide), wsub main_v90 rfl (by decide), wsub main_v91 rfl (by decide), wsub main_cst_31 rfl (by decide), wsub main_v92 rfl (by decide), wsub main_v93 rfl (by decide), wsub main_v94 rfl (by decide), wsub main_cst_32 rfl (by decide), wsub main_v95 rfl (by decide), wsub main_v96 rfl (by decide), wsub main_cst_33 rfl (by decide), wsub main_call0_v0 rfl (by decide), wsub main_v97 rfl (by decide), wsub main_cst_34 rfl (by decide), wsub main_v98 rfl (by decide), wsub main_v99 rfl (by decide), wsub main_v100 rfl (by decide), wsub main_cst_35 rfl (by decide), wsub main_v101 rfl (by decide), wsub main_v102 rfl (by decide), wsub main_cst_36 rfl (by decide), wsub main_v103 rfl (by decide), wsub main_v104 rfl (by decide), wsub main_v105 rfl (by decide), wsub main_v106 rfl (by decide), wsub main_v107 rfl (by decide), wsub main_call1_v0 rfl (by decide), wsub main_v108 rfl (by decide), wsub main_cst_37 rfl (by decide), wsub main_v109 rfl (by decide), wsub main_v110 rfl (by decide), wsub main_v111 rfl (by decide), wsub main_v112 rfl (by decide), wsub main_v113 rfl (by decide), wsub main_v114 rfl (by decide), wsub main_cst_38 rfl (by decide), wsub main_v115 rfl (by decide), wsub main_v116 rfl (by decide), wsub main_cst_39 rfl (by decide), wsub main_v117 rfl (by decide), wsub main_v118 rfl (by decide), wsub main_cst_40 rfl (by decide), wsub main_v119 rfl (by decide), wsub main_v120 rfl (by decide), wsub main_cst_41 rfl (by decide), wsub main_v121 rfl (by decide), wsub main_v122 rfl (by decide), wsub main_cst_42 rfl (by decide), wsub main_v123 rfl (by decide), wsub main_v124 rfl (by decide), wsub main_cst_43 rfl (by decide), wsub main_v125 rfl (by decide), wsub main_v126 rfl (by decide), wsub main_cst_44 rfl (by decide), wsub main_v127 rfl (by decide), wsub main_v128 rfl (by decide), wsub main_cst_45 rfl (by decide), wsub main_v129 rfl (by decide)⟩
/-- A buffer stretch 5 does not write keeps its contents through it. -/
theorem ops5_keep (V : Valuation τ sig (Elt F)) (r : Ref sig .tc) (h : r ∉ ops5_W) :
    StableHlo.after ops5 V (Proc.devRef .tc r) = V (Proc.devRef .tc r) :=
  StableHlo.after_of_writes_sub ops5 V ops5_writes h

theorem ops6_sub : (ops6 : List (HloOp τ sig (Elt F))).Forall fun op => op.bufs ⊆ StableHlo.tcRefs τ sig :=
  ⟨StableHlo.binary_bufs_sub .., StableHlo.unary_bufs_sub ..⟩
theorem ops6_fresh : (ops6 : List (HloOp τ sig (Elt F))).Forall fun op => op.fresh = ∅ :=
  ⟨rfl, rfl⟩
/-- The buffers stretch 6 writes, in order. -/
abbrev ops6_W : List (Ref sig .tc) := [main_v130, main_v131]
theorem ops6_writes : (ops6 : List (HloOp τ sig (Elt F))).Forall fun op => op.writes ⊆ (ops6_W.map (Proc.devRef (τ := τ) .tc)).toFinset :=
  ⟨wsub main_v130 rfl (by decide), wsub main_v131 rfl (by decide)⟩
/-- A buffer stretch 6 does not write keeps its contents through it. -/
theorem ops6_keep (V : Valuation τ sig (Elt F)) (r : Ref sig .tc) (h : r ∉ ops6_W) :
    StableHlo.after ops6 V (Proc.devRef .tc r) = V (Proc.devRef .tc r) :=
  StableHlo.after_of_writes_sub ops6 V ops6_writes h

theorem ops7_sub : (ops7 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub ..⟩
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch 7 writes, in order. -/
abbrev ops7_W : List (Ref sig .tc) := [main_v132, main_cst_46, main_v133, main_v134, main_cst_47, main_v135, main_v136, main_v137, main_cst_48, main_v138, main_v139, main_v140, main_cst_49, main_v141, main_v142, main_cst_50, main_v143, main_v144, main_cst_51, main_v145, main_v146, main_v147, main_cst_52, main_v148, main_v149, main_v150, main_cst_53, main_v151, main_v152, main_v153, main_c_54, main_c_55, main_call2_v0, main_call2_v1, main_call2_v2, main_call2_v3, main_call2_v4, main_v154, main_v155, main_c_56, main_c_57, main_call3_v0, main_call3_v1, main_call3_v2, main_call3_v3, main_call3_v4, main_v156, main_v157, main_c_58, main_v158, main_v159, main_c_59, main_v160, main_v161, main_v162, main_c_60, main_v163, main_v164, main_c_61, main_v165]
theorem ops7_writes : (ops7 : List (HloOp τ sig (Elt F))).Forall fun op => op.writes ⊆ (ops7_W.map (Proc.devRef (τ := τ) .tc)).toFinset :=
  ⟨wsub main_v132 rfl (by decide), wsub main_cst_46 rfl (by decide), wsub main_v133 rfl (by decide), wsub main_v134 rfl (by decide), wsub main_cst_47 rfl (by decide), wsub main_v135 rfl (by decide), wsub main_v136 rfl (by decide), wsub main_v137 rfl (by decide), wsub main_cst_48 rfl (by decide), wsub main_v138 rfl (by decide), wsub main_v139 rfl (by decide), wsub main_v140 rfl (by decide), wsub main_cst_49 rfl (by decide), wsub main_v141 rfl (by decide), wsub main_v142 rfl (by decide), wsub main_cst_50 rfl (by decide), wsub main_v143 rfl (by decide), wsub main_v144 rfl (by decide), wsub main_cst_51 rfl (by decide), wsub main_v145 rfl (by decide), wsub main_v146 rfl (by decide), wsub main_v147 rfl (by decide), wsub main_cst_52 rfl (by decide), wsub main_v148 rfl (by decide), wsub main_v149 rfl (by decide), wsub main_v150 rfl (by decide), wsub main_cst_53 rfl (by decide), wsub main_v151 rfl (by decide), wsub main_v152 rfl (by decide), wsub main_v153 rfl (by decide), wsub main_c_54 rfl (by decide), wsub main_c_55 rfl (by decide), wsub main_call2_v0 rfl (by decide), wsub main_call2_v1 rfl (by decide), wsub main_call2_v2 rfl (by decide), wsub main_call2_v3 rfl (by decide), wsub main_call2_v4 rfl (by decide), wsub main_v154 rfl (by decide), wsub main_v155 rfl (by decide), wsub main_c_56 rfl (by decide), wsub main_c_57 rfl (by decide), wsub main_call3_v0 rfl (by decide), wsub main_call3_v1 rfl (by decide), wsub main_call3_v2 rfl (by decide), wsub main_call3_v3 rfl (by decide), wsub main_call3_v4 rfl (by decide), wsub main_v156 rfl (by decide), wsub main_v157 rfl (by decide), wsub main_c_58 rfl (by decide), wsub main_v158 rfl (by decide), wsub main_v159 rfl (by decide), wsub main_c_59 rfl (by decide), wsub main_v160 rfl (by decide), wsub main_v161 rfl (by decide), wsub main_v162 rfl (by decide), wsub main_c_60 rfl (by decide), wsub main_v163 rfl (by decide), wsub main_v164 rfl (by decide), wsub main_c_61 rfl (by decide), wsub main_v165 rfl (by decide)⟩
/-- A buffer stretch 7 does not write keeps its contents through it. -/
theorem ops7_keep (V : Valuation τ sig (Elt F)) (r : Ref sig .tc) (h : r ∉ ops7_W) :
    StableHlo.after ops7 V (Proc.devRef .tc r) = V (Proc.devRef .tc r) :=
  StableHlo.after_of_writes_sub ops7 V ops7_writes h

theorem ops8_sub : (ops8 : List (HloOp τ sig (Elt F))).Forall fun op => op.bufs ⊆ StableHlo.tcRefs τ sig :=
  ⟨StableHlo.binary_bufs_sub .., StableHlo.ternary_bufs_sub .., StableHlo.unary_bufs_sub .., StableHlo.unary_bufs_sub ..⟩
theorem ops8_fresh : (ops8 : List (HloOp τ sig (Elt F))).Forall fun op => op.fresh = ∅ :=
  ⟨rfl, rfl, rfl, rfl⟩
/-- The buffers stretch 8 writes, in order. -/
abbrev ops8_W : List (Ref sig .tc) := [main_v166, main_v167, main_v168, main_v169]
theorem ops8_writes : (ops8 : List (HloOp τ sig (Elt F))).Forall fun op => op.writes ⊆ (ops8_W.map (Proc.devRef (τ := τ) .tc)).toFinset :=
  ⟨wsub main_v166 rfl (by decide), wsub main_v167 rfl (by decide), wsub main_v168 rfl (by decide), wsub main_v169 rfl (by decide)⟩
/-- A buffer stretch 8 does not write keeps its contents through it. -/
theorem ops8_keep (V : Valuation τ sig (Elt F)) (r : Ref sig .tc) (h : r ∉ ops8_W) :
    StableHlo.after ops8 V (Proc.devRef .tc r) = V (Proc.devRef .tc r) :=
  StableHlo.after_of_writes_sub ops8 V ops8_writes h

theorem ops9_sub : (ops9 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.binary_bufs_sub ..⟩
theorem ops9_fresh : (ops9 : List (HloOp τ sig (Elt F))).Forall fun op => op.fresh = ∅ :=
  ⟨rfl, rfl, rfl, rfl, rfl, rfl⟩
/-- The buffers stretch 9 writes, in order. -/
abbrev ops9_W : List (Ref sig .tc) := [main_v170, main_v171, main_v172, main_v173, main_v174, main_v175]
theorem ops9_writes : (ops9 : List (HloOp τ sig (Elt F))).Forall fun op => op.writes ⊆ (ops9_W.map (Proc.devRef (τ := τ) .tc)).toFinset :=
  ⟨wsub main_v170 rfl (by decide), wsub main_v171 rfl (by decide), wsub main_v172 rfl (by decide), wsub main_v173 rfl (by decide), wsub main_v174 rfl (by decide), wsub main_v175 rfl (by decide)⟩
/-- A buffer stretch 9 does not write keeps its contents through it. -/
theorem ops9_keep (V : Valuation τ sig (Elt F)) (r : Ref sig .tc) (h : r ∉ ops9_W) :
    StableHlo.after ops9 V (Proc.devRef .tc r) = V (Proc.devRef .tc r) :=
  StableHlo.after_of_writes_sub ops9 V ops9_writes h

theorem ops10_sub : (ops10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch 10 writes, in order. -/
abbrev ops10_W : List (Ref sig .tc) := [main_v176, main_v177, main_v178, main_v179, main_cst_62, main_v180, main_v181, main_cst_63, main_v182, main_v183, main_v184, main_cst_64, main_v185, main_v186, main_v187, main_cst_65, main_v188, main_v189, main_v190, main_c_66, main_c_67, main_call4_v0, main_call4_v1, main_call4_v2, main_call4_v3, main_call4_v4, main_v191, main_v192, main_c_68, main_c_69, main_call5_v0, main_call5_v1, main_call5_v2, main_call5_v3, main_call5_v4, main_v193, main_v194, main_c_70, main_v195, main_v196, main_c_71, main_v197, main_v198, main_v199, main_c_72, main_v200, main_v201, main_c_73, main_v202, main_v203, main_v204, main_v205, main_v206]
theorem ops10_writes : (ops10 : List (HloOp τ sig (Elt F))).Forall fun op => op.writes ⊆ (ops10_W.map (Proc.devRef (τ := τ) .tc)).toFinset :=
  ⟨wsub main_v176 rfl (by decide), wsub main_v177 rfl (by decide), wsub main_v178 rfl (by decide), wsub main_v179 rfl (by decide), wsub main_cst_62 rfl (by decide), wsub main_v180 rfl (by decide), wsub main_v181 rfl (by decide), wsub main_cst_63 rfl (by decide), wsub main_v182 rfl (by decide), wsub main_v183 rfl (by decide), wsub main_v184 rfl (by decide), wsub main_cst_64 rfl (by decide), wsub main_v185 rfl (by decide), wsub main_v186 rfl (by decide), wsub main_v187 rfl (by decide), wsub main_cst_65 rfl (by decide), wsub main_v188 rfl (by decide), wsub main_v189 rfl (by decide), wsub main_v190 rfl (by decide), wsub main_c_66 rfl (by decide), wsub main_c_67 rfl (by decide), wsub main_call4_v0 rfl (by decide), wsub main_call4_v1 rfl (by decide), wsub main_call4_v2 rfl (by decide), wsub main_call4_v3 rfl (by decide), wsub main_call4_v4 rfl (by decide), wsub main_v191 rfl (by decide), wsub main_v192 rfl (by decide), wsub main_c_68 rfl (by decide), wsub main_c_69 rfl (by decide), wsub main_call5_v0 rfl (by decide), wsub main_call5_v1 rfl (by decide), wsub main_call5_v2 rfl (by decide), wsub main_call5_v3 rfl (by decide), wsub main_call5_v4 rfl (by decide), wsub main_v193 rfl (by decide), wsub main_v194 rfl (by decide), wsub main_c_70 rfl (by decide), wsub main_v195 rfl (by decide), wsub main_v196 rfl (by decide), wsub main_c_71 rfl (by decide), wsub main_v197 rfl (by decide), wsub main_v198 rfl (by decide), wsub main_v199 rfl (by decide), wsub main_c_72 rfl (by decide), wsub main_v200 rfl (by decide), wsub main_v201 rfl (by decide), wsub main_c_73 rfl (by decide), wsub main_v202 rfl (by decide), wsub main_v203 rfl (by decide), wsub main_v204 rfl (by decide), wsub main_v205 rfl (by decide), wsub main_v206 rfl (by decide)⟩
/-- A buffer stretch 10 does not write keeps its contents through it. -/
theorem ops10_keep (V : Valuation τ sig (Elt F)) (r : Ref sig .tc) (h : r ∉ ops10_W) :
    StableHlo.after ops10 V (Proc.devRef .tc r) = V (Proc.devRef .tc r) :=
  StableHlo.after_of_writes_sub ops10 V ops10_writes h

theorem ops11_sub : (ops11 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl⟩
/-- The buffers stretch 11 writes, in order. -/
abbrev ops11_W : List (Ref sig .tc) := [main_v207, main_v208, main_v209, main_v210, main_v211, main_v212, main_v213, main_v214, main_v215, main_v216, main_v217, main_cst_74, main_v218, main_v219, main_cst_75, main_v220, main_v221]
theorem ops11_writes : (ops11 : List (HloOp τ sig (Elt F))).Forall fun op => op.writes ⊆ (ops11_W.map (Proc.devRef (τ := τ) .tc)).toFinset :=
  ⟨wsub main_v207 rfl (by decide), wsub main_v208 rfl (by decide), wsub main_v209 rfl (by decide), wsub main_v210 rfl (by decide), wsub main_v211 rfl (by decide), wsub main_v212 rfl (by decide), wsub main_v213 rfl (by decide), wsub main_v214 rfl (by decide), wsub main_v215 rfl (by decide), wsub main_v216 rfl (by decide), wsub main_v217 rfl (by decide), wsub main_cst_74 rfl (by decide), wsub main_v218 rfl (by decide), wsub main_v219 rfl (by decide), wsub main_cst_75 rfl (by decide), wsub main_v220 rfl (by decide), wsub main_v221 rfl (by decide)⟩
/-- A buffer stretch 11 does not write keeps its contents through it. -/
theorem ops11_keep (V : Valuation τ sig (Elt F)) (r : Ref sig .tc) (h : r ∉ ops11_W) :
    StableHlo.after ops11 V (Proc.devRef .tc r) = V (Proc.devRef .tc r) :=
  StableHlo.after_of_writes_sub ops11 V ops11_writes h

theorem ops12_sub : (ops12 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch 12 writes, in order. -/
abbrev ops12_W : List (Ref sig .tc) := [main_v222, main_cst_76, main_v223, main_v224, main_v225, main_cst_77, main_v226, main_v227, main_v228, main_c_78, main_c_79, main_call6_v0, main_call6_v1, main_call6_v2, main_call6_v3, main_call6_v4, main_v229, main_v230, main_c_80, main_c_81, main_call7_v0, main_call7_v1, main_call7_v2, main_call7_v3, main_call7_v4, main_v231, main_v232, main_c_82, main_v233, main_v234, main_c_83, main_v235, main_v236, main_v237, main_c_84, main_v238, main_v239, main_c_85, main_v240, main_v241, main_v242, main_v243, main_v244]
theorem ops12_writes : (ops12 : List (HloOp τ sig (Elt F))).Forall fun op => op.writes ⊆ (ops12_W.map (Proc.devRef (τ := τ) .tc)).toFinset :=
  ⟨wsub main_v222 rfl (by decide), wsub main_cst_76 rfl (by decide), wsub main_v223 rfl (by decide), wsub main_v224 rfl (by decide), wsub main_v225 rfl (by decide), wsub main_cst_77 rfl (by decide), wsub main_v226 rfl (by decide), wsub main_v227 rfl (by decide), wsub main_v228 rfl (by decide), wsub main_c_78 rfl (by decide), wsub main_c_79 rfl (by decide), wsub main_call6_v0 rfl (by decide), wsub main_call6_v1 rfl (by decide), wsub main_call6_v2 rfl (by decide), wsub main_call6_v3 rfl (by decide), wsub main_call6_v4 rfl (by decide), wsub main_v229 rfl (by decide), wsub main_v230 rfl (by decide), wsub main_c_80 rfl (by decide), wsub main_c_81 rfl (by decide), wsub main_call7_v0 rfl (by decide), wsub main_call7_v1 rfl (by decide), wsub main_call7_v2 rfl (by decide), wsub main_call7_v3 rfl (by decide), wsub main_call7_v4 rfl (by decide), wsub main_v231 rfl (by decide), wsub main_v232 rfl (by decide), wsub main_c_82 rfl (by decide), wsub main_v233 rfl (by decide), wsub main_v234 rfl (by decide), wsub main_c_83 rfl (by decide), wsub main_v235 rfl (by decide), wsub main_v236 rfl (by decide), wsub main_v237 rfl (by decide), wsub main_c_84 rfl (by decide), wsub main_v238 rfl (by decide), wsub main_v239 rfl (by decide), wsub main_c_85 rfl (by decide), wsub main_v240 rfl (by decide), wsub main_v241 rfl (by decide), wsub main_v242 rfl (by decide), wsub main_v243 rfl (by decide), wsub main_v244 rfl (by decide)⟩
/-- A buffer stretch 12 does not write keeps its contents through it. -/
theorem ops12_keep (V : Valuation τ sig (Elt F)) (r : Ref sig .tc) (h : r ∉ ops12_W) :
    StableHlo.after ops12 V (Proc.devRef .tc r) = V (Proc.devRef .tc r) :=
  StableHlo.after_of_writes_sub ops12 V ops12_writes h

theorem ops13_sub : (ops13 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- The buffers stretch 13 writes, in order. -/
abbrev ops13_W : List (Ref sig .tc) := [main_v245, main_v246, main_v247, main_v248, main_v249, main_v250, main_v251, main_v252, main_v253, main_v254, main_v255, main_cst_86, main_v256, main_v257, main_cst_87, main_v258, main_v259, main_v260, main_cst_88, main_v261, main_v262, main_v263, main_cst_89, main_v264, main_v265, main_v266, main_c_90]
theorem ops13_writes : (ops13 : List (HloOp τ sig (Elt F))).Forall fun op => op.writes ⊆ (ops13_W.map (Proc.devRef (τ := τ) .tc)).toFinset :=
  ⟨wsub main_v245 rfl (by decide), wsub main_v246 rfl (by decide), wsub main_v247 rfl (by decide), wsub main_v248 rfl (by decide), wsub main_v249 rfl (by decide), wsub main_v250 rfl (by decide), wsub main_v251 rfl (by decide), wsub main_v252 rfl (by decide), wsub main_v253 rfl (by decide), wsub main_v254 rfl (by decide), wsub main_v255 rfl (by decide), wsub main_cst_86 rfl (by decide), wsub main_v256 rfl (by decide), wsub main_v257 rfl (by decide), wsub main_cst_87 rfl (by decide), wsub main_v258 rfl (by decide), wsub main_v259 rfl (by decide), wsub main_v260 rfl (by decide), wsub main_cst_88 rfl (by decide), wsub main_v261 rfl (by decide), wsub main_v262 rfl (by decide), wsub main_v263 rfl (by decide), wsub main_cst_89 rfl (by decide), wsub main_v264 rfl (by decide), wsub main_v265 rfl (by decide), wsub main_v266 rfl (by decide), wsub main_c_90 rfl (by decide)⟩
/-- A buffer stretch 13 does not write keeps its contents through it. -/
theorem ops13_keep (V : Valuation τ sig (Elt F)) (r : Ref sig .tc) (h : r ∉ ops13_W) :
    StableHlo.after ops13 V (Proc.devRef .tc r) = V (Proc.devRef .tc r) :=
  StableHlo.after_of_writes_sub ops13 V ops13_writes h

theorem ops14_sub : (ops14 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩
theorem ops14_fresh : (ops14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch 14 writes, in order. -/
abbrev ops14_W : List (Ref sig .tc) := [main_c_91, main_call8_v0, main_call8_v1, main_call8_v2, main_call8_v3, main_call8_v4, main_v267, main_v268, main_c_92, main_c_93, main_call9_v0, main_call9_v1, main_call9_v2, main_call9_v3, main_call9_v4, main_v269, main_v270, main_c_94, main_v271, main_v272, main_c_95, main_v273, main_v274, main_v275, main_c_96, main_v276, main_v277, main_c_97, main_v278, main_v279, main_v280, main_v281, main_v282]
theorem ops14_writes : (ops14 : List (HloOp τ sig (Elt F))).Forall fun op => op.writes ⊆ (ops14_W.map (Proc.devRef (τ := τ) .tc)).toFinset :=
  ⟨wsub main_c_91 rfl (by decide), wsub main_call8_v0 rfl (by decide), wsub main_call8_v1 rfl (by decide), wsub main_call8_v2 rfl (by decide), wsub main_call8_v3 rfl (by decide), wsub main_call8_v4 rfl (by decide), wsub main_v267 rfl (by decide), wsub main_v268 rfl (by decide), wsub main_c_92 rfl (by decide), wsub main_c_93 rfl (by decide), wsub main_call9_v0 rfl (by decide), wsub main_call9_v1 rfl (by decide), wsub main_call9_v2 rfl (by decide), wsub main_call9_v3 rfl (by decide), wsub main_call9_v4 rfl (by decide), wsub main_v269 rfl (by decide), wsub main_v270 rfl (by decide), wsub main_c_94 rfl (by decide), wsub main_v271 rfl (by decide), wsub main_v272 rfl (by decide), wsub main_c_95 rfl (by decide), wsub main_v273 rfl (by decide), wsub main_v274 rfl (by decide), wsub main_v275 rfl (by decide), wsub main_c_96 rfl (by decide), wsub main_v276 rfl (by decide), wsub main_v277 rfl (by decide), wsub main_c_97 rfl (by decide), wsub main_v278 rfl (by decide), wsub main_v279 rfl (by decide), wsub main_v280 rfl (by decide), wsub main_v281 rfl (by decide), wsub main_v282 rfl (by decide)⟩
/-- A buffer stretch 14 does not write keeps its contents through it. -/
theorem ops14_keep (V : Valuation τ sig (Elt F)) (r : Ref sig .tc) (h : r ∉ ops14_W) :
    StableHlo.after ops14 V (Proc.devRef .tc r) = V (Proc.devRef .tc r) :=
  StableHlo.after_of_writes_sub ops14 V ops14_writes h

theorem ops15_sub : (ops15 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub ..⟩
theorem ops15_fresh : (ops15 : List (HloOp τ sig (Elt F))).Forall fun op => op.fresh = ∅ :=
  ⟨rfl, rfl, rfl, rfl, rfl, rfl, rfl, rfl, rfl, rfl, rfl, rfl, rfl⟩
/-- The buffers stretch 15 writes, in order. -/
abbrev ops15_W : List (Ref sig .tc) := [main_v283, main_v284, main_v285, main_v286, main_v287, main_v288, main_v289, main_v290, main_v291, main_v292, main_v293, main_v294, main_v295]
theorem ops15_writes : (ops15 : List (HloOp τ sig (Elt F))).Forall fun op => op.writes ⊆ (ops15_W.map (Proc.devRef (τ := τ) .tc)).toFinset :=
  ⟨wsub main_v283 rfl (by decide), wsub main_v284 rfl (by decide), wsub main_v285 rfl (by decide), wsub main_v286 rfl (by decide), wsub main_v287 rfl (by decide), wsub main_v288 rfl (by decide), wsub main_v289 rfl (by decide), wsub main_v290 rfl (by decide), wsub main_v291 rfl (by decide), wsub main_v292 rfl (by decide), wsub main_v293 rfl (by decide), wsub main_v294 rfl (by decide), wsub main_v295 rfl (by decide)⟩
/-- A buffer stretch 15 does not write keeps its contents through it. -/
theorem ops15_keep (V : Valuation τ sig (Elt F)) (r : Ref sig .tc) (h : r ∉ ops15_W) :
    StableHlo.after ops15 V (Proc.devRef .tc r) = V (Proc.devRef .tc r) :=
  StableHlo.after_of_writes_sub ops15 V ops15_writes h

theorem ops_sub : (ops : List (HloOp τ sig (Elt F))).Forall fun op => op.bufs ⊆ StableHlo.tcRefs τ sig :=
  List.forall_iff_forall_mem.mpr fun op h => by
    simp only [ops, List.mem_append] at h
    rcases h with h | h | h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h, List.forall_iff_forall_mem.mp ops15_sub op h]

theorem ops_fresh : (ops : List (HloOp τ sig (Elt F))).Forall fun op => op.fresh = ∅ :=
  List.forall_iff_forall_mem.mpr fun op h => by
    simp only [ops, List.mem_append] at h
    rcases h with h | h | h | h | h | h | h | h | h | h | h | h | h | h | h | h
    exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h, List.forall_iff_forall_mem.mp ops13_fresh op h, List.forall_iff_forall_mem.mp ops14_fresh op h, List.forall_iff_forall_mem.mp ops15_fresh op h]

/-- A buffer no stretch writes has after the whole program the contents it had before. -/
theorem ops_keep (V : Valuation τ sig (Elt F)) (r : Ref sig .tc) (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) (h11 : r ∉ ops11_W) (h12 : r ∉ ops12_W) (h13 : r ∉ ops13_W) (h14 : r ∉ ops14_W) (h15 : r ∉ ops15_W) :
    StableHlo.after ops V (Proc.devRef .tc r) = V (Proc.devRef .tc r) := by
  simp only [ops, StableHlo.after_append]
  rw [ops15_keep _ r h15, ops14_keep _ r h14, ops13_keep _ r h13, ops12_keep _ r h12, ops11_keep _ r h11, ops10_keep _ r h10, ops9_keep _ r h9, ops8_keep _ r h8, ops7_keep _ r h7, ops6_keep _ r h6, ops5_keep _ r h5, ops4_keep _ r h4, ops3_keep _ r h3, ops2_keep _ r h2, ops1_keep _ r h1, ops0_keep _ r h0]

theorem after_ops_arg0 (V : Valuation τ sig (Elt F)) : StableHlo.after ops V (Proc.devRef .tc main_arg0) = V (Proc.devRef .tc main_arg0) :=
  ops_keep V main_arg0 (by decide) (by decide) (by decide) (by decide) (by decide) (by decide) (by decide) (by decide) (by decide) (by decide) (by decide) (by decide) (by decide) (by decide) (by decide) (by decide)
theorem after_ops_arg1 (V : Valuation τ sig (Elt F)) : StableHlo.after ops V (Proc.devRef .tc main_arg1) = V (Proc.devRef .tc main_arg1) :=
  ops_keep V main_arg1 (by decide) (by decide) (by decide) (by decide) (by decide) (by decide) (by decide) (by decide) (by decide) (by decide) (by decide) (by decide) (by decide) (by decide) (by decide) (by decide)
theorem after_ops_arg2 (V : Valuation τ sig (Elt F)) : StableHlo.after ops V (Proc.devRef .tc main_arg2) = V (Proc.devRef .tc main_arg2) :=
  ops_keep V main_arg2 (by decide) (by decide) (by decide) (by decide) (by decide) (by decide) (by decide) (by decide) (by decide) (by decide) (by decide) (by decide) (by decide) (by decide) (by decide) (by decide)
theorem after_ops_arg3 (V : Valuation τ sig (Elt F)) : StableHlo.after ops V (Proc.devRef .tc main_arg3) = V (Proc.devRef .tc main_arg3) :=
  ops_keep V main_arg3 (by decide) (by decide) (by decide) (by decide) (by decide) (by decide) (by decide) (by decide) (by decide) (by decide) (by decide) (by decide) (by decide) (by decide) (by decide) (by decide)

end Cert.ReferenceIdeal.Hand

end
-- ==== Proof.RefRun.MainEq.lean ====
/-
  The printed @main is the straight line of the listed operations: window by window (each window of the
  printed program is the line of its own stretches, the calls in it unfolded to their callees' operations),
  then the windows in order.
-/
import proofs.«162729_j22162031247387_1_alg».proof.Proof.RefRun.Ops

set_option maxRecDepth 8192

noncomputable section

namespace Cert.ReferenceIdeal.Hand

open Cert.ReferenceIdeal Cert.ReferenceIdeal.Gen Idealize.ShloMosaic Idealize.SL.Sem

variable {F : FTy → Type} [FloatOps F]

theorem main_part0_eq (c : Dev nD) : main_part0 (F := F) c = StableHlo.seq opsWin0 := by
  simp only [main_part0, fn_clip.body, fn_where.body, fn_clip_0.body, opsWin0, StableHlo.seq_append, StableHlo.seq, bind_assoc, pure_bind]
  rfl

theorem main_part1_eq (c : Dev nD) : main_part1 (F := F) c = StableHlo.seq opsWin1 := by
  simp only [main_part1, fn_clip.body, fn_where.body, fn_clip_0.body, opsWin1, StableHlo.seq_append, StableHlo.seq, bind_assoc, pure_bind]
  rfl

theorem main_part2_eq (c : Dev nD) : main_part2 (F := F) c = StableHlo.seq opsWin2 := by
  simp only [main_part2, fn_clip.body, fn_where.body, fn_clip_0.body, opsWin2, StableHlo.seq_append, StableHlo.seq, bind_assoc, pure_bind]
  rfl

theorem main_part3_eq (c : Dev nD) : main_part3 (F := F) c = StableHlo.seq opsWin3 := by
  simp only [main_part3, fn_clip.body, fn_where.body, fn_clip_0.body, opsWin3, StableHlo.seq_append, StableHlo.seq, bind_assoc, pure_bind]
  rfl

theorem main_part4_eq (c : Dev nD) : main_part4 (F := F) c = StableHlo.seq opsWin4 := by
  simp only [main_part4, fn_clip.body, fn_where.body, fn_clip_0.body, opsWin4, StableHlo.seq_append, StableHlo.seq, bind_assoc, pure_bind]
  rfl

theorem main_part5_eq (c : Dev nD) : main_part5 (F := F) c = StableHlo.seq opsWin5 := by
  simp only [main_part5, fn_clip.body, fn_where.body, fn_clip_0.body, opsWin5, StableHlo.seq_append, StableHlo.seq, bind_assoc, pure_bind]
  rfl

theorem main_part6_eq (c : Dev nD) : main_part6 (F := F) c = StableHlo.seq opsWin6 := by
  simp only [main_part6, fn_clip.body, fn_where.body, fn_clip_0.body, opsWin6, StableHlo.seq_append, StableHlo.seq, bind_assoc, pure_bind]
  rfl

theorem ops_eq_windows : (ops : List (HloOp τ sig (Elt F))) = opsWin0 ++ (opsWin1 ++ (opsWin2 ++ (opsWin3 ++ (opsWin4 ++ (opsWin5 ++ (opsWin6)))))) := by
  simp only [ops, opsWin0, opsWin1, opsWin2, opsWin3, opsWin4, opsWin5, opsWin6, List.append_assoc]

/-- @main is the straight line of `ops`. -/
theorem main_eq (c : Dev nD) : main (F := F) c = StableHlo.seq ops := by
  rw [ops_eq_windows]
  simp only [StableHlo.seq_append, ← main_part0_eq c, ← main_part1_eq c, ← main_part2_eq c, ← main_part3_eq c, ← main_part4_eq c, ← main_part5_eq c, ← main_part6_eq c]
  rfl

end Cert.ReferenceIdeal.Hand

end
-- ==== Proof.RefRun.lean ====
/-
  The reference program's run.

  The reference is a program of tensor operations only — no kernel — so its run is the library's run of a
  straight line: from any memory with zero counters every weakly fair execution of @main terminates, and each
  TensorCore buffer ends at the fold of the listed operations over the launch contents. Stated here at the
  one result buffer (the fold is kept folded, `StableHlo.after ops`, to be read back stretch by stretch) and
  at the four argument arrays, which no operation writes. The frame claim is the run with the result dropped.
-/
import proofs.«162729_j22162031247387_1_alg».proof.Defs
import proofs.«162729_j22162031247387_1_alg».proof.Proof.Gen.Pre_finite_inputs
import proofs.«162729_j22162031247387_1_alg».proof.Proof.RefRun.Facts
import proofs.«162729_j22162031247387_1_alg».proof.Proof.RefRun.MainEq

set_option maxRecDepth 8192

noncomputable section

namespace Cert.ReferenceIdeal.Hand

open Cert.ReferenceIdeal Cert.ReferenceIdeal.Gen Idealize.ShloMosaic Idealize.SL.Sem

variable {F : FTy → Type} [FloatOps F]

/-- The signature scopes no TensorCore buffer and no semaphore: the reference has no kernel. -/
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with the result buffer at the operations' fold over the launch contents and the four
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v295) = StableHlo.after ops (fun b => m (c, b)) (Proc.devRef .tc main_v295)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v295,
      (h c main_arg0).trans (after_ops_arg0 _),
      (h c main_arg1).trans (after_ops_arg1 _),
      (h c main_arg2).trans (after_ops_arg2 _),
      (h c main_arg3).trans (after_ops_arg3 _)⟩)
    (StableHlo.run_seq scopedRefs_eq scopedSems_eq defs main (fun _ => ops) main_eq (fun _ => ops_sub) m ρ
      (fun _ => List.forall_iff_forall_mem.mp ops_fresh))

/-- The reference runs (terminates, nothing faulting) and leaves its argument arrays as they were. -/
theorem frame : Cert.frame_ReferenceIdeal :=
  fun m ρ _ => (θ_run _ _ _).mono (fun _ h c => (h c).2) (run (F := Ideal) m ρ)

end Cert.ReferenceIdeal.Hand

end
-- ==== Proof.RefRead.Stages.lean ====
/-
  The reference's four-corner bilinear sampling as array functions of the planes P and the normalised
  coordinates nc: every intermediate array that the later steps read again is a named stage, written with the
  tensor operations the reference applies, in its order. From nc the two coordinate columns, the pixel
  coordinates, their floors (the lower neighbours), the upper neighbours and the four weights; then for each of the
  four corners the inside flag, the clipped and wrapped row and column words, the start indices, the batched gather of
  the planes, and the contribution gather · flag · weights; last the sum of the four contributions moved to the
  result's layout.
-/
import proofs.«162729_j22162031247387_1_alg».proof.Proof.RefRun.Ops
import Idealize.ShloMosaic.PureOps.Ideal

set_option maxRecDepth 8192

noncomputable section

namespace Cert.ReferenceIdeal.HandRead

open Cert.ReferenceIdeal Cert.ReferenceIdeal.Gen Cert.ReferenceIdeal.Hand Idealize.ShloMosaic Idealize.SL.Sem

variable {F : FTy → Type} [FloatOps F]

/-- A float array of shape s. -/
abbrev CF (s : Shape) : Type := (⟨s, .f32⟩ : BufTy).Contents (Elt F)
/-- A 32-bit integer array of shape s. -/
abbrev CI (s : Shape) : Type := (⟨s, .i32⟩ : BufTy).Contents (Elt F)
/-- A one-bit array of shape s. -/
abbrev CB (s : Shape) : Type := (⟨s, .i1⟩ : BufTy).Contents (Elt F)

/-- The first coordinate of every point on every plane (the coordinate array's column 0). -/
def GX (P : CF (F := F) S3x32x512x512) (nc : CF (F := F) S3x200000x4x2) :
    CF (F := F) S3x200000x4 :=
  (shapeCast S3x200000x4 (((extractStridedSlice S3x200000x4x1 ![0, 0, 0, 0] · slices_S3x200000x4x2_S3x200000x4x1_0_0_0_0) : CF (F := F) S3x200000x4x2 → CF (F := F) S3x200000x4x1) nc) shapeCasts_S3x200000x4x1_S3x200000x4)

/-- The second coordinate (column 1). -/
def GY (P : CF (F := F) S3x32x512x512) (nc : CF (F := F) S3x200000x4x2) :
    CF (F := F) S3x200000x4 :=
  (shapeCast S3x200000x4 (((extractStridedSlice S3x200000x4x1 ![0, 0, 0, 1] · slices_S3x200000x4x2_S3x200000x4x1_0_0_0_1) : CF (F := F) S3x200000x4x2 → CF (F := F) S3x200000x4x1) nc) shapeCasts_S3x200000x4x1_S3x200000x4)

/-- The first pixel coordinate: ((g + 1) · 512 − 1) / 2 of the first coordinate. -/
def IX (P : CF (F := F) S3x32x512x512) (nc : CF (F := F) S3x200000x4x2) :
    CF (F := F) S3x200000x4 :=
  ((mulf : CF (F := F) S3x200000x4 → CF (F := F) S3x200000x4 → CF (F := F) S3x200000x4) ((subf : CF (F := F) S3x200000x4 → CF (F := F) S3x200000x4 → CF (F := F) S3x200000x4) ((mulf : CF (F := F) S3x200000x4 → CF (F := F) S3x200000x4 → CF (F := F) S3x200000x4) ((addf : CF (F := F) S3x200000x4 → CF (F := F) S3x200000x4 → CF (F := F) S3x200000x4) (GX (F := F) P nc) ((broadcastInDim S3x200000x4 ![] bcast_S_S3x200000x4 : CF (F := F) S_ → CF (F := F) S3x200000x4) (constant S_ .f32 0x3F800000#32 : CF (F := F) S_))) ((broadcastInDim S3x200000x4 ![] bcast_S_S3x200000x4 : CF (F := F) S_ → CF (F := F) S3x200000x4) (constant S_ .f32 0x44000000#32 : CF (F := F) S_))) ((broadcastInDim S3x200000x4 ![] bcast_S_S3x200000x4 : CF (F := F) S_ → CF (F := F) S3x200000x4) (constant S_ .f32 0x3F800000#32 : CF (F := F) S_))) ((broadcastInDim S3x200000x4 ![] bcast_S_S3x200000x4 : CF (F := F) S_ → CF (F := F) S3x200000x4) (constant S_ .f32 0x3F000000#32 : CF (F := F) S_)))

/-- The second pixel coordinate. -/
def IY (P : CF (F := F) S3x32x512x512) (nc : CF (F := F) S3x200000x4x2) :
    CF (F := F) S3x200000x4 :=
  ((mulf : CF (F := F) S3x200000x4 → CF (F := F) S3x200000x4 → CF (F := F) S3x200000x4) ((subf : CF (F := F) S3x200000x4 → CF (F := F) S3x200000x4 → CF (F := F) S3x200000x4) ((mulf : CF (F := F) S3x200000x4 → CF (F := F) S3x200000x4 → CF (F := F) S3x200000x4) ((addf : CF (F := F) S3x200000x4 → CF (F := F) S3x200000x4 → CF (F := F) S3x200000x4) (GY (F := F) P nc) ((broadcastInDim S3x200000x4 ![] bcast_S_S3x200000x4 : CF (F := F) S_ → CF (F := F) S3x200000x4) (constant S_ .f32 0x3F800000#32 : CF (F := F) S_))) ((broadcastInDim S3x200000x4 ![] bcast_S_S3x200000x4 : CF (F := F) S_ → CF (F := F) S3x200000x4) (constant S_ .f32 0x44000000#32 : CF (F := F) S_))) ((broadcastInDim S3x200000x4 ![] bcast_S_S3x200000x4 : CF (F := F) S_ → CF (F := F) S3x200000x4) (constant S_ .f32 0x3F800000#32 : CF (F := F) S_))) ((broadcastInDim S3x200000x4 ![] bcast_S_S3x200000x4 : CF (F := F) S_ → CF (F := F) S3x200000x4) (constant S_ .f32 0x3F000000#32 : CF (F := F) S_)))

/-- The lower neighbour along the first axis: the floor of the pixel coordinate. -/
def X0 (P : CF (F := F) S3x32x512x512) (nc : CF (F := F) S3x200000x4x2) :
    CF (F := F) S3x200000x4 :=
  ((Host.floor : CF (F := F) S3x200000x4 → CF (F := F) S3x200000x4) (IX (F := F) P nc))

/-- The lower neighbour along the second axis. -/
def Y0 (P : CF (F := F) S3x32x512x512) (nc : CF (F := F) S3x200000x4x2) :
    CF (F := F) S3x200000x4 :=
  ((Host.floor : CF (F := F) S3x200000x4 → CF (F := F) S3x200000x4) (IY (F := F) P nc))

/-- The upper neighbour along the first axis: the lower one plus 1. -/
def X1 (P : CF (F := F) S3x32x512x512) (nc : CF (F := F) S3x200000x4x2) :
    CF (F := F) S3x200000x4 :=
  ((addf : CF (F := F) S3x200000x4 → CF (F := F) S3x200000x4 → CF (F := F) S3x200000x4) (X0 (F := F) P nc) ((broadcastInDim S3x200000x4 ![] bcast_S_S3x200000x4 : CF (F := F) S_ → CF (F := F) S3x200000x4) (constant S_ .f32 0x3F800000#32 : CF (F := F) S_)))

/-- The upper neighbour along the second axis. -/
def Y1 (P : CF (F := F) S3x32x512x512) (nc : CF (F := F) S3x200000x4x2) :
    CF (F := F) S3x200000x4 :=
  ((addf : CF (F := F) S3x200000x4 → CF (F := F) S3x200000x4 → CF (F := F) S3x200000x4) (Y0 (F := F) P nc) ((broadcastInDim S3x200000x4 ![] bcast_S_S3x200000x4 : CF (F := F) S_ → CF (F := F) S3x200000x4) (constant S_ .f32 0x3F800000#32 : CF (F := F) S_)))

/-- The upper neighbour's weight along the first axis: pixel coordinate minus its floor. -/
def WX1 (P : CF (F := F) S3x32x512x512) (nc : CF (F := F) S3x200000x4x2) :
    CF (F := F) S3x200000x4 :=
  ((subf : CF (F := F) S3x200000x4 → CF (F := F) S3x200000x4 → CF (F := F) S3x200000x4) (IX (F := F) P nc) (X0 (F := F) P nc))

/-- The lower neighbour's weight along the first axis: 1 minus the upper one's. -/
def WX0 (P : CF (F := F) S3x32x512x512) (nc : CF (F := F) S3x200000x4x2) :
    CF (F := F) S3x200000x4 :=
  ((subf : CF (F := F) S3x200000x4 → CF (F := F) S3x200000x4 → CF (F := F) S3x200000x4) ((broadcastInDim S3x200000x4 ![] bcast_S_S3x200000x4 : CF (F := F) S_ → CF (F := F) S3x200000x4) (constant S_ .f32 0x3F800000#32 : CF (F := F) S_)) (WX1 (F := F) P nc))

/-- The upper neighbour's weight along the second axis. -/
def WY1 (P : CF (F := F) S3x32x512x512) (nc : CF (F := F) S3x200000x4x2) :
    CF (F := F) S3x200000x4 :=
  ((subf : CF (F := F) S3x200000x4 → CF (F := F) S3x200000x4 → CF (F := F) S3x200000x4) (IY (F := F) P nc) (Y0 (F := F) P nc))

/-- The lower neighbour's weight along the second axis. -/
def WY0 (P : CF (F := F) S3x32x512x512) (nc : CF (F := F) S3x200000x4x2) :
    CF (F := F) S3x200000x4 :=
  ((subf : CF (F := F) S3x200000x4 → CF (F := F) S3x200000x4 → CF (F := F) S3x200000x4) ((broadcastInDim S3x200000x4 ![] bcast_S_S3x200000x4 : CF (F := F) S_ → CF (F := F) S3x200000x4) (constant S_ .f32 0x3F800000#32 : CF (F := F) S_)) (WY1 (F := F) P nc))

/-- Whether the corner (x0, y0) lies inside the plane: four comparisons with 0 and 511, anded. -/
def V00 (P : CF (F := F) S3x32x512x512) (nc : CF (F := F) S3x200000x4x2) :
    CB (F := F) S3x200000x4 :=
  ((andi : CB (F := F) S3x200000x4 → CB (F := F) S3x200000x4 → CB (F := F) S3x200000x4) ((andi : CB (F := F) S3x200000x4 → CB (F := F) S3x200000x4 → CB (F := F) S3x200000x4) ((andi : CB (F := F) S3x200000x4 → CB (F := F) S3x200000x4 → CB (F := F) S3x200000x4) ((cmpf .oge : CF (F := F) S3x200000x4 → CF (F := F) S3x200000x4 → CB (F := F) S3x200000x4) (X0 (F := F) P nc) ((broadcastInDim S3x200000x4 ![] bcast_S_S3x200000x4 : CF (F := F) S_ → CF (F := F) S3x200000x4) (constant S_ .f32 0x00000000#32 : CF (F := F) S_))) ((cmpf .ole : CF (F := F) S3x200000x4 → CF (F := F) S3x200000x4 → CB (F := F) S3x200000x4) (X0 (F := F) P nc) ((broadcastInDim S3x200000x4 ![] bcast_S_S3x200000x4 : CF (F := F) S_ → CF (F := F) S3x200000x4) (constant S_ .f32 0x43FF8000#32 : CF (F := F) S_)))) ((cmpf .oge : CF (F := F) S3x200000x4 → CF (F := F) S3x200000x4 → CB (F := F) S3x200000x4) (Y0 (F := F) P nc) ((broadcastInDim S3x200000x4 ![] bcast_S_S3x200000x4 : CF (F := F) S_ → CF (F := F) S3x200000x4) (constant S_ .f32 0x00000000#32 : CF (F := F) S_)))) ((cmpf .ole : CF (F := F) S3x200000x4 → CF (F := F) S3x200000x4 → CB (F := F) S3x200000x4) (Y0 (F := F) P nc) ((broadcastInDim S3x200000x4 ![] bcast_S_S3x200000x4 : CF (F := F) S_ → CF (F := F) S3x200000x4) (constant S_ .f32 0x43FF8000#32 : CF (F := F) S_))))

/-- Corner (x0, y0)'s row word: y0 clipped into [0, 511], converted, a negative word wrapped by 512. -/
def JY00 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y0 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y0 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y0 (F := F) P nc)))))

/-- Corner (x0, y0)'s column word. -/
def JX00 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X0 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X0 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X0 (F := F) P nc)))))

/-- Corner (x0, y0)'s start indices: (row word, column word) along a new last axis. -/
def ST00 (P : CF (F := F) S3x32x512x512) (nc : CF (F := F) S3x200000x4x2) :
    CI (F := F) S3x200000x4x2 :=
  ((cat2_S3x200000x4x2 : CI (F := F) S3x200000x4x1 → CI (F := F) S3x200000x4x1 → CI (F := F) S3x200000x4x2) ((broadcastInDim S3x200000x4x1 ![0, 1, 2] bcast_S3x200000x4_S3x200000x4x1_0_1_2 : CI (F := F) S3x200000x4 → CI (F := F) S3x200000x4x1) (JY00 (F := F) P nc)) ((broadcastInDim S3x200000x4x1 ![0, 1, 2] bcast_S3x200000x4_S3x200000x4x1_0_1_2 : CI (F := F) S3x200000x4 → CI (F := F) S3x200000x4x1) (JX00 (F := F) P nc)))

/-- The planes gathered at corner (x0, y0)'s start indices, every channel. -/
def G00 (P : CF (F := F) S3x32x512x512) (nc : CF (F := F) S3x200000x4x2) :
    CF (F := F) S3x32x200000x4 :=
  (((fun x i => Host.gather gather_S3x32x512x512_S3x200000x4x2_S3x32x200000x4_1_23_0_0_23_3_13211 x i) : CF (F := F) S3x32x512x512 → CI (F := F) S3x200000x4x2 → CF (F := F) S3x32x200000x4) P (ST00 (F := F) P nc))

/-- Corner (x0, y0)'s contribution: the gathered value times the inside flag times the weight product. -/
def C00 (P : CF (F := F) S3x32x512x512) (nc : CF (F := F) S3x200000x4x2) :
    CF (F := F) S3x32x200000x4 :=
  ((mulf : CF (F := F) S3x32x200000x4 → CF (F := F) S3x32x200000x4 → CF (F := F) S3x32x200000x4) ((mulf : CF (F := F) S3x32x200000x4 → CF (F := F) S3x32x200000x4 → CF (F := F) S3x32x200000x4) (G00 (F := F) P nc) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((uitofp .f32 : CB (F := F) S3x200000x4 → CF (F := F) S3x200000x4) (V00 (F := F) P nc))))) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((mulf : CF (F := F) S3x200000x4 → CF (F := F) S3x200000x4 → CF (F := F) S3x200000x4) (WX0 (F := F) P nc) (WY0 (F := F) P nc)))))

/-- Whether the corner (x1, y0) lies inside the plane. -/
def V10 (P : CF (F := F) S3x32x512x512) (nc : CF (F := F) S3x200000x4x2) :
    CB (F := F) S3x200000x4 :=
  ((andi : CB (F := F) S3x200000x4 → CB (F := F) S3x200000x4 → CB (F := F) S3x200000x4) ((andi : CB (F := F) S3x200000x4 → CB (F := F) S3x200000x4 → CB (F := F) S3x200000x4) ((andi : CB (F := F) S3x200000x4 → CB (F := F) S3x200000x4 → CB (F := F) S3x200000x4) ((cmpf .oge : CF (F := F) S3x200000x4 → CF (F := F) S3x200000x4 → CB (F := F) S3x200000x4) (X1 (F := F) P nc) ((broadcastInDim S3x200000x4 ![] bcast_S_S3x200000x4 : CF (F := F) S_ → CF (F := F) S3x200000x4) (constant S_ .f32 0x00000000#32 : CF (F := F) S_))) ((cmpf .ole : CF (F := F) S3x200000x4 → CF (F := F) S3x200000x4 → CB (F := F) S3x200000x4) (X1 (F := F) P nc) ((broadcastInDim S3x200000x4 ![] bcast_S_S3x200000x4 : CF (F := F) S_ → CF (F := F) S3x200000x4) (constant S_ .f32 0x43FF8000#32 : CF (F := F) S_)))) ((cmpf .oge : CF (F := F) S3x200000x4 → CF (F := F) S3x200000x4 → CB (F := F) S3x200000x4) (Y0 (F := F) P nc) ((broadcastInDim S3x200000x4 ![] bcast_S_S3x200000x4 : CF (F := F) S_ → CF (F := F) S3x200000x4) (constant S_ .f32 0x00000000#32 : CF (F := F) S_)))) ((cmpf .ole : CF (F := F) S3x200000x4 → CF (F := F) S3x200000x4 → CB (F := F) S3x200000x4) (Y0 (F := F) P nc) ((broadcastInDim S3x200000x4 ![] bcast_S_S3x200000x4 : CF (F := F) S_ → CF (F := F) S3x200000x4) (constant S_ .f32 0x43FF8000#32 : CF (F := F) S_))))

/-- Corner (x1, y0)'s row word. -/
def JY10 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y0 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y0 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y0 (F := F) P nc)))))

/-- Corner (x1, y0)'s column word. -/
def JX10 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X1 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X1 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X1 (F := F) P nc)))))

/-- Corner (x1, y0)'s start indices. -/
def ST10 (P : CF (F := F) S3x32x512x512) (nc : CF (F := F) S3x200000x4x2) :
    CI (F := F) S3x200000x4x2 :=
  ((cat2_S3x200000x4x2 : CI (F := F) S3x200000x4x1 → CI (F := F) S3x200000x4x1 → CI (F := F) S3x200000x4x2) ((broadcastInDim S3x200000x4x1 ![0, 1, 2] bcast_S3x200000x4_S3x200000x4x1_0_1_2 : CI (F := F) S3x200000x4 → CI (F := F) S3x200000x4x1) (JY10 (F := F) P nc)) ((broadcastInDim S3x200000x4x1 ![0, 1, 2] bcast_S3x200000x4_S3x200000x4x1_0_1_2 : CI (F := F) S3x200000x4 → CI (F := F) S3x200000x4x1) (JX10 (F := F) P nc)))

/-- The planes gathered at corner (x1, y0). -/
def G10 (P : CF (F := F) S3x32x512x512) (nc : CF (F := F) S3x200000x4x2) :
    CF (F := F) S3x32x200000x4 :=
  (((fun x i => Host.gather gather_S3x32x512x512_S3x200000x4x2_S3x32x200000x4_1_23_0_0_23_3_13211 x i) : CF (F := F) S3x32x512x512 → CI (F := F) S3x200000x4x2 → CF (F := F) S3x32x200000x4) P (ST10 (F := F) P nc))

/-- Corner (x1, y0)'s contribution. -/
def C10 (P : CF (F := F) S3x32x512x512) (nc : CF (F := F) S3x200000x4x2) :
    CF (F := F) S3x32x200000x4 :=
  ((mulf : CF (F := F) S3x32x200000x4 → CF (F := F) S3x32x200000x4 → CF (F := F) S3x32x200000x4) ((mulf : CF (F := F) S3x32x200000x4 → CF (F := F) S3x32x200000x4 → CF (F := F) S3x32x200000x4) (G10 (F := F) P nc) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((uitofp .f32 : CB (F := F) S3x200000x4 → CF (F := F) S3x200000x4) (V10 (F := F) P nc))))) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((mulf : CF (F := F) S3x200000x4 → CF (F := F) S3x200000x4 → CF (F := F) S3x200000x4) (WX1 (F := F) P nc) (WY0 (F := F) P nc)))))

/-- Whether the corner (x0, y1) lies inside the plane. -/
def V01 (P : CF (F := F) S3x32x512x512) (nc : CF (F := F) S3x200000x4x2) :
    CB (F := F) S3x200000x4 :=
  ((andi : CB (F := F) S3x200000x4 → CB (F := F) S3x200000x4 → CB (F := F) S3x200000x4) ((andi : CB (F := F) S3x200000x4 → CB (F := F) S3x200000x4 → CB (F := F) S3x200000x4) ((andi : CB (F := F) S3x200000x4 → CB (F := F) S3x200000x4 → CB (F := F) S3x200000x4) ((cmpf .oge : CF (F := F) S3x200000x4 → CF (F := F) S3x200000x4 → CB (F := F) S3x200000x4) (X0 (F := F) P nc) ((broadcastInDim S3x200000x4 ![] bcast_S_S3x200000x4 : CF (F := F) S_ → CF (F := F) S3x200000x4) (constant S_ .f32 0x00000000#32 : CF (F := F) S_))) ((cmpf .ole : CF (F := F) S3x200000x4 → CF (F := F) S3x200000x4 → CB (F := F) S3x200000x4) (X0 (F := F) P nc) ((broadcastInDim S3x200000x4 ![] bcast_S_S3x200000x4 : CF (F := F) S_ → CF (F := F) S3x200000x4) (constant S_ .f32 0x43FF8000#32 : CF (F := F) S_)))) ((cmpf .oge : CF (F := F) S3x200000x4 → CF (F := F) S3x200000x4 → CB (F := F) S3x200000x4) (Y1 (F := F) P nc) ((broadcastInDim S3x200000x4 ![] bcast_S_S3x200000x4 : CF (F := F) S_ → CF (F := F) S3x200000x4) (constant S_ .f32 0x00000000#32 : CF (F := F) S_)))) ((cmpf .ole : CF (F := F) S3x200000x4 → CF (F := F) S3x200000x4 → CB (F := F) S3x200000x4) (Y1 (F := F) P nc) ((broadcastInDim S3x200000x4 ![] bcast_S_S3x200000x4 : CF (F := F) S_ → CF (F := F) S3x200000x4) (constant S_ .f32 0x43FF8000#32 : CF (F := F) S_))))

/-- Corner (x0, y1)'s row word. -/
def JY01 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y1 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y1 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y1 (F := F) P nc)))))

/-- Corner (x0, y1)'s column word. -/
def JX01 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X0 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X0 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X0 (F := F) P nc)))))

/-- Corner (x0, y1)'s start indices. -/
def ST01 (P : CF (F := F) S3x32x512x512) (nc : CF (F := F) S3x200000x4x2) :
    CI (F := F) S3x200000x4x2 :=
  ((cat2_S3x200000x4x2 : CI (F := F) S3x200000x4x1 → CI (F := F) S3x200000x4x1 → CI (F := F) S3x200000x4x2) ((broadcastInDim S3x200000x4x1 ![0, 1, 2] bcast_S3x200000x4_S3x200000x4x1_0_1_2 : CI (F := F) S3x200000x4 → CI (F := F) S3x200000x4x1) (JY01 (F := F) P nc)) ((broadcastInDim S3x200000x4x1 ![0, 1, 2] bcast_S3x200000x4_S3x200000x4x1_0_1_2 : CI (F := F) S3x200000x4 → CI (F := F) S3x200000x4x1) (JX01 (F := F) P nc)))

/-- The planes gathered at corner (x0, y1). -/
def G01 (P : CF (F := F) S3x32x512x512) (nc : CF (F := F) S3x200000x4x2) :
    CF (F := F) S3x32x200000x4 :=
  (((fun x i => Host.gather gather_S3x32x512x512_S3x200000x4x2_S3x32x200000x4_1_23_0_0_23_3_13211 x i) : CF (F := F) S3x32x512x512 → CI (F := F) S3x200000x4x2 → CF (F := F) S3x32x200000x4) P (ST01 (F := F) P nc))

/-- Corner (x0, y1)'s contribution. -/
def C01 (P : CF (F := F) S3x32x512x512) (nc : CF (F := F) S3x200000x4x2) :
    CF (F := F) S3x32x200000x4 :=
  ((mulf : CF (F := F) S3x32x200000x4 → CF (F := F) S3x32x200000x4 → CF (F := F) S3x32x200000x4) ((mulf : CF (F := F) S3x32x200000x4 → CF (F := F) S3x32x200000x4 → CF (F := F) S3x32x200000x4) (G01 (F := F) P nc) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((uitofp .f32 : CB (F := F) S3x200000x4 → CF (F := F) S3x200000x4) (V01 (F := F) P nc))))) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((mulf : CF (F := F) S3x200000x4 → CF (F := F) S3x200000x4 → CF (F := F) S3x200000x4) (WX0 (F := F) P nc) (WY1 (F := F) P nc)))))

/-- Whether the corner (x1, y1) lies inside the plane. -/
def V11 (P : CF (F := F) S3x32x512x512) (nc : CF (F := F) S3x200000x4x2) :
    CB (F := F) S3x200000x4 :=
  ((andi : CB (F := F) S3x200000x4 → CB (F := F) S3x200000x4 → CB (F := F) S3x200000x4) ((andi : CB (F := F) S3x200000x4 → CB (F := F) S3x200000x4 → CB (F := F) S3x200000x4) ((andi : CB (F := F) S3x200000x4 → CB (F := F) S3x200000x4 → CB (F := F) S3x200000x4) ((cmpf .oge : CF (F := F) S3x200000x4 → CF (F := F) S3x200000x4 → CB (F := F) S3x200000x4) (X1 (F := F) P nc) ((broadcastInDim S3x200000x4 ![] bcast_S_S3x200000x4 : CF (F := F) S_ → CF (F := F) S3x200000x4) (constant S_ .f32 0x00000000#32 : CF (F := F) S_))) ((cmpf .ole : CF (F := F) S3x200000x4 → CF (F := F) S3x200000x4 → CB (F := F) S3x200000x4) (X1 (F := F) P nc) ((broadcastInDim S3x200000x4 ![] bcast_S_S3x200000x4 : CF (F := F) S_ → CF (F := F) S3x200000x4) (constant S_ .f32 0x43FF8000#32 : CF (F := F) S_)))) ((cmpf .oge : CF (F := F) S3x200000x4 → CF (F := F) S3x200000x4 → CB (F := F) S3x200000x4) (Y1 (F := F) P nc) ((broadcastInDim S3x200000x4 ![] bcast_S_S3x200000x4 : CF (F := F) S_ → CF (F := F) S3x200000x4) (constant S_ .f32 0x00000000#32 : CF (F := F) S_)))) ((cmpf .ole : CF (F := F) S3x200000x4 → CF (F := F) S3x200000x4 → CB (F := F) S3x200000x4) (Y1 (F := F) P nc) ((broadcastInDim S3x200000x4 ![] bcast_S_S3x200000x4 : CF (F := F) S_ → CF (F := F) S3x200000x4) (constant S_ .f32 0x43FF8000#32 : CF (F := F) S_))))

/-- Corner (x1, y1)'s row word. -/
def JY11 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y1 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y1 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (Y1 (F := F) P nc)))))

/-- Corner (x1, y1)'s column word. -/
def JX11 (P : CF (F := F) S3x32x512x512) (nc : CF (F := F) S3x200000x4x2) :
    CI (F := F) S3x200000x4 :=
  ((select : CB (F := F) S3x200000x4 → CI (F := F) S3x200000x4 → CI (F := F) S3x200000x4 → CI (F := F) S3x200000x4) ((cmpi .slt : CI (F := F) S3x200000x4 → CI (F := F) S3x200000x4 → CB (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X1 (F := F) P nc)))) ((broadcastInDim S3x200000x4 ![] bcast_S_S3x200000x4 : CI (F := F) S_ → CI (F := F) S3x200000x4) (constantI S_ 32 0#32 : CI (F := F) S_))) ((addi : CI (F := F) S3x200000x4 → CI (F := F) S3x200000x4 → CI (F := F) S3x200000x4) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X1 (F := F) P nc)))) ((broadcastInDim S3x200000x4 ![] bcast_S_S3x200000x4 : CI (F := F) S_ → CI (F := F) S3x200000x4) (constantI S_ 32 512#32 : CI (F := F) S_))) ((fptosi 32 : CF (F := F) S3x200000x4 → CI (F := F) S3x200000x4) ((minimumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 511#32 : CI (F := F) S_))) ((maximumf : CF (F := F) S3x200000x4 → CF (F := F) S3x200000x4 → CF (F := F) S3x200000x4) (((broadcastInDim S3x200000x4 ![] bcast_S_S3x200000x4) : CF (F := F) S_ → CF (F := F) S3x200000x4) (((sitofp .f32) : CI (F := F) S_ → CF (F := F) S_) (constantI S_ 32 0#32 : CI (F := F) S_))) (X1 (F := F) P nc)))))

/-- Corner (x1, y1)'s start indices. -/
def ST11 (P : CF (F := F) S3x32x512x512) (nc : CF (F := F) S3x200000x4x2) :
    CI (F := F) S3x200000x4x2 :=
  ((cat2_S3x200000x4x2 : CI (F := F) S3x200000x4x1 → CI (F := F) S3x200000x4x1 → CI (F := F) S3x200000x4x2) ((broadcastInDim S3x200000x4x1 ![0, 1, 2] bcast_S3x200000x4_S3x200000x4x1_0_1_2 : CI (F := F) S3x200000x4 → CI (F := F) S3x200000x4x1) (JY11 (F := F) P nc)) ((broadcastInDim S3x200000x4x1 ![0, 1, 2] bcast_S3x200000x4_S3x200000x4x1_0_1_2 : CI (F := F) S3x200000x4 → CI (F := F) S3x200000x4x1) (JX11 (F := F) P nc)))

/-- The planes gathered at corner (x1, y1). -/
def G11 (P : CF (F := F) S3x32x512x512) (nc : CF (F := F) S3x200000x4x2) :
    CF (F := F) S3x32x200000x4 :=
  (((fun x i => Host.gather gather_S3x32x512x512_S3x200000x4x2_S3x32x200000x4_1_23_0_0_23_3_13211 x i) : CF (F := F) S3x32x512x512 → CI (F := F) S3x200000x4x2 → CF (F := F) S3x32x200000x4) P (ST11 (F := F) P nc))

/-- Corner (x1, y1)'s contribution. -/
def C11 (P : CF (F := F) S3x32x512x512) (nc : CF (F := F) S3x200000x4x2) :
    CF (F := F) S3x32x200000x4 :=
  ((mulf : CF (F := F) S3x32x200000x4 → CF (F := F) S3x32x200000x4 → CF (F := F) S3x32x200000x4) ((mulf : CF (F := F) S3x32x200000x4 → CF (F := F) S3x32x200000x4 → CF (F := F) S3x32x200000x4) (G11 (F := F) P nc) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((uitofp .f32 : CB (F := F) S3x200000x4 → CF (F := F) S3x200000x4) (V11 (F := F) P nc))))) ((broadcastInDim S3x32x200000x4 ![0, 1, 2, 3] bcast_S3x1x200000x4_S3x32x200000x4_0_1_2_3 : CF (F := F) S3x1x200000x4 → CF (F := F) S3x32x200000x4) ((broadcastInDim S3x1x200000x4 ![0, 2, 3] bcast_S3x200000x4_S3x1x200000x4_0_2_3 : CF (F := F) S3x200000x4 → CF (F := F) S3x1x200000x4) ((mulf : CF (F := F) S3x200000x4 → CF (F := F) S3x200000x4 → CF (F := F) S3x200000x4) (WX1 (F := F) P nc) (WY1 (F := F) P nc)))))

/-- The four corners added left to right. -/
def SUM (P : CF (F := F) S3x32x512x512) (nc : CF (F := F) S3x200000x4x2) :
    CF (F := F) S3x32x200000x4 :=
  ((addf : CF (F := F) S3x32x200000x4 → CF (F := F) S3x32x200000x4 → CF (F := F) S3x32x200000x4) ((addf : CF (F := F) S3x32x200000x4 → CF (F := F) S3x32x200000x4 → CF (F := F) S3x32x200000x4) ((addf : CF (F := F) S3x32x200000x4 → CF (F := F) S3x32x200000x4 → CF (F := F) S3x32x200000x4) (C00 (F := F) P nc) (C10 (F := F) P nc)) (C01 (F := F) P nc)) (C11 (F := F) P nc))

/-- The result: the sum moved to (point, neighbour-set, plane, channel) order and flattened to [200000, 384]. -/
def OUT (P : CF (F := F) S3x32x512x512) (nc : CF (F := F) S3x200000x4x2) :
    CF (F := F) S200000x384 :=
  (shapeCast S200000x384 (((transpose S200000x4x3x32 [2, 3, 0, 1] · transposes_S3x32x200000x4_S200000x4x3x32_2_3_0_1) : CF (F := F) S3x32x200000x4 → CF (F := F) S200000x4x3x32) (SUM (F := F) P nc)) shapeCasts_S200000x4x3x32_S200000x384)

end Cert.ReferenceIdeal.HandRead

end
-- ==== Proof.RefRead.Split.lean ====
/-
  The reference's sixth stretch of host operations cut in two where the normalised coordinates are complete:
  the first part ends with the operation that writes them, the second part begins with the first operation that
  reads them for the sampling.
-/
import proofs.«162729_j22162031247387_1_alg».proof.Proof.RefRun.Ops

set_option maxRecDepth 8192

noncomputable section

namespace Cert.ReferenceIdeal.HandRead

open Cert.ReferenceIdeal Cert.ReferenceIdeal.Gen Cert.ReferenceIdeal.Hand Idealize.ShloMosaic Idealize.SL.Sem

variable {F : FTy → Type} [FloatOps F]

set_option maxHeartbeats 40000000 in
/-- The stretch's first 33 operations: the rest of the coordinate normalisation, ending with the coordinates. -/
abbrev ops5a : List (HloOp τ sig (Elt F)) :=
  [ StableHlo.unary main_cst_29 main_v88 (broadcastInDim S3x200000x4x2 ![] bcast_S_S3x200000x4x2 : (⟨S_, .f32⟩ : BufTy).Contents (Elt F) → (⟨S3x200000x4x2, .f32⟩ : BufTy).Contents (Elt F)),
    StableHlo.binary main_v87 main_v88 main_v89 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.nullary main_cst_30 (constant S_ .f32 0x3F800000#32),
    StableHlo.unary main_cst_30 main_v90 (broadcastInDim S3x200000x4x2 ![] bcast_S_S3x200000x4x2 : (⟨S_, .f32⟩ : BufTy).Contents (Elt F) → (⟨S3x200000x4x2, .f32⟩ : BufTy).Contents (Elt F)),
    StableHlo.binary main_v89 main_v90 main_v91 (subf : (⟨S3x200000x4x2, .f32⟩ : BufTy).Contents (Elt F) → (⟨S3x200000x4x2, .f32⟩ : BufTy).Contents (Elt F) → (⟨S3x200000x4x2, .f32⟩ : BufTy).Contents (Elt F)),
    StableHlo.nullary main_cst_31 (constant S_ .f32 0x40C00000#32),
    StableHlo.unary main_cst_31 main_v92 (broadcastInDim S3x200000x4x2 ![] bcast_S_S3x200000x4x2 : (⟨S_, .f32⟩ : BufTy).Contents (Elt F) → (⟨S3x200000x4x2, .f32⟩ : BufTy).Contents (Elt F)),
    StableHlo.binary main_v91 main_v92 main_v93 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.binary main_v93 main_v93 main_v94 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.nullary main_cst_32 (constant S_ .f32 0x00000000#32),
    StableHlo.binary main_v94 main_cst_32 main_v95 ((fun x v => Host.reduceAdd x v reducesTo_S3x200000x4x2_S3x200000x4_d3 h_S_) : (⟨S3x200000x4x2, .f32⟩ : BufTy).Contents (Elt F) → (⟨S_, .f32⟩ : BufTy).Contents (Elt F) → (⟨S3x200000x4, .f32⟩ : BufTy).Contents (Elt F)),
    StableHlo.unary main_v95 main_v96 (broadcastInDim S3x200000x4x1 ![0, 1, 2] bcast_S3x200000x4_S3x200000x4x1_0_1_2 : (⟨S3x200000x4, .f32⟩ : BufTy).Contents (Elt F) → (⟨S3x200000x4x1, .f32⟩ : BufTy).Contents (Elt F)),
    StableHlo.nullary main_cst_33 (constant S_ .f32 0x34000000#32),
    StableHlo.TRef.unary (.of main_cst_33 : StableHlo.TRef sig ⟨S_, .f32⟩) (.of main_call0_v0 : StableHlo.TRef sig ⟨S3x200000x4x1, .f32⟩) (broadcastInDim S3x200000x4x1 ![] bcast_S_S3x200000x4x1),
    StableHlo.TRef.binary (.of main_call0_v0 : StableHlo.TRef sig ⟨S3x200000x4x1, .f32⟩) (.of main_v96 : StableHlo.TRef sig ⟨S3x200000x4x1, .f32⟩) (.of main_v97 : StableHlo.TRef sig ⟨S3x200000x4x1, .f32⟩) maximumf,
    StableHlo.nullary main_cst_34 (constant S_ .f32 0x3F800000#32),
    StableHlo.unary main_cst_34 main_v98 (broadcastInDim S3x200000x4x1 ![] bcast_S_S3x200000x4x1 : (⟨S_, .f32⟩ : BufTy).Contents (Elt F) → (⟨S3x200000x4x1, .f32⟩ : BufTy).Contents (Elt F)),
    StableHlo.binary main_v97 main_v98 main_v99 (cmpf .ole : (⟨S3x200000x4x1, .f32⟩ : BufTy).Contents (Elt F) → (⟨S3x200000x4x1, .f32⟩ : BufTy).Contents (Elt F) → (⟨S3x200000x4x1, .i1⟩ : BufTy).Contents (Elt F)),
    StableHlo.unary main_v97 main_v100 (Host.sqrt : (⟨S3x200000x4x1, .f32⟩ : BufTy).Contents (Elt F) → (⟨S3x200000x4x1, .f32⟩ : BufTy).Contents (Elt F)),
    StableHlo.nullary main_cst_35 (constant S_ .f32 0x40000000#32),
    StableHlo.unary main_cst_35 main_v101 (broadcastInDim S3x200000x4x1 ![] bcast_S_S3x200000x4x1 : (⟨S_, .f32⟩ : BufTy).Contents (Elt F) → (⟨S3x200000x4x1, .f32⟩ : BufTy).Contents (Elt F)),
    StableHlo.binary main_v101 main_v100 main_v102 (mulf : (⟨S3x200000x4x1, .f32⟩ : BufTy).Contents (Elt F) → (⟨S3x200000x4x1, .f32⟩ : BufTy).Contents (Elt F) → (⟨S3x200000x4x1, .f32⟩ : BufTy).Contents (Elt F)),
    StableHlo.nullary main_cst_36 (constant S_ .f32 0x3F800000#32),
    StableHlo.unary main_cst_36 main_v103 (broadcastInDim S3x200000x4x1 ![] bcast_S_S3x200000x4x1 : (⟨S_, .f32⟩ : BufTy).Contents (Elt F) → (⟨S3x200000x4x1, .f32⟩ : BufTy).Contents (Elt F)),
    StableHlo.binary main_v102 main_v103 main_v104 (subf : (⟨S3x200000x4x1, .f32⟩ : BufTy).Contents (Elt F) → (⟨S3x200000x4x1, .f32⟩ : BufTy).Contents (Elt F) → (⟨S3x200000x4x1, .f32⟩ : BufTy).Contents (Elt F)),
    StableHlo.binary main_v104 main_v97 main_v105 (Host.divf : (⟨S3x200000x4x1, .f32⟩ : BufTy).Contents (Elt F) → (⟨S3x200000x4x1, .f32⟩ : BufTy).Contents (Elt F) → (⟨S3x200000x4x1, .f32⟩ : BufTy).Contents (Elt F)),
    StableHlo.unary main_v105 main_v106 (broadcastInDim S3x200000x4x2 ![0, 1, 2, 3] bcast_S3x200000x4x1_S3x200000x4x2_0_1_2_3 : (⟨S3x200000x4x1, .f32⟩ : BufTy).Contents (Elt F) → (⟨S3x200000x4x2, .f32⟩ : BufTy).Contents (Elt F)),
    StableHlo.binary main_v106 main_v93 main_v107 (mulf : (⟨S3x200000x4x2, .f32⟩ : BufTy).Contents (Elt F) → (⟨S3x200000x4x2, .f32⟩ : BufTy).Contents (Elt F) → (⟨S3x200000x4x2, .f32⟩ : BufTy).Contents (Elt F)),
    StableHlo.TRef.unary (.of main_v99 : StableHlo.TRef sig ⟨S3x200000x4x1, .i1⟩) (.of main_call1_v0 : StableHlo.TRef sig ⟨S3x200000x4x2, .i1⟩) (broadcastInDim S3x200000x4x2 ![0, 1, 2, 3] bcast_S3x200000x4x1_S3x200000x4x2_0_1_2_3),
    StableHlo.TRef.ternary (.of main_call1_v0 : StableHlo.TRef sig ⟨S3x200000x4x2, .i1⟩) (.of main_v93 : StableHlo.TRef sig ⟨S3x200000x4x2, .f32⟩) (.of main_v107 : StableHlo.TRef sig ⟨S3x200000x4x2, .f32⟩) (.of main_v108 : StableHlo.TRef sig ⟨S3x200000x4x2, .f32⟩) select,
    StableHlo.nullary main_cst_37 (constant S_ .f32 0x3F000000#32),
    StableHlo.unary main_cst_37 main_v109 (broadcastInDim S3x200000x4x2 ![] bcast_S_S3x200000x4x2 : (⟨S_, .f32⟩ : BufTy).Contents (Elt F) → (⟨S3x200000x4x2, .f32⟩ : BufTy).Contents (Elt F)),
    StableHlo.binary main_v108 main_v109 main_v110 (mulf : (⟨S3x200000x4x2, .f32⟩ : BufTy).Contents (Elt F) → (⟨S3x200000x4x2, .f32⟩ : BufTy).Contents (Elt F) → (⟨S3x200000x4x2, .f32⟩ : BufTy).Contents (Elt F)) ]

set_option maxHeartbeats 40000000 in
/-- Its last 27 operations: the coordinate columns and the pixel coordinates' arithmetic. -/
abbrev ops5b : List (HloOp τ sig (Elt F)) :=
  [ StableHlo.unary main_v110 main_v111 ((extractStridedSlice S3x200000x4x1 ![0, 0, 0, 0] · slices_S3x200000x4x2_S3x200000x4x1_0_0_0_0) : (⟨S3x200000x4x2, .f32⟩ : BufTy).Contents (Elt F) → (⟨S3x200000x4x1, .f32⟩ : BufTy).Contents (Elt F)),
    StableHlo.reshape main_v111 main_v112 rfl shapeCasts_S3x200000x4x1_S3x200000x4,
    StableHlo.unary main_v110 main_v113 ((extractStridedSlice S3x200000x4x1 ![0, 0, 0, 1] · slices_S3x200000x4x2_S3x200000x4x1_0_0_0_1) : (⟨S3x200000x4x2, .f32⟩ : BufTy).Contents (Elt F) → (⟨S3x200000x4x1, .f32⟩ : BufTy).Contents (Elt F)),
    StableHlo.reshape main_v113 main_v114 rfl shapeCasts_S3x200000x4x1_S3x200000x4,
    StableHlo.nullary main_cst_38 (constant S_ .f32 0x3F800000#32),
    StableHlo.unary main_cst_38 main_v115 (broadcastInDim S3x200000x4 ![] bcast_S_S3x200000x4 : (⟨S_, .f32⟩ : BufTy).Contents (Elt F) → (⟨S3x200000x4, .f32⟩ : BufTy).Contents (Elt F)),
    StableHlo.binary main_v112 main_v115 main_v116 (addf : (⟨S3x200000x4, .f32⟩ : BufTy).Contents (Elt F) → (⟨S3x200000x4, .f32⟩ : BufTy).Contents (Elt F) → (⟨S3x200000x4, .f32⟩ : BufTy).Contents (Elt F)),
    StableHlo.nullary main_cst_39 (constant S_ .f32 0x44000000#32),
    StableHlo.unary main_cst_39 main_v117 (broadcastInDim S3x200000x4 ![] bcast_S_S3x200000x4 : (⟨S_, .f32⟩ : BufTy).Contents (Elt F) → (⟨S3x200000x4, .f32⟩ : BufTy).Contents (Elt F)),
    StableHlo.binary main_v116 main_v117 main_v118 (mulf : (⟨S3x200000x4, .f32⟩ : BufTy).Contents (Elt F) → (⟨S3x200000x4, .f32⟩ : BufTy).Contents (Elt F) → (⟨S3x200000x4, .f32⟩ : BufTy).Contents (Elt F)),
    StableHlo.nullary main_cst_40 (constant S_ .f32 0x3F800000#32),
    StableHlo.unary main_cst_40 main_v119 (broadcastInDim S3x200000x4 ![] bcast_S_S3x200000x4 : (⟨S_, .f32⟩ : BufTy).Contents (Elt F) → (⟨S3x200000x4, .f32⟩ : BufTy).Contents (Elt F)),
    StableHlo.binary main_v118 main_v119 main_v120 (subf : (⟨S3x200000x4, .f32⟩ : BufTy).Contents (Elt F) → (⟨S3x200000x4, .f32⟩ : BufTy).Contents (Elt F) → (⟨S3x200000x4, .f32⟩ : BufTy).Contents (Elt F)),
    StableHlo.nullary main_cst_41 (constant S_ .f32 0x3F000000#32),
    StableHlo.unary main_cst_41 main_v121 (broadcastInDim S3x200000x4 ![] bcast_S_S3x200000x4 : (⟨S_, .f32⟩ : BufTy).Contents (Elt F) → (⟨S3x200000x4, .f32⟩ : BufTy).Contents (Elt F)),
    StableHlo.binary main_v120 main_v121 main_v122 (mulf : (⟨S3x200000x4, .f32⟩ : BufTy).Contents (Elt F) → (⟨S3x200000x4, .f32⟩ : BufTy).Contents (Elt F) → (⟨S3x200000x4, .f32⟩ : BufTy).Contents (Elt F)),
    StableHlo.nullary main_cst_42 (constant S_ .f32 0x3F800000#32),
    StableHlo.unary main_cst_42 main_v123 (broadcastInDim S3x200000x4 ![] bcast_S_S3x200000x4 : (⟨S_, .f32⟩ : BufTy).Contents (Elt F) → (⟨S3x200000x4, .f32⟩ : BufTy).Contents (Elt F)),
    StableHlo.binary main_v114 main_v123 main_v124 (addf : (⟨S3x200000x4, .f32⟩ : BufTy).Contents (Elt F) → (⟨S3x200000x4, .f32⟩ : BufTy).Contents (Elt F) → (⟨S3x200000x4, .f32⟩ : BufTy).Contents (Elt F)),
    StableHlo.nullary main_cst_43 (constant S_ .f32 0x44000000#32),
    StableHlo.unary main_cst_43 main_v125 (broadcastInDim S3x200000x4 ![] bcast_S_S3x200000x4 : (⟨S_, .f32⟩ : BufTy).Contents (Elt F) → (⟨S3x200000x4, .f32⟩ : BufTy).Contents (Elt F)),
    StableHlo.binary main_v124 main_v125 main_v126 (mulf : (⟨S3x200000x4, .f32⟩ : BufTy).Contents (Elt F) → (⟨S3x200000x4, .f32⟩ : BufTy).Contents (Elt F) → (⟨S3x200000x4, .f32⟩ : BufTy).Contents (Elt F)),
    StableHlo.nullary main_cst_44 (constant S_ .f32 0x3F800000#32),
    StableHlo.unary main_cst_44 main_v127 (broadcastInDim S3x200000x4 ![] bcast_S_S3x200000x4 : (⟨S_, .f32⟩ : BufTy).Contents (Elt F) → (⟨S3x200000x4, .f32⟩ : BufTy).Contents (Elt F)),
    StableHlo.binary main_v126 main_v127 main_v128 (subf : (⟨S3x200000x4, .f32⟩ : BufTy).Contents (Elt F) → (⟨S3x200000x4, .f32⟩ : BufTy).Contents (Elt F) → (⟨S3x200000x4, .f32⟩ : BufTy).Contents (Elt F)),
    StableHlo.nullary main_cst_45 (constant S_ .f32 0x3F000000#32),
    StableHlo.unary main_cst_45 main_v129 (broadcastInDim S3x200000x4 ![] bcast_S_S3x200000x4 : (⟨S_, .f32⟩ : BufTy).Contents (Elt F) → (⟨S3x200000x4, .f32⟩ : BufTy).Contents (Elt F)) ]

set_option maxHeartbeats 40000000 in
/-- The stretch is its two parts in order. -/
theorem ops5_split : (ops5 : List (HloOp τ sig (Elt F))) = ops5a ++ ops5b := rfl

end Cert.ReferenceIdeal.HandRead

end
-- ==== Proof.RefRead.Tail.lean ====
/-
  The reference's operations after the normalised coordinates, read back in one pass: from any buffer
  contents V, the result buffer after them holds the four-corner sampling (the stage OUT) of the planes and the
  coordinates that V holds.
-/
import proofs.«162729_j22162031247387_1_alg».proof.Proof.RefRead.Stages
import proofs.«162729_j22162031247387_1_alg».proof.Proof.RefRead.Split
import Idealize.ShloMosaic.Lib.StableHlo.Run

set_option maxRecDepth 8192

noncomputable section

namespace Cert.ReferenceIdeal.HandRead

open Cert.ReferenceIdeal Cert.ReferenceIdeal.Gen Cert.ReferenceIdeal.Hand Idealize.ShloMosaic Idealize.SL.Sem

variable {F : FTy → Type} [FloatOps F]

set_option maxHeartbeats 40000000 in
/-- Every operation's result at its own buffer is its function of its operands' contents and every other buffer
    is untouched; composed over the stretches, the result buffer holds OUT of the planes and the coordinates. -/
theorem tail_read (V : Valuation τ sig (Elt F)) :
    StableHlo.after (ops15 (F := F)) (StableHlo.after (ops14 (F := F)) (StableHlo.after (ops13 (F := F)) (StableHlo.after (ops12 (F := F)) (StableHlo.after (ops11 (F := F)) (StableHlo.after (ops10 (F := F)) (StableHlo.after (ops9 (F := F)) (StableHlo.after (ops8 (F := F)) (StableHlo.after (ops7 (F := F)) (StableHlo.after (ops6 (F := F)) (StableHlo.after (ops5b (F := F)) V)))))))))) (Proc.devRef .tc main_v295)
      = OUT (F := F) (V (Proc.devRef .tc main_arg3)) (V (Proc.devRef .tc main_v110)) := by
  simp only [ops5b, ops6, ops7, ops8, ops9, ops10, ops11, ops12, ops13, ops14, ops15]
  after_results_simp
  rfl

end Cert.ReferenceIdeal.HandRead

end
-- ==== Proof.NcStages.lean ====
/-
  The normalised sampling coordinates, as named array functions of the three argument arrays.

  A point p (three coordinates, scaled by 2) is projected on the three coordinate planes: plane 0 keeps the
  coordinates (1, 2), plane 1 keeps (0, 2), plane 2 keeps (0, 1). Each plane has a scale: the square root of
  the smallest of |lo|², |hi|² and 1/4, where lo and hi are the plane's two-vectors read off the two bound
  arrays at the planes' coordinate pairs (0, 1), (0, 2), (2, 0). A projected point is divided by its plane's
  scale, mapped by u ↦ (2u − 1)·6, contracted (a point of squared norm r² > 1 is multiplied by
  (2·√r² − 1)/r², r² kept at least 2⁻²³), and halved. Every stage is one host operation, or the few that
  build an index column, in the order the two programs run them; nothing is simplified.
-/
import Idealize.ShloMosaic.PureOps

noncomputable section

namespace Cert.Nc

open Idealize.ShloMosaic

variable {F : FTy → Type} [FloatOps F]

/-! ## Shapes and their relations -/

abbrev S200000x4x3 : Shape := ⟨3, ![200000, 4, 3]⟩
abbrev S3 : Shape := ⟨1, ![3]⟩
abbrev S2 : Shape := ⟨1, ![2]⟩
abbrev S_ : Shape := ⟨0, ![]⟩
abbrev S2x1 : Shape := ⟨2, ![2, 1]⟩
abbrev S1x2 : Shape := ⟨2, ![1, 2]⟩
abbrev S3x2 : Shape := ⟨2, ![3, 2]⟩
abbrev S200000x4x2 : Shape := ⟨3, ![200000, 4, 2]⟩
abbrev S1x200000x4x2 : Shape := ⟨4, ![1, 200000, 4, 2]⟩
abbrev S3x200000x4x2 : Shape := ⟨4, ![3, 200000, 4, 2]⟩
abbrev S3x1x1x1 : Shape := ⟨4, ![3, 1, 1, 1]⟩
abbrev S3x200000x4 : Shape := ⟨3, ![3, 200000, 4]⟩
abbrev S3x200000x4x1 : Shape := ⟨4, ![3, 200000, 4, 1]⟩

/-- Float, 32-bit integer and truth-value arrays of a shape. -/
abbrev CF (s : Shape) : Type := (⟨s, .f32⟩ : BufTy).Contents (Elt F)
abbrev CI (s : Shape) : Type := (⟨s, .i32⟩ : BufTy).Contents (Elt F)
abbrev CB (s : Shape) : Type := (⟨s, .i1⟩ : BufTy).Contents (Elt F)

theorem bcast_S_S2 : S_.BroadcastsInDim S2 (![] : Fin 0 → Fin S2.rank) := by decide
theorem bcast_S2_S2x1_0 : S2.BroadcastsInDim S2x1 (![0] : Fin 1 → Fin S2x1.rank) := by decide
theorem bcast_S2_S1x2_1 : S2.BroadcastsInDim S1x2 (![1] : Fin 1 → Fin S1x2.rank) := by decide
theorem concatenates_S3x2 : Shape.Concatenates [S1x2, S1x2, S1x2] S3x2 0 := by decide
theorem reducesTo_S3x2_S3_d1 : S3x2.ReducesTo [1] S3 := by decide
theorem h_S_ : 0 < S_.numel := by decide
theorem bcast_S_S3 : S_.BroadcastsInDim S3 (![] : Fin 0 → Fin S3.rank) := by decide
theorem bcast_S_S200000x4x3 : S_.BroadcastsInDim S200000x4x3 (![] : Fin 0 → Fin S200000x4x3.rank) := by decide
theorem bcast_S200000x4x2_S1x200000x4x2 : S200000x4x2.BroadcastsInDim S1x200000x4x2 (![1, 2, 3] : Fin 3 → Fin S1x200000x4x2.rank) := by decide
theorem concatenates_S3x200000x4x2 : Shape.Concatenates [S1x200000x4x2, S1x200000x4x2, S1x200000x4x2] S3x200000x4x2 0 := by decide
theorem bcast_S3_S3x1x1x1_0 : S3.BroadcastsInDim S3x1x1x1 (![0] : Fin 1 → Fin S3x1x1x1.rank) := by decide
theorem bcast_S3x1x1x1_S3x200000x4x2 : S3x1x1x1.BroadcastsInDim S3x200000x4x2 (![0, 1, 2, 3] : Fin 4 → Fin S3x200000x4x2.rank) := by decide
theorem bcast_S_S3x200000x4x2 : S_.BroadcastsInDim S3x200000x4x2 (![] : Fin 0 → Fin S3x200000x4x2.rank) := by decide
theorem reducesTo_S3x200000x4x2_S3x200000x4_d3 : S3x200000x4x2.ReducesTo [3] S3x200000x4 := by decide
theorem bcast_S3x200000x4_S3x200000x4x1 : S3x200000x4.BroadcastsInDim S3x200000x4x1 (![0, 1, 2] : Fin 3 → Fin S3x200000x4x1.rank) := by decide
theorem bcast_S_S3x200000x4x1 : S_.BroadcastsInDim S3x200000x4x1 (![] : Fin 0 → Fin S3x200000x4x1.rank) := by decide
theorem bcast_S3x200000x4x1_S3x200000x4x2 : S3x200000x4x1.BroadcastsInDim S3x200000x4x2 (![0, 1, 2, 3] : Fin 4 → Fin S3x200000x4x2.rank) := by decide
theorem gatherVec_wf : GatherDims.WF S3 S2x1 S2 [] [0] [] [0] [] 1 ![1] := by decide
theorem gatherPts_wf : GatherDims.WF S200000x4x3 S2x1 S200000x4x2 [0, 1] [2] [] [2] [] 1 ![200000, 4, 1] := by decide

/-- Two entries of a three-vector, picked by a column of two indices. -/
def gatherVec : GatherDims S3 S2x1 S2 where
  offsetDims := []
  collapsedSliceDims := [0]
  operandBatchingDims := []
  startIndicesBatchingDims := []
  startIndexMap := [0]
  indexVectorDim := 1
  sliceSizes := ![1]
  wf := gatherVec_wf
/-- Two coordinates of every point, picked by a column of two indices. -/
def gatherPts : GatherDims S200000x4x3 S2x1 S200000x4x2 where
  offsetDims := [0, 1]
  collapsedSliceDims := [2]
  operandBatchingDims := []
  startIndicesBatchingDims := []
  startIndexMap := [2]
  indexVectorDim := 1
  sliceSizes := ![200000, 4, 1]
  wf := gatherPts_wf

/-! ## The coordinate pairs -/

abbrev t01 : Fin 2 → BitVec 32 := fun
  | 0 => 0#32 | 1 => 1#32
  | _ => 0#32
abbrev t02 : Fin 2 → BitVec 32 := fun
  | 0 => 0#32 | 1 => 2#32
  | _ => 0#32
abbrev t20 : Fin 2 → BitVec 32 := fun
  | 0 => 2#32 | 1 => 0#32
  | _ => 0#32
abbrev t12 : Fin 2 → BitVec 32 := fun
  | 0 => 1#32 | 1 => 2#32
  | _ => 0#32

/-- A coordinate pair as an array of two indices. -/
def tab (t : Fin 2 → BitVec 32) : CI (F := F) S2 := fun i => t (S2.rowMajor i)

/-- The pair as a gather's index column: a negative index is counted from the end (3 is added), then the
    two indices become a 2 × 1 column. -/
def idxCol (t : Fin 2 → BitVec 32) : CI (F := F) S2x1 :=
  broadcastInDim S2x1 ![0] bcast_S2_S2x1_0
    (select (cmpi .slt (tab (F := F) t) (broadcastInDim S2 ![] bcast_S_S2 (constantI S_ 32 0#32)))
      (addi (tab (F := F) t) (broadcastInDim S2 ![] bcast_S_S2 (constantI S_ 32 3#32))) (tab (F := F) t))

/-! ## The planes' scales -/

/-- Three rows of two entries, stacked. -/
def cat3_S3x2 (a b c : CF (F := F) S1x2) : CF (F := F) S3x2 :=
  concatenate S3x2 0 [⟨S1x2, a⟩, ⟨S1x2, b⟩, ⟨S1x2, c⟩] concatenates_S3x2

/-- One plane's pair of entries of a bound array, as a 1 × 2 row. -/
def row (t : Fin 2 → BitVec 32) (A : CF (F := F) S3) : CF (F := F) S1x2 :=
  broadcastInDim S1x2 ![1] bcast_S2_S1x2_1 (Host.gather gatherVec A (idxCol (F := F) t))

/-- The three planes' two-vectors of a bound array. -/
def vec3 (A : CF (F := F) S3) : CF (F := F) S3x2 :=
  cat3_S3x2 (row t01 A) (row t02 A) (row t20 A)

/-- Their squared norms. -/
def sq3 (A : CF (F := F) S3) : CF (F := F) S3 :=
  Host.reduceAdd (mulf (vec3 A) (vec3 A)) (constant (F := F) S_ .f32 0x00000000#32) reducesTo_S3x2_S3_d1 h_S_

/-- Per plane: the smallest of the two bounds' squared norms and 1/4. -/
def minSq (A1 A2 : CF (F := F) S3) : CF (F := F) S3 :=
  minimumf (minimumf (sq3 A1) (sq3 A2)) (broadcastInDim S3 ![] bcast_S_S3 (constant (F := F) S_ .f32 0x3E800000#32))

/-- The planes' scales, one per entry of the coordinate array. -/
def scale (A1 A2 : CF (F := F) S3) : CF (F := F) S3x200000x4x2 :=
  broadcastInDim S3x200000x4x2 ![0, 1, 2, 3] bcast_S3x1x1x1_S3x200000x4x2
    (broadcastInDim S3x1x1x1 ![0] bcast_S3_S3x1x1x1_0 (Host.sqrt (minSq A1 A2)))

/-! ## The projected points -/

/-- The points, doubled. -/
def dbl (A0 : CF (F := F) S200000x4x3) : CF (F := F) S200000x4x3 :=
  mulf (broadcastInDim S200000x4x3 ![] bcast_S_S200000x4x3 (constant (F := F) S_ .f32 0x40000000#32)) A0

/-- One plane's two coordinates of every doubled point, with a leading axis of length one. -/
def plane (t : Fin 2 → BitVec 32) (A0 : CF (F := F) S200000x4x3) : CF (F := F) S1x200000x4x2 :=
  broadcastInDim S1x200000x4x2 ![1, 2, 3] bcast_S200000x4x2_S1x200000x4x2 (Host.gather gatherPts (dbl A0) (idxCol (F := F) t))

/-- Three such arrays, stacked. -/
def cat3_S3x200000x4x2 (a b c : CF (F := F) S1x200000x4x2) : CF (F := F) S3x200000x4x2 :=
  concatenate S3x200000x4x2 0 [⟨S1x200000x4x2, a⟩, ⟨S1x200000x4x2, b⟩, ⟨S1x200000x4x2, c⟩] concatenates_S3x200000x4x2

/-- The three planes' projections of the doubled points. -/
def proj (A0 : CF (F := F) S200000x4x3) : CF (F := F) S3x200000x4x2 :=
  cat3_S3x200000x4x2 (plane t12 A0) (plane t02 A0) (plane t01 A0)

/-- A float word at every entry of the coordinate array, and of its one-column companion. -/
def fill2 (w : BitVec 32) : CF (F := F) S3x200000x4x2 :=
  broadcastInDim S3x200000x4x2 ![] bcast_S_S3x200000x4x2 (constant (F := F) S_ .f32 w)
def fill1 (w : BitVec 32) : CF (F := F) S3x200000x4x1 :=
  broadcastInDim S3x200000x4x1 ![] bcast_S_S3x200000x4x1 (constant (F := F) S_ .f32 w)

/-- The scaled coordinates ((p / scale)·2 − 1)·6. -/
def scaled (A0 : CF (F := F) S200000x4x3) (A1 A2 : CF (F := F) S3) : CF (F := F) S3x200000x4x2 :=
  mulf (subf (mulf (Host.divf (proj A0) (scale A1 A2)) (fill2 0x40000000#32)) (fill2 0x3F800000#32)) (fill2 0x40C00000#32)

/-! ## The contraction -/

/-- A point's squared norm, kept at least 2⁻²³, as a column. -/
def normSq (A0 : CF (F := F) S200000x4x3) (A1 A2 : CF (F := F) S3) : CF (F := F) S3x200000x4x1 :=
  maximumf (fill1 0x34000000#32)
    (broadcastInDim S3x200000x4x1 ![0, 1, 2] bcast_S3x200000x4_S3x200000x4x1
      (Host.reduceAdd (mulf (scaled A0 A1 A2) (scaled A0 A1 A2)) (constant (F := F) S_ .f32 0x00000000#32)
        reducesTo_S3x200000x4x2_S3x200000x4_d3 h_S_))

/-- Whether the squared norm is at most 1. -/
def isNear (A0 : CF (F := F) S200000x4x3) (A1 A2 : CF (F := F) S3) : CB (F := F) S3x200000x4x1 :=
  cmpf .ole (normSq A0 A1 A2) (fill1 0x3F800000#32)

/-- The far points' factor (2·√r² − 1)/r². -/
def farFactor (A0 : CF (F := F) S200000x4x3) (A1 A2 : CF (F := F) S3) : CF (F := F) S3x200000x4x1 :=
  Host.divf (subf (mulf (fill1 0x40000000#32) (Host.sqrt (normSq A0 A1 A2))) (fill1 0x3F800000#32)) (normSq A0 A1 A2)

/-- The contracted coordinates: a near point as it is, a far point times its factor. -/
def contracted (A0 : CF (F := F) S200000x4x3) (A1 A2 : CF (F := F) S3) : CF (F := F) S3x200000x4x2 :=
  select (broadcastInDim S3x200000x4x2 ![0, 1, 2, 3] bcast_S3x200000x4x1_S3x200000x4x2 (isNear A0 A1 A2))
    (scaled A0 A1 A2)
    (mulf (broadcastInDim S3x200000x4x2 ![0, 1, 2, 3] bcast_S3x200000x4x1_S3x200000x4x2 (farFactor A0 A1 A2)) (scaled A0 A1 A2))

/-- The normalised coordinates: the contracted ones, halved. -/
def nc (A0 : CF (F := F) S200000x4x3) (A1 A2 : CF (F := F) S3) : CF (F := F) S3x200000x4x2 :=
  mulf (contracted A0 A1 A2) (fill2 0x3F000000#32)

end Cert.Nc

end
-- ==== Proof.LibNary3.lean ====
/-
  A StableHLO operation of three operands (a concatenate of three tensors) read at its result buffer with
  each operand's contents at its own literal reference, so that a fold of operations can go on being
  rewritten through the operands; and the simp set that reads a whole straight line of host operations
  in one pass.
-/
import Idealize.ShloMosaic.Lib.StableHlo.Run

noncomputable section

namespace Idealize.ShloMosaic.StableHlo

variable {τ : Topo} {sig : RefSig} {Val : EltTy → Type}
variable {x a b y : Ref sig .tc}

/-- The three operands as a family over `Fin 3`, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for `simp` on the operation alone. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One pass over a fold of host operations: each result at its own buffer is the operation's function of its
    operands' contents, every other buffer is what it was; a three-operand operation is read through its operands. -/
macro "after_results_simp3" : tactic =>
  `(tactic| (simp (disch := decide) only [after_cons, after_nil,
      nullary_result', unary_result', binary_result', ternary_result', quaternary_result', reshape_result', nary3_result', nary4_result',
      nary_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRead.Pre.lean ====
/-
  The reference's operations up to the normalised coordinates, read back in one pass: from the launch
  contents X, the coordinates' buffer after them holds the shared normalisation Cert.Nc.nc of the three coordinate
  arguments, and the planes' buffer is untouched.
-/
import proofs.«162729_j22162031247387_1_alg».proof.Proof.RefRead.Split
import proofs.«162729_j22162031247387_1_alg».proof.Proof.NcStages
import proofs.«162729_j22162031247387_1_alg».proof.Proof.LibNary3
import Idealize.ShloMosaic.Lib.StableHlo.Run

set_option maxRecDepth 8192

noncomputable section

namespace Cert.ReferenceIdeal.HandRead

open Cert.ReferenceIdeal Cert.ReferenceIdeal.Gen Cert.ReferenceIdeal.Hand Idealize.ShloMosaic Idealize.SL.Sem

variable {F : FTy → Type} [FloatOps F]

set_option maxHeartbeats 40000000 in
/-- The coordinates' buffer after the first six stretches (the sixth up to the coordinates): the normalisation of the
    three coordinate arguments, operation for operation. -/
theorem pre_read (X : Valuation τ sig (Elt F)) :
    StableHlo.after (ops5a (F := F)) (StableHlo.after (ops4 (F := F)) (StableHlo.after (ops3 (F := F)) (StableHlo.after (ops2 (F := F)) (StableHlo.after (ops1 (F := F)) (StableHlo.after (ops0 (F := F)) X))))) (Proc.devRef .tc main_v110)
      = Cert.Nc.nc (F := F) (X (Proc.devRef .tc main_arg0)) (X (Proc.devRef .tc main_arg1)) (X (Proc.devRef .tc main_arg2)) := by
  simp only [ops0, ops1, ops2, ops3, ops4, ops5a]
  after_results_simp3
  rfl

set_option maxHeartbeats 40000000 in
/-- None of those operations writes the planes. -/
theorem pre_keep (X : Valuation τ sig (Elt F)) :
    StableHlo.after (ops5a (F := F)) (StableHlo.after (ops4 (F := F)) (StableHlo.after (ops3 (F := F)) (StableHlo.after (ops2 (F := F)) (StableHlo.after (ops1 (F := F)) (StableHlo.after (ops0 (F := F)) X))))) (Proc.devRef .tc main_arg3) = X (Proc.devRef .tc main_arg3) := by
  simp only [ops0, ops1, ops2, ops3, ops4, ops5a]
  after_results_simp3

end Cert.ReferenceIdeal.HandRead

end
-- ==== Proof.Spec.lean ====
/-
  Bilinear sampling of a 512 × 512 plane at a normalised point (gx, gy), written twice, as scalar functions on
  the extended reals, and the whole result array as one function of the planes and the normalised coordinates.

  A normalised coordinate g has the pixel coordinate pix g = ((g + 1) · 512 − 1) / 2; its lower neighbour is
  flo g = ⌊pix g⌋ and the two neighbours' weights are wHi g = pix g − flo g (upper) and wLo g = 1 − wHi g (lower).

  * kSample: the one-hot form. Row weights hot gy h and column weights hot gx w are each the sum of the two
    neighbours' weights placed at the lanes equal to the neighbours' 32-bit cells (a neighbour outside 0 … 511
    meets no lane), and the sample is the contraction  ∑ w, (∑ h, hot gy h · feat h w) · hot gx w.
  * rSample: the four-corner form. Each corner reads the plane at the corner's cell clipped into 0 … 511,
    multiplies by 1 or 0 according to whether the unclipped corner lies inside the plane, then by the product of
    the corner's two weights; the four corners are added left to right.
  The float literals stay as their binary words (1, 512, 1/2, 0, 511).
-/
import Idealize.ShloMosaic.PureOps.Ideal
import Idealize.ShloMosaic.Lib.ValueIdx

noncomputable section

open scoped BigOperators

namespace Cert.Sample

open Idealize.ShloMosaic Idealize.ShloMosaic.ValueIdx

abbrev c1 : EReal := Ideal.ofBits .f32 0x3F800000#32
abbrev c512 : EReal := Ideal.ofBits .f32 0x44000000#32
abbrev cHalf : EReal := Ideal.ofBits .f32 0x3F000000#32
abbrev c0 : EReal := Ideal.ofBits .f32 0x00000000#32
abbrev c511 : EReal := Ideal.ofBits .f32 0x43FF8000#32

/-- The pixel coordinate of a normalised coordinate. -/
def pix (g : EReal) : EReal := ((g + c1) * c512 - c1) * cHalf
/-- The lower neighbour's coordinate. -/
def flo (g : EReal) : EReal := Ideal.liftRound Int.floor (pix g)
/-- The upper neighbour's weight. -/
def wHi (g : EReal) : EReal := pix g - flo g
/-- The lower neighbour's weight. -/
def wLo (g : EReal) : EReal := c1 - wHi g

/-! ## The one-hot form -/

/-- The lower neighbour's cell as a 32-bit word. -/
def cell (g : EReal) : BitVec 32 := Ideal.fptosi 32 (flo g)
/-- 1 when lane j carries the word b, else 0. -/
def hit (j : Fin 512) (b : BitVec 32) : EReal :=
  ((((IntOp.cmpi .eq (BitVec.ofNat 32 j.val) b).setWidth 32).toInt : ℝ) : EReal)
/-- The weight row of a coordinate: the two neighbours' weights at their lanes. -/
def hot (g : EReal) (j : Fin 512) : EReal :=
  wLo g * hit j (cell g) + wHi g * hit j (IntOp.addi (cell g) 1#32)
/-- The sample as a contraction of the plane with the two weight rows. -/
def kSample (feat : Fin 512 → Fin 512 → EReal) (gx gy : EReal) : EReal :=
  ∑ w : Fin 512, (∑ h : Fin 512, hot gy h * feat h w) * hot gx w

/-! ## The four-corner form -/

/-- 1 when the corner (x, y) lies inside the plane, else 0. -/
def inside (x y : EReal) : EReal :=
  ((((IntOp.andi (IntOp.andi (IntOp.andi (Ideal.cmp .oge x c0) (Ideal.cmp .ole x c511)) (Ideal.cmp .oge y c0))
    (Ideal.cmp .ole y c511)).toNat : ℝ)) : EReal)
/-- A coordinate clipped into 0 … 511 and converted to a 32-bit word. -/
def conv (x : EReal) : BitVec 32 :=
  Ideal.fptosi 32 (min ((((511#32 : BitVec 32).toInt : ℝ)) : EReal) (max ((((0#32 : BitVec 32).toInt : ℝ)) : EReal) x))
/-- The same with a negative word wrapped by the extent (never taken: the word is already in range). -/
def clipIx (x : EReal) : BitVec 32 :=
  Scalar.select (IntOp.cmpi .slt (conv x) 0#32) (IntOp.addi (conv x) 512#32) (conv x)
/-- The cell a start word names: read signed, clamped into 0 … 511. -/
def cellOf (b : BitVec 32) : Fin 512 := ⟨min b.toInt.toNat 511, by omega⟩
/-- One corner's contribution. -/
def corner (feat : Fin 512 → Fin 512 → EReal) (x y wx wy : EReal) : EReal :=
  (feat (cellOf (clipIx y)) (cellOf (clipIx x)) * inside x y) * (wx * wy)
/-- The sample as the sum of its four corners. -/
def rSample (feat : Fin 512 → Fin 512 → EReal) (gx gy : EReal) : EReal :=
  ((corner feat (flo gx) (flo gy) (wLo gx) (wLo gy)
      + corner feat (flo gx + c1) (flo gy) (wHi gx) (wLo gy))
    + corner feat (flo gx) (flo gy + c1) (wLo gx) (wHi gy))
  + corner feat (flo gx + c1) (flo gy + c1) (wHi gx) (wHi gy)

/-! ## The result array -/

/-- Entry (n, q) of the result, q = 96·k + 32·a + c: plane a's channel c sampled at the point (n, k)'s
    normalised coordinates on that plane. -/
def sampled (smp : (Fin 512 → Fin 512 → EReal) → EReal → EReal → EReal)
    (planes : (⟨4, ![3, 32, 512, 512]⟩ : Shape).Idx → EReal) (nc : (⟨4, ![3, 200000, 4, 2]⟩ : Shape).Idx → EReal) :
    (⟨2, ![200000, 384]⟩ : Shape).Idx → EReal := fun i =>
  let n : Fin 200000 := i 0
  let k : Fin 4 := ⟨(i 1).val / 96, Nat.div_lt_of_lt_mul (show (i 1).val < 96 * 4 from (i 1).isLt)⟩
  let a : Fin 3 := ⟨(i 1).val % 96 / 32, Nat.div_lt_of_lt_mul (show (i 1).val % 96 < 32 * 3 from Nat.mod_lt _ (by decide))⟩
  let c : Fin 32 := ⟨(i 1).val % 32, Nat.mod_lt _ (by decide)⟩
  smp (fun h w => planes (ix4 a c h w)) (nc (ix4 a n k (0 : Fin 2))) (nc (ix4 a n k (1 : Fin 2)))

end Cert.Sample

end
-- ==== Proof.LibPlaneGather.lean ====
/-
  A batched plane gather read at an index.

  The operand is a stack of A planes, each with C channels of H × W cells; the start indices give, for every plane a
  and every point (n, k), a row word and a column word. The gather batches over the plane axis, keeps the channel axis
  whole and collapses the two cell axes, so result element (a, c, n, k) is the operand at plane a, channel c, and
  the cell whose row and column are the two start words of (a, n, k), each read signed and clamped into the plane.
-/
import Idealize.ShloMosaic.PureOps.Ideal
import Idealize.ShloMosaic.Lib.ValueIdx

noncomputable section

namespace Cert.LibPlaneGather

open Idealize.ShloMosaic Idealize.ShloMosaic.ValueIdx

variable {α : Type}

/-- Membership in a two-element list of axes, by the axes' numbers. -/
private theorem mem_pair {n : Nat} {x a b : Fin n} : x ∈ [a, b] ↔ x.val = a.val ∨ x.val = b.val := by
  simp [Fin.ext_iff]
/-- Membership in a one-element list of axes, by the axes' numbers. -/
private theorem mem_one {n : Nat} {x a : Fin n} : x ∈ [a] ↔ x.val = a.val := by
  simp [Fin.ext_iff]

/-- The dimension numbers: offset axis the channel axis, the two cell axes collapsed and named by the start index map,
    the plane axis batching on both sides, the index vector on the start indices' last axis, slices of one cell
    with every channel. -/
abbrev planeDims (A C H W N K : Nat)
    (wf : GatherDims.WF ⟨4, ![A, C, H, W]⟩ ⟨4, ![A, N, K, 2]⟩ ⟨4, ![A, C, N, K]⟩ [1] [2, 3] [0] [2, 3] [0] 3 ![1, C, 1, 1]) :
    GatherDims ⟨4, ![A, C, H, W]⟩ ⟨4, ![A, N, K, 2]⟩ ⟨4, ![A, C, N, K]⟩ where
  offsetDims := [1]
  collapsedSliceDims := [2, 3]
  operandBatchingDims := [0]
  startIndicesBatchingDims := [0]
  startIndexMap := [2, 3]
  indexVectorDim := 3
  sliceSizes := ![1, C, 1, 1]
  wf := wf

/-- THE GATHER READ AT (a, c, n, k): the operand at plane a, channel c, row the first start word of (a, n, k) and
    column the second, each read signed and clamped into its extent. -/
theorem planeGather_apply {A C H W N K w : Nat} (hH : 0 < H) (hW : 0 < W)
    (wf : GatherDims.WF ⟨4, ![A, C, H, W]⟩ ⟨4, ![A, N, K, 2]⟩ ⟨4, ![A, C, N, K]⟩ [1] [2, 3] [0] [2, 3] [0] 3 ![1, C, 1, 1])
    (x : (⟨4, ![A, C, H, W]⟩ : Shape).Idx → α) (idx : IVec ⟨4, ![A, N, K, 2]⟩ w)
    (a : Fin A) (c : Fin C) (n : Fin N) (k : Fin K) :
    Host.gather (planeDims A C H W N K wf) x idx (ix4 a c n k)
      = x (ix4 a c ⟨min (idx (ix4 a n k (0 : Fin 2))).toInt.toNat (H - 1), by omega⟩
                   ⟨min (idx (ix4 a n k (1 : Fin 2))).toInt.toNat (W - 1), by omega⟩) := by
  unfold Host.gather
  congr 1
  funext e
  refine Fin.ext ?_
  show (planeDims A C H W N K wf).start (ix4 a c n k) idx e + (planeDims A C H W N K wf).batchCoord (ix4 a c n k) e
      + (planeDims A C H W N K wf).offCoord (ix4 a c n k) e = _
  match e with
  | ⟨0, h0⟩ =>
    have hob : (⟨0, h0⟩ : Fin 4) ∈ (planeDims A C H W N K wf).operandBatchingDims := mem_one.2 rfl
    rw [GatherDims.start_batching _ _ _ _ hob,
      GatherDims.offCoord_eq_zero _ _ _ (fun h => ((GatherDims.mem_sKept _ _).mp h).2 hob)]
    simp only [Nat.zero_add, Nat.add_zero]
    unfold GatherDims.batchCoord
    rw [dif_pos hob]
    rfl
  | ⟨1, h1⟩ =>
    have hsm : (⟨1, h1⟩ : Fin 4) ∉ (planeDims A C H W N K wf).startIndexMap := fun h => by
      have h' : (1 : ℕ) = 2 ∨ (1 : ℕ) = 3 := mem_pair.1 h
      omega
    have hcd : (⟨1, h1⟩ : Fin 4) ∉ (planeDims A C H W N K wf).collapsedSliceDims := fun h => by
      have h' : (1 : ℕ) = 2 ∨ (1 : ℕ) = 3 := mem_pair.1 h
      omega
    have hob : (⟨1, h1⟩ : Fin 4) ∉ (planeDims A C H W N K wf).operandBatchingDims := fun h => by
      have h' : (1 : ℕ) = 0 := mem_one.1 h
      omega
    have hs : (planeDims A C H W N K wf).start (ix4 a c n k) idx ⟨1, h1⟩ = 0 := by
      unfold GatherDims.start; rw [dif_neg hsm]
    rw [hs, GatherDims.batchCoord_eq_zero _ _ _ hob]
    simp only [Nat.zero_add, Nat.add_zero]
    unfold GatherDims.offCoord
    rw [dif_pos ((GatherDims.mem_sKept _ _).2 ⟨hcd, hob⟩)]
    rfl
  | ⟨2, h2⟩ =>
    have hsm : (⟨2, h2⟩ : Fin 4) ∈ (planeDims A C H W N K wf).startIndexMap := mem_pair.2 (Or.inl rfl)
    have hcd : (⟨2, h2⟩ : Fin 4) ∈ (planeDims A C H W N K wf).collapsedSliceDims := mem_pair.2 (Or.inl rfl)
    have hob : (⟨2, h2⟩ : Fin 4) ∉ (planeDims A C H W N K wf).operandBatchingDims := fun h => by
      have h' : (2 : ℕ) = 0 := mem_one.1 h
      omega
    rw [GatherDims.batchCoord_eq_zero _ _ _ hob,
      GatherDims.offCoord_eq_zero _ _ _ (fun h => ((GatherDims.mem_sKept _ _).mp h).1 hcd)]
    simp only [Nat.add_zero]
    unfold GatherDims.start
    rw [dif_pos hsm]
    have hsi : (planeDims A C H W N K wf).siIdx (ix4 a c n k) ⟨List.idxOf (⟨2, h2⟩ : Fin 4) (planeDims A C H W N K wf).startIndexMap,
        List.idxOf_lt_length_iff.2 hsm⟩ = ix4 a n k (0 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨3, h3⟩ =>
    have hsm : (⟨3, h3⟩ : Fin 4) ∈ (planeDims A C H W N K wf).startIndexMap := mem_pair.2 (Or.inr rfl)
    have hcd : (⟨3, h3⟩ : Fin 4) ∈ (planeDims A C H W N K wf).collapsedSliceDims := mem_pair.2 (Or.inr rfl)
    have hob : (⟨3, h3⟩ : Fin 4) ∉ (planeDims A C H W N K wf).operandBatchingDims := fun h => by
      have h' : (3 : ℕ) = 0 := mem_one.1 h
      omega
    rw [GatherDims.batchCoord_eq_zero _ _ _ hob,
      GatherDims.offCoord_eq_zero _ _ _ (fun h => ((GatherDims.mem_sKept _ _).mp h).1 hcd)]
    simp only [Nat.add_zero]
    unfold GatherDims.start
    rw [dif_pos hsm]
    have hsi : (planeDims A C H W N K wf).siIdx (ix4 a c n k) ⟨List.idxOf (⟨3, h3⟩ : Fin 4) (planeDims A C H W N K wf).startIndexMap,
        List.idxOf_lt_length_iff.2 hsm⟩ = ix4 a n k (1 : Fin 2) := by
      funext b; refine Fin.ext ?_
      match b with
      | ⟨0, _⟩ => rfl
      | ⟨1, _⟩ => rfl
      | ⟨2, _⟩ => rfl
      | ⟨3, _⟩ => rfl
    rw [hsi]
    rfl

end Cert.LibPlaneGather

end
-- ==== Proof.RefRead.At.lean ====
/-
  The sampling stages read at an index, as the specification's scalar functions.

  At plane a, point n, neighbour set k the two normalised coordinates are gx = nc (a, n, k, 0) and gy = nc (a, n, k, 1).
  Every rank-3 stage at (a, n, k) is a scalar function of them: the pixel coordinates pix, the lower neighbours flo,
  the weights wHi and wLo, each corner's inside flag and its clipped and wrapped words. Each corner's start
  indices at (a, n, k, 0) and (a, n, k, 1) are its row and column words, the batched gather at (a, c, n, k) is the
  plane's cell they name, and the corner's contribution is the specification's corner. The result at (n, q),
  q = 96·k + 32·a + c, is the sum of the four corners at (a, c, n, k): the four-corner form rSample.
-/
import proofs.«162729_j22162031247387_1_alg».proof.Proof.RefRead.Stages
import proofs.«162729_j22162031247387_1_alg».proof.Proof.Spec
import proofs.«162729_j22162031247387_1_alg».proof.Proof.LibPlaneGather
import Idealize.ShloMosaic.Lib.Pipeline.Value
import Idealize.ShloMosaic.Lib.ValueIdx

set_option maxRecDepth 8192

noncomputable section

namespace Cert.ReferenceIdeal.HandRead

open Cert.ReferenceIdeal Cert.ReferenceIdeal.Gen Cert.ReferenceIdeal.Hand Idealize.ShloMosaic Idealize.SL.Sem
open Idealize.ShloMosaic.ValueIdx Cert.Sample

variable (P : CF (F := Ideal) S3x32x512x512) (nc : CF (F := Ideal) S3x200000x4x2)
variable (a : Fin 3) (n : Fin 200000) (k : Fin 4) (c : Fin 32)

/-! ## The layout steps at an index -/

/-- A column of the coordinate array, reshaped to rank 3, at (a, n, k): the coordinate array at (a, n, k, column). -/
theorem GX_at : GX (F := Ideal) P nc (ix3 a n k) = nc (ix4 a n k (0 : Fin 2)) := by
  unfold GX
  refine (shapeCast_apply _ _ (ix3 a n k) (ix4 a n k (0 : Fin 1)) (by
    rw [Shape.rowMajor_val_four, Shape.rowMajor_val_three]
    show (((a.val * 200000 + n.val) * 4 + k.val) * 1 + 0) = (a.val * 200000 + n.val) * 4 + k.val
    omega)).trans ?_
  exact extractStridedSlice_apply _ _ _ _ (ix4 a n k (0 : Fin 2)) (fun e => match e with
    | ⟨0, _⟩ => by show a.val = 0 + a.val; omega
    | ⟨1, _⟩ => by show n.val = 0 + n.val; omega
    | ⟨2, _⟩ => by show k.val = 0 + k.val; omega
    | ⟨3, _⟩ => by show (0 : ℕ) = 0 + 0; omega)

theorem GY_at : GY (F := Ideal) P nc (ix3 a n k) = nc (ix4 a n k (1 : Fin 2)) := by
  unfold GY
  refine (shapeCast_apply _ _ (ix3 a n k) (ix4 a n k (0 : Fin 1)) (by
    rw [Shape.rowMajor_val_four, Shape.rowMajor_val_three]
    show (((a.val * 200000 + n.val) * 4 + k.val) * 1 + 0) = (a.val * 200000 + n.val) * 4 + k.val
    omega)).trans ?_
  exact extractStridedSlice_apply _ _ _ _ (ix4 a n k (1 : Fin 2)) (fun e => match e with
    | ⟨0, _⟩ => by show a.val = 0 + a.val; omega
    | ⟨1, _⟩ => by show n.val = 0 + n.val; omega
    | ⟨2, _⟩ => by show k.val = 0 + k.val; omega
    | ⟨3, _⟩ => by show (1 : ℕ) = 1 + 0; omega)

/-- Two rank-3 word arrays, each given a trailing unit axis, joined along it: at (a, n, k, 0) the first. -/
theorem cat2_at0 (u v : CI (F := Ideal) S3x200000x4) :
    cat2_S3x200000x4x2 (F := Ideal) (broadcastInDim S3x200000x4x1 ![0, 1, 2] bcast_S3x200000x4_S3x200000x4x1_0_1_2 u)
      (broadcastInDim S3x200000x4x1 ![0, 1, 2] bcast_S3x200000x4_S3x200000x4x1_0_1_2 v) (ix4 a n k (0 : Fin 2)) = u (ix3 a n k) := by
  unfold cat2_S3x200000x4x2
  refine (concatenate_pair_apply_left (t := S3x200000x4x2) (s₁ := S3x200000x4x1) (s₂ := S3x200000x4x1) _ _ _ _ (ix4 a n k (0 : Fin 2)) rfl (ix4 a n k (0 : Fin 1)) (fun e => match e with
    | ⟨0, _⟩ => rfl | ⟨1, _⟩ => rfl | ⟨2, _⟩ => rfl | ⟨3, _⟩ => rfl)).trans ?_
  exact broadcastInDim_apply _ _ _ _ (ix3 a n k) (fun e => match e with | ⟨0, _⟩ => rfl | ⟨1, _⟩ => rfl | ⟨2, _⟩ => rfl)

/-- … and at (a, n, k, 1) the second. -/
theorem cat2_at1 (u v : CI (F := Ideal) S3x200000x4) :
    cat2_S3x200000x4x2 (F := Ideal) (broadcastInDim S3x200000x4x1 ![0, 1, 2] bcast_S3x200000x4_S3x200000x4x1_0_1_2 u)
      (broadcastInDim S3x200000x4x1 ![0, 1, 2] bcast_S3x200000x4_S3x200000x4x1_0_1_2 v) (ix4 a n k (1 : Fin 2)) = v (ix3 a n k) := by
  unfold cat2_S3x200000x4x2
  refine (concatenate_pair_apply_right (t := S3x200000x4x2) (s₁ := S3x200000x4x1) (s₂ := S3x200000x4x1) _ _ _ _ (ix4 a n k (1 : Fin 2)) rfl rfl (ix4 a n k (0 : Fin 1)) (fun e he => match e, he with
    | ⟨0, _⟩, _ => rfl | ⟨1, _⟩, _ => rfl | ⟨2, _⟩, _ => rfl | ⟨3, _⟩, he => absurd rfl he) rfl).trans ?_
  exact broadcastInDim_apply _ _ _ _ (ix3 a n k) (fun e => match e with | ⟨0, _⟩ => rfl | ⟨1, _⟩ => rfl | ⟨2, _⟩ => rfl)

/-- The batched gather of the planes at start indices st, at (a, c, n, k): plane a, channel c, at the cell whose row
    and column are st's two words at (a, n, k), each read signed and clamped into 0 … 511. -/
theorem gather_at (st : CI (F := Ideal) S3x200000x4x2) :
    Host.gather gather_S3x32x512x512_S3x200000x4x2_S3x32x200000x4_1_23_0_0_23_3_13211 P st (ix4 a c n k)
      = P (ix4 a c (cellOf (st (ix4 a n k (0 : Fin 2)))) (cellOf (st (ix4 a n k (1 : Fin 2))))) :=
  Cert.LibPlaneGather.planeGather_apply (A := 3) (C := 32) (H := 512) (W := 512) (N := 200000) (K := 4) (by decide) (by decide)
    gather_S3x32x512x512_S3x200000x4x2_S3x32x200000x4_1_23_0_0_23_3_13211_wf P st a c n k

/-- A rank-3 array given a channel axis of size 1 and repeated over the 32 channels, at (a, c, n, k): the array at (a, n, k). -/
theorem bc_at (v : CF (F := Ideal) S3x200000x4) :
    broadcastInDim S3x32x200000x4 ![0, 1, 2, 3] bcast_S3x1x200000x4_S3x32x200000x4_0_1_2_3
      (broadcastInDim S3x1x200000x4 ![0, 2, 3] bcast_S3x200000x4_S3x1x200000x4_0_2_3 v) (ix4 a c n k) = v (ix3 a n k) := by
  refine (broadcastInDim_apply _ _ _ (ix4 a c n k) (ix4 a (0 : Fin 1) n k) (fun e => match e with
    | ⟨0, _⟩ => rfl | ⟨1, _⟩ => rfl | ⟨2, _⟩ => rfl | ⟨3, _⟩ => rfl)).trans ?_
  exact broadcastInDim_apply _ _ _ _ (ix3 a n k) (fun e => match e with | ⟨0, _⟩ => rfl | ⟨1, _⟩ => rfl | ⟨2, _⟩ => rfl)

/-! ## The coordinate stages at (a, n, k) -/

theorem IX_at : IX (F := Ideal) P nc (ix3 a n k) = pix (nc (ix4 a n k (0 : Fin 2))) := by
  have h : IX (F := Ideal) P nc (ix3 a n k) = pix (GX (F := Ideal) P nc (ix3 a n k)) := rfl
  rw [h, GX_at]
theorem IY_at : IY (F := Ideal) P nc (ix3 a n k) = pix (nc (ix4 a n k (1 : Fin 2))) := by
  have h : IY (F := Ideal) P nc (ix3 a n k) = pix (GY (F := Ideal) P nc (ix3 a n k)) := rfl
  rw [h, GY_at]
theorem X0_at : X0 (F := Ideal) P nc (ix3 a n k) = flo (nc (ix4 a n k (0 : Fin 2))) := by
  have h : X0 (F := Ideal) P nc (ix3 a n k) = Ideal.liftRound Int.floor (IX (F := Ideal) P nc (ix3 a n k)) := rfl
  rw [h, IX_at]; rfl
theorem Y0_at : Y0 (F := Ideal) P nc (ix3 a n k) = flo (nc (ix4 a n k (1 : Fin 2))) := by
  have h : Y0 (F := Ideal) P nc (ix3 a n k) = Ideal.liftRound Int.floor (IY (F := Ideal) P nc (ix3 a n k)) := rfl
  rw [h, IY_at]; rfl
theorem X1_at : X1 (F := Ideal) P nc (ix3 a n k) = flo (nc (ix4 a n k (0 : Fin 2))) + c1 := by
  have h : X1 (F := Ideal) P nc (ix3 a n k) = X0 (F := Ideal) P nc (ix3 a n k) + c1 := rfl
  rw [h, X0_at]
theorem Y1_at : Y1 (F := Ideal) P nc (ix3 a n k) = flo (nc (ix4 a n k (1 : Fin 2))) + c1 := by
  have h : Y1 (F := Ideal) P nc (ix3 a n k) = Y0 (F := Ideal) P nc (ix3 a n k) + c1 := rfl
  rw [h, Y0_at]
theorem WX1_at : WX1 (F := Ideal) P nc (ix3 a n k) = wHi (nc (ix4 a n k (0 : Fin 2))) := by
  have h : WX1 (F := Ideal) P nc (ix3 a n k) = IX (F := Ideal) P nc (ix3 a n k) - X0 (F := Ideal) P nc (ix3 a n k) := rfl
  rw [h, IX_at, X0_at]; rfl
theorem WY1_at : WY1 (F := Ideal) P nc (ix3 a n k) = wHi (nc (ix4 a n k (1 : Fin 2))) := by
  have h : WY1 (F := Ideal) P nc (ix3 a n k) = IY (F := Ideal) P nc (ix3 a n k) - Y0 (F := Ideal) P nc (ix3 a n k) := rfl
  rw [h, IY_at, Y0_at]; rfl
theorem WX0_at : WX0 (F := Ideal) P nc (ix3 a n k) = wLo (nc (ix4 a n k (0 : Fin 2))) := by
  have h : WX0 (F := Ideal) P nc (ix3 a n k) = c1 - WX1 (F := Ideal) P nc (ix3 a n k) := rfl
  rw [h, WX1_at]; rfl
theorem WY0_at : WY0 (F := Ideal) P nc (ix3 a n k) = wLo (nc (ix4 a n k (1 : Fin 2))) := by
  have h : WY0 (F := Ideal) P nc (ix3 a n k) = c1 - WY1 (F := Ideal) P nc (ix3 a n k) := rfl
  rw [h, WY1_at]; rfl

/-! ## The four corners at (a, c, n, k) -/

/-- Corner (x0, y0): the contribution at (a, c, n, k) is the specification's corner of plane a's channel c. -/
theorem C00_at : C00 (F := Ideal) P nc (ix4 a c n k)
    = corner (fun h w => P (ix4 a c h w)) (X0 (F := Ideal) P nc (ix3 a n k)) (Y0 (F := Ideal) P nc (ix3 a n k))
        (WX0 (F := Ideal) P nc (ix3 a n k)) (WY0 (F := Ideal) P nc (ix3 a n k)) := by
  have hJY : JY00 (F := Ideal) P nc (ix3 a n k) = clipIx (Y0 (F := Ideal) P nc (ix3 a n k)) := rfl
  have hJX : JX00 (F := Ideal) P nc (ix3 a n k) = clipIx (X0 (F := Ideal) P nc (ix3 a n k)) := rfl
  have hS0 : ST00 (F := Ideal) P nc (ix4 a n k (0 : Fin 2)) = JY00 (F := Ideal) P nc (ix3 a n k) := by
    unfold ST00; exact cat2_at0 a n k _ _
  have hS1 : ST00 (F := Ideal) P nc (ix4 a n k (1 : Fin 2)) = JX00 (F := Ideal) P nc (ix3 a n k) := by
    unfold ST00; exact cat2_at1 a n k _ _
  have hG : G00 (F := Ideal) P nc (ix4 a c n k)
      = P (ix4 a c (cellOf (clipIx (Y0 (F := Ideal) P nc (ix3 a n k)))) (cellOf (clipIx (X0 (F := Ideal) P nc (ix3 a n k))))) := by
    refine (gather_at P a n k c (ST00 (F := Ideal) P nc)).trans ?_
    rw [hS0, hS1, hJY, hJX]
  have hV : uitofp (F := Ideal) (s := S3x200000x4) (w := 1) .f32 (V00 (F := Ideal) P nc) (ix3 a n k)
      = inside (X0 (F := Ideal) P nc (ix3 a n k)) (Y0 (F := Ideal) P nc (ix3 a n k)) := rfl
  have hC : C00 (F := Ideal) P nc (ix4 a c n k)
      = (G00 (F := Ideal) P nc (ix4 a c n k)
          * broadcastInDim S3x32x200000x4 ![0, 1, 2, 3] bcast_S3x1x200000x4_S3x32x200000x4_0_1_2_3
              (broadcastInDim S3x1x200000x4 ![0, 2, 3] bcast_S3x200000x4_S3x1x200000x4_0_2_3
                (uitofp (F := Ideal) (s := S3x200000x4) (w := 1) .f32 (V00 (F := Ideal) P nc))) (ix4 a c n k))
        * broadcastInDim S3x32x200000x4 ![0, 1, 2, 3] bcast_S3x1x200000x4_S3x32x200000x4_0_1_2_3
              (broadcastInDim S3x1x200000x4 ![0, 2, 3] bcast_S3x200000x4_S3x1x200000x4_0_2_3
                (mulf (F := Ideal) (s := S3x200000x4) (φ := .f32) (WX0 (F := Ideal) P nc) (WY0 (F := Ideal) P nc))) (ix4 a c n k) := rfl
  rw [hC, bc_at a n k c, bc_at a n k c, hG, hV]
  rfl

/-- Corner (x1, y0): the contribution at (a, c, n, k) is the specification's corner of plane a's channel c. -/
theorem C10_at : C10 (F := Ideal) P nc (ix4 a c n k)
    = corner (fun h w => P (ix4 a c h w)) (X1 (F := Ideal) P nc (ix3 a n k)) (Y0 (F := Ideal) P nc (ix3 a n k))
        (WX1 (F := Ideal) P nc (ix3 a n k)) (WY0 (F := Ideal) P nc (ix3 a n k)) := by
  have hJY : JY10 (F := Ideal) P nc (ix3 a n k) = clipIx (Y0 (F := Ideal) P nc (ix3 a n k)) := rfl
  have hJX : JX10 (F := Ideal) P nc (ix3 a n k) = clipIx (X1 (F := Ideal) P nc (ix3 a n k)) := rfl
  have hS0 : ST10 (F := Ideal) P nc (ix4 a n k (0 : Fin 2)) = JY10 (F := Ideal) P nc (ix3 a n k) := by
    unfold ST10; exact cat2_at0 a n k _ _
  have hS1 : ST10 (F := Ideal) P nc (ix4 a n k (1 : Fin 2)) = JX10 (F := Ideal) P nc (ix3 a n k) := by
    unfold ST10; exact cat2_at1 a n k _ _
  have hG : G10 (F := Ideal) P nc (ix4 a c n k)
      = P (ix4 a c (cellOf (clipIx (Y0 (F := Ideal) P nc (ix3 a n k)))) (cellOf (clipIx (X1 (F := Ideal) P nc (ix3 a n k))))) := by
    refine (gather_at P a n k c (ST10 (F := Ideal) P nc)).trans ?_
    rw [hS0, hS1, hJY, hJX]
  have hV : uitofp (F := Ideal) (s := S3x200000x4) (w := 1) .f32 (V10 (F := Ideal) P nc) (ix3 a n k)
      = inside (X1 (F := Ideal) P nc (ix3 a n k)) (Y0 (F := Ideal) P nc (ix3 a n k)) := rfl
  have hC : C10 (F := Ideal) P nc (ix4 a c n k)
      = (G10 (F := Ideal) P nc (ix4 a c n k)
          * broadcastInDim S3x32x200000x4 ![0, 1, 2, 3] bcast_S3x1x200000x4_S3x32x200000x4_0_1_2_3
              (broadcastInDim S3x1x200000x4 ![0, 2, 3] bcast_S3x200000x4_S3x1x200000x4_0_2_3
                (uitofp (F := Ideal) (s := S3x200000x4) (w := 1) .f32 (V10 (F := Ideal) P nc))) (ix4 a c n k))
        * broadcastInDim S3x32x200000x4 ![0, 1, 2, 3] bcast_S3x1x200000x4_S3x32x200000x4_0_1_2_3
              (broadcastInDim S3x1x200000x4 ![0, 2, 3] bcast_S3x200000x4_S3x1x200000x4_0_2_3
                (mulf (F := Ideal) (s := S3x200000x4) (φ := .f32) (WX1 (F := Ideal) P nc) (WY0 (F := Ideal) P nc))) (ix4 a c n k) := rfl
  rw [hC, bc_at a n k c, bc_at a n k c, hG, hV]
  rfl

/-- Corner (x0, y1): the contribution at (a, c, n, k) is the specification's corner of plane a's channel c. -/
theorem C01_at : C01 (F := Ideal) P nc (ix4 a c n k)
    = corner (fun h w => P (ix4 a c h w)) (X0 (F := Ideal) P nc (ix3 a n k)) (Y1 (F := Ideal) P nc (ix3 a n k))
        (WX0 (F := Ideal) P nc (ix3 a n k)) (WY1 (F := Ideal) P nc (ix3 a n k)) := by
  have hJY : JY01 (F := Ideal) P nc (ix3 a n k) = clipIx (Y1 (F := Ideal) P nc (ix3 a n k)) := rfl
  have hJX : JX01 (F := Ideal) P nc (ix3 a n k) = clipIx (X0 (F := Ideal) P nc (ix3 a n k)) := rfl
  have hS0 : ST01 (F := Ideal) P nc (ix4 a n k (0 : Fin 2)) = JY01 (F := Ideal) P nc (ix3 a n k) := by
    unfold ST01; exact cat2_at0 a n k _ _
  have hS1 : ST01 (F := Ideal) P nc (ix4 a n k (1 : Fin 2)) = JX01 (F := Ideal) P nc (ix3 a n k) := by
    unfold ST01; exact cat2_at1 a n k _ _
  have hG : G01 (F := Ideal) P nc (ix4 a c n k)
      = P (ix4 a c (cellOf (clipIx (Y1 (F := Ideal) P nc (ix3 a n k)))) (cellOf (clipIx (X0 (F := Ideal) P nc (ix3 a n k))))) := by
    refine (gather_at P a n k c (ST01 (F := Ideal) P nc)).trans ?_
    rw [hS0, hS1, hJY, hJX]
  have hV : uitofp (F := Ideal) (s := S3x200000x4) (w := 1) .f32 (V01 (F := Ideal) P nc) (ix3 a n k)
      = inside (X0 (F := Ideal) P nc (ix3 a n k)) (Y1 (F := Ideal) P nc (ix3 a n k)) := rfl
  have hC : C01 (F := Ideal) P nc (ix4 a c n k)
      = (G01 (F := Ideal) P nc (ix4 a c n k)
          * broadcastInDim S3x32x200000x4 ![0, 1, 2, 3] bcast_S3x1x200000x4_S3x32x200000x4_0_1_2_3
              (broadcastInDim S3x1x200000x4 ![0, 2, 3] bcast_S3x200000x4_S3x1x200000x4_0_2_3
                (uitofp (F := Ideal) (s := S3x200000x4) (w := 1) .f32 (V01 (F := Ideal) P nc))) (ix4 a c n k))
        * broadcastInDim S3x32x200000x4 ![0, 1, 2, 3] bcast_S3x1x200000x4_S3x32x200000x4_0_1_2_3
              (broadcastInDim S3x1x200000x4 ![0, 2, 3] bcast_S3x200000x4_S3x1x200000x4_0_2_3
                (mulf (F := Ideal) (s := S3x200000x4) (φ := .f32) (WX0 (F := Ideal) P nc) (WY1 (F := Ideal) P nc))) (ix4 a c n k) := rfl
  rw [hC, bc_at a n k c, bc_at a n k c, hG, hV]
  rfl

/-- Corner (x1, y1): the contribution at (a, c, n, k) is the specification's corner of plane a's channel c. -/
theorem C11_at : C11 (F := Ideal) P nc (ix4 a c n k)
    = corner (fun h w => P (ix4 a c h w)) (X1 (F := Ideal) P nc (ix3 a n k)) (Y1 (F := Ideal) P nc (ix3 a n k))
        (WX1 (F := Ideal) P nc (ix3 a n k)) (WY1 (F := Ideal) P nc (ix3 a n k)) := by
  have hJY : JY11 (F := Ideal) P nc (ix3 a n k) = clipIx (Y1 (F := Ideal) P nc (ix3 a n k)) := rfl
  have hJX : JX11 (F := Ideal) P nc (ix3 a n k) = clipIx (X1 (F := Ideal) P nc (ix3 a n k)) := rfl
  have hS0 : ST11 (F := Ideal) P nc (ix4 a n k (0 : Fin 2)) = JY11 (F := Ideal) P nc (ix3 a n k) := by
    unfold ST11; exact cat2_at0 a n k _ _
  have hS1 : ST11 (F := Ideal) P nc (ix4 a n k (1 : Fin 2)) = JX11 (F := Ideal) P nc (ix3 a n k) := by
    unfold ST11; exact cat2_at1 a n k _ _
  have hG : G11 (F := Ideal) P nc (ix4 a c n k)
      = P (ix4 a c (cellOf (clipIx (Y1 (F := Ideal) P nc (ix3 a n k)))) (cellOf (clipIx (X1 (F := Ideal) P nc (ix3 a n k))))) := by
    refine (gather_at P a n k c (ST11 (F := Ideal) P nc)).trans ?_
    rw [hS0, hS1, hJY, hJX]
  have hV : uitofp (F := Ideal) (s := S3x200000x4) (w := 1) .f32 (V11 (F := Ideal) P nc) (ix3 a n k)
      = inside (X1 (F := Ideal) P nc (ix3 a n k)) (Y1 (F := Ideal) P nc (ix3 a n k)) := rfl
  have hC : C11 (F := Ideal) P nc (ix4 a c n k)
      = (G11 (F := Ideal) P nc (ix4 a c n k)
          * broadcastInDim S3x32x200000x4 ![0, 1, 2, 3] bcast_S3x1x200000x4_S3x32x200000x4_0_1_2_3
              (broadcastInDim S3x1x200000x4 ![0, 2, 3] bcast_S3x200000x4_S3x1x200000x4_0_2_3
                (uitofp (F := Ideal) (s := S3x200000x4) (w := 1) .f32 (V11 (F := Ideal) P nc))) (ix4 a c n k))
        * broadcastInDim S3x32x200000x4 ![0, 1, 2, 3] bcast_S3x1x200000x4_S3x32x200000x4_0_1_2_3
              (broadcastInDim S3x1x200000x4 ![0, 2, 3] bcast_S3x200000x4_S3x1x200000x4_0_2_3
                (mulf (F := Ideal) (s := S3x200000x4) (φ := .f32) (WX1 (F := Ideal) P nc) (WY1 (F := Ideal) P nc))) (ix4 a c n k) := rfl
  rw [hC, bc_at a n k c, bc_at a n k c, hG, hV]
  rfl

/-! ## The result -/

/-- The result at (n, q), q = 96·k + 32·a + c: the four contributions at (a, c, n, k), added left to right. -/
theorem OUT_at (q : Fin 384) (hq : q.val = 96 * k.val + 32 * a.val + c.val) :
    OUT (F := Ideal) P nc (ix2 n q)
      = ((C00 (F := Ideal) P nc (ix4 a c n k) + C10 (F := Ideal) P nc (ix4 a c n k)) + C01 (F := Ideal) P nc (ix4 a c n k))
          + C11 (F := Ideal) P nc (ix4 a c n k) := by
  have hS : SUM (F := Ideal) P nc (ix4 a c n k)
      = ((C00 (F := Ideal) P nc (ix4 a c n k) + C10 (F := Ideal) P nc (ix4 a c n k)) + C01 (F := Ideal) P nc (ix4 a c n k))
          + C11 (F := Ideal) P nc (ix4 a c n k) := rfl
  rw [← hS]
  unfold OUT
  refine (shapeCast_apply _ _ (ix2 n q) (ix4 n k a c) (by
    rw [Shape.rowMajor_val_four, Shape.rowMajor_val_two]
    show ((n.val * 4 + k.val) * 3 + a.val) * 32 + c.val = n.val * 384 + q.val
    omega)).trans ?_
  exact transpose_apply _ _ _ (ix4 n k a c) (ix4 a c n k) (fun b => match b with
    | ⟨0, _⟩ => rfl | ⟨1, _⟩ => rfl | ⟨2, _⟩ => rfl | ⟨3, _⟩ => rfl)

/-- The result at (n, q) is the four-corner form of plane a's channel c at the point's two coordinates. -/
theorem OUT_at_rSample (q : Fin 384) (hq : q.val = 96 * k.val + 32 * a.val + c.val) :
    OUT (F := Ideal) P nc (ix2 n q)
      = rSample (fun h w => P (ix4 a c h w)) (nc (ix4 a n k (0 : Fin 2))) (nc (ix4 a n k (1 : Fin 2))) := by
  rw [OUT_at P nc a n k c q hq, C00_at, C10_at, C01_at, C11_at, X0_at, Y0_at, X1_at, Y1_at, WX0_at, WX1_at, WY0_at, WY1_at]
  rfl

/-- THE READING: the stage OUT is the specification's result array in its four-corner form. -/
theorem OUT_eq : OUT (F := Ideal) P nc = sampled rSample P nc := by
  funext i
  obtain ⟨n, q, rfl⟩ : ∃ (n : Fin 200000) (q : Fin 384), i = ix2 n q := ⟨i 0, i 1, eq_ix2 i⟩
  have h1 : q.val < 384 := q.isLt
  have hk : q.val / 96 < 4 := by omega
  have ha : q.val % 96 / 32 < 3 := by omega
  have hc : q.val % 32 < 32 := by omega
  exact OUT_at_rSample P nc ⟨q.val % 96 / 32, ha⟩ n ⟨q.val / 96, hk⟩ ⟨q.val % 32, hc⟩ q (by
    show q.val = 96 * (q.val / 96) + 32 * (q.val % 96 / 32) + q.val % 32
    omega)

end Cert.ReferenceIdeal.HandRead

end
-- ==== Proof.RefRead.lean ====
/-
  The reference's result buffer, read back: after all of the reference's operations, from any launch contents X,
  the result buffer holds the specification's result array in its four-corner form, of the planes argument and the
  shared normalisation of the three coordinate arguments.

  The operation list is its stretches in order; the stretches up to the normalised coordinates give the
  normalisation (Pre), the stretches after them give the stage OUT of the planes and those coordinates (Tail), and
  OUT read at an index is the four-corner sampling (At).
-/
import proofs.«162729_j22162031247387_1_alg».proof.Proof.RefRead.Tail
import proofs.«162729_j22162031247387_1_alg».proof.Proof.RefRead.Pre
import proofs.«162729_j22162031247387_1_alg».proof.Proof.RefRead.At
import Idealize.ShloMosaic.Lib.Pipeline.Frame

set_option maxRecDepth 8192

noncomputable section

namespace Cert.ReferenceIdeal.HandRead

open Cert.ReferenceIdeal Cert.ReferenceIdeal.Gen Cert.ReferenceIdeal.Hand Idealize.ShloMosaic Idealize.SL.Sem

variable {F : FTy → Type} [FloatOps F]

set_option maxHeartbeats 40000000 in
/-- The contents after the whole list are the contents after its stretches one after the other, the sixth stretch in
    its two parts. -/
theorem ops_nest (X : Valuation τ sig (Elt F)) :
    StableHlo.after (ops (F := F)) X
      = StableHlo.after (ops15 (F := F)) (StableHlo.after (ops14 (F := F)) (StableHlo.after (ops13 (F := F)) (StableHlo.after (ops12 (F := F)) (StableHlo.after (ops11 (F := F)) (StableHlo.after (ops10 (F := F)) (StableHlo.after (ops9 (F := F)) (StableHlo.after (ops8 (F := F)) (StableHlo.after (ops7 (F := F)) (StableHlo.after (ops6 (F := F)) (StableHlo.after (ops5b (F := F)) (StableHlo.after (ops5a (F := F)) (StableHlo.after (ops4 (F := F)) (StableHlo.after (ops3 (F := F)) (StableHlo.after (ops2 (F := F)) (StableHlo.after (ops1 (F := F)) (StableHlo.after (ops0 (F := F)) X)))))))))))))))) := by
  simp only [ops, StableHlo.after_append, ops5_split]

/-- THE READ-BACK over any contents X: the reference's result buffer holds the four-corner sampling of the planes at
    the normalised coordinates. -/
theorem result_read (X : Valuation τ sig (Elt Ideal)) :
    StableHlo.after (ops (F := Ideal)) X (Proc.devRef .tc main_v295)
      = Cert.Sample.sampled Cert.Sample.rSample (X (Proc.devRef .tc main_arg3))
          (Cert.Nc.nc (F := Ideal) (X (Proc.devRef .tc main_arg0)) (X (Proc.devRef .tc main_arg1)) (X (Proc.devRef .tc main_arg2))) := by
  rw [ops_nest X, tail_read, pre_read, pre_keep]
  exact OUT_eq _ _

/-- The same over a device's launch contents: the form the reference's run states its result buffer in. -/
theorem result_eq (m' : (ℓ : Loc Cert.ReferenceIdeal.nD Cert.ReferenceIdeal.τ Cert.ReferenceIdeal.sig) → Buf (Elt Ideal) ℓ)
    (c : Dev Cert.ReferenceIdeal.nD) :
    StableHlo.after (Cert.ReferenceIdeal.Hand.ops (F := Ideal)) (fun b => m' (c, b)) (Proc.devRef .tc Cert.ReferenceIdeal.main_v295)
      = Cert.Sample.sampled Cert.Sample.rSample
          (m' ((c.tc : Thread Cert.ReferenceIdeal.nD Cert.ReferenceIdeal.τ).loc Cert.ReferenceIdeal.main_arg3))
          (Cert.Nc.nc (F := Ideal) (m' ((c.tc : Thread _ _).loc Cert.ReferenceIdeal.main_arg0))
            (m' ((c.tc : Thread _ _).loc Cert.ReferenceIdeal.main_arg1)) (m' ((c.tc : Thread _ _).loc Cert.ReferenceIdeal.main_arg2))) :=
  result_read (fun b => m' (c, b))

end Cert.ReferenceIdeal.HandRead

end
-- ==== Proof.KFrame.Reads.lean ====
import proofs.«162729_j22162031247387_1_alg».proof.Proof.KFrame.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Reading the fold back at the buffers the value of @main passes through

The three calls write `main_v117`, `main_v123`, `main_v129`; the stretch behind each reshapes its output
(`main_v118`, `main_v124`, `main_v130`) and slices the next call's coordinates and plane out of `main_v111`
and `main_v112`, which the prefix computed and nothing later writes. Each lemma walks one buffer back through
the boundaries it crosses unchanged: a stretch that does not write it, a call none of whose arrays it is. -/

variable (m : (ℓ : Loc nD τ sig) → Buf (Elt F) ℓ)

/-- Each call's output array at the call's exit: what the pipeline's write-backs leave. -/
theorem W6_v117 (c : Dev nD) : W6 m c (Proc.devRef .tc main_v117) = (dat0 (V5 m) c).arrAt 2 cfg0.N := W6_arr m c 2
theorem W8_v123 (c : Dev nD) : W8 m c (Proc.devRef .tc main_v123) = (dat1 (V7 m) c).arrAt 2 cfg1.N := W8_arr m c 2
theorem W10_v129 (c : Dev nD) : W10 m c (Proc.devRef .tc main_v129) = (dat2 (V9 m) c).arrAt 2 cfg2.N := W10_arr m c 2

/-- The normalised coordinates and the bf16 planes, computed by the prefix, are as the prefix left them at every
    later call's exit. -/
theorem W6_v111 (c : Dev nD) : W6 m c (Proc.devRef .tc main_v111) = W5 m c (Proc.devRef .tc main_v111) := W6_of_ne m c main_v111 (by decide)
theorem W6_v112 (c : Dev nD) : W6 m c (Proc.devRef .tc main_v112) = W5 m c (Proc.devRef .tc main_v112) := W6_of_ne m c main_v112 (by decide)
theorem W8_v111 (c : Dev nD) : W8 m c (Proc.devRef .tc main_v111) = W5 m c (Proc.devRef .tc main_v111) :=
  calc W8 m c (Proc.devRef .tc main_v111)
    _ = W7 m c (Proc.devRef .tc main_v111) := W8_of_ne m c main_v111 (by decide)
    _ = W6 m c (Proc.devRef .tc main_v111) := StableHlo.after_of_forall_not_mem _ _ (List.forall_iff_forall_mem.mp (by keeps_pass))
    _ = W5 m c (Proc.devRef .tc main_v111) := W6_v111 m c
theorem W8_v112 (c : Dev nD) : W8 m c (Proc.devRef .tc main_v112) = W5 m c (Proc.devRef .tc main_v112) :=
  calc W8 m c (Proc.devRef .tc main_v112)
    _ = W7 m c (Proc.devRef .tc main_v112) := W8_of_ne m c main_v112 (by decide)
    _ = W6 m c (Proc.devRef .tc main_v112) := StableHlo.after_of_forall_not_mem _ _ (List.forall_iff_forall_mem.mp (by keeps_pass))
    _ = W5 m c (Proc.devRef .tc main_v112) := W6_v112 m c

/-- The first call's reshaped output is untouched from the stretch that made it to the closing stretch; the second
    call's likewise. -/
theorem W10_v118 (c : Dev nD) : W10 m c (Proc.devRef .tc main_v118) = W7 m c (Proc.devRef .tc main_v118) :=
  calc W10 m c (Proc.devRef .tc main_v118)
    _ = W9 m c (Proc.devRef .tc main_v118) := W10_of_ne m c main_v118 (by decide)
    _ = W8 m c (Proc.devRef .tc main_v118) := StableHlo.after_of_forall_not_mem _ _ (List.forall_iff_forall_mem.mp (by keeps_pass))
    _ = W7 m c (Proc.devRef .tc main_v118) := W8_of_ne m c main_v118 (by decide)
theorem W10_v124 (c : Dev nD) : W10 m c (Proc.devRef .tc main_v124) = W9 m c (Proc.devRef .tc main_v124) := W10_of_ne m c main_v124 (by decide)

end Cert.KernelIdeal.Hand

end
-- ==== Proof.KValue.Pay.lean ====
/-
  One grid point of a sampling call, read at an index. The body builds, from its block of 1280 coordinate pairs, two
  weight matrices of 1280 points by 512 lanes — row r of each is the weight row of one of point r's two coordinates:
  the two neighbours' weights at the lanes equal to the neighbours' cells — and, for each of the 32 channels, multiplies
  the channel's 512 × 512 slab from the left by one of them, multiplies the product elementwise by the other and sums
  over the lanes. Read at point r this is the one-hot form of the bilinear sample of the slab at that point's
  coordinates; the 32 stored rows are the rows of one function of the two input blocks.
-/
import proofs.«162729_j22162031247387_1_alg».proof.Proof.Gen.KernelIdeal.Skeleton
import proofs.«162729_j22162031247387_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandValue

open Idealize.ShloMosaic Idealize.ShloMosaic.ValueIdx Cert.KernelIdeal Cert.KernelIdeal.Gen Cert.Sample

/-! ## Two small layout facts -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of the coordinate block, cut out as a `[1280, 1]` column, reads row `r`'s coordinate `o`. -/
theorem col_apply (o : Fin 2) (x0 : Vec Ideal S1280x2 .f32) (h : S1280x2.Slices ![0, o.val] S1280x1) (r : Fin 1280) :
    extractStridedSlice S1280x1 ![0, o.val] (shapeCast S1280x2 x0 shapeCasts_S1280x2_S1280x2) h (ix2 r (0 : Fin 1))
      = x0 (ix2 r o) := by
  rw [shapeCast_self]
  exact slice2_axis1_apply o.val x0 h r (0 : Fin 1) o rfl

/-! ## The coordinate columns -/

section Columns
variable (x0 : Vec Ideal S1280x2 .f32) (r : Fin 1280)

/-- The pixel coordinate column of coordinate 0 … -/
theorem pix0_apply : k0_pay3 x0 (ix2 r (0 : Fin 1)) = pix (x0 (ix2 r (0 : Fin 2))) :=
  congrArg pix (col_apply 0 x0 slices_S1280x2_o0_0_S1280x1 r)
/-- … and of coordinate 1. -/
theorem pix1_apply : k0_pay4 x0 (ix2 r (0 : Fin 1)) = pix (x0 (ix2 r (1 : Fin 2))) :=
  congrArg pix (col_apply 1 x0 slices_S1280x2_o0_1_S1280x1 r)

theorem flo0_apply : k0_pay5 x0 (ix2 r (0 : Fin 1)) = flo (x0 (ix2 r (0 : Fin 2))) :=
  congrArg (Ideal.liftRound Int.floor) (pix0_apply x0 r)
theorem flo1_apply : k0_pay6 x0 (ix2 r (0 : Fin 1)) = flo (x0 (ix2 r (1 : Fin 2))) :=
  congrArg (Ideal.liftRound Int.floor) (pix1_apply x0 r)

theorem wHi0_apply : k0_pay7 x0 (ix2 r (0 : Fin 1)) = wHi (x0 (ix2 r (0 : Fin 2))) :=
  congrArg₂ (· - ·) (pix0_apply x0 r) (flo0_apply x0 r)
theorem wHi1_apply : k0_pay8 x0 (ix2 r (0 : Fin 1)) = wHi (x0 (ix2 r (1 : Fin 2))) :=
  congrArg₂ (· - ·) (pix1_apply x0 r) (flo1_apply x0 r)

theorem wLo1_apply : k0_pay9 x0 (ix2 r (0 : Fin 1)) = wLo (x0 (ix2 r (1 : Fin 2))) :=
  congrArg (c1 - ·) (wHi1_apply x0 r)

theorem cell0_apply : k0_pay10 x0 (ix2 r (0 : Fin 1)) = cell (x0 (ix2 r (0 : Fin 2))) :=
  congrArg (Ideal.fptosi 32) (flo0_apply x0 r)
theorem cell1_apply : k0_pay11 x0 (ix2 r (0 : Fin 1)) = cell (x0 (ix2 r (1 : Fin 2))) :=
  congrArg (Ideal.fptosi 32) (flo1_apply x0 r)
theorem cell1_succ_apply : k0_pay12 x0 (ix2 r (0 : Fin 1)) = IntOp.addi (cell (x0 (ix2 r (1 : Fin 2)))) 1#32 :=
  congrArg (IntOp.addi · 1#32) (cell1_apply x0 r)

end Columns

/-! ## The weight matrices -/

/-- The lane indicator of a column of cells: entry `(r, j)` is 1 when lane `j` carries row `r`'s cell, else 0. -/
def laneHit (cells : IVec S1280x1 32) : FVec Ideal S1280x512 .f32 :=
  sitofp .f32 (extui 32 (cmpi .eq (broadcastTo S1280x512 (iota .tc S1x512 32 [1] iota_S1x512_d1_w32) broadcasts_S1x512_S1280x512)
    (broadcastTo S1280x512 cells broadcasts_S1280x1_S1280x512)) natLt_1_32)

theorem laneHit_apply (cells : IVec S1280x1 32) (r : Fin 1280) (j : Fin 512) :
    laneHit cells (ix2 r j) = hit j (cells (ix2 r (0 : Fin 1))) := by
  show ((((IntOp.cmpi .eq (broadcastTo S1280x512 (iota .tc S1x512 32 [1] iota_S1x512_d1_w32) broadcasts_S1x512_S1280x512 (ix2 r j))
      (broadcastTo S1280x512 cells broadcasts_S1280x1_S1280x512 (ix2 r j))).setWidth 32).toInt : ℝ) : EReal) = _
  rw [broadcastTo_1b_ab_apply, broadcastTo_a1_ab_apply, iota_single_apply]
  rfl

/-- A column of weights placed on the lanes its cells name. -/
def placed (w : FVec Ideal S1280x1 .f32) (cells : IVec S1280x1 32) : FVec Ideal S1280x512 .f32 :=
  mulf (broadcastTo S1280x512 w broadcasts_S1280x1_S1280x512) (laneHit cells)

theorem placed_apply (w : FVec Ideal S1280x1 .f32) (cells : IVec S1280x1 32) (r : Fin 1280) (j : Fin 512) :
    placed w cells (ix2 r j) = w (ix2 r (0 : Fin 1)) * hit j (cells (ix2 r (0 : Fin 1))) := by
  show broadcastTo S1280x512 w broadcasts_S1280x1_S1280x512 (ix2 r j) * laneHit cells (ix2 r j) = _
  rw [broadcastTo_a1_ab_apply, laneHit_apply]

/-- The weight matrix that multiplies the matrix product elementwise (coordinate 0's weights on the lanes), -/
def ohW (x0 : Vec Ideal S1280x2 .f32) : FVec Ideal S1280x512 .f32 :=
  k0_pay16 (k0_pay7 x0) (k0_pay13 x0) k0_pay14 (k0_pay15 x0)
/-- and the left factor of the matrix product (coordinate 1's weights on the lanes). -/
def ohH (x0 : Vec Ideal S1280x2 .f32) : FVec Ideal S1280x512 .bf16 :=
  k0_pay17 (k0_pay8 x0) (k0_pay9 x0) (k0_pay11 x0) (k0_pay12 x0) (iota .tc S1x512 32 [1] iota_S1x512_d1_w32)

theorem ohW_eq (x0 : Vec Ideal S1280x2 .f32) :
    ohW x0 = addf (placed (subf (broadcast S1280x1 (Scalar.ofBits .f32 0x3F800000#32)) (k0_pay7 x0)) (k0_pay10 x0))
      (placed (k0_pay7 x0) (addi (k0_pay10 x0) (broadcast S1280x1 1#32))) := rfl

theorem ohH_eq (x0 : Vec Ideal S1280x2 .f32) :
    ohH x0 = addf (placed (k0_pay9 x0) (k0_pay11 x0)) (placed (k0_pay8 x0) (k0_pay12 x0)) := rfl

/-- The elementwise weight matrix at `(r, j)` is the weight row of row `r`'s coordinate 0 at lane `j`. -/
theorem ohW_apply (x0 : Vec Ideal S1280x2 .f32) (r : Fin 1280) (j : Fin 512) :
    ohW x0 (ix2 r j) = hot (x0 (ix2 r (0 : Fin 2))) j := by
  rw [ohW_eq]
  show placed _ _ (ix2 r j) + placed _ _ (ix2 r j) = _
  rw [placed_apply, placed_apply]
  show (c1 - k0_pay7 x0 (ix2 r (0 : Fin 1))) * hit j (k0_pay10 x0 (ix2 r (0 : Fin 1)))
      + k0_pay7 x0 (ix2 r (0 : Fin 1)) * hit j (IntOp.addi (k0_pay10 x0 (ix2 r (0 : Fin 1))) 1#32) = _
  rw [wHi0_apply, cell0_apply]
  rfl

/-- The product's left factor at `(r, j)` is the weight row of row `r`'s coordinate 1 at lane `j`. -/
theorem ohH_apply (x0 : Vec Ideal S1280x2 .f32) (r : Fin 1280) (j : Fin 512) :
    ohH x0 (ix2 r j) = hot (x0 (ix2 r (1 : Fin 2))) j := by
  rw [ohH_eq]
  show placed _ _ (ix2 r j) + placed _ _ (ix2 r j) = _
  rw [placed_apply, placed_apply, wLo1_apply, cell1_apply, wHi1_apply, cell1_succ_apply]
  rfl

/-! ## One channel's row -/

/-- What one channel stores, before the unit axis is put back: the matrix product of the left weight matrix with the
    channel's slab, times the elementwise weight matrix, summed over the lanes. -/
def rowVal (ohw : FVec Ideal S1280x512 .f32) (ohh : FVec Ideal S1280x512 .bf16) (slab : Vec Ideal S1x512x512 .bf16) :
    FVec Ideal S1280 .f32 :=
  multiReduction .add [1] S1280
    (mulf (matmul dot_S1280x512_S512x512_S1280x512_1_0_0_1_n_n none ohh
      (shapeCast S512x512 slab shapeCasts_S1x512x512_S512x512 : FVec Ideal S512x512 .bf16) (constant S1280x512 .f32 0x00000000#32)) ohw)
    0x00000000#32 reduces_S1280x512_S1280 (.inl rfl) rfl

/-- The product's dimension numbers: rows of the left factor by columns of the right, one contracted lane. -/
abbrev DD := dot_S1280x512_S512x512_S1280x512_1_0_0_1_n_n

theorem lhs_row (i : S1280x512.Idx) (q : DD.contr.Idx) : (DD.lhsIdx i q 0).val = (i 0).val := by
  unfold DotDims.lhsIdx
  rw [dif_neg (show ¬(0 : Fin S1280x512.rank) ∈ DD.lhsBatch by decide),
    dif_pos (show (0 : Fin S1280x512.rank) ∈ DD.lhsNonContracting by decide)]
  rfl
theorem lhs_lane (i : S1280x512.Idx) (q : DD.contr.Idx) : (DD.lhsIdx i q 1).val = (q ⟨0, by decide⟩).val :=
  DD.lhsIdx_val_of_single rfl i q
theorem rhs_lane (i : S1280x512.Idx) (q : DD.contr.Idx) : (DD.rhsIdx i q 0).val = (q ⟨0, by decide⟩).val :=
  DD.rhsIdx_val_of_single rfl i q
theorem rhs_col (i : S1280x512.Idx) (q : DD.contr.Idx) : (DD.rhsIdx i q 1).val = (i 1).val := by
  unfold DotDims.rhsIdx
  rw [dif_neg (show ¬(1 : Fin S512x512.rank) ∈ DD.rhsBatch by decide),
    dif_pos (show (1 : Fin S512x512.rank) ∈ DD.rhsNonContracting by decide)]
  rfl

/-- The matrix product at `(r, w)`: the sum over the contracted lane `h`. -/
theorem prod_apply (ohh : FVec Ideal S1280x512 .bf16) (rhs : FVec Ideal S512x512 .bf16) (r : Fin 1280) (w : Fin 512) :
    matmul DD none ohh rhs (constant (F := Ideal) S1280x512 .f32 0x00000000#32) (ix2 r w)
      = ∑ h : Fin 512, ohh (ix2 r h) * rhs (ix2 h w) := by
  refine (Ideal.matmul_constant_zero_apply DD none ohh rhs (ix2 r w)).trans ?_
  rw [← Equiv.sum_comp (contrEquiv1 DD 512 rfl rfl).symm]
  refine Finset.sum_congr rfl fun k _ => ?_
  have hk := contrEquiv1_symm_val DD 512 rfl rfl k
  have el : DD.lhsIdx (ix2 r w) ((contrEquiv1 DD 512 rfl rfl).symm k) = ix2 r k :=
    funext fun a => Fin.ext (by
      match a with
      | ⟨0, _⟩ => exact lhs_row _ _
      | ⟨1, _⟩ => exact (lhs_lane _ _).trans hk)
  have er : DD.rhsIdx (ix2 r w) ((contrEquiv1 DD 512 rfl rfl).symm k) = ix2 k w :=
    funext fun a => Fin.ext (by
      match a with
      | ⟨0, _⟩ => exact (rhs_lane _ _).trans hk
      | ⟨1, _⟩ => exact rhs_col _ _)
  rw [el, er]

/-- One channel's row at point `r`: the contraction of the slab with the two weight rows of that point. -/
theorem rowVal_apply (ohw : FVec Ideal S1280x512 .f32) (ohh : FVec Ideal S1280x512 .bf16) (slab : Vec Ideal S1x512x512 .bf16)
    (r : Fin 1280) :
    rowVal ohw ohh slab (ix1 r)
      = ∑ w : Fin 512, (∑ h : Fin 512, ohh (ix2 r h) * slab (ix3 (0 : Fin 1) h w)) * ohw (ix2 r w) := by
  unfold rowVal
  refine (Ideal.multiReduction_add_single _ 0x00000000#32 reduces_S1280x512_S1280 (.inl rfl) rfl (ix1 r)).trans ?_
  refine Finset.sum_congr rfl fun (w : Fin 512) _ => ?_
  have e : reduces_S1280x512_S1280.lift (ix1 r) w = ix2 r w :=
    funext fun a => Fin.ext (by match a with | ⟨0, _⟩ => rfl | ⟨1, _⟩ => rfl)
  rw [e]
  show matmul DD none ohh (shapeCast S512x512 slab shapeCasts_S1x512x512_S512x512 : FVec Ideal S512x512 .bf16)
      (constant (F := Ideal) S1280x512 .f32 0x00000000#32) (ix2 r w) * ohw (ix2 r w) = _
  rw [prod_apply]
  refine congrArg (· * ohw (ix2 r w)) (Finset.sum_congr rfl fun h _ => ?_)
  rw [shapeCast_1ab_ab_apply]

/-- With the weight matrices of a coordinate block: the one-hot form of the sample. -/
theorem rowVal_weights_apply (z0 : Vec Ideal S1280x2 .f32) (slab : Vec Ideal S1x512x512 .bf16) (r : Fin 1280) :
    rowVal (ohW z0) (ohH z0) slab (ix1 r)
      = kSample (fun h w => slab (ix3 (0 : Fin 1) h w)) (z0 (ix2 r (0 : Fin 2))) (z0 (ix2 r (1 : Fin 2))) := by
  rw [rowVal_apply]
  unfold kSample
  refine Finset.sum_congr rfl fun w _ => ?_
  rw [ohW_apply]
  refine congrArg (· * hot (z0 (ix2 r (0 : Fin 2))) w) (Finset.sum_congr rfl fun h _ => ?_)
  rw [ohH_apply]

/-! ## The stored block and the output block as one function -/

/-- What a channel's store writes: its row with the unit axis put back. -/
def rowBlock (z0 : Vec Ideal S1280x2 .f32) (slab : Vec Ideal S1x512x512 .bf16) : FVec Ideal S1x1280 .f32 :=
  shapeCast S1x1280 (rowVal (ohW z0) (ohH z0) slab) shapeCasts_S1280_S1x1280

theorem rowBlock_apply (z0 : Vec Ideal S1280x2 .f32) (slab : Vec Ideal S1x512x512 .bf16) (u : Fin 1) (r : Fin 1280) :
    rowBlock z0 slab (ix2 u r)
      = kSample (fun h w => slab (ix3 (0 : Fin 1) h w)) (z0 (ix2 r (0 : Fin 2))) (z0 (ix2 r (1 : Fin 2))) := by
  unfold rowBlock
  rw [shapeCast_a_1a_apply, rowVal_weights_apply]

/-- The output block as one function of the two input blocks: entry `(ch, r)` is channel `ch`'s plane sampled, in
    the one-hot form, at point `r`'s coordinates. -/
def blockOf (x0 : Vec Ideal S1280x2 .f32) (x1 : Vec Ideal S32x512x512 .bf16) : Vec Ideal S32x1280 .f32 := fun y =>
  kSample (fun h w => x1 (ix3 (⟨(y 0).val, idx2_lt0 y⟩ : Fin 32) h w))
    (x0 (ix2 (⟨(y 1).val, idx2_lt1 y⟩ : Fin 1280) (0 : Fin 2))) (x0 (ix2 (⟨(y 1).val, idx2_lt1 y⟩ : Fin 1280) (1 : Fin 2)))

theorem blockOf_apply (x0 : Vec Ideal S1280x2 .f32) (x1 : Vec Ideal S32x512x512 .bf16) (ch : Fin 32) (r : Fin 1280) :
    blockOf x0 x1 (ix2 ch r) = kSample (fun h w => x1 (ix3 ch h w)) (x0 (ix2 r (0 : Fin 2))) (x0 (ix2 r (1 : Fin 2))) := rfl

theorem kSample_congr {f g : Fin 512 → Fin 512 → EReal} {a b a' b' : EReal} (hf : f = g) (ha : a = a') (hb : b = b') :
    kSample f a b = kSample g a' b' := by subst hf ha hb; rfl

/-- Channel `c`'s store is the block function's row `c`: the stored row, computed from the coordinate block (loaded
    whole) and slab `c` of the plane block, is the block function at the store's rectangle. -/
theorem piece_apply (x0 : Vec Ideal S1280x2 .f32) (x1 : Vec Ideal S32x512x512 .bf16) (c : Fin 32)
    (inb0 : ∀ a, (![0, 0] : Fin 2 → Nat) a + S1280x2.size a ≤ S1280x2.size a)
    (inbS : ∀ a, (![c.val, 0, 0] : Fin 3 → Nat) a + S1x512x512.size a ≤ S32x512x512.size a)
    (inbO : ∀ a, (![c.val, 0] : Fin 2 → Nat) a + S1x1280.size a ≤ S32x1280.size a) (x : S1x1280.Idx) :
    rowBlock (View.ld x0 (Rect.unit (s := S1280x2) ![0, 0] S1280x2.size inb0))
        (View.ld x1 (Rect.unit (s := S32x512x512) ![c.val, 0, 0] S1x512x512.size inbS)) x
      = blockOf x0 x1 ((Rect.unit (s := S32x1280) ![c.val, 0] S1x1280.size inbO).emb x) := by
  obtain ⟨u, r, rfl⟩ : ∃ (u : Fin 1) (r : Fin 1280), x = ix2 u r := ⟨x 0, x 1, eq_ix2 x⟩
  have hu : u.val = 0 := by omega
  rw [rowBlock_apply,
    View.ld_unit_zero (funext fun a => by match a with | ⟨0, _⟩ => rfl | ⟨1, _⟩ => rfl) inb0 x0]
  unfold blockOf
  refine kSample_congr (funext fun h => funext fun w => congrArg x1 (funext fun a => Fin.ext ?_))
    (congrArg x0 (funext fun a => Fin.ext ?_)) (congrArg x0 (funext fun a => Fin.ext ?_))
  · match a with
    | ⟨0, _⟩ => show c.val + 1 * 0 = c.val + 1 * u.val; omega
    | ⟨1, _⟩ => show 0 + 1 * h.val = h.val; omega
    | ⟨2, _⟩ => show 0 + 1 * w.val = w.val; omega
  · match a with
    | ⟨0, _⟩ => show r.val = 0 + 1 * r.val; omega
    | ⟨1, _⟩ => rfl
  · match a with
    | ⟨0, _⟩ => show r.val = 0 + 1 * r.val; omega
    | ⟨1, _⟩ => rfl

end Cert.KernelIdeal.HandValue

end
-- ==== Proof.KValue.Out0.lean ====
import proofs.«162729_j22162031247387_1_alg».proof.Proof.KValue.Pay
import proofs.«162729_j22162031247387_1_alg».proof.Proof.KFrame.R0

/-! # What sampling call 0's body leaves in its output block

The body's 32 stores, one row per channel, are the rows of one function of the two input blocks: row `ch` at point `r`
is channel `ch`'s slab contracted with the two weight rows of point `r`'s coordinates (the one-hot form of the
sample). Each store's payload is the same arithmetic of the coordinate block and of its own slab, so each is a row of
that function, and the stores' rectangles tile the block. -/

set_option maxRecDepth 16384

noncomputable section

namespace Cert.KernelIdeal.HandValue

open Idealize.ShloMosaic Idealize.ShloMosaic.ValueIdx Cert.KernelIdeal Cert.KernelIdeal.Gen Cert.KernelIdeal.Hand Cert.Sample

/-- The output block the body leaves is the block function of the two input blocks. -/
theorem out0_2_eq (x0 : Vec Ideal S1280x2 .f32) (x1 : Vec Ideal S32x512x512 .bf16) :
    out0_2 (F := Ideal) x0 x1 = blockOf x0 x1 := by
  funext y
  unfold out0_2
  refine View.canon_apply_of_pieces (blockOf x0 x1) _ ?_ y (cover0_2 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_apply x0 x1 31 inb_S1280x2_S1280x2_0_0 inb_S32x512x512_S1x512x512_31_0_0 inb_S32x1280_S1x1280_31_0 x
  · exact fun x => piece_apply x0 x1 30 inb_S1280x2_S1280x2_0_0 inb_S32x512x512_S1x512x512_30_0_0 inb_S32x1280_S1x1280_30_0 x
  · exact fun x => piece_apply x0 x1 29 inb_S1280x2_S1280x2_0_0 inb_S32x512x512_S1x512x512_29_0_0 inb_S32x1280_S1x1280_29_0 x
  · exact fun x => piece_apply x0 x1 28 inb_S1280x2_S1280x2_0_0 inb_S32x512x512_S1x512x512_28_0_0 inb_S32x1280_S1x1280_28_0 x
  · exact fun x => piece_apply x0 x1 27 inb_S1280x2_S1280x2_0_0 inb_S32x512x512_S1x512x512_27_0_0 inb_S32x1280_S1x1280_27_0 x
  · exact fun x => piece_apply x0 x1 26 inb_S1280x2_S1280x2_0_0 inb_S32x512x512_S1x512x512_26_0_0 inb_S32x1280_S1x1280_26_0 x
  · exact fun x => piece_apply x0 x1 25 inb_S1280x2_S1280x2_0_0 inb_S32x512x512_S1x512x512_25_0_0 inb_S32x1280_S1x1280_25_0 x
  · exact fun x => piece_apply x0 x1 24 inb_S1280x2_S1280x2_0_0 inb_S32x512x512_S1x512x512_24_0_0 inb_S32x1280_S1x1280_24_0 x
  · exact fun x => piece_apply x0 x1 23 inb_S1280x2_S1280x2_0_0 inb_S32x512x512_S1x512x512_23_0_0 inb_S32x1280_S1x1280_23_0 x
  · exact fun x => piece_apply x0 x1 22 inb_S1280x2_S1280x2_0_0 inb_S32x512x512_S1x512x512_22_0_0 inb_S32x1280_S1x1280_22_0 x
  · exact fun x => piece_apply x0 x1 21 inb_S1280x2_S1280x2_0_0 inb_S32x512x512_S1x512x512_21_0_0 inb_S32x1280_S1x1280_21_0 x
  · exact fun x => piece_apply x0 x1 20 inb_S1280x2_S1280x2_0_0 inb_S32x512x512_S1x512x512_20_0_0 inb_S32x1280_S1x1280_20_0 x
  · exact fun x => piece_apply x0 x1 19 inb_S1280x2_S1280x2_0_0 inb_S32x512x512_S1x512x512_19_0_0 inb_S32x1280_S1x1280_19_0 x
  · exact fun x => piece_apply x0 x1 18 inb_S1280x2_S1280x2_0_0 inb_S32x512x512_S1x512x512_18_0_0 inb_S32x1280_S1x1280_18_0 x
  · exact fun x => piece_apply x0 x1 17 inb_S1280x2_S1280x2_0_0 inb_S32x512x512_S1x512x512_17_0_0 inb_S32x1280_S1x1280_17_0 x
  · exact fun x => piece_apply x0 x1 16 inb_S1280x2_S1280x2_0_0 inb_S32x512x512_S1x512x512_16_0_0 inb_S32x1280_S1x1280_16_0 x
  · exact fun x => piece_apply x0 x1 15 inb_S1280x2_S1280x2_0_0 inb_S32x512x512_S1x512x512_15_0_0 inb_S32x1280_S1x1280_15_0 x
  · exact fun x => piece_apply x0 x1 14 inb_S1280x2_S1280x2_0_0 inb_S32x512x512_S1x512x512_14_0_0 inb_S32x1280_S1x1280_14_0 x
  · exact fun x => piece_apply x0 x1 13 inb_S1280x2_S1280x2_0_0 inb_S32x512x512_S1x512x512_13_0_0 inb_S32x1280_S1x1280_13_0 x
  · exact fun x => piece_apply x0 x1 12 inb_S1280x2_S1280x2_0_0 inb_S32x512x512_S1x512x512_12_0_0 inb_S32x1280_S1x1280_12_0 x
  · exact fun x => piece_apply x0 x1 11 inb_S1280x2_S1280x2_0_0 inb_S32x512x512_S1x512x512_11_0_0 inb_S32x1280_S1x1280_11_0 x
  · exact fun x => piece_apply x0 x1 10 inb_S1280x2_S1280x2_0_0 inb_S32x512x512_S1x512x512_10_0_0 inb_S32x1280_S1x1280_10_0 x
  · exact fun x => piece_apply x0 x1 9 inb_S1280x2_S1280x2_0_0 inb_S32x512x512_S1x512x512_9_0_0 inb_S32x1280_S1x1280_9_0 x
  · exact fun x => piece_apply x0 x1 8 inb_S1280x2_S1280x2_0_0 inb_S32x512x512_S1x512x512_8_0_0 inb_S32x1280_S1x1280_8_0 x
  · exact fun x => piece_apply x0 x1 7 inb_S1280x2_S1280x2_0_0 inb_S32x512x512_S1x512x512_7_0_0 inb_S32x1280_S1x1280_7_0 x
  · exact fun x => piece_apply x0 x1 6 inb_S1280x2_S1280x2_0_0 inb_S32x512x512_S1x512x512_6_0_0 inb_S32x1280_S1x1280_6_0 x
  · exact fun x => piece_apply x0 x1 5 inb_S1280x2_S1280x2_0_0 inb_S32x512x512_S1x512x512_5_0_0 inb_S32x1280_S1x1280_5_0 x
  · exact fun x => piece_apply x0 x1 4 inb_S1280x2_S1280x2_0_0 inb_S32x512x512_S1x512x512_4_0_0 inb_S32x1280_S1x1280_4_0 x
  · exact fun x => piece_apply x0 x1 3 inb_S1280x2_S1280x2_0_0 inb_S32x512x512_S1x512x512_3_0_0 inb_S32x1280_S1x1280_3_0 x
  · exact fun x => piece_apply x0 x1 2 inb_S1280x2_S1280x2_0_0 inb_S32x512x512_S1x512x512_2_0_0 inb_S32x1280_S1x1280_2_0 x
  · exact fun x => piece_apply x0 x1 1 inb_S1280x2_S1280x2_0_0 inb_S32x512x512_S1x512x512_1_0_0 inb_S32x1280_S1x1280_1_0 x
  · exact fun x => piece_apply x0 x1 0 inb_S1280x2_S1280x2_0_0 inb_S32x512x512_S1x512x512_0_0_0 inb_S32x1280_S1x1280_0_0 x

/-- Entry `(ch, r)` of the output block: channel `ch`'s plane sampled, in the one-hot form, at point `r`'s coordinates. -/
theorem out0_2_apply (x0 : Vec Ideal S1280x2 .f32) (x1 : Vec Ideal S32x512x512 .bf16) (ch : Fin 32) (r : Fin 1280) :
    out0_2 (F := Ideal) x0 x1 (ix2 ch r)
      = kSample (fun h w => x1 (ix3 ch h w)) (x0 (ix2 r (0 : Fin 2))) (x0 (ix2 r (1 : Fin 2))) := by
  rw [out0_2_eq]
  rfl

end Cert.KernelIdeal.HandValue

end
-- ==== Proof.KValue.Out1.lean ====
import proofs.«162729_j22162031247387_1_alg».proof.Proof.KValue.Pay
import proofs.«162729_j22162031247387_1_alg».proof.Proof.KFrame.R1

/-! # What sampling call 1's body leaves in its output block

The body's 32 stores, one row per channel, are the rows of one function of the two input blocks: row `ch` at point `r`
is channel `ch`'s slab contracted with the two weight rows of point `r`'s coordinates (the one-hot form of the
sample). Each store's payload is the same arithmetic of the coordinate block and of its own slab, so each is a row of
that function, and the stores' rectangles tile the block. -/

set_option maxRecDepth 16384

noncomputable section

namespace Cert.KernelIdeal.HandValue

open Idealize.ShloMosaic Idealize.ShloMosaic.ValueIdx Cert.KernelIdeal Cert.KernelIdeal.Gen Cert.KernelIdeal.Hand Cert.Sample

/-- The output block the body leaves is the block function of the two input blocks. -/
theorem out1_2_eq (x0 : Vec Ideal S1280x2 .f32) (x1 : Vec Ideal S32x512x512 .bf16) :
    out1_2 (F := Ideal) x0 x1 = blockOf x0 x1 := by
  funext y
  unfold out1_2
  refine View.canon_apply_of_pieces (blockOf x0 x1) _ ?_ y (cover1_2 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_apply x0 x1 31 inb_S1280x2_S1280x2_0_0 inb_S32x512x512_S1x512x512_31_0_0 inb_S32x1280_S1x1280_31_0 x
  · exact fun x => piece_apply x0 x1 30 inb_S1280x2_S1280x2_0_0 inb_S32x512x512_S1x512x512_30_0_0 inb_S32x1280_S1x1280_30_0 x
  · exact fun x => piece_apply x0 x1 29 inb_S1280x2_S1280x2_0_0 inb_S32x512x512_S1x512x512_29_0_0 inb_S32x1280_S1x1280_29_0 x
  · exact fun x => piece_apply x0 x1 28 inb_S1280x2_S1280x2_0_0 inb_S32x512x512_S1x512x512_28_0_0 inb_S32x1280_S1x1280_28_0 x
  · exact fun x => piece_apply x0 x1 27 inb_S1280x2_S1280x2_0_0 inb_S32x512x512_S1x512x512_27_0_0 inb_S32x1280_S1x1280_27_0 x
  · exact fun x => piece_apply x0 x1 26 inb_S1280x2_S1280x2_0_0 inb_S32x512x512_S1x512x512_26_0_0 inb_S32x1280_S1x1280_26_0 x
  · exact fun x => piece_apply x0 x1 25 inb_S1280x2_S1280x2_0_0 inb_S32x512x512_S1x512x512_25_0_0 inb_S32x1280_S1x1280_25_0 x
  · exact fun x => piece_apply x0 x1 24 inb_S1280x2_S1280x2_0_0 inb_S32x512x512_S1x512x512_24_0_0 inb_S32x1280_S1x1280_24_0 x
  · exact fun x => piece_apply x0 x1 23 inb_S1280x2_S1280x2_0_0 inb_S32x512x512_S1x512x512_23_0_0 inb_S32x1280_S1x1280_23_0 x
  · exact fun x => piece_apply x0 x1 22 inb_S1280x2_S1280x2_0_0 inb_S32x512x512_S1x512x512_22_0_0 inb_S32x1280_S1x1280_22_0 x
  · exact fun x => piece_apply x0 x1 21 inb_S1280x2_S1280x2_0_0 inb_S32x512x512_S1x512x512_21_0_0 inb_S32x1280_S1x1280_21_0 x
  · exact fun x => piece_apply x0 x1 20 inb_S1280x2_S1280x2_0_0 inb_S32x512x512_S1x512x512_20_0_0 inb_S32x1280_S1x1280_20_0 x
  · exact fun x => piece_apply x0 x1 19 inb_S1280x2_S1280x2_0_0 inb_S32x512x512_S1x512x512_19_0_0 inb_S32x1280_S1x1280_19_0 x
  · exact fun x => piece_apply x0 x1 18 inb_S1280x2_S1280x2_0_0 inb_S32x512x512_S1x512x512_18_0_0 inb_S32x1280_S1x1280_18_0 x
  · exact fun x => piece_apply x0 x1 17 inb_S1280x2_S1280x2_0_0 inb_S32x512x512_S1x512x512_17_0_0 inb_S32x1280_S1x1280_17_0 x
  · exact fun x => piece_apply x0 x1 16 inb_S1280x2_S1280x2_0_0 inb_S32x512x512_S1x512x512_16_0_0 inb_S32x1280_S1x1280_16_0 x
  · exact fun x => piece_apply x0 x1 15 inb_S1280x2_S1280x2_0_0 inb_S32x512x512_S1x512x512_15_0_0 inb_S32x1280_S1x1280_15_0 x
  · exact fun x => piece_apply x0 x1 14 inb_S1280x2_S1280x2_0_0 inb_S32x512x512_S1x512x512_14_0_0 inb_S32x1280_S1x1280_14_0 x
  · exact fun x => piece_apply x0 x1 13 inb_S1280x2_S1280x2_0_0 inb_S32x512x512_S1x512x512_13_0_0 inb_S32x1280_S1x1280_13_0 x
  · exact fun x => piece_apply x0 x1 12 inb_S1280x2_S1280x2_0_0 inb_S32x512x512_S1x512x512_12_0_0 inb_S32x1280_S1x1280_12_0 x
  · exact fun x => piece_apply x0 x1 11 inb_S1280x2_S1280x2_0_0 inb_S32x512x512_S1x512x512_11_0_0 inb_S32x1280_S1x1280_11_0 x
  · exact fun x => piece_apply x0 x1 10 inb_S1280x2_S1280x2_0_0 inb_S32x512x512_S1x512x512_10_0_0 inb_S32x1280_S1x1280_10_0 x
  · exact fun x => piece_apply x0 x1 9 inb_S1280x2_S1280x2_0_0 inb_S32x512x512_S1x512x512_9_0_0 inb_S32x1280_S1x1280_9_0 x
  · exact fun x => piece_apply x0 x1 8 inb_S1280x2_S1280x2_0_0 inb_S32x512x512_S1x512x512_8_0_0 inb_S32x1280_S1x1280_8_0 x
  · exact fun x => piece_apply x0 x1 7 inb_S1280x2_S1280x2_0_0 inb_S32x512x512_S1x512x512_7_0_0 inb_S32x1280_S1x1280_7_0 x
  · exact fun x => piece_apply x0 x1 6 inb_S1280x2_S1280x2_0_0 inb_S32x512x512_S1x512x512_6_0_0 inb_S32x1280_S1x1280_6_0 x
  · exact fun x => piece_apply x0 x1 5 inb_S1280x2_S1280x2_0_0 inb_S32x512x512_S1x512x512_5_0_0 inb_S32x1280_S1x1280_5_0 x
  · exact fun x => piece_apply x0 x1 4 inb_S1280x2_S1280x2_0_0 inb_S32x512x512_S1x512x512_4_0_0 inb_S32x1280_S1x1280_4_0 x
  · exact fun x => piece_apply x0 x1 3 inb_S1280x2_S1280x2_0_0 inb_S32x512x512_S1x512x512_3_0_0 inb_S32x1280_S1x1280_3_0 x
  · exact fun x => piece_apply x0 x1 2 inb_S1280x2_S1280x2_0_0 inb_S32x512x512_S1x512x512_2_0_0 inb_S32x1280_S1x1280_2_0 x
  · exact fun x => piece_apply x0 x1 1 inb_S1280x2_S1280x2_0_0 inb_S32x512x512_S1x512x512_1_0_0 inb_S32x1280_S1x1280_1_0 x
  · exact fun x => piece_apply x0 x1 0 inb_S1280x2_S1280x2_0_0 inb_S32x512x512_S1x512x512_0_0_0 inb_S32x1280_S1x1280_0_0 x

/-- Entry `(ch, r)` of the output block: channel `ch`'s plane sampled, in the one-hot form, at point `r`'s coordinates. -/
theorem out1_2_apply (x0 : Vec Ideal S1280x2 .f32) (x1 : Vec Ideal S32x512x512 .bf16) (ch : Fin 32) (r : Fin 1280) :
    out1_2 (F := Ideal) x0 x1 (ix2 ch r)
      = kSample (fun h w => x1 (ix3 ch h w)) (x0 (ix2 r (0 : Fin 2))) (x0 (ix2 r (1 : Fin 2))) := by
  rw [out1_2_eq]
  rfl

end Cert.KernelIdeal.HandValue

end
-- ==== Proof.KValue.Out2.lean ====
import proofs.«162729_j22162031247387_1_alg».proof.Proof.KValue.Pay
import proofs.«162729_j22162031247387_1_alg».proof.Proof.KFrame.R2

/-! # What sampling call 2's body leaves in its output block

The body's 32 stores, one row per channel, are the rows of one function of the two input blocks: row `ch` at point `r`
is channel `ch`'s slab contracted with the two weight rows of point `r`'s coordinates (the one-hot form of the
sample). Each store's payload is the same arithmetic of the coordinate block and of its own slab, so each is a row of
that function, and the stores' rectangles tile the block. -/

set_option maxRecDepth 16384

noncomputable section

namespace Cert.KernelIdeal.HandValue

open Idealize.ShloMosaic Idealize.ShloMosaic.ValueIdx Cert.KernelIdeal Cert.KernelIdeal.Gen Cert.KernelIdeal.Hand Cert.Sample

/-- The output block the body leaves is the block function of the two input blocks. -/
theorem out2_2_eq (x0 : Vec Ideal S1280x2 .f32) (x1 : Vec Ideal S32x512x512 .bf16) :
    out2_2 (F := Ideal) x0 x1 = blockOf x0 x1 := by
  funext y
  unfold out2_2
  refine View.canon_apply_of_pieces (blockOf x0 x1) _ ?_ y (cover2_2 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_apply x0 x1 31 inb_S1280x2_S1280x2_0_0 inb_S32x512x512_S1x512x512_31_0_0 inb_S32x1280_S1x1280_31_0 x
  · exact fun x => piece_apply x0 x1 30 inb_S1280x2_S1280x2_0_0 inb_S32x512x512_S1x512x512_30_0_0 inb_S32x1280_S1x1280_30_0 x
  · exact fun x => piece_apply x0 x1 29 inb_S1280x2_S1280x2_0_0 inb_S32x512x512_S1x512x512_29_0_0 inb_S32x1280_S1x1280_29_0 x
  · exact fun x => piece_apply x0 x1 28 inb_S1280x2_S1280x2_0_0 inb_S32x512x512_S1x512x512_28_0_0 inb_S32x1280_S1x1280_28_0 x
  · exact fun x => piece_apply x0 x1 27 inb_S1280x2_S1280x2_0_0 inb_S32x512x512_S1x512x512_27_0_0 inb_S32x1280_S1x1280_27_0 x
  · exact fun x => piece_apply x0 x1 26 inb_S1280x2_S1280x2_0_0 inb_S32x512x512_S1x512x512_26_0_0 inb_S32x1280_S1x1280_26_0 x
  · exact fun x => piece_apply x0 x1 25 inb_S1280x2_S1280x2_0_0 inb_S32x512x512_S1x512x512_25_0_0 inb_S32x1280_S1x1280_25_0 x
  · exact fun x => piece_apply x0 x1 24 inb_S1280x2_S1280x2_0_0 inb_S32x512x512_S1x512x512_24_0_0 inb_S32x1280_S1x1280_24_0 x
  · exact fun x => piece_apply x0 x1 23 inb_S1280x2_S1280x2_0_0 inb_S32x512x512_S1x512x512_23_0_0 inb_S32x1280_S1x1280_23_0 x
  · exact fun x => piece_apply x0 x1 22 inb_S1280x2_S1280x2_0_0 inb_S32x512x512_S1x512x512_22_0_0 inb_S32x1280_S1x1280_22_0 x
  · exact fun x => piece_apply x0 x1 21 inb_S1280x2_S1280x2_0_0 inb_S32x512x512_S1x512x512_21_0_0 inb_S32x1280_S1x1280_21_0 x
  · exact fun x => piece_apply x0 x1 20 inb_S1280x2_S1280x2_0_0 inb_S32x512x512_S1x512x512_20_0_0 inb_S32x1280_S1x1280_20_0 x
  · exact fun x => piece_apply x0 x1 19 inb_S1280x2_S1280x2_0_0 inb_S32x512x512_S1x512x512_19_0_0 inb_S32x1280_S1x1280_19_0 x
  · exact fun x => piece_apply x0 x1 18 inb_S1280x2_S1280x2_0_0 inb_S32x512x512_S1x512x512_18_0_0 inb_S32x1280_S1x1280_18_0 x
  · exact fun x => piece_apply x0 x1 17 inb_S1280x2_S1280x2_0_0 inb_S32x512x512_S1x512x512_17_0_0 inb_S32x1280_S1x1280_17_0 x
  · exact fun x => piece_apply x0 x1 16 inb_S1280x2_S1280x2_0_0 inb_S32x512x512_S1x512x512_16_0_0 inb_S32x1280_S1x1280_16_0 x
  · exact fun x => piece_apply x0 x1 15 inb_S1280x2_S1280x2_0_0 inb_S32x512x512_S1x512x512_15_0_0 inb_S32x1280_S1x1280_15_0 x
  · exact fun x => piece_apply x0 x1 14 inb_S1280x2_S1280x2_0_0 inb_S32x512x512_S1x512x512_14_0_0 inb_S32x1280_S1x1280_14_0 x
  · exact fun x => piece_apply x0 x1 13 inb_S1280x2_S1280x2_0_0 inb_S32x512x512_S1x512x512_13_0_0 inb_S32x1280_S1x1280_13_0 x
  · exact fun x => piece_apply x0 x1 12 inb_S1280x2_S1280x2_0_0 inb_S32x512x512_S1x512x512_12_0_0 inb_S32x1280_S1x1280_12_0 x
  · exact fun x => piece_apply x0 x1 11 inb_S1280x2_S1280x2_0_0 inb_S32x512x512_S1x512x512_11_0_0 inb_S32x1280_S1x1280_11_0 x
  · exact fun x => piece_apply x0 x1 10 inb_S1280x2_S1280x2_0_0 inb_S32x512x512_S1x512x512_10_0_0 inb_S32x1280_S1x1280_10_0 x
  · exact fun x => piece_apply x0 x1 9 inb_S1280x2_S1280x2_0_0 inb_S32x512x512_S1x512x512_9_0_0 inb_S32x1280_S1x1280_9_0 x
  · exact fun x => piece_apply x0 x1 8 inb_S1280x2_S1280x2_0_0 inb_S32x512x512_S1x512x512_8_0_0 inb_S32x1280_S1x1280_8_0 x
  · exact fun x => piece_apply x0 x1 7 inb_S1280x2_S1280x2_0_0 inb_S32x512x512_S1x512x512_7_0_0 inb_S32x1280_S1x1280_7_0 x
  · exact fun x => piece_apply x0 x1 6 inb_S1280x2_S1280x2_0_0 inb_S32x512x512_S1x512x512_6_0_0 inb_S32x1280_S1x1280_6_0 x
  · exact fun x => piece_apply x0 x1 5 inb_S1280x2_S1280x2_0_0 inb_S32x512x512_S1x512x512_5_0_0 inb_S32x1280_S1x1280_5_0 x
  · exact fun x => piece_apply x0 x1 4 inb_S1280x2_S1280x2_0_0 inb_S32x512x512_S1x512x512_4_0_0 inb_S32x1280_S1x1280_4_0 x
  · exact fun x => piece_apply x0 x1 3 inb_S1280x2_S1280x2_0_0 inb_S32x512x512_S1x512x512_3_0_0 inb_S32x1280_S1x1280_3_0 x
  · exact fun x => piece_apply x0 x1 2 inb_S1280x2_S1280x2_0_0 inb_S32x512x512_S1x512x512_2_0_0 inb_S32x1280_S1x1280_2_0 x
  · exact fun x => piece_apply x0 x1 1 inb_S1280x2_S1280x2_0_0 inb_S32x512x512_S1x512x512_1_0_0 inb_S32x1280_S1x1280_1_0 x
  · exact fun x => piece_apply x0 x1 0 inb_S1280x2_S1280x2_0_0 inb_S32x512x512_S1x512x512_0_0_0 inb_S32x1280_S1x1280_0_0 x

/-- Entry `(ch, r)` of the output block: channel `ch`'s plane sampled, in the one-hot form, at point `r`'s coordinates. -/
theorem out2_2_apply (x0 : Vec Ideal S1280x2 .f32) (x1 : Vec Ideal S32x512x512 .bf16) (ch : Fin 32) (r : Fin 1280) :
    out2_2 (F := Ideal) x0 x1 (ix2 ch r)
      = kSample (fun h w => x1 (ix3 ch h w)) (x0 (ix2 r (0 : Fin 2))) (x0 (ix2 r (1 : Fin 2))) := by
  rw [out2_2_eq]
  rfl

end Cert.KernelIdeal.HandValue

end
-- ==== Proof.KValue.Blocks.lean ====
import proofs.«162729_j22162031247387_1_alg».proof.Proof.KFrame.R0
import proofs.«162729_j22162031247387_1_alg».proof.Proof.KFrame.R1
import proofs.«162729_j22162031247387_1_alg».proof.Proof.KFrame.R2
import proofs.«162729_j22162031247387_1_alg».proof.Proof.Spec
import proofs.«162729_j22162031247387_1_alg».proof.Proof.KValue.Out0
import proofs.«162729_j22162031247387_1_alg».proof.Proof.KValue.Out1
import proofs.«162729_j22162031247387_1_alg».proof.Proof.KValue.Out2
import Idealize.ShloMosaic.Lib.Pipeline.Value
import Idealize.ShloMosaic.Lib.ValueIdx
import Idealize.ShloMosaic.Lib.Tactic

/-! # From blocks to arrays: what each sampling call leaves in its result array

Call `K` (one per feature plane) writes, at grid point `t`, columns `1280·t … 1280·t + 1279` of all 32 rows of its
result array. Entry `(ch, r)` of that block is the one-hot bilinear sample `Cert.Sample.kSample` of channel `ch` of
the plane at the `r`-th coordinate pair of the point's coordinate block; the coordinate block at `t` is rows
`1280·t … 1280·t + 1279` of the coordinate array and the plane's block is the whole plane at every point. So the
block written at `t` is block `t` of ONE function of the two input arrays, the 625 blocks tile the 800000
columns, and the result array ends holding that function, whatever it held before. Everything is stated at the
buffer contents `V` the call is entered with. -/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Call 0 -/

section Call0

/-- The result array of call 0 as one function of the call's two input arrays: entry `(ch, p)` is the sample of
    channel `ch` of the plane at the `p`-th coordinate pair. -/
abbrev G0 (c : Dev nD) : S32x800000.Idx → EReal := fun i =>
  Cert.Sample.kSample (fun h w => (V c (Pipeline.arrRef spec0 1) : S32x512x512.Idx → EReal) (ix3 (i 0 : Fin 32) h w))
    ((V c (Pipeline.arrRef spec0 0) : S800000x2.Idx → EReal) (ix2 (i 1 : Fin 800000) (0 : Fin 2)))
    ((V c (Pipeline.arrRef spec0 0) : S800000x2.Idx → EReal) (ix2 (i 1 : Fin 800000) (1 : Fin 2)))

/-- The index maps at point `t`: the coordinate window is at block row `t`, the plane's window never moves, the
    result window is at block column `t` (decided over the 625 points). -/
theorem idx_facts0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- One entry of the block written at a point, over blocks given as variables: if the coordinate block is rows
    `1280·tv …` of `A0` and the plane's block is `A1`, entry `j` of the body's result is the sample that the array
    function has at the index `i` with the same row and with column `1280·tv + j 1`. -/
theorem point0 (x0 : Vec Ideal S1280x2 .f32) (x1 : Vec Ideal S32x512x512 .bf16)
    (A0 : S800000x2.Idx → EReal) (A1 : S32x512x512.Idx → EReal) (tv : ℕ)
    (h0 : ∀ (x : S1280x2.Idx) (k : S800000x2.Idx), (k 0).val = 1280 * tv + (x 0).val → (k 1).val = (x 1).val → x0 x = A0 k)
    (h1 : ∀ x : S32x512x512.Idx, x1 x = A1 x)
    (j : S32x1280.Idx) (i : S32x800000.Idx) (hi0 : (i 0).val = (j 0).val) (hi1 : (i 1).val = 1280 * tv + (j 1).val) :
    out0_2 (F := Ideal) x0 x1 j
      = Cert.Sample.kSample (fun h w => A1 (ix3 (i 0 : Fin 32) h w)) (A0 (ix2 (i 1 : Fin 800000) (0 : Fin 2))) (A0 (ix2 (i 1 : Fin 800000) (1 : Fin 2))) := by
  obtain ⟨ch, r, rfl⟩ : ∃ (ch : Fin 32) (r : Fin 1280), j = ix2 ch r := ⟨j 0, j 1, eq_ix2 j⟩
  rw [out0_2_apply]
  have e : (i 0 : Fin 32) = ch := Fin.ext hi0
  rw [h0 (ix2 r (0 : Fin 2)) (ix2 (i 1 : Fin 800000) (0 : Fin 2)) hi1 rfl, h0 (ix2 r (1 : Fin 2)) (ix2 (i 1 : Fin 800000) (1 : Fin 2)) hi1 rfl, e]
  congr 1
  funext h w
  exact h1 _

/-- The coordinate window's block at point `t` is rows `1280·t … 1280·t + 1279` of the coordinate array. -/
theorem iblk0_0_apply (c : Dev nD) (t : Fin cfg0.N) (x : S1280x2.Idx) (k : S800000x2.Idx)
    (hk0 : (k 0).val = 1280 * t.val + (x 0).val) (hk1 : (k 1).val = (x 1).val) :
    (iblk0 V c 0 t : Vec Ideal S1280x2 .f32) x = (V c (Pipeline.arrRef spec0 0) : S800000x2.Idx → EReal) k := by
  obtain ⟨e0, e1, -⟩ := idx_facts0 t
  unfold iblk0
  rw [View.read_apply]
  show V c main_v114 _ = V c main_v114 _
  congr 1
  funext a
  apply Fin.ext
  match a with
  | ⟨0, _⟩ => show win0_0.index t (0 : Fin 2) * 1280 + 1 * (x 0).val = (k 0).val; rw [e0, hk0]; omega
  | ⟨1, _⟩ => show win0_0.index t (1 : Fin 2) * 2 + 1 * (x 1).val = (k 1).val; rw [e1, hk1]; omega

/-- The plane's window's block is the whole plane at every point. -/
theorem iblk0_1_apply (c : Dev nD) (t : Fin cfg0.N) (x : S32x512x512.Idx) :
    (iblk0 V c 1 t : Vec Ideal S32x512x512 .bf16) x = (V c (Pipeline.arrRef spec0 1) : S32x512x512.Idx → EReal) x := by
  obtain ⟨-, -, e2, e3, e4, -⟩ := idx_facts0 t
  unfold iblk0
  rw [View.read_apply]
  show V c main_v116 _ = V c main_v116 _
  congr 1
  funext a
  apply Fin.ext
  match a with
  | ⟨0, _⟩ => show win0_1.index t (0 : Fin 3) * 32 + 1 * (x 0).val = (x 0).val; rw [e2]; omega
  | ⟨1, _⟩ => show win0_1.index t (1 : Fin 3) * 512 + 1 * (x 1).val = (x 1).val; rw [e3]; omega
  | ⟨2, _⟩ => show win0_1.index t (2 : Fin 3) * 512 + 1 * (x 2).val = (x 2).val; rw [e4]; omega

/-- What point `t` writes back is block `t` of `G0` of the arrays as the call finds them. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  obtain ⟨-, -, -, -, -, e5, e6⟩ := idx_facts0 t
  funext j
  rw [View.read_apply]
  refine point0 _ _ _ _ t.val (fun x k hk0 hk1 => iblk0_0_apply V c t x k hk0 hk1) (fun x => iblk0_1_apply V c t x) j _ ?_ ?_
  · show win0_2.index t (0 : Fin 2) * 32 + 1 * (j 0).val = (j 0).val; rw [e5]; omega
  · show win0_2.index t (1 : Fin 2) * 1280 + 1 * (j 1).val = 1280 * t.val + (j 1).val; rw [e6]; omega

/-- An index of the result array is in point `t`'s block iff each coordinate is in the block's range on its axis. -/
theorem mem_blk0 (t : Fin cfg0.N) (i : S32x800000.Idx) :
    i ∈ ((cfg0.win 2).blk t).view.set ↔ ∀ a : Fin 2, win0_2.index t a * S32x1280.size a ≤ (i a).val ∧ (i a).val < win0_2.index t a * S32x1280.size a + S32x1280.size a := by
  show i ∈ ((View.whole main_v117).slice (win0_2.rect t)).set ↔ _
  rw [View.set_slice_whole, Rect.mem_set_unit]
  exact Iff.rfl

/-- Every index of the result array is in some point's block: column `p` is in block `p / 1280`. -/
theorem cover0 (i : S32x800000.Idx) :
    ∃ t : Fin cfg0.N, (cfg0.win 2).flush t = true ∧ i ∈ ((cfg0.win 2).blk t).view.set := by
  have hi0 : (i 0).val < 32 := (i 0).isLt
  have hi1 : (i 1).val < 800000 := (i 1).isLt
  have hN : cfg0.N = 625 := N_0
  let t : Fin cfg0.N := ⟨(i 1).val / 1280, by rw [hN]; omega⟩
  have htv : t.val = (i 1).val / 1280 := rfl
  obtain ⟨-, -, -, -, -, e5, e6⟩ := idx_facts0 t
  refine ⟨t, flush0_2 t, ?_⟩
  rw [mem_blk0]
  intro a
  match a with
  | ⟨0, _⟩ => show win0_2.index t (0 : Fin 2) * 32 ≤ (i 0).val ∧ (i 0).val < win0_2.index t (0 : Fin 2) * 32 + 32; rw [e5]; omega
  | ⟨1, _⟩ => show win0_2.index t (1 : Fin 2) * 1280 ≤ (i 1).val ∧ (i 1).val < win0_2.index t (1 : Fin 2) * 1280 + 1280; rw [e6, htv]; omega

/-- The result array after call 0: `G0` of the arrays the call was entered with. -/
theorem arr0 (c : Dev nD) : (dat0 (F := Ideal) V c).arrAt 2 cfg0.N = G0 V c :=
  (dat0 V c).arrAt_eq_of_cover 2 (G0 V c) (fun t _ => flushed0_eq V c t) (cover0)

end Call0

/-! ## Call 1 -/

section Call1

/-- The result array of call 1 as one function of the call's two input arrays: entry `(ch, p)` is the sample of
    channel `ch` of the plane at the `p`-th coordinate pair. -/
abbrev G1 (c : Dev nD) : S32x800000.Idx → EReal := fun i =>
  Cert.Sample.kSample (fun h w => (V c (Pipeline.arrRef spec1 1) : S32x512x512.Idx → EReal) (ix3 (i 0 : Fin 32) h w))
    ((V c (Pipeline.arrRef spec1 0) : S800000x2.Idx → EReal) (ix2 (i 1 : Fin 800000) (0 : Fin 2)))
    ((V c (Pipeline.arrRef spec1 0) : S800000x2.Idx → EReal) (ix2 (i 1 : Fin 800000) (1 : Fin 2)))

/-- The index maps at point `t`: the coordinate window is at block row `t`, the plane's window never moves, the
    result window is at block column `t` (decided over the 625 points). -/
theorem idx_facts1 : ∀ t : Fin cfg1.N, win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = t.val :=
  (by decide +kernel : ∀ t : Fin grid1.N, _)

/-- One entry of the block written at a point, over blocks given as variables: if the coordinate block is rows
    `1280·tv …` of `A0` and the plane's block is `A1`, entry `j` of the body's result is the sample that the array
    function has at the index `i` with the same row and with column `1280·tv + j 1`. -/
theorem point1 (x0 : Vec Ideal S1280x2 .f32) (x1 : Vec Ideal S32x512x512 .bf16)
    (A0 : S800000x2.Idx → EReal) (A1 : S32x512x512.Idx → EReal) (tv : ℕ)
    (h0 : ∀ (x : S1280x2.Idx) (k : S800000x2.Idx), (k 0).val = 1280 * tv + (x 0).val → (k 1).val = (x 1).val → x0 x = A0 k)
    (h1 : ∀ x : S32x512x512.Idx, x1 x = A1 x)
    (j : S32x1280.Idx) (i : S32x800000.Idx) (hi0 : (i 0).val = (j 0).val) (hi1 : (i 1).val = 1280 * tv + (j 1).val) :
    out1_2 (F := Ideal) x0 x1 j
      = Cert.Sample.kSample (fun h w => A1 (ix3 (i 0 : Fin 32) h w)) (A0 (ix2 (i 1 : Fin 800000) (0 : Fin 2))) (A0 (ix2 (i 1 : Fin 800000) (1 : Fin 2))) := by
  obtain ⟨ch, r, rfl⟩ : ∃ (ch : Fin 32) (r : Fin 1280), j = ix2 ch r := ⟨j 0, j 1, eq_ix2 j⟩
  rw [out1_2_apply]
  have e : (i 0 : Fin 32) = ch := Fin.ext hi0
  rw [h0 (ix2 r (0 : Fin 2)) (ix2 (i 1 : Fin 800000) (0 : Fin 2)) hi1 rfl, h0 (ix2 r (1 : Fin 2)) (ix2 (i 1 : Fin 800000) (1 : Fin 2)) hi1 rfl, e]
  congr 1
  funext h w
  exact h1 _

/-- The coordinate window's block at point `t` is rows `1280·t … 1280·t + 1279` of the coordinate array. -/
theorem iblk1_0_apply (c : Dev nD) (t : Fin cfg1.N) (x : S1280x2.Idx) (k : S800000x2.Idx)
    (hk0 : (k 0).val = 1280 * t.val + (x 0).val) (hk1 : (k 1).val = (x 1).val) :
    (iblk1 V c 0 t : Vec Ideal S1280x2 .f32) x = (V c (Pipeline.arrRef spec1 0) : S800000x2.Idx → EReal) k := by
  obtain ⟨e0, e1, -⟩ := idx_facts1 t
  unfold iblk1
  rw [View.read_apply]
  show V c main_v120 _ = V c main_v120 _
  congr 1
  funext a
  apply Fin.ext
  match a with
  | ⟨0, _⟩ => show win1_0.index t (0 : Fin 2) * 1280 + 1 * (x 0).val = (k 0).val; rw [e0, hk0]; omega
  | ⟨1, _⟩ => show win1_0.index t (1 : Fin 2) * 2 + 1 * (x 1).val = (k 1).val; rw [e1, hk1]; omega

/-- The plane's window's block is the whole plane at every point. -/
theorem iblk1_1_apply (c : Dev nD) (t : Fin cfg1.N) (x : S32x512x512.Idx) :
    (iblk1 V c 1 t : Vec Ideal S32x512x512 .bf16) x = (V c (Pipeline.arrRef spec1 1) : S32x512x512.Idx → EReal) x := by
  obtain ⟨-, -, e2, e3, e4, -⟩ := idx_facts1 t
  unfold iblk1
  rw [View.read_apply]
  show V c main_v122 _ = V c main_v122 _
  congr 1
  funext a
  apply Fin.ext
  match a with
  | ⟨0, _⟩ => show win1_1.index t (0 : Fin 3) * 32 + 1 * (x 0).val = (x 0).val; rw [e2]; omega
  | ⟨1, _⟩ => show win1_1.index t (1 : Fin 3) * 512 + 1 * (x 1).val = (x 1).val; rw [e3]; omega
  | ⟨2, _⟩ => show win1_1.index t (2 : Fin 3) * 512 + 1 * (x 2).val = (x 2).val; rw [e4]; omega

/-- What point `t` writes back is block `t` of `G1` of the arrays as the call finds them. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  obtain ⟨-, -, -, -, -, e5, e6⟩ := idx_facts1 t
  funext j
  rw [View.read_apply]
  refine point1 _ _ _ _ t.val (fun x k hk0 hk1 => iblk1_0_apply V c t x k hk0 hk1) (fun x => iblk1_1_apply V c t x) j _ ?_ ?_
  · show win1_2.index t (0 : Fin 2) * 32 + 1 * (j 0).val = (j 0).val; rw [e5]; omega
  · show win1_2.index t (1 : Fin 2) * 1280 + 1 * (j 1).val = 1280 * t.val + (j 1).val; rw [e6]; omega

/-- An index of the result array is in point `t`'s block iff each coordinate is in the block's range on its axis. -/
theorem mem_blk1 (t : Fin cfg1.N) (i : S32x800000.Idx) :
    i ∈ ((cfg1.win 2).blk t).view.set ↔ ∀ a : Fin 2, win1_2.index t a * S32x1280.size a ≤ (i a).val ∧ (i a).val < win1_2.index t a * S32x1280.size a + S32x1280.size a := by
  show i ∈ ((View.whole main_v123).slice (win1_2.rect t)).set ↔ _
  rw [View.set_slice_whole, Rect.mem_set_unit]
  exact Iff.rfl

/-- Every index of the result array is in some point's block: column `p` is in block `p / 1280`. -/
theorem cover1 (i : S32x800000.Idx) :
    ∃ t : Fin cfg1.N, (cfg1.win 2).flush t = true ∧ i ∈ ((cfg1.win 2).blk t).view.set := by
  have hi0 : (i 0).val < 32 := (i 0).isLt
  have hi1 : (i 1).val < 800000 := (i 1).isLt
  have hN : cfg1.N = 625 := N_1
  let t : Fin cfg1.N := ⟨(i 1).val / 1280, by rw [hN]; omega⟩
  have htv : t.val = (i 1).val / 1280 := rfl
  obtain ⟨-, -, -, -, -, e5, e6⟩ := idx_facts1 t
  refine ⟨t, flush1_2 t, ?_⟩
  rw [mem_blk1]
  intro a
  match a with
  | ⟨0, _⟩ => show win1_2.index t (0 : Fin 2) * 32 ≤ (i 0).val ∧ (i 0).val < win1_2.index t (0 : Fin 2) * 32 + 32; rw [e5]; omega
  | ⟨1, _⟩ => show win1_2.index t (1 : Fin 2) * 1280 ≤ (i 1).val ∧ (i 1).val < win1_2.index t (1 : Fin 2) * 1280 + 1280; rw [e6, htv]; omega

/-- The result array after call 1: `G1` of the arrays the call was entered with. -/
theorem arr1 (c : Dev nD) : (dat1 (F := Ideal) V c).arrAt 2 cfg1.N = G1 V c :=
  (dat1 V c).arrAt_eq_of_cover 2 (G1 V c) (fun t _ => flushed1_eq V c t) (cover1)

end Call1

/-! ## Call 2 -/

section Call2

/-- The result array of call 2 as one function of the call's two input arrays: entry `(ch, p)` is the sample of
    channel `ch` of the plane at the `p`-th coordinate pair. -/
abbrev G2 (c : Dev nD) : S32x800000.Idx → EReal := fun i =>
  Cert.Sample.kSample (fun h w => (V c (Pipeline.arrRef spec2 1) : S32x512x512.Idx → EReal) (ix3 (i 0 : Fin 32) h w))
    ((V c (Pipeline.arrRef spec2 0) : S800000x2.Idx → EReal) (ix2 (i 1 : Fin 800000) (0 : Fin 2)))
    ((V c (Pipeline.arrRef spec2 0) : S800000x2.Idx → EReal) (ix2 (i 1 : Fin 800000) (1 : Fin 2)))

/-- The index maps at point `t`: the coordinate window is at block row `t`, the plane's window never moves, the
    result window is at block column `t` (decided over the 625 points). -/
theorem idx_facts2 : ∀ t : Fin cfg2.N, win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = t.val :=
  (by decide +kernel : ∀ t : Fin grid2.N, _)

/-- One entry of the block written at a point, over blocks given as variables: if the coordinate block is rows
    `1280·tv …` of `A0` and the plane's block is `A1`, entry `j` of the body's result is the sample that the array
    function has at the index `i` with the same row and with column `1280·tv + j 1`. -/
theorem point2 (x0 : Vec Ideal S1280x2 .f32) (x1 : Vec Ideal S32x512x512 .bf16)
    (A0 : S800000x2.Idx → EReal) (A1 : S32x512x512.Idx → EReal) (tv : ℕ)
    (h0 : ∀ (x : S1280x2.Idx) (k : S800000x2.Idx), (k 0).val = 1280 * tv + (x 0).val → (k 1).val = (x 1).val → x0 x = A0 k)
    (h1 : ∀ x : S32x512x512.Idx, x1 x = A1 x)
    (j : S32x1280.Idx) (i : S32x800000.Idx) (hi0 : (i 0).val = (j 0).val) (hi1 : (i 1).val = 1280 * tv + (j 1).val) :
    out2_2 (F := Ideal) x0 x1 j
      = Cert.Sample.kSample (fun h w => A1 (ix3 (i 0 : Fin 32) h w)) (A0 (ix2 (i 1 : Fin 800000) (0 : Fin 2))) (A0 (ix2 (i 1 : Fin 800000) (1 : Fin 2))) := by
  obtain ⟨ch, r, rfl⟩ : ∃ (ch : Fin 32) (r : Fin 1280), j = ix2 ch r := ⟨j 0, j 1, eq_ix2 j⟩
  rw [out2_2_apply]
  have e : (i 0 : Fin 32) = ch := Fin.ext hi0
  rw [h0 (ix2 r (0 : Fin 2)) (ix2 (i 1 : Fin 800000) (0 : Fin 2)) hi1 rfl, h0 (ix2 r (1 : Fin 2)) (ix2 (i 1 : Fin 800000) (1 : Fin 2)) hi1 rfl, e]
  congr 1
  funext h w
  exact h1 _

/-- The coordinate window's block at point `t` is rows `1280·t … 1280·t + 1279` of the coordinate array. -/
theorem iblk2_0_apply (c : Dev nD) (t : Fin cfg2.N) (x : S1280x2.Idx) (k : S800000x2.Idx)
    (hk0 : (k 0).val = 1280 * t.val + (x 0).val) (hk1 : (k 1).val = (x 1).val) :
    (iblk2 V c 0 t : Vec Ideal S1280x2 .f32) x = (V c (Pipeline.arrRef spec2 0) : S800000x2.Idx → EReal) k := by
  obtain ⟨e0, e1, -⟩ := idx_facts2 t
  unfold iblk2
  rw [View.read_apply]
  show V c main_v126 _ = V c main_v126 _
  congr 1
  funext a
  apply Fin.ext
  match a with
  | ⟨0, _⟩ => show win2_0.index t (0 : Fin 2) * 1280 + 1 * (x 0).val = (k 0).val; rw [e0, hk0]; omega
  | ⟨1, _⟩ => show win2_0.index t (1 : Fin 2) * 2 + 1 * (x 1).val = (k 1).val; rw [e1, hk1]; omega

/-- The plane's window's block is the whole plane at every point. -/
theorem iblk2_1_apply (c : Dev nD) (t : Fin cfg2.N) (x : S32x512x512.Idx) :
    (iblk2 V c 1 t : Vec Ideal S32x512x512 .bf16) x = (V c (Pipeline.arrRef spec2 1) : S32x512x512.Idx → EReal) x := by
  obtain ⟨-, -, e2, e3, e4, -⟩ := idx_facts2 t
  unfold iblk2
  rw [View.read_apply]
  show V c main_v128 _ = V c main_v128 _
  congr 1
  funext a
  apply Fin.ext
  match a with
  | ⟨0, _⟩ => show win2_1.index t (0 : Fin 3) * 32 + 1 * (x 0).val = (x 0).val; rw [e2]; omega
  | ⟨1, _⟩ => show win2_1.index t (1 : Fin 3) * 512 + 1 * (x 1).val = (x 1).val; rw [e3]; omega
  | ⟨2, _⟩ => show win2_1.index t (2 : Fin 3) * 512 + 1 * (x 2).val = (x 2).val; rw [e4]; omega

/-- What point `t` writes back is block `t` of `G2` of the arrays as the call finds them. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  obtain ⟨-, -, -, -, -, e5, e6⟩ := idx_facts2 t
  funext j
  rw [View.read_apply]
  refine point2 _ _ _ _ t.val (fun x k hk0 hk1 => iblk2_0_apply V c t x k hk0 hk1) (fun x => iblk2_1_apply V c t x) j _ ?_ ?_
  · show win2_2.index t (0 : Fin 2) * 32 + 1 * (j 0).val = (j 0).val; rw [e5]; omega
  · show win2_2.index t (1 : Fin 2) * 1280 + 1 * (j 1).val = 1280 * t.val + (j 1).val; rw [e6]; omega

/-- An index of the result array is in point `t`'s block iff each coordinate is in the block's range on its axis. -/
theorem mem_blk2 (t : Fin cfg2.N) (i : S32x800000.Idx) :
    i ∈ ((cfg2.win 2).blk t).view.set ↔ ∀ a : Fin 2, win2_2.index t a * S32x1280.size a ≤ (i a).val ∧ (i a).val < win2_2.index t a * S32x1280.size a + S32x1280.size a := by
  show i ∈ ((View.whole main_v129).slice (win2_2.rect t)).set ↔ _
  rw [View.set_slice_whole, Rect.mem_set_unit]
  exact Iff.rfl

/-- Every index of the result array is in some point's block: column `p` is in block `p / 1280`. -/
theorem cover2 (i : S32x800000.Idx) :
    ∃ t : Fin cfg2.N, (cfg2.win 2).flush t = true ∧ i ∈ ((cfg2.win 2).blk t).view.set := by
  have hi0 : (i 0).val < 32 := (i 0).isLt
  have hi1 : (i 1).val < 800000 := (i 1).isLt
  have hN : cfg2.N = 625 := N_2
  let t : Fin cfg2.N := ⟨(i 1).val / 1280, by rw [hN]; omega⟩
  have htv : t.val = (i 1).val / 1280 := rfl
  obtain ⟨-, -, -, -, -, e5, e6⟩ := idx_facts2 t
  refine ⟨t, flush2_2 t, ?_⟩
  rw [mem_blk2]
  intro a
  match a with
  | ⟨0, _⟩ => show win2_2.index t (0 : Fin 2) * 32 ≤ (i 0).val ∧ (i 0).val < win2_2.index t (0 : Fin 2) * 32 + 32; rw [e5]; omega
  | ⟨1, _⟩ => show win2_2.index t (1 : Fin 2) * 1280 ≤ (i 1).val ∧ (i 1).val < win2_2.index t (1 : Fin 2) * 1280 + 1280; rw [e6, htv]; omega

/-- The result array after call 2: `G2` of the arrays the call was entered with. -/
theorem arr2 (c : Dev nD) : (dat2 (F := Ideal) V c).arrAt 2 cfg2.N = G2 V c :=
  (dat2 V c).arrAt_eq_of_cover 2 (G2 V c) (fun t _ => flushed2_eq V c t) (cover2)

end Call2

end Cert.KernelIdeal.HandValue

end
-- ==== Proof.KHost.Tail.lean ====
/-
  The closing layout operations of the sampler, read at an index.

  Three arrays o₀ o₁ o₂ of shape [32, 800000] (channel c, flat point P = 4·n + k) are each reshaped to
  [32, 200000, 4], given a leading unit axis, stacked to [3, 32, 200000, 4], transposed to [200000, 4, 3, 32]
  and flattened to [200000, 384]. Entry (n, q) of the result, with q = 96·k + 32·a + c, is entry (c, 4·n + k)
  of o_a: the flat column q runs over k slowest, then the plane a, then the channel c.
-/
import Idealize.ShloMosaic.Lib.Pipeline.Value
import Idealize.ShloMosaic.Lib.ValueIdx

set_option maxRecDepth 8192

noncomputable section

namespace Cert.Tail

open Idealize.ShloMosaic Idealize.ShloMosaic.ValueIdx

variable {α : Type}

abbrev T32x800000 : Shape := ⟨2, ![32, 800000]⟩
abbrev T32x200000x4 : Shape := ⟨3, ![32, 200000, 4]⟩
abbrev T1x32x200000x4 : Shape := ⟨4, ![1, 32, 200000, 4]⟩
abbrev T3x32x200000x4 : Shape := ⟨4, ![3, 32, 200000, 4]⟩
abbrev T200000x4x3x32 : Shape := ⟨4, ![200000, 4, 3, 32]⟩
abbrev T200000x384 : Shape := ⟨2, ![200000, 384]⟩

/-- One array reshaped and given its leading unit axis, read at (0, c, n, k): entry (c, 4·n + k). -/
theorem lift_apply (o : T32x800000.Idx → α) (hr : T32x800000.ShapeCasts T32x200000x4)
    (hb : T32x200000x4.BroadcastsInDim T1x32x200000x4 (![1, 2, 3] : Fin 3 → Fin T1x32x200000x4.rank))
    (z : Fin 1) (c : Fin 32) (n : Fin 200000) (k : Fin 4) (P : Fin 800000) (hP : P.val = 4 * n.val + k.val) :
    broadcastInDim T1x32x200000x4 ![1, 2, 3] hb (shapeCast T32x200000x4 o hr) (ix4 z c n k) = o (ix2 c P) := by
  rw [broadcastInDim_apply ![1, 2, 3] hb _ (ix4 z c n k) (ix3 c n k)
    (fun a => by match a with | ⟨0, _⟩ => rfl | ⟨1, _⟩ => rfl | ⟨2, _⟩ => rfl)]
  refine shapeCast_apply o hr (ix3 c n k) (ix2 c P) ?_
  rw [Shape.rowMajor_val_two, Shape.rowMajor_val_three]
  show c.val * 800000 + P.val = (c.val * 200000 + n.val) * 4 + k.val
  omega

/-- Three arrays with a leading unit axis, stacked along it, read at (a, c, n, k): the a-th at (0, c, n, k). -/
theorem stack_apply (x0 x1 x2 : T1x32x200000x4.Idx → α)
    (hc : Shape.Concatenates [T1x32x200000x4, T1x32x200000x4, T1x32x200000x4] T3x32x200000x4 0)
    (a : Fin 3) (c : Fin 32) (n : Fin 200000) (k : Fin 4) :
    concatenate T3x32x200000x4 0 [⟨T1x32x200000x4, x0⟩, ⟨T1x32x200000x4, x1⟩, ⟨T1x32x200000x4, x2⟩] hc (ix4 a c n k)
      = (match a with | 0 => x0 | 1 => x1 | 2 => x2) (ix4 (0 : Fin 1) c n k) := by
  have off : ∀ (j : Fin 3) (b : Fin T1x32x200000x4.rank), b.cast (rfl : T1x32x200000x4.rank = T3x32x200000x4.rank) ≠ (0 : Fin 4) →
      ((ix4 (0 : Fin 1) c n k : T1x32x200000x4.Idx) b).val = ((ix4 j c n k : T3x32x200000x4.Idx) (b.cast rfl)).val := fun j b hb' => by
    match b with | ⟨0, _⟩ => exact absurd rfl hb' | ⟨1, _⟩ => rfl | ⟨2, _⟩ => rfl | ⟨3, _⟩ => rfl
  match a with
  | 0 =>
    exact concatenate_apply_piece (t := T3x32x200000x4) (0 : Fin 4) [⟨T1x32x200000x4, x0⟩, ⟨T1x32x200000x4, x1⟩, ⟨T1x32x200000x4, x2⟩] hc
      (ix4 (0 : Fin 3) c n k) 0 (show 0 < 3 by omega) T1x32x200000x4 x0 rfl rfl 0 rfl (ix4 (0 : Fin 1) c n k) (off 0) rfl
  | 1 =>
    exact concatenate_apply_piece (t := T3x32x200000x4) (0 : Fin 4) [⟨T1x32x200000x4, x0⟩, ⟨T1x32x200000x4, x1⟩, ⟨T1x32x200000x4, x2⟩] hc
      (ix4 (1 : Fin 3) c n k) 1 (show 1 < 3 by omega) T1x32x200000x4 x1 rfl rfl 1 rfl (ix4 (0 : Fin 1) c n k) (off 1) rfl
  | 2 =>
    exact concatenate_apply_piece (t := T3x32x200000x4) (0 : Fin 4) [⟨T1x32x200000x4, x0⟩, ⟨T1x32x200000x4, x1⟩, ⟨T1x32x200000x4, x2⟩] hc
      (ix4 (2 : Fin 3) c n k) 2 (show 2 < 3 by omega) T1x32x200000x4 x2 rfl rfl 2 rfl (ix4 (0 : Fin 1) c n k) (off 2) rfl

/-- The three arrays stacked, transposed and flattened, read at (n, q) with q = 96·k + 32·a + c. -/
theorem tail_apply (o0 o1 o2 : T32x800000.Idx → α) (hr : T32x800000.ShapeCasts T32x200000x4)
    (hb : T32x200000x4.BroadcastsInDim T1x32x200000x4 (![1, 2, 3] : Fin 3 → Fin T1x32x200000x4.rank))
    (hc : Shape.Concatenates [T1x32x200000x4, T1x32x200000x4, T1x32x200000x4] T3x32x200000x4 0)
    (ht : T3x32x200000x4.Transposes [2, 3, 0, 1] T200000x4x3x32) (hs : T200000x4x3x32.ShapeCasts T200000x384)
    (n : Fin 200000) (q : Fin 384) (k : Fin 4) (a : Fin 3) (c : Fin 32) (P : Fin 800000)
    (hq : q.val = 96 * k.val + 32 * a.val + c.val) (hP : P.val = 4 * n.val + k.val) :
    shapeCast T200000x384
        (transpose T200000x4x3x32 [2, 3, 0, 1]
          (concatenate T3x32x200000x4 0
            [⟨T1x32x200000x4, broadcastInDim T1x32x200000x4 ![1, 2, 3] hb (shapeCast T32x200000x4 o0 hr)⟩,
             ⟨T1x32x200000x4, broadcastInDim T1x32x200000x4 ![1, 2, 3] hb (shapeCast T32x200000x4 o1 hr)⟩,
             ⟨T1x32x200000x4, broadcastInDim T1x32x200000x4 ![1, 2, 3] hb (shapeCast T32x200000x4 o2 hr)⟩] hc) ht) hs
        (ix2 n q)
      = (match a with | 0 => o0 | 1 => o1 | 2 => o2) (ix2 c P) := by
  rw [shapeCast_apply _ hs (ix2 n q) (ix4 n k a c) (by
    rw [Shape.rowMajor_val_two, Shape.rowMajor_val_four]
    show ((n.val * 4 + k.val) * 3 + a.val) * 32 + c.val = n.val * 384 + q.val
    omega)]
  rw [transpose_apply [2, 3, 0, 1] _ ht (ix4 n k a c) (ix4 a c n k)
    (fun b => by match b with | ⟨0, _⟩ => rfl | ⟨1, _⟩ => rfl | ⟨2, _⟩ => rfl | ⟨3, _⟩ => rfl)]
  rw [stack_apply _ _ _ hc a c n k]
  match a with
  | 0 => exact lift_apply o0 hr hb 0 c n k P hP
  | 1 => exact lift_apply o1 hr hb 0 c n k P hP
  | 2 => exact lift_apply o2 hr hb 0 c n k P hP

end Cert.Tail

end
-- ==== Proof.KHost.Slices.lean ====
/-
  A kernel region's two input arrays, read at an index.

  The coordinate array [3, 200000, 4, 2] is flattened to [3, 800000, 2] (flat point P = 4·n + k); region p takes
  its p-th slice and drops the leading unit axis, so entry (P, j) of the region's coordinate array is entry
  (p, n, k, j) of the coordinate array. The planes array [3, 32, 512, 512] is sliced the same way: entry (c, h, w)
  of region p's slab array is entry (p, c, h, w) of the planes.
-/
import Idealize.ShloMosaic.Lib.Pipeline.Value
import Idealize.ShloMosaic.Lib.ValueIdx

set_option maxRecDepth 8192

noncomputable section

namespace Cert.Slices

open Idealize.ShloMosaic Idealize.ShloMosaic.ValueIdx

variable {α : Type}

abbrev U3x200000x4x2 : Shape := ⟨4, ![3, 200000, 4, 2]⟩
abbrev U3x800000x2 : Shape := ⟨3, ![3, 800000, 2]⟩
abbrev U1x800000x2 : Shape := ⟨3, ![1, 800000, 2]⟩
abbrev U800000x2 : Shape := ⟨2, ![800000, 2]⟩
abbrev U3x32x512x512 : Shape := ⟨4, ![3, 32, 512, 512]⟩
abbrev U1x32x512x512 : Shape := ⟨4, ![1, 32, 512, 512]⟩
abbrev U32x512x512 : Shape := ⟨3, ![32, 512, 512]⟩

/-- Region p's coordinate array at (P, j), P = 4·n + k: the coordinate array at (p, n, k, j). -/
theorem coords_apply (N : U3x200000x4x2.Idx → α) (p : Fin 3) (off : Fin 3 → Nat) (hoff : off = ![p.val, 0, 0])
    (h1 : U3x200000x4x2.ShapeCasts U3x800000x2) (h2 : U3x800000x2.Slices off U1x800000x2)
    (h3 : U1x800000x2.ShapeCasts U800000x2)
    (P : Fin 800000) (j : Fin 2) (n : Fin 200000) (k : Fin 4) (hP : P.val = 4 * n.val + k.val) :
    shapeCast U800000x2 (extractStridedSlice U1x800000x2 off (shapeCast U3x800000x2 N h1) h2) h3 (ix2 P j)
      = N (ix4 p n k j) := by
  subst hoff
  rw [shapeCast_apply _ h3 (ix2 P j) (ix3 (0 : Fin 1) P j) (by
    rw [Shape.rowMajor_val_two, Shape.rowMajor_val_three]
    show ((0 : ℕ) * 800000 + P.val) * 2 + j.val = P.val * 2 + j.val
    omega)]
  rw [extractStridedSlice_apply _ _ h2 (ix3 (0 : Fin 1) P j) (ix3 p P j)
    (fun a => by match a with | ⟨0, _⟩ => show p.val = p.val + 0; omega | ⟨1, _⟩ => show P.val = 0 + P.val; omega | ⟨2, _⟩ => show j.val = 0 + j.val; omega)]
  refine shapeCast_apply N h1 (ix3 p P j) (ix4 p n k j) ?_
  rw [Shape.rowMajor_val_three, Shape.rowMajor_val_four]
  show ((p.val * 200000 + n.val) * 4 + k.val) * 2 + j.val = (p.val * 800000 + P.val) * 2 + j.val
  omega

/-- Region p's slab array at (c, h, w): the planes at (p, c, h, w). -/
theorem slab_apply (B : U3x32x512x512.Idx → α) (p : Fin 3) (off : Fin 4 → Nat) (hoff : off = ![p.val, 0, 0, 0])
    (h2 : U3x32x512x512.Slices off U1x32x512x512) (h3 : U1x32x512x512.ShapeCasts U32x512x512)
    (c : Fin 32) (h w : Fin 512) :
    shapeCast U32x512x512 (extractStridedSlice U1x32x512x512 off B h2) h3 (ix3 c h w) = B (ix4 p c h w) := by
  subst hoff
  rw [shapeCast_apply _ h3 (ix3 c h w) (ix4 (0 : Fin 1) c h w) (by
    rw [Shape.rowMajor_val_three, Shape.rowMajor_val_four]
    show (((0 : ℕ) * 32 + c.val) * 512 + h.val) * 512 + w.val = (c.val * 512 + h.val) * 512 + w.val
    omega)]
  exact extractStridedSlice_apply _ B h2 (ix4 (0 : Fin 1) c h w) (ix4 p c h w)
    (fun a => by match a with | ⟨0, _⟩ => show p.val = p.val + 0; omega | ⟨1, _⟩ => show c.val = 0 + c.val; omega | ⟨2, _⟩ => show h.val = 0 + h.val; omega | ⟨3, _⟩ => show w.val = 0 + w.val; omega)

end Cert.Slices

end
-- ==== Proof.KHost.Stretches.lean ====
import proofs.«162729_j22162031247387_1_alg».proof.Proof.Gen.KernelIdeal.Launch
import proofs.«162729_j22162031247387_1_alg».proof.Proof.NcStages
import proofs.«162729_j22162031247387_1_alg».proof.Proof.LibNary3

set_option maxRecDepth 16384

noncomputable section

namespace Cert.KernelIdeal.HandHost

open Cert.KernelIdeal Cert.KernelIdeal.Gen
open Idealize.ShloMosaic Idealize.ShloMosaic.TcCoe Idealize.ShloMosaic.StableHlo
open Idealize.SL.Sem

variable {F : FTy → Type} [FloatOps F]

/-! # The short host stretches read back over any buffer contents

Each statement says what one buffer holds after a stretch of host operations, as the operations' functions of
what the stretch's input buffers held before it: the reshapes and slices that hand a region its coordinate and
slab arrays, the reshape of a region's output, and the closing stack, transpose and flatten. -/

section
variable (Y : Valuation τ sig (Elt F))

/-! ## The last stretch before the first region -/

theorem ops0_4_v110 : after hostOps0_4 Y (Proc.devRef .tc main_v110)
    = mulf (Y (Proc.devRef .tc main_v108)) (Cert.Nc.fill2 (F := F) 0x3F000000#32) := by
  simp only [hostOps0_4]; after_results_simp3; rfl

theorem ops0_4_v111 : after hostOps0_4 Y (Proc.devRef .tc main_v111)
    = shapeCast S3x800000x2 (mulf (Y (Proc.devRef .tc main_v108)) (Cert.Nc.fill2 (F := F) 0x3F000000#32))
        shapeCasts_S3x200000x4x2_S3x800000x2 := by
  simp only [hostOps0_4]; after_results_simp3; rfl

theorem ops0_4_v112 : after hostOps0_4 Y (Proc.devRef .tc main_v112)
    = truncf .bf16 (Y (Proc.devRef .tc main_arg3)) bitsLt_bf16_f32 := by
  simp only [hostOps0_4]; after_results_simp3

theorem ops0_4_v114 : after hostOps0_4 Y (Proc.devRef .tc main_v114)
    = shapeCast S800000x2 (extractStridedSlice S1x800000x2 ![0, 0, 0]
        (shapeCast S3x800000x2 (mulf (Y (Proc.devRef .tc main_v108)) (Cert.Nc.fill2 (F := F) 0x3F000000#32))
          shapeCasts_S3x200000x4x2_S3x800000x2) slices_S3x800000x2_S1x800000x2_0_0_0) shapeCasts_S1x800000x2_S800000x2 := by
  simp only [hostOps0_4]; after_results_simp3; rfl

theorem ops0_4_v116 : after hostOps0_4 Y (Proc.devRef .tc main_v116)
    = shapeCast S32x512x512 (extractStridedSlice S1x32x512x512 ![0, 0, 0, 0]
        (truncf .bf16 (Y (Proc.devRef .tc main_arg3)) bitsLt_bf16_f32) slices_S3x32x512x512_S1x32x512x512_0_0_0_0)
        shapeCasts_S1x32x512x512_S32x512x512 := by
  simp only [hostOps0_4]; after_results_simp3; rfl

/-! ## Between the regions -/

theorem ops1_v118 : after hostOps1 Y (Proc.devRef .tc main_v118)
    = shapeCast S32x200000x4 (Y (Proc.devRef .tc main_v117)) shapeCasts_S32x800000_S32x200000x4 := by
  simp only [hostOps1]; after_results_simp3; rfl

theorem ops1_v120 : after hostOps1 Y (Proc.devRef .tc main_v120)
    = shapeCast S800000x2 (extractStridedSlice S1x800000x2 ![1, 0, 0] (Y (Proc.devRef .tc main_v111))
        slices_S3x800000x2_S1x800000x2_1_0_0) shapeCasts_S1x800000x2_S800000x2 := by
  simp only [hostOps1]; after_results_simp3; rfl

theorem ops1_v122 : after hostOps1 Y (Proc.devRef .tc main_v122)
    = shapeCast S32x512x512 (extractStridedSlice S1x32x512x512 ![1, 0, 0, 0] (Y (Proc.devRef .tc main_v112))
        slices_S3x32x512x512_S1x32x512x512_1_0_0_0) shapeCasts_S1x32x512x512_S32x512x512 := by
  simp only [hostOps1]; after_results_simp3; rfl

theorem ops1_v111 : after hostOps1 Y (Proc.devRef .tc main_v111) = Y (Proc.devRef .tc main_v111) := by
  simp only [hostOps1]; after_results_simp3
theorem ops1_v112 : after hostOps1 Y (Proc.devRef .tc main_v112) = Y (Proc.devRef .tc main_v112) := by
  simp only [hostOps1]; after_results_simp3

theorem ops2_v124 : after hostOps2 Y (Proc.devRef .tc main_v124)
    = shapeCast S32x200000x4 (Y (Proc.devRef .tc main_v123)) shapeCasts_S32x800000_S32x200000x4 := by
  simp only [hostOps2]; after_results_simp3; rfl

theorem ops2_v126 : after hostOps2 Y (Proc.devRef .tc main_v126)
    = shapeCast S800000x2 (extractStridedSlice S1x800000x2 ![2, 0, 0] (Y (Proc.devRef .tc main_v111))
        slices_S3x800000x2_S1x800000x2_2_0_0) shapeCasts_S1x800000x2_S800000x2 := by
  simp only [hostOps2]; after_results_simp3; rfl

theorem ops2_v128 : after hostOps2 Y (Proc.devRef .tc main_v128)
    = shapeCast S32x512x512 (extractStridedSlice S1x32x512x512 ![2, 0, 0, 0] (Y (Proc.devRef .tc main_v112))
        slices_S3x32x512x512_S1x32x512x512_2_0_0_0) shapeCasts_S1x32x512x512_S32x512x512 := by
  simp only [hostOps2]; after_results_simp3; rfl

theorem ops2_v118 : after hostOps2 Y (Proc.devRef .tc main_v118) = Y (Proc.devRef .tc main_v118) := by
  simp only [hostOps2]; after_results_simp3

/-! ## The closing stretch -/

theorem ops3_v136 : after hostOps3 Y (Proc.devRef .tc main_v136)
    = shapeCast S200000x384
        (transpose S200000x4x3x32 [2, 3, 0, 1]
          (concatenate S3x32x200000x4 0
            [⟨S1x32x200000x4, broadcastInDim S1x32x200000x4 ![1, 2, 3] bcast_S32x200000x4_S1x32x200000x4_1_2_3 (Y (Proc.devRef .tc main_v118))⟩,
             ⟨S1x32x200000x4, broadcastInDim S1x32x200000x4 ![1, 2, 3] bcast_S32x200000x4_S1x32x200000x4_1_2_3 (Y (Proc.devRef .tc main_v124))⟩,
             ⟨S1x32x200000x4, broadcastInDim S1x32x200000x4 ![1, 2, 3] bcast_S32x200000x4_S1x32x200000x4_1_2_3
               (shapeCast S32x200000x4 (Y (Proc.devRef .tc main_v129)) shapeCasts_S32x800000_S32x200000x4)⟩]
            concatenates_S1x32x200000x4_S1x32x200000x4_S1x32x200000x4_S3x32x200000x4_d0)
          transposes_S3x32x200000x4_S200000x4x3x32_2_3_0_1)
        shapeCasts_S200000x4x3x32_S200000x384 := by
  simp only [hostOps3]; after_results_simp3; rfl

end

end Cert.KernelIdeal.HandHost
end
-- ==== Proof.KHost.Prefix.lean ====
import proofs.«162729_j22162031247387_1_alg».proof.Proof.Gen.KernelIdeal.Launch
import proofs.«162729_j22162031247387_1_alg».proof.Proof.NcStages
import proofs.«162729_j22162031247387_1_alg».proof.Proof.LibNary3
import proofs.«162729_j22162031247387_1_alg».proof.Proof.KHost.Stretches
import proofs.«162729_j22162031247387_1_alg».proof.Proof.KFrame.Host

set_option maxRecDepth 16384

noncomputable section

namespace Cert.KernelIdeal.HandHost

open Cert.KernelIdeal Cert.KernelIdeal.Gen
open Idealize.ShloMosaic Idealize.ShloMosaic.TcCoe Idealize.ShloMosaic.StableHlo
open Idealize.SL.Sem

variable {F : FTy → Type} [FloatOps F]

/-! # The host prefix read back: the normalised coordinates

The five host stretches before the first kernel region compute the normalised sampling coordinates from the three
small argument arrays, by the operations `Cert.Nc` names stage by stage. The first four stretches are read back
in one pass over any buffer contents: every operation's result at its own buffer is the operation's function of its
operands' contents (a stack of three arrays is the named stack of its three operands' contents), down to the argument buffers; the term met is `Cert.Nc.contracted` of the arguments, stage for
stage. The fifth stretch halves it, which is `Cert.Nc.nc`. -/

/-! ## The three-operand stacks at their own buffers -/

section
variable (V : Valuation τ sig (Elt F))

theorem v24_result : (StableHlo.nary (τ := τ) ![main_v21, main_v22, main_v23] main_v24 (fun u => concatenate S3x2 0 [⟨S1x2, u 0⟩, ⟨S1x2, u 1⟩, ⟨S1x2, u 2⟩] concatenates_S1x2_S1x2_S1x2_S3x2_d0) : HloOp τ sig (Elt F)).result V (no_index (Proc.devRef .tc main_v24))
    = Cert.Nc.cat3_S3x2 (F := F) (V (Proc.devRef .tc main_v21)) (V (Proc.devRef .tc main_v22)) (V (Proc.devRef .tc main_v23)) := by
  rw [nary3_result]; rfl

theorem v49_result : (StableHlo.nary (τ := τ) ![main_v46, main_v47, main_v48] main_v49 (fun u => concatenate S3x2 0 [⟨S1x2, u 0⟩, ⟨S1x2, u 1⟩, ⟨S1x2, u 2⟩] concatenates_S1x2_S1x2_S1x2_S3x2_d0) : HloOp τ sig (Elt F)).result V (no_index (Proc.devRef .tc main_v49))
    = Cert.Nc.cat3_S3x2 (F := F) (V (Proc.devRef .tc main_v46)) (V (Proc.devRef .tc main_v47)) (V (Proc.devRef .tc main_v48)) := by
  rw [nary3_result]; rfl

theorem v83_result : (StableHlo.nary (τ := τ) ![main_v80, main_v81, main_v82] main_v83 (fun u => concatenate S3x200000x4x2 0 [⟨S1x200000x4x2, u 0⟩, ⟨S1x200000x4x2, u 1⟩, ⟨S1x200000x4x2, u 2⟩] concatenates_S1x200000x4x2_S1x200000x4x2_S1x200000x4x2_S3x200000x4x2_d0) : HloOp τ sig (Elt F)).result V (no_index (Proc.devRef .tc main_v83))
    = Cert.Nc.cat3_S3x200000x4x2 (F := F) (V (Proc.devRef .tc main_v80)) (V (Proc.devRef .tc main_v81)) (V (Proc.devRef .tc main_v82)) := by
  rw [nary3_result]; rfl

end

/-- One pass over a fold of the prefix's operations, the three stacks read through their operands. -/
macro "prefix_pass" : tactic =>
  `(tactic| (simp (disch := decide) only [after_cons, after_nil, v24_result, v49_result, v83_result,
      nullary_result', unary_result', binary_result', ternary_result', reshape_result',
      nullary_result_ne', unary_result_ne', binary_result_ne', ternary_result_ne', reshape_result_ne', nary_result_ne']))

/-- The buffers after the five host stretches that precede the first kernel region. -/
abbrev pre5 (X : Valuation τ sig (Elt F)) : Valuation τ sig (Elt F) :=
  after hostOps0_4 (after hostOps0_3 (after hostOps0_2 (after hostOps0_1 (after hostOps0 X))))

section
variable (X : Valuation τ sig (Elt F))

set_option maxHeartbeats 16000000 in
/-- After the first four stretches the select's buffer holds the contracted coordinates. -/
theorem pre4_v108 : after hostOps0_3 (after hostOps0_2 (after hostOps0_1 (after hostOps0 X))) (Proc.devRef .tc main_v108)
    = Cert.Nc.contracted (F := F) (X (Proc.devRef .tc main_arg0)) (X (Proc.devRef .tc main_arg1)) (X (Proc.devRef .tc main_arg2)) := by
  simp only [hostOps0, hostOps0_1, hostOps0_2, hostOps0_3]
  prefix_pass
  rfl

/-- The planes argument is written by none of the first four stretches. -/
theorem pre4_arg3 : after hostOps0_3 (after hostOps0_2 (after hostOps0_1 (after hostOps0 X))) (Proc.devRef .tc main_arg3)
    = X (Proc.devRef .tc main_arg3) := by
  rw [after_of_forall_not_mem _ _ Cert.KernelIdeal.Hand.hostOps0_3_keeps_arg3,
    after_of_forall_not_mem _ _ Cert.KernelIdeal.Hand.hostOps0_2_keeps_arg3,
    after_of_forall_not_mem _ _ Cert.KernelIdeal.Hand.hostOps0_1_keeps_arg3,
    after_of_forall_not_mem _ _ Cert.KernelIdeal.Hand.hostOps0_keeps_arg3]

/-- After the five stretches the product buffer holds the normalised coordinates. -/
theorem pre5_v110 : pre5 X (Proc.devRef .tc main_v110)
    = Cert.Nc.nc (F := F) (X (Proc.devRef .tc main_arg0)) (X (Proc.devRef .tc main_arg1)) (X (Proc.devRef .tc main_arg2)) := by
  rw [pre5, ops0_4_v110, pre4_v108]
  rfl

end

end Cert.KernelIdeal.HandHost
end
-- ==== Proof.KHost.Value.lean ====
import proofs.«162729_j22162031247387_1_alg».proof.Proof.KFrame.Reads
import proofs.«162729_j22162031247387_1_alg».proof.Proof.KValue.Blocks
import proofs.«162729_j22162031247387_1_alg».proof.Proof.KHost.Tail
import proofs.«162729_j22162031247387_1_alg».proof.Proof.KHost.Slices
import proofs.«162729_j22162031247387_1_alg».proof.Proof.KHost.Stretches
import proofs.«162729_j22162031247387_1_alg».proof.Proof.KHost.Prefix

/-! # The value of @main's result buffer

The result buffer is the closing stretch's stack, transpose and flatten of the three calls' result arrays, so its
entry (n, q), q = 96·k + 32·a + c, is entry (c, 4·n + k) of call a's result array. That entry is the one-hot
bilinear sample of channel c of call a's plane at the (4·n + k)-th coordinate pair of call a's coordinate array. Call
a's plane is slice a of the planes argument (the cast to the narrower float type is the identity over the extended
reals) and its coordinate array is slice a of the flattened normalised coordinates, which the prefix of @main
computed and nothing later wrote. Each of these steps is a lemma below; the last puts them together. -/

set_option maxRecDepth 16384

noncomputable section

namespace Cert.KernelIdeal.HandHost

open Cert.KernelIdeal Cert.KernelIdeal.Gen Cert.KernelIdeal.Hand Cert.KernelIdeal.HandValue
open Idealize.ShloMosaic Idealize.ShloMosaic.TcCoe Idealize.ShloMosaic.StableHlo Idealize.ShloMosaic.ValueIdx
open Idealize.SL.Sem

variable (m : (ℓ : Loc nD τ sig) → Buf (Elt Ideal) ℓ) (c : Dev nD)

/-! ## The planes -/

/-- The planes argument is as launched when the last stretch of the prefix starts. -/
theorem W4_main_arg3 : W4 m c (Proc.devRef .tc main_arg3) = (m ((c : Thread nD τ).loc main_arg3)) :=
  calc W4 m c (Proc.devRef .tc main_arg3)
    _ = W3 m c (Proc.devRef .tc main_arg3) := StableHlo.after_of_forall_not_mem _ _ hostOps0_3_keeps_arg3
    _ = W2 m c (Proc.devRef .tc main_arg3) := StableHlo.after_of_forall_not_mem _ _ hostOps0_2_keeps_arg3
    _ = W1 m c (Proc.devRef .tc main_arg3) := StableHlo.after_of_forall_not_mem _ _ hostOps0_1_keeps_arg3
    _ = W0 m c (Proc.devRef .tc main_arg3) := StableHlo.after_of_forall_not_mem _ _ hostOps0_keeps_arg3
    _ = (m ((c : Thread nD τ).loc main_arg3)) := rfl

/-- The narrowed planes at an index: the planes argument there. -/
theorem W5_v112_apply (i : S3x32x512x512.Idx) :
    (W5 m c (Proc.devRef .tc main_v112) : S3x32x512x512.Idx → EReal) i = ((m ((c : Thread nD τ).loc main_arg3)) : S3x32x512x512.Idx → EReal) i := by
  have e := congrFun (ops0_4_v112 (W4 m c)) i
  rw [W4_main_arg3] at e
  exact e

/-- Call 0's plane at (ch, h, w): plane 0 of the planes argument. -/
theorem slab0 (ch : Fin 32) (h w : Fin 512) :
    (V5 m c (Pipeline.arrRef spec0 1) : S32x512x512.Idx → EReal) (ix3 ch h w)
      = ((m ((c : Thread nD τ).loc main_arg3)) : S3x32x512x512.Idx → EReal) (ix4 (0 : Fin 3) ch h w) := by
  rw [show V5 m c (Pipeline.arrRef spec0 1) = _ from ops0_4_v116 (W4 m c)]
  rw [Cert.Slices.slab_apply _ (0 : Fin 3) ![0, 0, 0, 0] rfl _ _ ch h w]
  show (W4 m c (Proc.devRef .tc main_arg3) : S3x32x512x512.Idx → EReal) (ix4 (0 : Fin 3) ch h w) = _
  rw [W4_main_arg3]

/-- Call 1's plane at (ch, h, w): plane 1 of the planes argument. -/
theorem slab1 (ch : Fin 32) (h w : Fin 512) :
    (V7 m c (Pipeline.arrRef spec1 1) : S32x512x512.Idx → EReal) (ix3 ch h w)
      = ((m ((c : Thread nD τ).loc main_arg3)) : S3x32x512x512.Idx → EReal) (ix4 (1 : Fin 3) ch h w) := by
  rw [show V7 m c (Pipeline.arrRef spec1 1) = _ from ops1_v122 (W6 m c)]
  rw [Cert.Slices.slab_apply _ (1 : Fin 3) ![1, 0, 0, 0] rfl _ _ ch h w, W6_v112]
  exact W5_v112_apply m c _

/-- Call 2's plane at (ch, h, w): plane 2 of the planes argument. -/
theorem slab2 (ch : Fin 32) (h w : Fin 512) :
    (V9 m c (Pipeline.arrRef spec2 1) : S32x512x512.Idx → EReal) (ix3 ch h w)
      = ((m ((c : Thread nD τ).loc main_arg3)) : S3x32x512x512.Idx → EReal) (ix4 (2 : Fin 3) ch h w) := by
  rw [show V9 m c (Pipeline.arrRef spec2 1) = _ from ops2_v128 (W8 m c)]
  rw [Cert.Slices.slab_apply _ (2 : Fin 3) ![2, 0, 0, 0] rfl _ _ ch h w, W8_v112]
  exact W5_v112_apply m c _

/-! ## The coordinates -/

/-- The flattened normalised coordinates, as the prefix leaves them: the reshape of the normalised coordinates. -/
theorem W5_v111 : W5 m c (Proc.devRef .tc main_v111)
    = shapeCast S3x800000x2 (W5 m c (Proc.devRef .tc main_v110)) shapeCasts_S3x200000x4x2_S3x800000x2 := by
  rw [show W5 m c (Proc.devRef .tc main_v111) = _ from ops0_4_v111 (W4 m c), show W5 m c (Proc.devRef .tc main_v110) = _ from ops0_4_v110 (W4 m c)]

/-- Call 0's coordinate array at (P, j), P = 4·n + k: the normalised coordinates at (0, n, k, j). -/
theorem coords0 (P : Fin 800000) (j : Fin 2) (n : Fin 200000) (k : Fin 4) (hP : P.val = 4 * n.val + k.val) :
    (V5 m c (Pipeline.arrRef spec0 0) : S800000x2.Idx → EReal) (ix2 P j)
      = (W5 m c (Proc.devRef .tc main_v110) : S3x200000x4x2.Idx → EReal) (ix4 (0 : Fin 3) n k j) := by
  rw [show V5 m c (Pipeline.arrRef spec0 0) = _ from ops0_4_v114 (W4 m c), show W5 m c (Proc.devRef .tc main_v110) = _ from ops0_4_v110 (W4 m c)]
  exact Cert.Slices.coords_apply _ (0 : Fin 3) ![0, 0, 0] rfl _ _ _ P j n k hP

/-- Call 1's coordinate array at (P, j): the normalised coordinates at (1, n, k, j). -/
theorem coords1 (P : Fin 800000) (j : Fin 2) (n : Fin 200000) (k : Fin 4) (hP : P.val = 4 * n.val + k.val) :
    (V7 m c (Pipeline.arrRef spec1 0) : S800000x2.Idx → EReal) (ix2 P j)
      = (W5 m c (Proc.devRef .tc main_v110) : S3x200000x4x2.Idx → EReal) (ix4 (1 : Fin 3) n k j) := by
  rw [show V7 m c (Pipeline.arrRef spec1 0) = _ from ops1_v120 (W6 m c), W6_v111, W5_v111]
  exact Cert.Slices.coords_apply _ (1 : Fin 3) ![1, 0, 0] rfl _ _ _ P j n k hP

/-- Call 2's coordinate array at (P, j): the normalised coordinates at (2, n, k, j). -/
theorem coords2 (P : Fin 800000) (j : Fin 2) (n : Fin 200000) (k : Fin 4) (hP : P.val = 4 * n.val + k.val) :
    (V9 m c (Pipeline.arrRef spec2 0) : S800000x2.Idx → EReal) (ix2 P j)
      = (W5 m c (Proc.devRef .tc main_v110) : S3x200000x4x2.Idx → EReal) (ix4 (2 : Fin 3) n k j) := by
  rw [show V9 m c (Pipeline.arrRef spec2 0) = _ from ops2_v126 (W8 m c), W8_v111, W5_v111]
  exact Cert.Slices.coords_apply _ (2 : Fin 3) ![2, 0, 0] rfl _ _ _ P j n k hP

/-! ## The three result arrays when the closing stretch starts -/

theorem out0 : W10 m c (Proc.devRef .tc main_v118)
    = shapeCast S32x200000x4 (G0 (V5 m) c) shapeCasts_S32x800000_S32x200000x4 := by
  rw [W10_v118, show W7 m c (Proc.devRef .tc main_v118) = _ from ops1_v118 (W6 m c), W6_v117, arr0]
theorem out1 : W10 m c (Proc.devRef .tc main_v124)
    = shapeCast S32x200000x4 (G1 (V7 m) c) shapeCasts_S32x800000_S32x200000x4 := by
  rw [W10_v124, show W9 m c (Proc.devRef .tc main_v124) = _ from ops2_v124 (W8 m c), W8_v123, arr1]
theorem out2 : W10 m c (Proc.devRef .tc main_v129) = G2 (V9 m) c := by
  rw [W10_v129, arr2]

/-! ## The result buffer, entry by entry -/

/-- Entry (n, q) of the result buffer, q = 96·k + 32·a + ch: channel ch of plane a sampled at the normalised
    coordinates of point (n, k) on plane a, the coordinates read where the prefix left them. -/
theorem value_entry (n : Fin 200000) (q : Fin 384) (k : Fin 4) (a : Fin 3) (ch : Fin 32) (P : Fin 800000)
    (hq : q.val = 96 * k.val + 32 * a.val + ch.val) (hP : P.val = 4 * n.val + k.val) :
    (W11 m c (Proc.devRef .tc main_v136) : S200000x384.Idx → EReal) (ix2 n q)
      = Cert.Sample.kSample (fun h w => ((m ((c : Thread nD τ).loc main_arg3)) : S3x32x512x512.Idx → EReal) (ix4 a ch h w))
          ((W5 m c (Proc.devRef .tc main_v110) : S3x200000x4x2.Idx → EReal) (ix4 a n k (0 : Fin 2)))
          ((W5 m c (Proc.devRef .tc main_v110) : S3x200000x4x2.Idx → EReal) (ix4 a n k (1 : Fin 2))) := by
  rw [W11_out, ops3_v136 (W10 m c), out0, out1, out2]
  rw [Cert.Tail.tail_apply _ _ _ _ _ _ _ _ n q k a ch P hq hP]
  match a with
  | 0 =>
    show Cert.Sample.kSample (fun h w => (V5 m c (Pipeline.arrRef spec0 1) : S32x512x512.Idx → EReal) (ix3 ch h w))
      ((V5 m c (Pipeline.arrRef spec0 0) : S800000x2.Idx → EReal) (ix2 P (0 : Fin 2)))
      ((V5 m c (Pipeline.arrRef spec0 0) : S800000x2.Idx → EReal) (ix2 P (1 : Fin 2))) = _
    rw [show (fun h w => (V5 m c (Pipeline.arrRef spec0 1) : S32x512x512.Idx → EReal) (ix3 ch h w))
        = fun h w => ((m ((c : Thread nD τ).loc main_arg3)) : S3x32x512x512.Idx → EReal) (ix4 (0 : Fin 3) ch h w) from funext fun h => funext fun w => slab0 m c ch h w,
      coords0 m c P 0 n k hP, coords0 m c P 1 n k hP]
  | 1 =>
    show Cert.Sample.kSample (fun h w => (V7 m c (Pipeline.arrRef spec1 1) : S32x512x512.Idx → EReal) (ix3 ch h w))
      ((V7 m c (Pipeline.arrRef spec1 0) : S800000x2.Idx → EReal) (ix2 P (0 : Fin 2)))
      ((V7 m c (Pipeline.arrRef spec1 0) : S800000x2.Idx → EReal) (ix2 P (1 : Fin 2))) = _
    rw [show (fun h w => (V7 m c (Pipeline.arrRef spec1 1) : S32x512x512.Idx → EReal) (ix3 ch h w))
        = fun h w => ((m ((c : Thread nD τ).loc main_arg3)) : S3x32x512x512.Idx → EReal) (ix4 (1 : Fin 3) ch h w) from funext fun h => funext fun w => slab1 m c ch h w,
      coords1 m c P 0 n k hP, coords1 m c P 1 n k hP]
  | 2 =>
    show Cert.Sample.kSample (fun h w => (V9 m c (Pipeline.arrRef spec2 1) : S32x512x512.Idx → EReal) (ix3 ch h w))
      ((V9 m c (Pipeline.arrRef spec2 0) : S800000x2.Idx → EReal) (ix2 P (0 : Fin 2)))
      ((V9 m c (Pipeline.arrRef spec2 0) : S800000x2.Idx → EReal) (ix2 P (1 : Fin 2))) = _
    rw [show (fun h w => (V9 m c (Pipeline.arrRef spec2 1) : S32x512x512.Idx → EReal) (ix3 ch h w))
        = fun h w => ((m ((c : Thread nD τ).loc main_arg3)) : S3x32x512x512.Idx → EReal) (ix4 (2 : Fin 3) ch h w) from funext fun h => funext fun w => slab2 m c ch h w,
      coords2 m c P 0 n k hP, coords2 m c P 1 n k hP]

/-- The result buffer as the sampled array, given that the prefix leaves the normalised coordinates of the
    arguments in their buffer. -/
theorem value_of (hpre : W5 m c (Proc.devRef .tc main_v110) = Cert.Nc.nc (F := Ideal) (m ((c : Thread nD τ).loc main_arg0)) (m ((c : Thread nD τ).loc main_arg1)) (m ((c : Thread nD τ).loc main_arg2))) :
    W11 (F := Ideal) m c (Proc.devRef .tc main_v136)
      = Cert.Sample.sampled Cert.Sample.kSample (m ((c : Thread nD τ).loc main_arg3)) (Cert.Nc.nc (F := Ideal) (m ((c : Thread nD τ).loc main_arg0)) (m ((c : Thread nD τ).loc main_arg1)) (m ((c : Thread nD τ).loc main_arg2))) := by
  funext i
  obtain ⟨n, q, rfl⟩ : ∃ (n : Fin 200000) (q : Fin 384), i = ix2 n q := ⟨i 0, i 1, eq_ix2 i⟩
  have hk : q.val / 96 < 4 := Nat.div_lt_of_lt_mul (show q.val < 96 * 4 from q.isLt)
  have ha : q.val % 96 / 32 < 3 := Nat.div_lt_of_lt_mul (show q.val % 96 < 32 * 3 from Nat.mod_lt _ (by decide))
  have hc : q.val % 32 < 32 := Nat.mod_lt _ (by decide)
  have hP : 4 * n.val + q.val / 96 < 800000 := by have := n.isLt; omega
  rw [show (W11 m c (Proc.devRef .tc main_v136) : S200000x384.Idx → EReal) (ix2 n q) = _ from
    value_entry m c n q ⟨q.val / 96, hk⟩ ⟨q.val % 96 / 32, ha⟩ ⟨q.val % 32, hc⟩ ⟨4 * n.val + q.val / 96, hP⟩
      (by show q.val = 96 * (q.val / 96) + 32 * (q.val % 96 / 32) + q.val % 32; omega) rfl, hpre]
  rfl

/-- THE VALUE of @main's result buffer at the end of the run: the array of one-hot bilinear samples of the planes
    argument at the normalised coordinates of the three small arguments. The prefix of @main leaves those
    coordinates in their buffer, and the rest is `value_of`. -/
theorem value (m : (ℓ : Loc Cert.KernelIdeal.nD Cert.KernelIdeal.τ Cert.KernelIdeal.sig) → Buf (Elt Ideal) ℓ) (c : Dev Cert.KernelIdeal.nD) :
    Cert.KernelIdeal.Hand.W11 (F := Ideal) m c (Proc.devRef .tc Cert.KernelIdeal.main_v136)
      = Cert.Sample.sampled Cert.Sample.kSample (m ((c.tc : Thread Cert.KernelIdeal.nD Cert.KernelIdeal.τ).loc Cert.KernelIdeal.main_arg3))
          (Cert.Nc.nc (F := Ideal) (m ((c.tc : Thread _ _).loc Cert.KernelIdeal.main_arg0)) (m ((c.tc : Thread _ _).loc Cert.KernelIdeal.main_arg1))
            (m ((c.tc : Thread _ _).loc Cert.KernelIdeal.main_arg2))) :=
  value_of m c (pre5_v110 (F := Ideal) (W0 m c))

end Cert.KernelIdeal.HandHost

end
-- ==== Proof.Finite.lean ====
/-
  The precondition read back: every entry of the planes array is a real number.

  The precondition is the conjunction of four tests, one per argument array: the absolute value of every entry is
  strictly below the f32 infinity word. That word is the top of the extended reals and |x| is max(x, −x), so an
  entry passes exactly when it is neither infinity, that is, a real. The planes array is the fourth test.
-/
import proofs.«162729_j22162031247387_1_alg».proof.Defs
import proofs.«162729_j22162031247387_1_alg».proof.Proof.Gen.Pre_finite_inputs
import Idealize.ShloMosaic.Lib.ReduceAll
import Idealize.ShloMosaic.Lib.Affine
import Idealize.ShloMosaic.PureOps.Ideal.Laws
import Idealize.ShloMosaic.Lib.ValueIdx

noncomputable section

namespace Cert.Finite

open Idealize.ShloMosaic Idealize.ShloMosaic.ValueIdx Idealize.SL.Sem

/-- The rank-0 shape has one index. -/
instance : Subsingleton (⟨0, ![]⟩ : Shape).Idx := ⟨fun a b => funext fun d => d.elim0⟩

/-- The f32 infinity word is the top of the extended reals. -/
theorem ofBits_inf : Ideal.ofBits .f32 0x7F800000#32 = ⊤ := by simp [Ideal.ofBits, Ideal.ieee]

/-- An extended real whose absolute value max(x, −x) is below the top is a real. -/
theorem real_of_abs_lt_top (x : EReal) (h : max x (-x) < ⊤) : ∃ r : ℝ, x = (r : EReal) := by
  induction x using EReal.rec with
  | bot => simp at h
  | coe r => exact ⟨r, rfl⟩
  | top => simp at h

/-- One test read back: if the conjunction over all entries of |x| < ∞ is true, every entry of x is real. -/
theorem allReal_of_test {S : Shape} {axes : List (Fin S.rank)} (x inf : FVec Ideal S .f32)
    (hinf : ∀ j, inf j = Ideal.ofBits .f32 0x7F800000#32)
    (init : IVec (⟨0, ![]⟩ : Shape) 1) (h : S.ReducesTo axes (⟨0, ![]⟩ : Shape)) (hu : 0 < (⟨0, ![]⟩ : Shape).numel)
    (e : Host.reduce IntOp.andi (cmpf .olt (Host.absf x) inf) init h hu ix0 = 1#1) (j : S.Idx) :
    ∃ r : ℝ, x j = (r : EReal) := by
  have hj : cmpf .olt (Host.absf x) inf j = 1#1 := Host.reduce_andi_all _ init h hu ix0 e j
  have hj' : Ideal.cmp .olt (max (x j) (-(x j))) ⊤ = 1#1 := by
    rw [← ofBits_inf, ← hinf j]; exact hj
  have hlt : max (x j) (-(x j)) < ⊤ := by
    by_contra hn
    have : Ideal.cmp .olt (max (x j) (-(x j))) ⊤ = 0#1 := by
      show BitVec.ofBool (decide (max (x j) (-(x j)) < ⊤)) = 0#1
      rw [decide_eq_false hn]; rfl
    rw [this] at hj'
    exact absurd hj' (by decide)
  exact real_of_abs_lt_top _ hlt

/-- Under the precondition every entry of the planes array is a real number. -/
theorem planes_real (m : (ℓ : Loc Cert.KernelIdeal.nD Cert.KernelIdeal.τ Cert.KernelIdeal.sig) → Buf (Elt Ideal) ℓ)
    (hpre : Cert.Pre_KernelIdeal m) (c : Dev Cert.KernelIdeal.nD)
    (i : (⟨4, ![3, 32, 512, 512]⟩ : Shape).Idx) :
    ∃ r : ℝ, m ((c.tc : Thread Cert.KernelIdeal.nD Cert.KernelIdeal.τ).loc Cert.KernelIdeal.main_arg3) i = (r : EReal) := by
  have h0 := congrFun (hpre c) ix0
  dsimp only [Cert.Pre_finite_inputs.fn, Cert.Pre_finite_inputs.fn_part1] at h0
  have h1 := (IntOp.andi_eq_one.1 h0).2
  exact allReal_of_test _ _ (fun _ => rfl) _ _ _ h1 i

end Cert.Finite

end
-- ==== Proof.Bilinear.Words.lean ====
/-
  The five float words of the sampling law as extended reals, and the pixel coordinate at the three kinds of
  extended real: an infinity stays that infinity, a real r goes to the real ((r + 1) · 512 − 1) / 2.
-/
import proofs.«162729_j22162031247387_1_alg».proof.Proof.Spec
import Idealize.ShloMosaic.PureOps.Ideal.Laws
import Mathlib

noncomputable section

namespace Cert.Sample

open Idealize.ShloMosaic

theorem c1_eq : c1 = ((1 : ℝ) : EReal) := by
  simp [c1, Ideal.ofBits, Ideal.ieee]
  rw [← EReal.coe_mul, ← EReal.coe_one]
  congr 1
  norm_num

theorem c512_eq : c512 = ((512 : ℝ) : EReal) := by
  simp [c512, Ideal.ofBits, Ideal.ieee]
  rw [← EReal.coe_mul]
  congr 1
  norm_num

theorem cHalf_eq : cHalf = ((1 / 2 : ℝ) : EReal) := by
  simp [cHalf, Ideal.ofBits, Ideal.ieee]
  rw [← EReal.coe_mul]
  congr 1
  norm_num

theorem c0_eq : c0 = ((0 : ℝ) : EReal) := by
  simp [c0, Ideal.ofBits, Ideal.ieee]

theorem c511_eq : c511 = ((511 : ℝ) : EReal) := by
  simp [c511, Ideal.ofBits, Ideal.ieee]
  rw [← EReal.coe_mul]
  congr 1
  norm_num

end Cert.Sample

end
-- ==== Proof.Bilinear.Lanes.lean ====
/-
  Lanes and 32-bit cells. A lane j of 0 … 511, as a 32-bit word, equals the word of an integer a with
  −2³¹ ≤ a ≤ 2³¹ exactly when a = j (the one value that wraps, 2³¹, wraps to −2³¹, which is no lane); the cell of an
  integer-valued real is the integer clamped to the signed 32-bit range.
-/
import proofs.«162729_j22162031247387_1_alg».proof.Proof.Bilinear.Words

noncomputable section

namespace Cert.Sample

open Idealize.ShloMosaic

/-- An extended real is ⊥, ⊤ or a real. -/
theorem ereal_cases (x : EReal) : x = ⊥ ∨ x = ⊤ ∨ ∃ r : ℝ, x = (r : EReal) := by
  induction x using EReal.rec with
  | bot => exact Or.inl rfl
  | top => exact Or.inr (Or.inl rfl)
  | coe r => exact Or.inr (Or.inr ⟨r, rfl⟩)

/-- The clamp of an integer to the signed 32-bit range. -/
def clamp32 (z : ℤ) : ℤ := max (-(2 ^ 31)) (min (2 ^ 31 - 1) z)

theorem clamp32_bounds (z : ℤ) : -(2 ^ 31) ≤ clamp32 z ∧ clamp32 z ≤ 2 ^ 31 - 1 := by
  unfold clamp32; omega

theorem clamp32_eq_lane (z : ℤ) (j : Fin 512) : clamp32 z = (j.val : ℤ) ↔ z = (j.val : ℤ) := by
  have := j.isLt
  unfold clamp32; omega

theorem clamp32_succ_eq_lane (z : ℤ) (j : Fin 512) : clamp32 z + 1 = (j.val : ℤ) ↔ z + 1 = (j.val : ℤ) := by
  have := j.isLt
  unfold clamp32; omega

/-- The word of an integer in −2³¹ … 2³¹ is a lane's word exactly when the integer is the lane. -/
theorem ofInt_eq_lane (a : ℤ) (j : Fin 512) (h1 : -(2 ^ 31) ≤ a) (h2 : a ≤ 2 ^ 31) :
    BitVec.ofNat 32 j.val = BitVec.ofInt 32 a ↔ a = (j.val : ℤ) := by
  have hj := j.isLt
  constructor
  · intro h
    have h' := congrArg BitVec.toInt h
    rw [BitVec.toInt_ofInt, BitVec.toInt_ofNat'] at h'
    simp only [Int.bmod] at h'
    omega
  · intro h
    rw [h]
    rfl

/-- The cell of an integer-valued real: the integer, clamped. -/
theorem fptosi_intCast (z : ℤ) : Ideal.fptosi 32 (((z : ℝ)) : EReal) = BitVec.ofInt 32 (clamp32 z) := by
  unfold Ideal.fptosi clamp32
  rw [Ideal.toIntClamped_coe]
  congr 1
  simp

theorem fptosi_top : Ideal.fptosi 32 (⊤ : EReal) = BitVec.ofInt 32 (2 ^ 31 - 1) := by
  unfold Ideal.fptosi
  rw [Ideal.toIntClamped_top]
  rfl

theorem fptosi_bot : Ideal.fptosi 32 (⊥ : EReal) = BitVec.ofInt 32 (-(2 ^ 31)) := by
  unfold Ideal.fptosi
  rw [Ideal.toIntClamped_bot]
  rfl

/-- A lane's indicator of a word. -/
theorem hit_eq (j : Fin 512) (b : BitVec 32) :
    hit j b = if BitVec.ofNat 32 j.val = b then ((1 : ℝ) : EReal) else ((0 : ℝ) : EReal) := by
  have e1 : ((BitVec.ofBool true).setWidth 32).toInt = 1 := by decide
  have e0 : ((BitVec.ofBool false).setWidth 32).toInt = 0 := by decide
  show ((((BitVec.ofBool (BitVec.ofNat 32 j.val == b)).setWidth 32).toInt : ℝ) : EReal) = _
  by_cases h : BitVec.ofNat 32 j.val = b
  · rw [beq_iff_eq.2 h, if_pos h, e1, Int.cast_one]
  · rw [beq_eq_false_iff_ne.2 h, if_neg h, e0, Int.cast_zero]

/-- At the word of an integer a in −2³¹ … 2³¹ the lane's indicator is the indicator of a = j. -/
theorem hit_ofInt (j : Fin 512) (a : ℤ) (h1 : -(2 ^ 31) ≤ a) (h2 : a ≤ 2 ^ 31) :
    hit j (BitVec.ofInt 32 a) = (((if a = (j.val : ℤ) then 1 else 0 : ℝ)) : EReal) := by
  rw [hit_eq]
  by_cases h : a = (j.val : ℤ)
  · rw [if_pos ((ofInt_eq_lane a j h1 h2).2 h), if_pos h]
  · rw [if_neg (fun h' => h ((ofInt_eq_lane a j h1 h2).1 h')), if_neg h]

theorem addi_ofInt_one (a : ℤ) : IntOp.addi (BitVec.ofInt 32 a) 1#32 = BitVec.ofInt 32 (a + 1) := by
  unfold IntOp.addi
  rw [BitVec.ofInt_add]
  rfl

end Cert.Sample

end
-- ==== Proof.Bilinear.Corner.lean ====
/-
  One corner of the four-corner form. The corner (x, y) counts when 0 ≤ x ≤ 511 and 0 ≤ y ≤ 511; then its clipped,
  converted coordinates are the coordinates themselves, no wrap is taken, and the cell read is (y, x). Otherwise the
  factor 0 removes whatever cell was read. An infinite coordinate is never inside.
-/
import proofs.«162729_j22162031247387_1_alg».proof.Proof.Bilinear.Lanes

noncomputable section

namespace Cert.Sample

open Idealize.ShloMosaic

/-- The conjunction of four one-bit words, as a number. -/
theorem and4_toNat (a b c d : Bool) :
    (IntOp.andi (IntOp.andi (IntOp.andi (BitVec.ofBool a) (BitVec.ofBool b)) (BitVec.ofBool c)) (BitVec.ofBool d)).toNat
      = if (a && b && c && d) = true then 1 else 0 := by
  cases a <;> cases b <;> cases c <;> cases d <;> rfl

/-- The inside factor is 1 exactly on 0 ≤ x ≤ 511, 0 ≤ y ≤ 511. -/
theorem inside_eq (x y : EReal) :
    inside x y = if (c0 ≤ x ∧ x ≤ c511) ∧ (c0 ≤ y ∧ y ≤ c511) then ((1 : ℝ) : EReal) else ((0 : ℝ) : EReal) := by
  show ((((IntOp.andi (IntOp.andi (IntOp.andi (BitVec.ofBool (decide (c0 ≤ x))) (BitVec.ofBool (decide (x ≤ c511))))
    (BitVec.ofBool (decide (c0 ≤ y)))) (BitVec.ofBool (decide (y ≤ c511)))).toNat : ℝ)) : EReal) = _
  rw [and4_toNat]
  by_cases h : (c0 ≤ x ∧ x ≤ c511) ∧ (c0 ≤ y ∧ y ≤ c511)
  · rw [if_pos h, if_pos (by
      rw [decide_eq_true h.1.1, decide_eq_true h.1.2, decide_eq_true h.2.1, decide_eq_true h.2.2]; rfl)]
    simp
  · rw [if_neg h, if_neg (fun hb => h (by
      simp only [Bool.and_eq_true, decide_eq_true_eq] at hb
      exact ⟨⟨hb.1.1.1, hb.1.1.2⟩, hb.1.2, hb.2⟩))]
    simp

theorem inside_top_left (y : EReal) : inside ⊤ y = 0 := by
  rw [inside_eq, if_neg, EReal.coe_zero]
  rintro ⟨⟨_, h⟩, _⟩
  rw [c511_eq] at h
  exact absurd h (by simp)

theorem inside_bot_left (y : EReal) : inside ⊥ y = 0 := by
  rw [inside_eq, if_neg, EReal.coe_zero]
  rintro ⟨⟨h, _⟩, _⟩
  rw [c0_eq] at h
  exact absurd h (by simp)

theorem inside_top_right (x : EReal) : inside x ⊤ = 0 := by
  rw [inside_eq, if_neg, EReal.coe_zero]
  rintro ⟨_, ⟨_, h⟩⟩
  rw [c511_eq] at h
  exact absurd h (by simp)

theorem inside_bot_right (x : EReal) : inside x ⊥ = 0 := by
  rw [inside_eq, if_neg, EReal.coe_zero]
  rintro ⟨_, ⟨h, _⟩⟩
  rw [c0_eq] at h
  exact absurd h (by simp)

/-- At integer coordinates the inside factor is the integers' own range test. -/
theorem inside_intCast (zx zy : ℤ) :
    inside (((zx : ℝ)) : EReal) (((zy : ℝ)) : EReal)
      = if (0 ≤ zx ∧ zx ≤ 511) ∧ (0 ≤ zy ∧ zy ≤ 511) then ((1 : ℝ) : EReal) else ((0 : ℝ) : EReal) := by
  rw [inside_eq, c0_eq, c511_eq]
  simp only [EReal.coe_le_coe_iff]
  have e1 : ((0 : ℝ) ≤ (zx : ℝ)) ↔ 0 ≤ zx := by exact_mod_cast Iff.rfl
  have e2 : ((zx : ℝ) ≤ 511) ↔ zx ≤ 511 := by exact_mod_cast Iff.rfl
  have e3 : ((0 : ℝ) ≤ (zy : ℝ)) ↔ 0 ≤ zy := by exact_mod_cast Iff.rfl
  have e4 : ((zy : ℝ) ≤ 511) ↔ zy ≤ 511 := by exact_mod_cast Iff.rfl
  simp only [e1, e2, e3, e4]

/-- An integer coordinate in 0 … 511 converts to its own word. -/
theorem conv_lane (z : ℤ) (h0 : 0 ≤ z) (h1 : z ≤ 511) : conv (((z : ℝ)) : EReal) = BitVec.ofInt 32 z := by
  have e511 : (511#32 : BitVec 32).toInt = 511 := by decide
  have e0 : (0#32 : BitVec 32).toInt = 0 := by decide
  unfold conv
  rw [e511, e0, max_eq_right (by exact_mod_cast h0), min_eq_right (by exact_mod_cast h1), fptosi_intCast]
  congr 1
  unfold clamp32
  omega

/-- Such a word is not negative, so the wrap is not taken, and the cell it names is the coordinate. -/
theorem cellOf_clipIx_lane (z : ℤ) (h0 : 0 ≤ z) (h1 : z ≤ 511) :
    (cellOf (clipIx (((z : ℝ)) : EReal))).val = z.toNat := by
  have ht : (BitVec.ofInt 32 z).toInt = z :=
    BitVec.toInt_ofInt_eq_self (by norm_num) (by norm_num; omega) (by norm_num; omega)
  have hs : (BitVec.ofInt 32 z).slt 0#32 = false := by
    rw [BitVec.slt_eq_decide, ht]
    have e0 : (0#32 : BitVec 32).toInt = 0 := by decide
    rw [e0]
    exact decide_eq_false (by omega)
  unfold clipIx
  rw [conv_lane z h0 h1]
  show (cellOf (if BitVec.ofBool ((BitVec.ofInt 32 z).slt 0#32) = 1 then _ else _)).val = _
  rw [hs, if_neg (by decide)]
  unfold cellOf
  simp only [ht]
  omega

end Cert.Sample

end
-- ==== Proof.Bilinear.Hot.lean ====
/-
  The weight row of a coordinate. When the pixel coordinate is a real p with floor z, the row is real: the lower
  weight 1 − (p − z) at lane z and the upper weight p − z at lane z + 1 (a neighbour outside 0 … 511, or outside
  the 32-bit range, meets no lane). When the pixel coordinate is infinite the two neighbours' cells are the ends of
  the 32-bit range, no lane carries them, and the row is zero although the weights themselves are infinite.
-/
import proofs.«162729_j22162031247387_1_alg».proof.Proof.Bilinear.Lanes

noncomputable section

namespace Cert.Sample

open Idealize.ShloMosaic

/-- The real indicator of "lane j is the integer z". -/
def ind (z : ℤ) (j : Fin 512) : ℝ := if z = (j.val : ℤ) then 1 else 0

/-- The weight row of a real pixel coordinate. -/
def hotR (p : ℝ) (j : Fin 512) : ℝ := (1 - (p - ⌊p⌋)) * ind ⌊p⌋ j + (p - ⌊p⌋) * ind (⌊p⌋ + 1) j

variable {g : EReal} {p : ℝ}

theorem flo_of_real (h : pix g = (p : EReal)) : flo g = (((⌊p⌋ : ℤ) : ℝ) : EReal) := by
  unfold flo
  rw [h, Ideal.liftRound_coe]

theorem wHi_of_real (h : pix g = (p : EReal)) : wHi g = ((p - ⌊p⌋ : ℝ) : EReal) := by
  unfold wHi
  rw [flo_of_real h, h, ← EReal.coe_sub]

theorem wLo_of_real (h : pix g = (p : EReal)) : wLo g = ((1 - (p - ⌊p⌋) : ℝ) : EReal) := by
  unfold wLo
  rw [wHi_of_real h, c1_eq, ← EReal.coe_sub]

theorem cell_of_real (h : pix g = (p : EReal)) : cell g = BitVec.ofInt 32 (clamp32 ⌊p⌋) := by
  unfold cell
  rw [flo_of_real h, fptosi_intCast]

/-- With a real pixel coordinate the weight row is the real row. -/
theorem hot_of_real (h : pix g = (p : EReal)) (j : Fin 512) : hot g j = ((hotR p j : ℝ) : EReal) := by
  have hb := clamp32_bounds ⌊p⌋
  unfold hot hotR ind
  rw [wLo_of_real h, wHi_of_real h, cell_of_real h, addi_ofInt_one,
    hit_ofInt j _ hb.1 (by omega), hit_ofInt j _ (by omega) (by omega)]
  simp only [clamp32_eq_lane, clamp32_succ_eq_lane]
  rw [← EReal.coe_mul, ← EReal.coe_mul, ← EReal.coe_add]

theorem flo_of_top (h : pix g = ⊤) : flo g = ⊤ := by
  unfold flo
  rw [h, Ideal.liftRound_top]

theorem flo_of_bot (h : pix g = ⊥) : flo g = ⊥ := by
  unfold flo
  rw [h, Ideal.liftRound_bot]

/-- With pixel coordinate +∞ the cells are 2³¹ − 1 and its wrapped successor: the row is zero. -/
theorem hot_of_top (h : pix g = ⊤) (j : Fin 512) : hot g j = 0 := by
  have hj := j.isLt
  unfold hot cell
  rw [flo_of_top h, fptosi_top, addi_ofInt_one, hit_ofInt j _ (by norm_num) (by norm_num),
    hit_ofInt j _ (by norm_num) (by norm_num), if_neg (by omega), if_neg (by omega)]
  simp

/-- With pixel coordinate −∞ the cells are −2³¹ and −2³¹ + 1: the row is zero. -/
theorem hot_of_bot (h : pix g = ⊥) (j : Fin 512) : hot g j = 0 := by
  have hj := j.isLt
  unfold hot cell
  rw [flo_of_bot h, fptosi_bot, addi_ofInt_one, hit_ofInt j _ (by norm_num) (by norm_num),
    hit_ofInt j _ (by norm_num) (by norm_num), if_neg (by omega), if_neg (by omega)]
  simp

end Cert.Sample

end
-- ==== Proof.Bilinear.RealLaw.lean ====
/-
  The law on the reals. Summing against a lane's indicator picks the lane when the integer is a lane and nothing
  otherwise; so the contraction of a real plane with two real weight rows, each carrying two neighbours' weights, is the
  sum over the four corners of the plane's entry there (zero when the corner is outside) times the product of the two
  weights.
-/
import proofs.«162729_j22162031247387_1_alg».proof.Proof.Bilinear.Hot

noncomputable section

open scoped BigOperators

namespace Cert.Sample

/-- Summing a function against a lane's indicator picks the lane, or nothing. -/
theorem sum_ind (z : ℤ) (g : Fin 512 → ℝ) :
    ∑ j : Fin 512, ind z j * g j = if h : 0 ≤ z ∧ z ≤ 511 then g ⟨z.toNat, by omega⟩ else 0 := by
  by_cases h : 0 ≤ z ∧ z ≤ 511
  · rw [dif_pos h, Finset.sum_eq_single (⟨z.toNat, by omega⟩ : Fin 512)]
    · have e : z = ((z.toNat : ℕ) : ℤ) := by omega
      unfold ind
      rw [if_pos e, one_mul]
    · intro j _ hj
      have e : z ≠ (j.val : ℤ) := fun e => hj (Fin.ext (by show j.val = z.toNat; omega))
      unfold ind
      rw [if_neg e, zero_mul]
    · intro h'
      exact absurd (Finset.mem_univ _) h'
  · rw [dif_neg h]
    apply Finset.sum_eq_zero
    intro j _
    have hj := j.isLt
    have e : z ≠ (j.val : ℤ) := by omega
    unfold ind
    rw [if_neg e, zero_mul]

/-- The plane's entry at an integer corner (x, y), zero outside the plane. -/
def pick2 (f : Fin 512 → Fin 512 → ℝ) (zx zy : ℤ) : ℝ :=
  if h : (0 ≤ zx ∧ zx ≤ 511) ∧ (0 ≤ zy ∧ zy ≤ 511) then f ⟨zy.toNat, by omega⟩ ⟨zx.toNat, by omega⟩ else 0

theorem pick2_eq_sum (f : Fin 512 → Fin 512 → ℝ) (zx zy : ℤ) :
    pick2 f zx zy = ∑ w : Fin 512, ∑ h : Fin 512, ind zx w * ind zy h * f h w := by
  have e : ∀ w : Fin 512, ∑ h : Fin 512, ind zx w * ind zy h * f h w
      = ind zx w * (if hy : 0 ≤ zy ∧ zy ≤ 511 then f ⟨zy.toNat, by omega⟩ w else 0) := by
    intro w
    rw [← sum_ind zy (fun h => f h w), Finset.mul_sum]
    exact Finset.sum_congr rfl (fun h _ => by ring)
  rw [Finset.sum_congr rfl (fun w _ => e w),
    sum_ind zx (fun w => if hy : 0 ≤ zy ∧ zy ≤ 511 then f ⟨zy.toNat, by omega⟩ w else 0)]
  unfold pick2
  by_cases hx : 0 ≤ zx ∧ zx ≤ 511
  · by_cases hy : 0 ≤ zy ∧ zy ≤ 511
    · rw [dif_pos ⟨hx, hy⟩, dif_pos hx, dif_pos hy]
    · rw [dif_neg (fun h => hy h.2), dif_pos hx, dif_neg hy]
  · rw [dif_neg (fun h => hx h.1), dif_neg hx]

/-- The contraction with two real weight rows is the four-corner sum. -/
theorem real_law (f : Fin 512 → Fin 512 → ℝ) (px py : ℝ) :
    ∑ w : Fin 512, (∑ h : Fin 512, hotR py h * f h w) * hotR px w
      = ((pick2 f ⌊px⌋ ⌊py⌋ * ((1 - (px - ⌊px⌋)) * (1 - (py - ⌊py⌋)))
          + pick2 f (⌊px⌋ + 1) ⌊py⌋ * ((px - ⌊px⌋) * (1 - (py - ⌊py⌋))))
          + pick2 f ⌊px⌋ (⌊py⌋ + 1) * ((1 - (px - ⌊px⌋)) * (py - ⌊py⌋)))
        + pick2 f (⌊px⌋ + 1) (⌊py⌋ + 1) * ((px - ⌊px⌋) * (py - ⌊py⌋)) := by
  simp only [pick2_eq_sum, Finset.sum_mul, ← Finset.sum_add_distrib]
  refine Finset.sum_congr rfl (fun w _ => Finset.sum_congr rfl (fun h _ => ?_))
  unfold hotR
  ring

end Cert.Sample

end
-- ==== Proof.LibRealSum.lean ====
/-
  A real factor distributes over a finite sum of products of reals, on the extended reals.

  On the extended reals multiplication does not distribute over addition in general: with `s = ⊤`, `a = 2`, `b = -1`
  the product `s * (a + b)` is `⊤` while `s * a + s * b` is `⊤ + ⊥ = ⊥`. It does when every quantity is a real
  number: then both sides are the coercion of one real, and the law is the reals' own. The lemmas below state this for
  a weighted sum `∑ i, x i * w i` scaled by a factor `s`, with a zero summand in front as a sum with an initial
  value carries it.
-/
import Mathlib.Data.EReal.Operations
import Mathlib.Algebra.BigOperators.Ring.Finset

open scoped BigOperators

namespace Cert.RealSum

/-- An extended real that is the coercion of a real. -/
def IsReal (v : EReal) : Prop := ∃ r : ℝ, v = (r : EReal)

theorem isReal_coe (r : ℝ) : IsReal (r : EReal) := ⟨r, rfl⟩

theorem IsReal.mul {a b : EReal} (ha : IsReal a) (hb : IsReal b) : IsReal (a * b) := by
  obtain ⟨r, rfl⟩ := ha; obtain ⟨t, rfl⟩ := hb
  exact ⟨r * t, (EReal.coe_mul r t).symm⟩

theorem IsReal.add {a b : EReal} (ha : IsReal a) (hb : IsReal b) : IsReal (a + b) := by
  obtain ⟨r, rfl⟩ := ha; obtain ⟨t, rfl⟩ := hb
  exact ⟨r + t, (EReal.coe_add r t).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves inside a finite weighted sum of reals: `s * (0 + ∑ i, x i * w i) = 0 + ∑ i, (s * x i) * w i`. -/
theorem mul_zero_add_sum {ι : Type} [Fintype ι] {s : EReal} {x w : ι → EReal}
    (hs : IsReal s) (hx : ∀ i, IsReal (x i)) (hw : ∀ i, IsReal (w i)) :
    s * (0 + ∑ i, x i * w i) = 0 + ∑ i, (s * x i) * w i := by
  obtain ⟨r, rfl⟩ := hs
  choose xr hxr using hx
  choose wr hwr using hw
  simp only [hxr, hwr, zero_add]
  simp only [← EReal.coe_mul, ← coe_sum]
  congr 1
  rw [Finset.mul_sum]
  exact Finset.sum_congr rfl fun i _ => by ring

/-- The same without the zero summand. -/
theorem mul_sum {ι : Type} [Fintype ι] {s : EReal} {x w : ι → EReal}
    (hs : IsReal s) (hx : ∀ i, IsReal (x i)) (hw : ∀ i, IsReal (w i)) :
    s * ∑ i, x i * w i = ∑ i, (s * x i) * w i := by
  have h := mul_zero_add_sum hs hx hw
  rwa [zero_add, zero_add] at h

end Cert.RealSum
-- ==== Proof.Bilinear.lean ====
/-
  The one-hot form and the four-corner form of bilinear sampling agree on a plane of real entries, at every pair of
  extended-real coordinates.

  Both forms depend on a coordinate only through its pixel coordinate. When a pixel coordinate is infinite its weight
  row is zero (no lane carries either neighbour), so the contraction is zero; and every corner using that coordinate
  lies outside the plane, so the four-corner sum is zero too. When both pixel coordinates are real, every quantity is
  real and the statement is the reals' own: the contraction with two rows of two weights each is the sum over the
  four corners.
-/
import proofs.«162729_j22162031247387_1_alg».proof.Proof.Bilinear.Corner
import proofs.«162729_j22162031247387_1_alg».proof.Proof.Bilinear.RealLaw
import proofs.«162729_j22162031247387_1_alg».proof.Proof.LibRealSum

noncomputable section

open scoped BigOperators

namespace Cert.Sample

open Idealize.ShloMosaic

variable {feat : Fin 512 → Fin 512 → EReal} {gx gy : EReal}

/-! ## An infinite coordinate: both forms are zero -/

theorem kSample_of_hot_x_zero (h : ∀ w, hot gx w = 0) : kSample feat gx gy = 0 := by
  unfold kSample
  simp only [h, mul_zero, Finset.sum_const_zero]

theorem kSample_of_hot_y_zero (h : ∀ j, hot gy j = 0) : kSample feat gx gy = 0 := by
  unfold kSample
  simp only [h, zero_mul, Finset.sum_const_zero]

theorem corner_of_inside_zero {x y : EReal} (wx wy : EReal) (h : inside x y = 0) : corner feat x y wx wy = 0 := by
  unfold corner
  rw [h, mul_zero, zero_mul]

theorem rSample_of_flo_x_top (h : flo gx = ⊤) : rSample feat gx gy = 0 := by
  unfold rSample
  rw [h, c1_eq, EReal.top_add_coe]
  simp only [corner_of_inside_zero _ _ (inside_top_left _), add_zero]

theorem rSample_of_flo_x_bot (h : flo gx = ⊥) : rSample feat gx gy = 0 := by
  unfold rSample
  rw [h, EReal.bot_add]
  simp only [corner_of_inside_zero _ _ (inside_bot_left _), add_zero]

theorem rSample_of_flo_y_top (h : flo gy = ⊤) : rSample feat gx gy = 0 := by
  unfold rSample
  rw [h, c1_eq, EReal.top_add_coe]
  simp only [corner_of_inside_zero _ _ (inside_top_right _), add_zero]

theorem rSample_of_flo_y_bot (h : flo gy = ⊥) : rSample feat gx gy = 0 := by
  unfold rSample
  rw [h, EReal.bot_add]
  simp only [corner_of_inside_zero _ _ (inside_bot_right _), add_zero]

/-! ## Both coordinates real -/

/-- A corner at integer coordinates with real weights, on a real plane. -/
theorem corner_of_real (f : Fin 512 → Fin 512 → ℝ) (zx zy : ℤ) (a b : ℝ) :
    corner (fun h w => ((f h w : ℝ) : EReal)) (((zx : ℝ)) : EReal) (((zy : ℝ)) : EReal) (a : EReal) (b : EReal)
      = ((pick2 f zx zy * (a * b) : ℝ) : EReal) := by
  unfold corner pick2
  rw [inside_intCast]
  by_cases h : (0 ≤ zx ∧ zx ≤ 511) ∧ (0 ≤ zy ∧ zy ≤ 511)
  · have ex : cellOf (clipIx (((zx : ℝ)) : EReal)) = ⟨zx.toNat, by omega⟩ :=
      Fin.ext (cellOf_clipIx_lane zx h.1.1 h.1.2)
    have ey : cellOf (clipIx (((zy : ℝ)) : EReal)) = ⟨zy.toNat, by omega⟩ :=
      Fin.ext (cellOf_clipIx_lane zy h.2.1 h.2.2)
    rw [if_pos h, dif_pos h, ex, ey, ← EReal.coe_mul, ← EReal.coe_mul, ← EReal.coe_mul, mul_one]
  · rw [if_neg h, dif_neg h, EReal.coe_zero, mul_zero, zero_mul, zero_mul, EReal.coe_zero]

theorem flo_add_one {g : EReal} {p : ℝ} (h : pix g = (p : EReal)) :
    flo g + c1 = ((((⌊p⌋ + 1 : ℤ)) : ℝ) : EReal) := by
  rw [flo_of_real h, c1_eq, ← EReal.coe_add, Int.cast_add, Int.cast_one]

theorem kSample_of_real (f : Fin 512 → Fin 512 → ℝ) {px py : ℝ} (hx : pix gx = (px : EReal))
    (hy : pix gy = (py : EReal)) :
    kSample (fun h w => ((f h w : ℝ) : EReal)) gx gy
      = ((∑ w : Fin 512, (∑ h : Fin 512, hotR py h * f h w) * hotR px w : ℝ) : EReal) := by
  unfold kSample
  simp only [hot_of_real hx, hot_of_real hy, ← EReal.coe_mul, ← Cert.RealSum.coe_sum]

theorem rSample_of_real (f : Fin 512 → Fin 512 → ℝ) {px py : ℝ} (hx : pix gx = (px : EReal))
    (hy : pix gy = (py : EReal)) :
    rSample (fun h w => ((f h w : ℝ) : EReal)) gx gy
      = ((((pick2 f ⌊px⌋ ⌊py⌋ * ((1 - (px - ⌊px⌋)) * (1 - (py - ⌊py⌋)))
          + pick2 f (⌊px⌋ + 1) ⌊py⌋ * ((px - ⌊px⌋) * (1 - (py - ⌊py⌋))))
          + pick2 f ⌊px⌋ (⌊py⌋ + 1) * ((1 - (px - ⌊px⌋)) * (py - ⌊py⌋)))
        + pick2 f (⌊px⌋ + 1) (⌊py⌋ + 1) * ((px - ⌊px⌋) * (py - ⌊py⌋)) : ℝ) : EReal) := by
  unfold rSample
  rw [flo_add_one hx, flo_add_one hy, flo_of_real hx, flo_of_real hy, wLo_of_real hx, wLo_of_real hy,
    wHi_of_real hx, wHi_of_real hy]
  simp only [corner_of_real, ← EReal.coe_add]

/-! ## The law -/

/-- The one-hot form equals the four-corner form on a plane of real entries. -/
theorem kSample_eq_rSample (feat : Fin 512 → Fin 512 → EReal) (hfeat : ∀ h w, ∃ r : ℝ, feat h w = (r : EReal))
    (gx gy : EReal) : kSample feat gx gy = rSample feat gx gy := by
  choose f hf using hfeat
  obtain rfl : feat = fun h w => ((f h w : ℝ) : EReal) := funext fun h => funext fun w => hf h w
  rcases ereal_cases (pix gx) with hx | hx | ⟨px, hx⟩
  · rw [kSample_of_hot_x_zero (hot_of_bot hx), rSample_of_flo_x_bot (flo_of_bot hx)]
  · rw [kSample_of_hot_x_zero (hot_of_top hx), rSample_of_flo_x_top (flo_of_top hx)]
  · rcases ereal_cases (pix gy) with hy | hy | ⟨py, hy⟩
    · rw [kSample_of_hot_y_zero (hot_of_bot hy), rSample_of_flo_y_bot (flo_of_bot hy)]
    · rw [kSample_of_hot_y_zero (hot_of_top hy), rSample_of_flo_y_top (flo_of_top hy)]
    · rw [kSample_of_real f hx hy, rSample_of_real f hx hy, real_law]

end Cert.Sample

end
-- ==== Proof.Bridge.lean ====
/-
  The one-hot contraction and the four-corner sum give the same result array: entry by entry the two scalar forms
  agree as soon as every entry of the planes is a real number, whatever the normalised coordinates are.
-/
import proofs.«162729_j22162031247387_1_alg».proof.Proof.Spec
import proofs.«162729_j22162031247387_1_alg».proof.Proof.Bilinear

noncomputable section

namespace Cert.Sample

open Idealize.ShloMosaic Idealize.ShloMosaic.ValueIdx

/-- Over planes of real entries the result array is the same for the two scalar forms. -/
theorem sampled_kSample_eq_rSample
    (planes : (⟨4, ![3, 32, 512, 512]⟩ : Shape).Idx → EReal) (hreal : ∀ i, ∃ r : ℝ, planes i = (r : EReal))
    (nc : (⟨4, ![3, 200000, 4, 2]⟩ : Shape).Idx → EReal) :
    sampled kSample planes nc = sampled rSample planes nc := by
  funext i
  unfold sampled
  exact kSample_eq_rSample _ (fun h w => hreal _) _ _

end Cert.Sample

end
-- ==== Proof.lean ====
/-
  Tri-plane bilinear sampling, two ways, is one function.

  Both programs first turn the sample coordinates into normalised plane coordinates nc : [3, 200000, 4, 2] by the same
  host operations (a bounding radius from the two corner vectors, a projection of each point onto the three planes, a
  division by that radius, the contraction of far points towards the unit disc), and both end by laying the samples out
  as [200000, 384], entry (n, 96·k + 32·a + c) being channel c of plane a sampled at point (n, k).

  The kernel samples a plane by a contraction: for each tile of 1280 points it builds, per axis, a weight row over the
  512 lanes holding the two neighbouring cells' weights at their lanes (a neighbour outside the plane meets no lane),
  multiplies the row-weight matrix by each channel's 512 × 512 slab on the matrix unit, multiplies by the column-weight
  matrix elementwise and sums over the lanes. The reference reads the four neighbouring cells by a gather at clipped
  cells, zeroes the corners that fall outside the plane, weights each by the product of its two weights and adds the four.

  On the extended reals the two agree entry by entry: if a pixel coordinate is infinite every weight row of that axis
  is zero and every corner is outside, so both samples are 0; if both are real the weights are real, the planes' entries
  are real (the precondition), and the double sum against two rows supported on at most two lanes each is the sum over
  the four corners that lie inside the plane. Nothing is assumed of the coordinates.

  The three frames: the kernel programs run their eleven segments (five host stretches, three calls with a host stretch
  between them, the closing layout) with every unscoped buffer named at the end; the reference is a straight line of
  host operations. The idealization rewrote nothing, so the word-level program's idealization claim is trivial.
-/
import proofs.«162729_j22162031247387_1_alg».proof.Defs
import proofs.«162729_j22162031247387_1_alg».proof.Proof.Gen.Kernel
import proofs.«162729_j22162031247387_1_alg».proof.Proof.Gen.KernelIdeal
import proofs.«162729_j22162031247387_1_alg».proof.Proof.Gen.ReferenceIdeal
import proofs.«162729_j22162031247387_1_alg».proof.Proof.Gen.Pre_finite_inputs
import proofs.«162729_j22162031247387_1_alg».proof.Proof.KFrame.Run
import proofs.«162729_j22162031247387_1_alg».proof.Proof.KFrameBits.Run
import proofs.«162729_j22162031247387_1_alg».proof.Proof.RefRun
import proofs.«162729_j22162031247387_1_alg».proof.Proof.RefRead
import proofs.«162729_j22162031247387_1_alg».proof.Proof.KHost.Value
import proofs.«162729_j22162031247387_1_alg».proof.Proof.NcStages
import proofs.«162729_j22162031247387_1_alg».proof.Proof.Finite
import proofs.«162729_j22162031247387_1_alg».proof.Proof.Bridge

noncomputable section

namespace Cert.Proof

open Idealize.ShloMosaic Idealize.SL.Sem

/-- The word-level kernel program runs to the end and leaves its four argument arrays as it found them. -/
theorem frame_kernel : Cert.frame_Kernel (hKernel := Cert.Kernel.Gen.facts) (hPre_finite_inputs := Cert.Pre_finite_inputs.Gen.facts) :=
  fun m ρ _ => Cert.Kernel.Hand.frame m ρ

/-- The same for the kernel program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference, a straight line of host operations, runs to the end and writes none of its arguments. -/
theorem frame_reference : Cert.frame_ReferenceIdeal (hReferenceIdeal := Cert.ReferenceIdeal.Gen.facts) (hPre_finite_inputs := Cert.Pre_finite_inputs.Gen.facts) :=
  Cert.ReferenceIdeal.Hand.frame

/-- No operation was rewritten when the kernel was read on the extended reals. -/
theorem preserves : Cert.preserves_Kernel_KernelIdeal := trivial

/-- From memories that agree on the four arguments both programs end with the result array
    (n, 96·k + 32·a + c) ↦ the sample of plane a's channel c at point (n, k)'s normalised coordinates: the kernel's run
    gives it as the contraction with the two weight rows, the reference's as the sum of four corners, and the two are one
    function because the planes' entries are real numbers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Sample.sampled Cert.Sample.kSample (m ((c.tc : Thread Cert.KernelIdeal.nD Cert.KernelIdeal.τ).loc Cert.KernelIdeal.main_arg3))
      (Cert.Nc.nc (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · refine (θ_run (Cert.KernelIdeal.defs (F := Ideal)) _ _).mono (fun r h c => ⟨?_, ?_, ?_, ?_, ?_⟩)
      (Cert.KernelIdeal.Hand.run_main (F := Ideal) m ρ)
    · exact (h c Cert.KernelIdeal.main_v136 (by decide)).trans (Cert.KernelIdeal.HandHost.value m c)
    · exact (h c Cert.KernelIdeal.main_arg0 (by decide)).trans (Cert.KernelIdeal.Hand.W11_main_arg0 m c)
    · exact (h c Cert.KernelIdeal.main_arg1 (by decide)).trans (Cert.KernelIdeal.Hand.W11_main_arg1 m c)
    · exact (h c Cert.KernelIdeal.main_arg2 (by decide)).trans (Cert.KernelIdeal.Hand.W11_main_arg2 m c)
    · exact (h c Cert.KernelIdeal.main_arg3 (by decide)).trans (Cert.KernelIdeal.Hand.W11_main_arg3 m c)
  · refine (θ_run (Cert.ReferenceIdeal.defs (F := Ideal)) _ _).mono (fun r h c => ⟨(h c).1.trans ?_, (h c).2⟩)
      (Cert.ReferenceIdeal.Hand.run (F := Ideal) m' ρ')
    rw [Cert.ReferenceIdeal.HandRead.result_eq m' c, (hagree c).1, (hagree c).2.1, (hagree c).2.2.1, (hagree c).2.2.2]
    exact (Cert.Sample.sampled_kSample_eq_rSample _ (Cert.Finite.planes_real m hpre c) _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
